-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v161)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v161) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v241) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S4x64x64 : Shape := ⟨3, ![4, 64, 64]⟩
abbrev S4x64 : Shape := ⟨2, ![4, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S2x1600000 : S_.BroadcastsInDim S2x1600000 (![] : Fin 0 → Fin S2x1600000.rank)
  reducesTo_S2x1600000_S_d0_1 : S2x1600000.ReducesTo [0, 1] S_

variable [Facts]

def fn_part1 {F : FTy → Type} [FloatOps F] (main_arg1 : IVec S2x1600000 32) (main_arg5 : FVec F S4x64 .f32) (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  let main_v19 : FVec F S4x64 .f32 := Host.absf main_arg5
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  let main_c_8 : IVec S_ 32 := constantI S_ 32 0#32
  let main_v24 : IVec S2x1600000 32 := broadcastInDim S2x1600000 ![] bcast_S_S2x1600000 main_c_8
  let main_v25 : IVec S2x1600000 1 := cmpi .sge main_arg1 main_v24
  let main_c_9 : IVec S_ 32 := constantI S_ 32 100000#32
  let main_v26 : IVec S2x1600000 32 := broadcastInDim S2x1600000 ![] bcast_S_S2x1600000 main_c_9
  let main_v27 : IVec S2x1600000 1 := cmpi .slt main_arg1 main_v26
  let main_v28 : IVec S2x1600000 1 := andi main_v25 main_v27
  let main_c_10 : IVec S_ 1 := constantI S_ 1 1#1
  let main_v29 : IVec S_ 1 := (fun x v => Host.reduce IntOp.andi x v reducesTo_S2x1600000_S_d0_1 h_S_) main_v28 main_c_10
  let main_v30 : IVec S_ 1 := andi main_v23 main_v29
  main_v30

def fn {F : FTy → Type} [FloatOps F] (main_arg0 : FVec F S100000x64 .f32) (main_arg1 : IVec S2x1600000 32) (main_arg2 : FVec F S4x64x64 .f32) (main_arg3 : FVec F S4x64 .f32) (main_arg4 : FVec F S4x64 .f32) (main_arg5 : FVec F S4x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S4x64x64 .f32 := Host.absf main_arg2
  let main_cst_0 : FVec F S_ .f32 := constant S_ .f32 0x7F800000#32
  let main_v5 : FVec F S4x64x64 .f32 := broadcastInDim S4x64x64 ![] bcast_S_S4x64x64 main_cst_0
  let main_v6 : IVec S4x64x64 1 := cmpf .olt main_v4 main_v5
  let main_c_1 : IVec S_ 1 := constantI S_ 1 1#1
  let main_v7 : IVec S_ 1 := (fun x v => Host.reduce IntOp.andi x v reducesTo_S4x64x64_S_d0_1_2 h_S_) main_v6 main_c_1
  let main_v8 : IVec S_ 1 := andi main_v3 main_v7
  let main_v9 : FVec F S4x64 .f32 := Host.absf main_arg3
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S4x64 .f32 := Host.absf main_arg4
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_arg1 main_arg5 main_v13 main_v16
-- ==== Kernel.lean ====
abbrev S100000x64 : Shape := ⟨2, ![100000, 64]⟩
abbrev S2x1600000 : Shape := ⟨2, ![2, 1600000]⟩
abbrev S4x64x64 : Shape := ⟨3, ![4, 64, 64]⟩
abbrev S4x64 : Shape := ⟨2, ![4, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x64x64 : Shape := ⟨3, ![1, 64, 64]⟩
abbrev S64x64 : Shape := ⟨2, ![64, 64]⟩
abbrev S5000x64 : Shape := ⟨2, ![5000, 64]⟩
abbrev S1600000x64 : Shape := ⟨2, ![1600000, 64]⟩
abbrev S1x64 : Shape := ⟨2, ![1, 64]⟩
abbrev S64 : Shape := ⟨1, ![64]⟩
abbrev S1x1 : Shape := ⟨2, ![1, 1]⟩
abbrev S5000x1 : Shape := ⟨2, ![5000, 1]⟩
abbrev S5000 : Shape := ⟨1, ![5000]⟩
abbrev S1 : Shape := ⟨1, ![1]⟩

abbrev nBuf : Space → Nat
  | .hbm => 205
  | .vmem => 96
  | .smem => 0
  | _ => 0

abbrev hbmTy0_0 (i : Nat) : BufTy := match i % 128 with
  | 0 => ⟨S100000x64, .f32⟩
  | 1 => ⟨S2x1600000, .i32⟩
  | 2 => ⟨S4x64x64, .f32⟩
  | 3 => ⟨S4x64, .f32⟩
  | 4 => ⟨S4x64, .f32⟩
  | 5 => ⟨S4x64, .f32⟩
  | 6 => ⟨S1x1600000, .i32⟩
  | 7 => ⟨S1600000, .i32⟩
  | 8 => ⟨S1x1600000, .i32⟩
  | 9 => ⟨S1600000, .i32⟩
  | 10 => ⟨S_, .f32⟩
  | 11 => ⟨S100000, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S_, .f32⟩
  | 21 => ⟨S1600000, .f32⟩
  | 22 => ⟨S100000, .f32⟩
  | 23 => ⟨S_, .f32⟩
  | 24 => ⟨S100000, .f32⟩
  | 25 => ⟨S100000, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S1600000x1, .f32⟩
  | 47 => ⟨S100000, .f32⟩
  | 48 => ⟨S100000x1, .f32⟩
  | 49 => ⟨S1x64x64, .f32⟩
  | 50 => ⟨S64x64, .f32⟩
  | 51 => ⟨S100000x64, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x64, .f32⟩
  | 61 => ⟨S1600000x64, .f32⟩
  | 62 => ⟨S1600000x64, .f32⟩
  | 63 => ⟨S_, .f32⟩
  | 64 => ⟨S100000x64, .f32⟩
  | 65 => ⟨S1600000x1, .i32⟩
  | 66 => ⟨S100000x64, .f32⟩
  | 67 => ⟨S1x64, .f32⟩
  | 68 => ⟨S64, .f32⟩
  | 69 => ⟨S1x64, .f32⟩
  | 70 => ⟨S100000x64, .f32⟩
  | 71 => ⟨S1x1, .f32⟩
  | 72 => ⟨S1x1, .f32⟩
  | 73 => ⟨S_, .f32⟩
  | 74 => ⟨S1x1, .f32⟩
  | 75 => ⟨S1x1, .f32⟩
  | 76 => ⟨S_, .f32⟩
  | 77 => ⟨S1x1, .f32⟩
  | 78 => ⟨S1x1, .f32⟩
  | 79 => ⟨S1x1, .f32⟩
  | 80 => ⟨S1x1, .f32⟩
  | 81 => ⟨S1x64, .f32⟩
  | 82 => ⟨S64, .f32⟩
  | 83 => ⟨S1x64, .f32⟩
  | 84 => ⟨S1x64, .f32⟩
  | 85 => ⟨S64, .f32⟩
  | 86 => ⟨S1x64, .f32⟩
  | 87 => ⟨S100000x64, .f32⟩
  | 88 => ⟨S1x64x64, .f32⟩
  | 89 => ⟨S64x64, .f32⟩
  | 90 => ⟨S100000x64, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x64, .f32⟩
  | 100 => ⟨S1600000x64, .f32⟩
  | 101 => ⟨S1600000x64, .f32⟩
  | 102 => ⟨S_, .f32⟩
  | 103 => ⟨S100000x64, .f32⟩
  | 104 => ⟨S1600000x1, .i32⟩
  | 105 => ⟨S100000x64, .f32⟩
  | 106 => ⟨S1x64, .f32⟩
  | 107 => ⟨S64, .f32⟩
  | 108 => ⟨S1x64, .f32⟩
  | 109 => ⟨S100000x64, .f32⟩
  | 110 => ⟨S1x1, .f32⟩
  | 111 => ⟨S1x1, .f32⟩
  | 112 => ⟨S_, .f32⟩
  | 113 => ⟨S1x1, .f32⟩
  | 114 => ⟨S1x1, .f32⟩
  | 115 => ⟨S_, .f32⟩
  | 116 => ⟨S1x1, .f32⟩
  | 117 => ⟨S1x1, .f32⟩
  | 118 => ⟨S1x1, .f32⟩
  | 119 => ⟨S1x1, .f32⟩
  | 120 => ⟨S1x64, .f32⟩
  | 121 => ⟨S64, .f32⟩
  | 122 => ⟨S1x64, .f32⟩
  | 123 => ⟨S1x64, .f32⟩
  | 124 => ⟨S64, .f32⟩
  | 125 => ⟨S1x64, .f32⟩
  | 126 => ⟨S100000x64, .f32⟩
  | 127 => ⟨S1x64x64, .f32⟩
  | _ => ⟨S100000x64, .f32⟩

abbrev hbmTy0_1 (i : Nat) : BufTy := match i % 128 with
  | 0 => ⟨S64x64, .f32⟩
  | 1 => ⟨S100000x64, .f32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S1600000x64, .f32⟩
  | 11 => ⟨S1600000x64, .f32⟩
  | 12 => ⟨S1600000x64, .f32⟩
  | 13 => ⟨S_, .f32⟩
  | 14 => ⟨S100000x64, .f32⟩
  | 15 => ⟨S1600000x1, .i32⟩
  | 16 => ⟨S100000x64, .f32⟩
  | 17 => ⟨S1x64, .f32⟩
  | 18 => ⟨S64, .f32⟩
  | 19 => ⟨S1x64, .f32⟩
  | 20 => ⟨S100000x64, .f32⟩
  | 21 => ⟨S1x1, .f32⟩
  | 22 => ⟨S1x1, .f32⟩
  | 23 => ⟨S_, .f32⟩
  | 24 => ⟨S1x1, .f32⟩
  | 25 => ⟨S1x1, .f32⟩
  | 26 => ⟨S_, .f32⟩
  | 27 => ⟨S1x1, .f32⟩
  | 28 => ⟨S1x1, .f32⟩
  | 29 => ⟨S1x1, .f32⟩
  | 30 => ⟨S1x1, .f32⟩
  | 31 => ⟨S1x64, .f32⟩
  | 32 => ⟨S64, .f32⟩
  | 33 => ⟨S1x64, .f32⟩
  | 34 => ⟨S1x64, .f32⟩
  | 35 => ⟨S64, .f32⟩
  | 36 => ⟨S1x64, .f32⟩
  | 37 => ⟨S100000x64, .f32⟩
  | 38 => ⟨S1x64x64, .f32⟩
  | 39 => ⟨S64x64, .f32⟩
  | 40 => ⟨S100000x64, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x64, .f32⟩
  | 50 => ⟨S1600000x64, .f32⟩
  | 51 => ⟨S1600000x64, .f32⟩
  | 52 => ⟨S_, .f32⟩
  | 53 => ⟨S100000x64, .f32⟩
  | 54 => ⟨S1600000x1, .i32⟩
  | 55 => ⟨S100000x64, .f32⟩
  | 56 => ⟨S1x64, .f32⟩
  | 57 => ⟨S64, .f32⟩
  | 58 => ⟨S1x64, .f32⟩
  | 59 => ⟨S100000x64, .f32⟩
  | 60 => ⟨S1x1, .f32⟩
  | 61 => ⟨S1x1, .f32⟩
  | 62 => ⟨S_, .f32⟩
  | 63 => ⟨S1x1, .f32⟩
  | 64 => ⟨S1x1, .f32⟩
  | 65 => ⟨S_, .f32⟩
  | 66 => ⟨S1x1, .f32⟩
  | 67 => ⟨S1x1, .f32⟩
  | 68 => ⟨S1x1, .f32⟩
  | 69 => ⟨S1x1, .f32⟩
  | 70 => ⟨S1x64, .f32⟩
  | 71 => ⟨S64, .f32⟩
  | 72 => ⟨S1x64, .f32⟩
  | 73 => ⟨S1x64, .f32⟩
  | 74 => ⟨S64, .f32⟩
  | 75 => ⟨S1x64, .f32⟩
  | 76 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S1x1, .f32⟩
  | .local _ .vmem, ⟨15, _⟩ => ⟨S1x1, .f32⟩
  | .local _ .vmem, ⟨16, _⟩ => ⟨S5000x64, .f32⟩
  | .local _ .vmem, ⟨17, _⟩ => ⟨S5000x64, .f32⟩
  | .local _ .vmem, ⟨18, _⟩ => ⟨S1x1, .f32⟩
  | .local _ .vmem, ⟨19, _⟩ => ⟨S1x1, .f32⟩
  | .local _ .vmem, ⟨20, _⟩ => ⟨S1x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x1, .f32⟩
  | .local _ .vmem, ⟨34, _⟩ => ⟨S5000x1, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | .local _ .vmem, ⟨38, _⟩ => ⟨S1x1, .f32⟩
  | .local _ .vmem, ⟨39, _⟩ => ⟨S1x1, .f32⟩
  | .local _ .vmem, ⟨40, _⟩ => ⟨S5000x64, .f32⟩
  | .local _ .vmem, ⟨41, _⟩ => ⟨S5000x64, .f32⟩
  | .local _ .vmem, ⟨42, _⟩ => ⟨S1x1, .f32⟩
  | .local _ .vmem, ⟨43, _⟩ => ⟨S1x1, .f32⟩
  | .local _ .vmem, ⟨44, _⟩ => ⟨S1x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S64x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x1, .f32⟩
  | .local _ .vmem, ⟨58, _⟩ => ⟨S5000x1, .f32⟩
  | .local _ .vmem, ⟨59, _⟩ => ⟨S1x64, .f32⟩
  | .local _ .vmem, ⟨60, _⟩ => ⟨S5000x64, .f32⟩
  | .local _ .vmem, ⟨61, _⟩ => ⟨S5000x64, .f32⟩
  | .local _ .vmem, ⟨62, _⟩ => ⟨S1x1, .f32⟩
  | .local _ .vmem, ⟨63, _⟩ => ⟨S1x1, .f32⟩
  | .local _ .vmem, ⟨64, _⟩ => ⟨S5000x64, .f32⟩
  | .local _ .vmem, ⟨65, _⟩ => ⟨S5000x64, .f32⟩
  | .local _ .vmem, ⟨66, _⟩ => ⟨S1x1, .f32⟩
  | .local _ .vmem, ⟨67, _⟩ => ⟨S1x1, .f32⟩
  | .local _ .vmem, ⟨68, _⟩ => ⟨S1x64, .f32⟩
  | .local _ .vmem, ⟨69, _⟩ => ⟨S1x64, .f32⟩
  | .local _ .vmem, ⟨70, _⟩ => ⟨S5000x64, .f32⟩
  | .local _ .vmem, ⟨71, _⟩ => ⟨S5000x64, .f32⟩
  | .local _ .vmem, ⟨72, _⟩ => ⟨S5000x64, .f32⟩
  | .local _ .vmem, ⟨73, _⟩ => ⟨S5000x64, .f32⟩
  | .local _ .vmem, ⟨74, _⟩ => ⟨S64x64, .f32⟩
  | .local _ .vmem, ⟨75, _⟩ => ⟨S5000x64, .f32⟩
  | .local _ .vmem, ⟨76, _⟩ => ⟨S5000x64, .f32⟩
  | .local _ .vmem, ⟨77, _⟩ => ⟨S5000x64, .f32⟩
  | .local _ .vmem, ⟨78, _⟩ => ⟨S5000x64, .f32⟩
  | .local _ .vmem, ⟨79, _⟩ => ⟨S5000x64, .f32⟩
  | .local _ .vmem, ⟨80, _⟩ => ⟨S5000x64, .f32⟩
  | .local _ .vmem, ⟨81, _⟩ => ⟨S5000x1, .f32⟩
  | .local _ .vmem, ⟨82, _⟩ => ⟨S5000x1, .f32⟩
  | .local _ .vmem, ⟨83, _⟩ => ⟨S1x64, .f32⟩
  | .local _ .vmem, ⟨84, _⟩ => ⟨S5000x64, .f32⟩
  | .local _ .vmem, ⟨85, _⟩ => ⟨S5000x64, .f32⟩
  | .local _ .vmem, ⟨86, _⟩ => ⟨S1x1, .f32⟩
  | .local _ .vmem, ⟨87, _⟩ => ⟨S1x1, .f32⟩
  | .local _ .vmem, ⟨88, _⟩ => ⟨S5000x64, .f32⟩
  | .local _ .vmem, ⟨89, _⟩ => ⟨S5000x64, .f32⟩
  | .local _ .vmem, ⟨90, _⟩ => ⟨S1x1, .f32⟩
  | .local _ .vmem, ⟨91, _⟩ => ⟨S1x1, .f32⟩
  | .local _ .vmem, ⟨92, _⟩ => ⟨S1x64, .f32⟩
  | .local _ .vmem, ⟨93, _⟩ => ⟨S1x64, .f32⟩
  | .local _ .vmem, ⟨94, _⟩ => ⟨S5000x64, .f32⟩
  | .local _ .vmem, ⟨95, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | _, _ => false

abbrev semScoped : Fin 0 → Bool
  | ⟨_, h⟩ => absurd h (Nat.not_lt_zero _)

abbrev dmaSemScoped : Fin 96 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | _ => false

abbrev sig : RefSig :=
  ofTc nBuf bufTy 0 96 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_7 : Ref sig .tc := ⟨.hbm, 52, rfl⟩
abbrev main_v37 : Ref sig .tc := ⟨.hbm, 53, rfl⟩
abbrev main_v38 : Ref sig .tc := ⟨.hbm, 54, rfl⟩
abbrev main_c_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52_0 : Ref sig .tc := ⟨.hbm, 70, rfl⟩
abbrev main_v52_1 : Ref sig .tc := ⟨.hbm, 71, rfl⟩
abbrev main_v52_2 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_c_12 : Ref sig .tc := ⟨.hbm, 91, rfl⟩
abbrev main_v69 : Ref sig .tc := ⟨.hbm, 92, rfl⟩
abbrev main_v70 : Ref sig .tc := ⟨.hbm, 93, rfl⟩
abbrev main_c_13 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_14 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84_0 : Ref sig .tc := ⟨.hbm, 109, rfl⟩
abbrev main_v84_1 : Ref sig .tc := ⟨.hbm, 110, rfl⟩
abbrev main_v84_2 : Ref sig .tc := ⟨.hbm, 111, rfl⟩
abbrev main_cst_15 : Ref sig .tc := ⟨.hbm, 112, rfl⟩
abbrev main_v85 : Ref sig .tc := ⟨.hbm, 113, rfl⟩
abbrev main_v86 : Ref sig .tc := ⟨.hbm, 114, rfl⟩
abbrev main_cst_16 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_c_17 : Ref sig .tc := ⟨.hbm, 130, rfl⟩
abbrev main_v101 : Ref sig .tc := ⟨.hbm, 131, rfl⟩
abbrev main_v102 : Ref sig .tc := ⟨.hbm, 132, rfl⟩
abbrev main_c_18 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_cst_19 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116_0 : Ref sig .tc := ⟨.hbm, 148, rfl⟩
abbrev main_v116_1 : Ref sig .tc := ⟨.hbm, 149, rfl⟩
abbrev main_v116_2 : Ref sig .tc := ⟨.hbm, 150, rfl⟩
abbrev main_cst_20 : Ref sig .tc := ⟨.hbm, 151, rfl⟩
abbrev main_v117 : Ref sig .tc := ⟨.hbm, 152, rfl⟩
abbrev main_v118 : Ref sig .tc := ⟨.hbm, 153, rfl⟩
abbrev main_cst_21 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_c_22 : Ref sig .tc := ⟨.hbm, 169, rfl⟩
abbrev main_v133 : Ref sig .tc := ⟨.hbm, 170, rfl⟩
abbrev main_v134 : Ref sig .tc := ⟨.hbm, 171, rfl⟩
abbrev main_c_23 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_cst_24 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148_0 : Ref sig .tc := ⟨.hbm, 187, rfl⟩
abbrev main_v148_1 : Ref sig .tc := ⟨.hbm, 188, rfl⟩
abbrev main_v148_2 : Ref sig .tc := ⟨.hbm, 189, rfl⟩
abbrev main_cst_25 : Ref sig .tc := ⟨.hbm, 190, rfl⟩
abbrev main_v149 : Ref sig .tc := ⟨.hbm, 191, rfl⟩
abbrev main_v150 : Ref sig .tc := ⟨.hbm, 192, rfl⟩
abbrev main_cst_26 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg4_1 : Ref sig .tc := ⟨.vmem, 37, rfl⟩
abbrev cc4_stg5_0 : Ref sig .tc := ⟨.vmem, 38, rfl⟩
abbrev cc4_stg6_0 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg2_1 : Ref sig .tc := ⟨.vmem, 52, rfl⟩
abbrev cc7_stg0_0 : Ref sig .tc := ⟨.vmem, 53, rfl⟩
abbrev cc7_stg0_1 : Ref sig .tc := ⟨.vmem, 54, rfl⟩
abbrev cc7_stg1_0 : Ref sig .tc := ⟨.vmem, 55, rfl⟩
abbrev cc7_stg1_1 : Ref sig .tc := ⟨.vmem, 56, rfl⟩
abbrev cc7_stg2_0 : Ref sig .tc := ⟨.vmem, 57, rfl⟩
abbrev cc7_stg2_1 : Ref sig .tc := ⟨.vmem, 58, rfl⟩
abbrev cc7_stg3_0 : Ref sig .tc := ⟨.vmem, 59, rfl⟩
abbrev cc7_stg4_0 : Ref sig .tc := ⟨.vmem, 60, rfl⟩
abbrev cc7_stg4_1 : Ref sig .tc := ⟨.vmem, 61, rfl⟩
abbrev cc7_stg5_0 : Ref sig .tc := ⟨.vmem, 62, rfl⟩
abbrev cc7_stg6_0 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg3_0 : Ref sig .tc := ⟨.vmem, 68, rfl⟩
abbrev cc8_stg4_0 : Ref sig .tc := ⟨.vmem, 69, rfl⟩
abbrev cc8_stg5_0 : Ref sig .tc := ⟨.vmem, 70, rfl⟩
abbrev cc8_stg5_1 : Ref sig .tc := ⟨.vmem, 71, rfl⟩
abbrev cc9_stg0_0 : Ref sig .tc := ⟨.vmem, 72, rfl⟩
abbrev cc9_stg0_1 : Ref sig .tc := ⟨.vmem, 73, rfl⟩
abbrev cc9_stg1_0 : Ref sig .tc := ⟨.vmem, 74, rfl⟩
abbrev cc9_stg2_0 : Ref sig .tc := ⟨.vmem, 75, rfl⟩
abbrev cc9_stg2_1 : Ref sig .tc := ⟨.vmem, 76, rfl⟩
abbrev cc10_stg0_0 : Ref sig .tc := ⟨.vmem, 77, rfl⟩
abbrev cc10_stg0_1 : Ref sig .tc := ⟨.vmem, 78, rfl⟩
abbrev cc10_stg1_0 : Ref sig .tc := ⟨.vmem, 79, rfl⟩
abbrev cc10_stg1_1 : Ref sig .tc := ⟨.vmem, 80, rfl⟩
abbrev cc10_stg2_0 : Ref sig .tc := ⟨.vmem, 81, rfl⟩
abbrev cc10_stg2_1 : Ref sig .tc := ⟨.vmem, 82, rfl⟩
abbrev cc10_stg3_0 : Ref sig .tc := ⟨.vmem, 83, rfl⟩
abbrev cc10_stg4_0 : Ref sig .tc := ⟨.vmem, 84, rfl⟩
abbrev cc10_stg4_1 : Ref sig .tc := ⟨.vmem, 85, rfl⟩
abbrev cc10_stg5_0 : Ref sig .tc := ⟨.vmem, 86, rfl⟩
abbrev cc10_stg6_0 : Ref sig .tc := ⟨.vmem, 87, rfl⟩
abbrev cc11_stg0_0 : Ref sig .tc := ⟨.vmem, 88, rfl⟩
abbrev cc11_stg0_1 : Ref sig .tc := ⟨.vmem, 89, rfl⟩
abbrev cc11_stg1_0 : Ref sig .tc := ⟨.vmem, 90, rfl⟩
abbrev cc11_stg2_0 : Ref sig .tc := ⟨.vmem, 91, rfl⟩
abbrev cc11_stg3_0 : Ref sig .tc := ⟨.vmem, 92, rfl⟩
abbrev cc11_stg4_0 : Ref sig .tc := ⟨.vmem, 93, rfl⟩
abbrev cc11_stg5_0 : Ref sig .tc := ⟨.vmem, 94, rfl⟩
abbrev cc11_stg5_1 : Ref sig .tc := ⟨.vmem, 95, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem4_0 : DmaSem sig := 36
abbrev cc4_sem4_1 : DmaSem sig := 37
abbrev cc4_sem5_0 : DmaSem sig := 38
abbrev cc4_sem6_0 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem2_1 : DmaSem sig := 52
abbrev cc7_sem0_0 : DmaSem sig := 53
abbrev cc7_sem0_1 : DmaSem sig := 54
abbrev cc7_sem1_0 : DmaSem sig := 55
abbrev cc7_sem1_1 : DmaSem sig := 56
abbrev cc7_sem2_0 : DmaSem sig := 57
abbrev cc7_sem2_1 : DmaSem sig := 58
abbrev cc7_sem3_0 : DmaSem sig := 59
abbrev cc7_sem4_0 : DmaSem sig := 60
abbrev cc7_sem4_1 : DmaSem sig := 61
abbrev cc7_sem5_0 : DmaSem sig := 62
abbrev cc7_sem6_0 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem3_0 : DmaSem sig := 68
abbrev cc8_sem4_0 : DmaSem sig := 69
abbrev cc8_sem5_0 : DmaSem sig := 70
abbrev cc8_sem5_1 : DmaSem sig := 71
abbrev cc9_sem0_0 : DmaSem sig := 72
abbrev cc9_sem0_1 : DmaSem sig := 73
abbrev cc9_sem1_0 : DmaSem sig := 74
abbrev cc9_sem2_0 : DmaSem sig := 75
abbrev cc9_sem2_1 : DmaSem sig := 76
abbrev cc10_sem0_0 : DmaSem sig := 77
abbrev cc10_sem0_1 : DmaSem sig := 78
abbrev cc10_sem1_0 : DmaSem sig := 79
abbrev cc10_sem1_1 : DmaSem sig := 80
abbrev cc10_sem2_0 : DmaSem sig := 81
abbrev cc10_sem2_1 : DmaSem sig := 82
abbrev cc10_sem3_0 : DmaSem sig := 83
abbrev cc10_sem4_0 : DmaSem sig := 84
abbrev cc10_sem4_1 : DmaSem sig := 85
abbrev cc10_sem5_0 : DmaSem sig := 86
abbrev cc10_sem6_0 : DmaSem sig := 87
abbrev cc11_sem0_0 : DmaSem sig := 88
abbrev cc11_sem0_1 : DmaSem sig := 89
abbrev cc11_sem1_0 : DmaSem sig := 90
abbrev cc11_sem2_0 : DmaSem sig := 91
abbrev cc11_sem3_0 : DmaSem sig := 92
abbrev cc11_sem4_0 : DmaSem sig := 93
abbrev cc11_sem5_0 : DmaSem sig := 94
abbrev cc11_sem5_1 : DmaSem sig := 95

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x1 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x1 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x1 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x1 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S5000x1 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S1x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S5000x64 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 1 → Memref sig .tc .vmem S1x1 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x1 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x1 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x1 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x64 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  slices_S4x64x64_S1x64x64_0_0_0 : S4x64x64.Slices ![0, 0, 0] S1x64x64
  shapeCasts_S1x64x64_S64x64 : S1x64x64.ShapeCasts S64x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S4x64_S1x64_0_0 : S4x64.Slices ![0, 0] S1x64
  shapeCasts_S1x64_S64 : S1x64.ShapeCasts S64
  shapeCasts_S64_S1x64 : S64.ShapeCasts S1x64
  inb_S1x1_S1x1_0_0 : ∀ a, (![0, 0] : Fin 2 → Nat) a + S1x1.size a ≤ S1x1.size a
  h_S1x1 : 0 < S1x1.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  reduces_S5000x1_S1 : S5000x1.Reduces [0] S1
  shapeCasts_S1_S1x1 : S1.ShapeCasts S1x1
  shapeCasts_S1x1_S1x1 : S1x1.ShapeCasts S1x1
  bcast_S_S1x1 : S_.BroadcastsInDim S1x1 (![] : Fin 0 → Fin S1x1.rank)
  broadcasts_S1x1_S5000x64 : S1x1.Broadcasts S5000x64
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S100000x64.size a
  hwx4_4 : ∀ i : grid4.Coords, EltTy.bits .f32 = 32 ∨ (Rect.block (s := S100000x64) S5000x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x1.size a ≤ S1x1.size a
  hwx4_5 : ∀ i : grid4.Coords, EltTy.bits .f32 = 32 ∨ (Rect.block (s := S1x1) S1x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1.size a ≤ S1x1.size a
  hwx4_6 : ∀ i : grid4.Coords, EltTy.bits .f32 = 32 ∨ (Rect.block (s := S1x1) S1x1.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x1.size a ≤ S1x1.size a
  hwx5_1 : ∀ i : grid5.Coords, EltTy.bits .f32 = 32 ∨ (Rect.block (s := S1x1) S1x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S100000x64.size a
  hwx5_5 : ∀ i : grid5.Coords, EltTy.bits .f32 = 32 ∨ (Rect.block (s := S100000x64) S5000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S100000x64.size a
  hwx6_2 : ∀ i : grid6.Coords, EltTy.bits .f32 = 32 ∨ (Rect.block (s := S100000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S100000x64.size a
  hwx7_1 : ∀ i : grid7.Coords, EltTy.bits .f32 = 32 ∨ (Rect.block (s := S100000x64) S5000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S100000x1.size a
  hwx7_2 : ∀ i : grid7.Coords, EltTy.bits .f32 = 32 ∨ (Rect.block (s := S100000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x64.size a ≤ S100000x64.size a
  hwx7_4 : ∀ i : grid7.Coords, EltTy.bits .f32 = 32 ∨ (Rect.block (s := S100000x64) S5000x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x1.size a ≤ S1x1.size a
  hwx7_5 : ∀ i : grid7.Coords, EltTy.bits .f32 = 32 ∨ (Rect.block (s := S1x1) S1x1.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x1.size a ≤ S1x1.size a
  hwx7_6 : ∀ i : grid7.Coords, EltTy.bits .f32 = 32 ∨ (Rect.block (s := S1x1) S1x1.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x1.size a ≤ S1x1.size a
  hwx8_1 : ∀ i : grid8.Coords, EltTy.bits .f32 = 32 ∨ (Rect.block (s := S1x1) S1x1.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x1.size a ≤ S1x1.size a
  hwx8_2 : ∀ i : grid8.Coords, EltTy.bits .f32 = 32 ∨ (Rect.block (s := S1x1) S1x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x64.size a ≤ S100000x64.size a
  hwx8_5 : ∀ i : grid8.Coords, EltTy.bits .f32 = 32 ∨ (Rect.block (s := S100000x64) S5000x64.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S100000x64.size a
  hwx9_0 : ∀ i : grid9.Coords, EltTy.bits .f32 = 32 ∨ (Rect.block (s := S100000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x64.size a ≤ S64x64.size a
  hwx9_1 : ∀ i : grid9.Coords, EltTy.bits .f32 = 32 ∨ (Rect.block (s := S64x64) S64x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x64.size a ≤ S100000x64.size a
  hwx9_2 : ∀ i : grid9.Coords, EltTy.bits .f32 = 32 ∨ (Rect.block (s := S100000x64) S5000x64.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S100000x64.size a
  hwx10_0 : ∀ i : grid10.Coords, EltTy.bits .f32 = 32 ∨ (Rect.block (s := S100000x64) S5000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x64.size a ≤ S100000x64.size a
  hwx10_1 : ∀ i : grid10.Coords, EltTy.bits .f32 = 32 ∨ (Rect.block (s := S100000x64) S5000x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x1.size a ≤ S100000x1.size a
  hwx10_2 : ∀ i : grid10.Coords, EltTy.bits .f32 = 32 ∨ (Rect.block (s := S100000x1) S5000x1.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x64.size a ≤ S1x64.size a
  hwx10_3 : ∀ i : grid10.Coords, EltTy.bits .f32 = 32 ∨ (Rect.block (s := S1x64) S1x64.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S5000x64.size a ≤ S100000x64.size a
  hwx10_4 : ∀ i : grid10.Coords, EltTy.bits .f32 = 32 ∨ (Rect.block (s := S100000x64) S5000x64.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x1.size a ≤ S1x1.size a
  hwx10_5 : ∀ i : grid10.Coords, EltTy.bits .f32 = 32 ∨ (Rect.block (s := S1x1) S1x1.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x1.size a ≤ S1x1.size a
  hwx10_6 : ∀ i : grid10.Coords, EltTy.bits .f32 = 32 ∨ (Rect.block (s := S1x1) S1x1.size (cc10_transform_6 i) (hinb10_6 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S100000x64.size a
  hwx11_0 : ∀ i : grid11.Coords, EltTy.bits .f32 = 32 ∨ (Rect.block (s := S100000x64) S5000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x1.size a ≤ S1x1.size a
  hwx11_1 : ∀ i : grid11.Coords, EltTy.bits .f32 = 32 ∨ (Rect.block (s := S1x1) S1x1.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x1.size a ≤ S1x1.size a
  hwx11_2 : ∀ i : grid11.Coords, EltTy.bits .f32 = 32 ∨ (Rect.block (s := S1x1) S1x1.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x64.size a ≤ S1x64.size a
  hwx11_3 : ∀ i : grid11.Coords, EltTy.bits .f32 = 32 ∨ (Rect.block (s := S1x64) S1x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x64.size a ≤ S1x64.size a
  hwx11_4 : ∀ i : grid11.Coords, EltTy.bits .f32 = 32 ∨ (Rect.block (s := S1x64) S1x64.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x64.size a ≤ S100000x64.size a
  hwx11_5 : ∀ i : grid11.Coords, EltTy.bits .f32 = 32 ∨ (Rect.block (s := S100000x64) S5000x64.size (cc11_transform_5 i) (hinb11_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v36) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52_0) S5000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v52_1) S1x1.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v52_2) S1x1.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v52_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S1x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v65) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v68) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v80) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v33) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v83) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v84_0) S5000x64.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v84_1) S1x1.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v84_2) S1x1.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v84_0) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v86) S1x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v90) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v93) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v96) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v97) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v97) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v99) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v100) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v100) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v112) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v33) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v115) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v116_0) S5000x64.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v116_1) S1x1.size cc7_transform_5 reads7_5 true true 1 stage7_5 sem7_5
    hrank7 hreads7_5 hinb7_5 nbuf7_5 (Memref.isWhole_whole _) hwx7_5 hstage7_5

abbrev win7_6 : Pipeline.Window sig grid7 :=
  Pipeline.Window.ofSpec (Memref.whole main_v116_2) S1x1.size cc7_transform_6 reads7_6 true true 1 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v116_0) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v118) S1x1.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v122) S1x1.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v125) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v128) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v129) S5000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v129) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v131) S64x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v132) S5000x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v132) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v144) S5000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v33) S5000x1.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v147) S1x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v148_0) S5000x64.size cc10_transform_4 reads10_4 true false 2 stage10_4 sem10_4
    hrank10 hreads10_4 hinb10_4 nbuf10_4 (Memref.isWhole_whole _) hwx10_4 hstage10_4

abbrev win10_5 : Pipeline.Window sig grid10 :=
  Pipeline.Window.ofSpec (Memref.whole main_v148_1) S1x1.size cc10_transform_5 reads10_5 true true 1 stage10_5 sem10_5
    hrank10 hreads10_5 hinb10_5 nbuf10_5 (Memref.isWhole_whole _) hwx10_5 hstage10_5

abbrev win10_6 : Pipeline.Window sig grid10 :=
  Pipeline.Window.ofSpec (Memref.whole main_v148_2) S1x1.size cc10_transform_6 reads10_6 true true 1 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

abbrev win11_0 : Pipeline.Window sig grid11 :=
  Pipeline.Window.ofSpec (Memref.whole main_v148_0) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v150) S1x1.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v154) S1x1.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v157) S1x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v160) S1x64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v161) S5000x64.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S4x64x64 : Shape := ⟨3, ![4, 64, 64]⟩
abbrev S4x64 : Shape := ⟨2, ![4, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x64x64 : Shape := ⟨3, ![1, 64, 64]⟩
abbrev S64x64 : Shape := ⟨2, ![64, 64]⟩
abbrev S1600000x64 : Shape := ⟨2, ![1600000, 64]⟩
abbrev S1x64 : Shape := ⟨2, ![1, 64]⟩
abbrev S64 : Shape := ⟨1, ![64]⟩

abbrev nBuf : Space → Nat
  | .hbm => 305
  | .vmem => 0
  | .smem => 0
  | _ => 0

abbrev hbmTy0_0 (i : Nat) : BufTy := match i % 128 with
  | 0 => ⟨S100000x64, .f32⟩
  | 1 => ⟨S2x1600000, .i32⟩
  | 2 => ⟨S4x64x64, .f32⟩
  | 3 => ⟨S4x64, .f32⟩
  | 4 => ⟨S4x64, .f32⟩
  | 5 => ⟨S4x64, .f32⟩
  | 6 => ⟨S1x1600000, .i32⟩
  | 7 => ⟨S1600000, .i32⟩
  | 8 => ⟨S1x1600000, .i32⟩
  | 9 => ⟨S1600000, .i32⟩
  | 10 => ⟨S_, .f32⟩
  | 11 => ⟨S100000, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S_, .f32⟩
  | 21 => ⟨S1600000, .f32⟩
  | 22 => ⟨S100000, .f32⟩
  | 23 => ⟨S_, .f32⟩
  | 24 => ⟨S100000, .f32⟩
  | 25 => ⟨S100000, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S1600000x1, .f32⟩
  | 47 => ⟨S100000, .f32⟩
  | 48 => ⟨S100000x1, .f32⟩
  | 49 => ⟨S1x64x64, .f32⟩
  | 50 => ⟨S64x64, .f32⟩
  | 51 => ⟨S100000x64, .f32⟩
  | 52 => ⟨S_, .f32⟩
  | 53 => ⟨S100000x64, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x64, .f32⟩
  | 63 => ⟨S1600000x64, .f32⟩
  | 64 => ⟨S1600000x64, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S100000x64, .f32⟩
  | 74 => ⟨S100000x64, .f32⟩
  | 75 => ⟨S100000x64, .f32⟩
  | 76 => ⟨S100000x64, .f32⟩
  | 77 => ⟨S1x64, .f32⟩
  | 78 => ⟨S64, .f32⟩
  | 79 => ⟨S1x64, .f32⟩
  | 80 => ⟨S100000x64, .f32⟩
  | 81 => ⟨S100000x64, .f32⟩
  | 82 => ⟨S_, .f32⟩
  | 83 => ⟨S_, .f32⟩
  | 84 => ⟨S_, .f32⟩
  | 85 => ⟨S_, .f32⟩
  | 86 => ⟨S100000x64, .f32⟩
  | 87 => ⟨S100000x64, .f32⟩
  | 88 => ⟨S100000x64, .f32⟩
  | 89 => ⟨S_, .f32⟩
  | 90 => ⟨S_, .f32⟩
  | 91 => ⟨S_, .f32⟩
  | 92 => ⟨S_, .f32⟩
  | 93 => ⟨S1x64, .f32⟩
  | 94 => ⟨S64, .f32⟩
  | 95 => ⟨S100000x64, .f32⟩
  | 96 => ⟨S100000x64, .f32⟩
  | 97 => ⟨S1x64, .f32⟩
  | 98 => ⟨S100000x64, .f32⟩
  | 99 => ⟨S100000x64, .f32⟩
  | 100 => ⟨S_, .f32⟩
  | 101 => ⟨S_, .f32⟩
  | 102 => ⟨S_, .f32⟩
  | 103 => ⟨S100000x64, .f32⟩
  | 104 => ⟨S100000x64, .f32⟩
  | 105 => ⟨S1x64, .f32⟩
  | 106 => ⟨S64, .f32⟩
  | 107 => ⟨S1x64, .f32⟩
  | 108 => ⟨S100000x64, .f32⟩
  | 109 => ⟨S100000x64, .f32⟩
  | 110 => ⟨S_, .f32⟩
  | 111 => ⟨S100000x64, .f32⟩
  | 112 => ⟨S100000x64, .f32⟩
  | 113 => ⟨S1x64x64, .f32⟩
  | 114 => ⟨S64x64, .f32⟩
  | 115 => ⟨S100000x64, .f32⟩
  | 116 => ⟨S_, .f32⟩
  | 117 => ⟨S100000x64, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000x64, .f32⟩
  | 127 => ⟨S1600000x64, .f32⟩
  | _ => ⟨S100000x64, .f32⟩

abbrev hbmTy0_1 (i : Nat) : BufTy := match i % 128 with
  | 0 => ⟨S1600000x64, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S100000x64, .f32⟩
  | 10 => ⟨S100000x64, .f32⟩
  | 11 => ⟨S100000x64, .f32⟩
  | 12 => ⟨S100000x64, .f32⟩
  | 13 => ⟨S1x64, .f32⟩
  | 14 => ⟨S64, .f32⟩
  | 15 => ⟨S1x64, .f32⟩
  | 16 => ⟨S100000x64, .f32⟩
  | 17 => ⟨S100000x64, .f32⟩
  | 18 => ⟨S_, .f32⟩
  | 19 => ⟨S_, .f32⟩
  | 20 => ⟨S_, .f32⟩
  | 21 => ⟨S_, .f32⟩
  | 22 => ⟨S100000x64, .f32⟩
  | 23 => ⟨S100000x64, .f32⟩
  | 24 => ⟨S100000x64, .f32⟩
  | 25 => ⟨S_, .f32⟩
  | 26 => ⟨S_, .f32⟩
  | 27 => ⟨S_, .f32⟩
  | 28 => ⟨S_, .f32⟩
  | 29 => ⟨S1x64, .f32⟩
  | 30 => ⟨S64, .f32⟩
  | 31 => ⟨S100000x64, .f32⟩
  | 32 => ⟨S100000x64, .f32⟩
  | 33 => ⟨S1x64, .f32⟩
  | 34 => ⟨S100000x64, .f32⟩
  | 35 => ⟨S100000x64, .f32⟩
  | 36 => ⟨S_, .f32⟩
  | 37 => ⟨S_, .f32⟩
  | 38 => ⟨S_, .f32⟩
  | 39 => ⟨S100000x64, .f32⟩
  | 40 => ⟨S100000x64, .f32⟩
  | 41 => ⟨S1x64, .f32⟩
  | 42 => ⟨S64, .f32⟩
  | 43 => ⟨S1x64, .f32⟩
  | 44 => ⟨S100000x64, .f32⟩
  | 45 => ⟨S100000x64, .f32⟩
  | 46 => ⟨S_, .f32⟩
  | 47 => ⟨S100000x64, .f32⟩
  | 48 => ⟨S100000x64, .f32⟩
  | 49 => ⟨S1x64x64, .f32⟩
  | 50 => ⟨S64x64, .f32⟩
  | 51 => ⟨S100000x64, .f32⟩
  | 52 => ⟨S_, .f32⟩
  | 53 => ⟨S100000x64, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x64, .f32⟩
  | 63 => ⟨S1600000x64, .f32⟩
  | 64 => ⟨S1600000x64, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S100000x64, .f32⟩
  | 74 => ⟨S100000x64, .f32⟩
  | 75 => ⟨S100000x64, .f32⟩
  | 76 => ⟨S100000x64, .f32⟩
  | 77 => ⟨S1x64, .f32⟩
  | 78 => ⟨S64, .f32⟩
  | 79 => ⟨S1x64, .f32⟩
  | 80 => ⟨S100000x64, .f32⟩
  | 81 => ⟨S100000x64, .f32⟩
  | 82 => ⟨S_, .f32⟩
  | 83 => ⟨S_, .f32⟩
  | 84 => ⟨S_, .f32⟩
  | 85 => ⟨S_, .f32⟩
  | 86 => ⟨S100000x64, .f32⟩
  | 87 => ⟨S100000x64, .f32⟩
  | 88 => ⟨S100000x64, .f32⟩
  | 89 => ⟨S_, .f32⟩
  | 90 => ⟨S_, .f32⟩
  | 91 => ⟨S_, .f32⟩
  | 92 => ⟨S_, .f32⟩
  | 93 => ⟨S1x64, .f32⟩
  | 94 => ⟨S64, .f32⟩
  | 95 => ⟨S100000x64, .f32⟩
  | 96 => ⟨S100000x64, .f32⟩
  | 97 => ⟨S1x64, .f32⟩
  | 98 => ⟨S100000x64, .f32⟩
  | 99 => ⟨S100000x64, .f32⟩
  | 100 => ⟨S_, .f32⟩
  | 101 => ⟨S_, .f32⟩
  | 102 => ⟨S_, .f32⟩
  | 103 => ⟨S100000x64, .f32⟩
  | 104 => ⟨S100000x64, .f32⟩
  | 105 => ⟨S1x64, .f32⟩
  | 106 => ⟨S64, .f32⟩
  | 107 => ⟨S1x64, .f32⟩
  | 108 => ⟨S100000x64, .f32⟩
  | 109 => ⟨S100000x64, .f32⟩
  | 110 => ⟨S_, .f32⟩
  | 111 => ⟨S100000x64, .f32⟩
  | 112 => ⟨S100000x64, .f32⟩
  | 113 => ⟨S1x64x64, .f32⟩
  | 114 => ⟨S64x64, .f32⟩
  | 115 => ⟨S100000x64, .f32⟩
  | 116 => ⟨S_, .f32⟩
  | 117 => ⟨S100000x64, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000x64, .f32⟩
  | 127 => ⟨S1600000x64, .f32⟩
  | _ => ⟨S100000x64, .f32⟩

abbrev hbmTy0_2 (i : Nat) : BufTy := match i % 128 with
  | 0 => ⟨S1600000x64, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S100000x64, .f32⟩
  | 10 => ⟨S100000x64, .f32⟩
  | 11 => ⟨S100000x64, .f32⟩
  | 12 => ⟨S100000x64, .f32⟩
  | 13 => ⟨S1x64, .f32⟩
  | 14 => ⟨S64, .f32⟩
  | 15 => ⟨S1x64, .f32⟩
  | 16 => ⟨S100000x64, .f32⟩
  | 17 => ⟨S100000x64, .f32⟩
  | 18 => ⟨S_, .f32⟩
  | 19 => ⟨S_, .f32⟩
  | 20 => ⟨S_, .f32⟩
  | 21 => ⟨S_, .f32⟩
  | 22 => ⟨S100000x64, .f32⟩
  | 23 => ⟨S100000x64, .f32⟩
  | 24 => ⟨S100000x64, .f32⟩
  | 25 => ⟨S_, .f32⟩
  | 26 => ⟨S_, .f32⟩
  | 27 => ⟨S_, .f32⟩
  | 28 => ⟨S_, .f32⟩
  | 29 => ⟨S1x64, .f32⟩
  | 30 => ⟨S64, .f32⟩
  | 31 => ⟨S100000x64, .f32⟩
  | 32 => ⟨S100000x64, .f32⟩
  | 33 => ⟨S1x64, .f32⟩
  | 34 => ⟨S100000x64, .f32⟩
  | 35 => ⟨S100000x64, .f32⟩
  | 36 => ⟨S_, .f32⟩
  | 37 => ⟨S_, .f32⟩
  | 38 => ⟨S_, .f32⟩
  | 39 => ⟨S100000x64, .f32⟩
  | 40 => ⟨S100000x64, .f32⟩
  | 41 => ⟨S1x64, .f32⟩
  | 42 => ⟨S64, .f32⟩
  | 43 => ⟨S1x64, .f32⟩
  | 44 => ⟨S100000x64, .f32⟩
  | 45 => ⟨S100000x64, .f32⟩
  | 46 => ⟨S_, .f32⟩
  | 47 => ⟨S100000x64, .f32⟩
  | 48 => ⟨S100000x64, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_c_8 : Ref sig .tc := ⟨.hbm, 54, rfl⟩
abbrev main_v38 : Ref sig .tc := ⟨.hbm, 55, rfl⟩
abbrev main_v39 : Ref sig .tc := ⟨.hbm, 56, rfl⟩
abbrev main_c_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_10 : Ref sig .tc := ⟨.hbm, 65, rfl⟩
abbrev main_v47 : Ref sig .tc := ⟨.hbm, 66, rfl⟩
abbrev main_v48 : Ref sig .tc := ⟨.hbm, 67, rfl⟩
abbrev main_c_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_12 : Ref sig .tc := ⟨.hbm, 82, rfl⟩
abbrev main_v62 : Ref sig .tc := ⟨.hbm, 83, rfl⟩
abbrev main_cst_13 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_cst_15 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_16 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_call0_cst : Ref sig .tc := ⟨.hbm, 110, rfl⟩
abbrev main_call0_v0 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_17 : Ref sig .tc := ⟨.hbm, 116, rfl⟩
abbrev main_v89 : Ref sig .tc := ⟨.hbm, 117, rfl⟩
abbrev main_c_18 : Ref sig .tc := ⟨.hbm, 118, rfl⟩
abbrev main_v90 : Ref sig .tc := ⟨.hbm, 119, rfl⟩
abbrev main_v91 : Ref sig .tc := ⟨.hbm, 120, rfl⟩
abbrev main_c_19 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_c_20 : Ref sig .tc := ⟨.hbm, 129, rfl⟩
abbrev main_v99 : Ref sig .tc := ⟨.hbm, 130, rfl⟩
abbrev main_v100 : Ref sig .tc := ⟨.hbm, 131, rfl⟩
abbrev main_c_21 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_cst_22 : Ref sig .tc := ⟨.hbm, 146, rfl⟩
abbrev main_v114 : Ref sig .tc := ⟨.hbm, 147, rfl⟩
abbrev main_cst_23 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_cst_24 : Ref sig .tc := ⟨.hbm, 153, rfl⟩
abbrev main_v119 : Ref sig .tc := ⟨.hbm, 154, rfl⟩
abbrev main_cst_25 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_cst_26 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_call1_cst : Ref sig .tc := ⟨.hbm, 174, rfl⟩
abbrev main_call1_v0 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_cst_27 : Ref sig .tc := ⟨.hbm, 180, rfl⟩
abbrev main_v141 : Ref sig .tc := ⟨.hbm, 181, rfl⟩
abbrev main_c_28 : Ref sig .tc := ⟨.hbm, 182, rfl⟩
abbrev main_v142 : Ref sig .tc := ⟨.hbm, 183, rfl⟩
abbrev main_v143 : Ref sig .tc := ⟨.hbm, 184, rfl⟩
abbrev main_c_29 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_c_30 : Ref sig .tc := ⟨.hbm, 193, rfl⟩
abbrev main_v151 : Ref sig .tc := ⟨.hbm, 194, rfl⟩
abbrev main_v152 : Ref sig .tc := ⟨.hbm, 195, rfl⟩
abbrev main_c_31 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_cst_32 : Ref sig .tc := ⟨.hbm, 210, rfl⟩
abbrev main_v166 : Ref sig .tc := ⟨.hbm, 211, rfl⟩
abbrev main_cst_33 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_cst_34 : Ref sig .tc := ⟨.hbm, 217, rfl⟩
abbrev main_v171 : Ref sig .tc := ⟨.hbm, 218, rfl⟩
abbrev main_cst_35 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_cst_36 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_call2_cst : Ref sig .tc := ⟨.hbm, 238, rfl⟩
abbrev main_call2_v0 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_cst_37 : Ref sig .tc := ⟨.hbm, 244, rfl⟩
abbrev main_v193 : Ref sig .tc := ⟨.hbm, 245, rfl⟩
abbrev main_c_38 : Ref sig .tc := ⟨.hbm, 246, rfl⟩
abbrev main_v194 : Ref sig .tc := ⟨.hbm, 247, rfl⟩
abbrev main_v195 : Ref sig .tc := ⟨.hbm, 248, rfl⟩
abbrev main_c_39 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_c_40 : Ref sig .tc := ⟨.hbm, 257, rfl⟩
abbrev main_v203 : Ref sig .tc := ⟨.hbm, 258, rfl⟩
abbrev main_v204 : Ref sig .tc := ⟨.hbm, 259, rfl⟩
abbrev main_c_41 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_cst_42 : Ref sig .tc := ⟨.hbm, 274, rfl⟩
abbrev main_v218 : Ref sig .tc := ⟨.hbm, 275, rfl⟩
abbrev main_cst_43 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_cst_44 : Ref sig .tc := ⟨.hbm, 281, rfl⟩
abbrev main_v223 : Ref sig .tc := ⟨.hbm, 282, rfl⟩
abbrev main_cst_45 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_cst_46 : Ref sig .tc := ⟨.hbm, 292, rfl⟩
abbrev main_v232 : Ref sig .tc := ⟨.hbm, 293, rfl⟩
abbrev main_v233 : Ref sig .tc := ⟨.hbm, 294, rfl⟩
abbrev main_v234 : Ref sig .tc := ⟨.hbm, 295, rfl⟩
abbrev main_v235 : Ref sig .tc := ⟨.hbm, 296, rfl⟩
abbrev main_v236 : Ref sig .tc := ⟨.hbm, 297, rfl⟩
abbrev main_v237 : Ref sig .tc := ⟨.hbm, 298, rfl⟩
abbrev main_v238 : Ref sig .tc := ⟨.hbm, 299, rfl⟩
abbrev main_v239 : Ref sig .tc := ⟨.hbm, 300, rfl⟩
abbrev main_v240 : Ref sig .tc := ⟨.hbm, 301, rfl⟩
abbrev main_call3_cst : Ref sig .tc := ⟨.hbm, 302, rfl⟩
abbrev main_call3_v0 : Ref sig .tc := ⟨.hbm, 303, rfl⟩
abbrev main_v241 : Ref sig .tc := ⟨.hbm, 304, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  slices_S4x64x64_S1x64x64_0_0_0 : S4x64x64.Slices ![0, 0, 0] S1x64x64
  shapeCasts_S1x64x64_S64x64 : S1x64x64.ShapeCasts S64x64
  bcast_S_S100000x64 : S_.BroadcastsInDim S100000x64 (![] : Fin 0 → Fin S100000x64.rank)
  bcast_S1600000x1_S1600000x64_0_1 : S1600000x1.BroadcastsInDim S1600000x64 (![0, 1] : Fin 2 → Fin S1600000x64.rank)
  bcast_S100000x1_S100000x64_0_1 : S100000x1.BroadcastsInDim S100000x64 (![0, 1] : Fin 2 → Fin S100000x64.rank)
  slices_S4x64_S1x64_0_0 : S4x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S_d0_1 : S100000x64.ReducesTo [0, 1] S_
  h_S_ : 0 < S_.numel
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel program's run with its result named.

  Every weakly fair execution of the program, from any memory with zero counters, terminates without a fault; at the
  end the result array holds what the last boundary of the program's segments holds for it (the contents `W24` that
  the segments' fold from the launch memory gives), and the six argument arrays are as launched. This is the same
  launch of the twelve regions and the host stretches between them that proves the frame, read at one more buffer.
-/
import proofs.«123589_j55817394979590_1_alg».proof.Proof.Gen.KernelIdeal.Frame

-- membership in a rectangle of production extents (`View.cover_of_tiled`): the elaborator's structural look
-- recurses once per coordinate of the long axes
set_option maxRecDepth 16384

noncomputable section

namespace Cert.KernelIdeal.RunValue

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run of the twelve regions and their host stretches, with the result buffer read at the last boundary. -/
theorem run_named : θ_run defs (onTc (τ := τ) (main (F := F))) ⟨m, fun _ => 0, ρ⟩ (fun r => ∀ c : Dev nD,
      r.2.mem ((c.tc : Thread nD τ).loc main_v161) = W24 m ρ c (Proc.devRef .tc main_v161)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c =>
      ⟨h c _ (mem_uc main_v161 (by decide)),
       (h c _ (mem_uc main_arg0 (by decide))).trans (W24_main_arg0 m ρ c),
       (h c _ (mem_uc main_arg1 (by decide))).trans (W24_main_arg1 m ρ c),
       (h c _ (mem_uc main_arg2 (by decide))).trans (W24_main_arg2 m ρ c),
       (h c _ (mem_uc main_arg3 (by decide))).trans (W24_main_arg3 m ρ c),
       (h c _ (mem_uc main_arg4 (by decide))).trans (W24_main_arg4 m ρ c),
       (h c _ (mem_uc main_arg5 (by decide))).trans (W24_main_arg5 m ρ c)⟩)

end Cert.KernelIdeal.RunValue

end
-- ==== Proof.Keep.lean ====
/-
  Walking a buffer's contents back through a stretch of host operations.

  A stretch of host operations leaves every buffer that none of its operations writes as it found it; the tactic below
  closes such a goal by listing the buffers the stretch writes and checking that the buffer at hand is none of them.
-/
import proofs.«123589_j55817394979590_1_alg».proof.Proof.Gen.KernelIdeal.Frame

open Idealize.ShloMosaic

/-- `host_keep ops`: closes `StableHlo.after ops v b = v b` when no operation of the stretch `ops` writes `b`. -/
macro "host_keep " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))
-- ==== Proof.Spec.lean ====
/-
  One layer of the graph network, as functions of whole arrays over the extended reals.

  A layer takes the node features `h` (100000 × 64) to
      relu (lnw · (a − μ) · (σ² + ε)^(-1/2) + lnb),
  where `a = aggs + selfn · (h·W) + bias` is the aggregate with its self loop and bias, `μ` is the mean of all
  6 400 000 entries of `a` and `σ²` their variance. The functions below are the pieces of that formula that are
  computed block by block: the product with a 64 × 64 matrix, the aggregate, the two totals (of the entries and of
  their squares), and the normalisation followed by the rectifier.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- node features: 100000 rows of 64 channels -/
abbrev SN : Shape := ⟨2, ![100000, 64]⟩
/-- a layer's weight matrix -/
abbrev SW : Shape := ⟨2, ![64, 64]⟩
/-- one row of 64 channels -/
abbrev SR : Shape := ⟨2, ![1, 64]⟩
/-- one value per node -/
abbrev SC : Shape := ⟨2, ![100000, 1]⟩
/-- a single value kept as a 1 × 1 array -/
abbrev S1 : Shape := ⟨2, ![1, 1]⟩

/-- row `p`, channel `q` of a node-feature array -/
abbrev nq (p : Fin 100000) (q : Fin 64) : SN.Idx := ix2 p q
/-- the row of an index of a node-feature array -/
abbrev rowOf (i : SN.Idx) : Fin 100000 := ⟨(i 0).val, (i 0).isLt⟩
/-- the channel of an index of a node-feature array -/
abbrev chanOf (i : SN.Idx) : Fin 64 := ⟨(i 1).val, (i 1).isLt⟩
/-- the only index of a 1 × 1 array -/
abbrev one11 : S1.Idx := ix2 (0 : Fin 1) (0 : Fin 1)

/-- the ε under the square root, as the float word both programs carry -/
def eps : EReal := Ideal.ofBits .f32 0x3727C5AC#32

/-- the product `h · w`: entry (p, q) is the sum over k of h (p, k) · w (k, q) -/
def mm (h : SN.Idx → EReal) (w : SW.Idx → EReal) : SN.Idx → EReal :=
  fun i => ∑ k : Fin 64, h (ix2 (rowOf i) k) * w (ix2 k (chanOf i))

/-- the aggregate with self loop and bias: (aggs + selfn · hw) + bias, the per-node factor and the per-channel
    bias spread over the array -/
def comb (hw aggs : SN.Idx → EReal) (selfn : SC.Idx → EReal) (bias : SR.Idx → EReal) : SN.Idx → EReal :=
  fun i => (aggs i + selfn (ix2 (rowOf i) (0 : Fin 1)) * hw i) + bias (ix2 (0 : Fin 1) (chanOf i))

/-- the sum of all entries -/
def tot (a : SN.Idx → EReal) : S1.Idx → EReal := fun _ => ∑ i : SN.Idx, a i

/-- the sum of the squares of all entries -/
def totsq (a : SN.Idx → EReal) : S1.Idx → EReal := fun _ => ∑ i : SN.Idx, a i * a i

/-- normalisation and rectifier: max ((lnw · (a − mean)) · (var + ε)^(-1/2) + lnb) 0 -/
def norm (a : SN.Idx → EReal) (mean var : S1.Idx → EReal) (lnw lnb : SR.Idx → EReal) : SN.Idx → EReal :=
  fun i => max ((lnw (ix2 (0 : Fin 1) (chanOf i)) * (a i - mean one11)) * Ideal.rsqrt (var one11 + eps)
                + lnb (ix2 (0 : Fin 1) (chanOf i))) 0

end Cert.Spec

end
-- ==== Proof.KernelTerms.lean ====
/-
  The host-side pieces of the idealized kernel program, as functions of the edge list.

  An edge list `e` (2 × 1600000 integers) has a row of sources and a row of targets. A node's degree factor is
  (1 + the number of edges whose wrapped target is that node)^(-1/2); an edge's factor is the product of the factors of
  its wrapped source and wrapped target (a negative index wraps once by the number of nodes); a node's own factor is
  the square of its degree factor. The aggregation map sends an array `hw` to the array whose row `v` is the sum,
  over the edges with target `v` (the target taken as it is, not wrapped), of the edge's factor times row (wrapped
  source) of `hw`.
-/
import proofs.«123589_j55817394979590_1_alg».proof.Proof.Gen.KernelIdeal
import proofs.«123589_j55817394979590_1_alg».proof.Proof.Spec
import Idealize.ShloMosaic.PureOps.Ideal

noncomputable section

namespace Cert.KernelIdeal.Terms

open Cert.KernelIdeal Idealize.ShloMosaic
open Cert.KernelIdeal.Facts₀ Cert.KernelIdeal.Facts

/-- one integer per edge -/
abbrev EdgeI := IVec S1600000 32
/-- the edge list -/
abbrev EdgeList := IVec S2x1600000 32

/-- the sources: row 0 of the edge list -/
def src (e : EdgeList) : EdgeI :=
  fun i => shapeCast S1600000 (extractStridedSlice S1x1600000 ![0, 0] e slices_S2x1600000_S1x1600000_0_0) shapeCasts_S1x1600000_S1600000 i
/-- the targets: row 1 of the edge list -/
def dst (e : EdgeList) : EdgeI :=
  fun i => shapeCast S1600000 (extractStridedSlice S1x1600000 ![1, 0] e slices_S2x1600000_S1x1600000_1_0) shapeCasts_S1x1600000_S1600000 i

/-- a negative index wraps once by the number of nodes -/
def wrap (v : EdgeI) : EdgeI :=
  select (cmpi .slt v (broadcastInDim S1600000 ![] bcast_S_S1600000 (constantI S_ 32 0#32)))
    (addi v (broadcastInDim S1600000 ![] bcast_S_S1600000 (constantI S_ 32 100000#32))) v

/-- an index per edge as a column of index vectors -/
def col (v : EdgeI) : IVec S1600000x1 32 :=
  broadcastInDim S1600000x1 ![0] bcast_S1600000_S1600000x1_0 v

/-- the degree factor of every node: (1 + in-degree)^(-1/2) -/
def dinv (d : EdgeI) : FVec Ideal S100000 .f32 :=
  Host.rsqrt (F := Ideal) (addf (F := Ideal)
    (Host.scatterAdd (F := Ideal) scatter_S100000_S1600000x1_S1600000_n_0_0_1
      (broadcastInDim S100000 ![] bcast_S_S100000 (constant (F := Ideal) S_ .f32 0x00000000#32))
      (col (wrap d))
      (broadcastInDim S1600000 ![] bcast_S_S1600000 (constant (F := Ideal) S_ .f32 0x3F800000#32)))
    (broadcastInDim S100000 ![] bcast_S_S100000 (constant (F := Ideal) S_ .f32 0x3F800000#32)))

/-- every node's own factor, as a column -/
def selfn (d : EdgeI) : FVec Ideal S100000x1 .f32 :=
  broadcastInDim S100000x1 ![0] bcast_S100000_S100000x1_0 (mulf (F := Ideal) (dinv d) (dinv d))

/-- every edge's factor, as a column -/
def enorm (s d : EdgeI) : FVec Ideal S1600000x1 .f32 :=
  broadcastInDim S1600000x1 ![0] bcast_S1600000_S1600000x1_0
    (mulf (F := Ideal) (Host.gather gather_S100000_S1600000x1_S1600000_n_0_n_n_0_1_1 (dinv d) (col (wrap s)))
          (Host.gather gather_S100000_S1600000x1_S1600000_n_0_n_n_0_1_1 (dinv d) (col (wrap d))))

/-- the aggregation map with the scatter index `t` given: row `v` of the result is the sum over the edges whose index
    `t` is `v` of the edge's factor times row (wrapped source) of `hw` -/
def aggAt (t : EdgeI) (s : EdgeI) (en : FVec Ideal S1600000x1 .f32)
    (hw : FVec Ideal S100000x64 .f32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (col t)
    (mulf (F := Ideal) (broadcastInDim S1600000x64 ![0, 1] bcast_S1600000x1_S1600000x64_0_1 en)
      (Host.gather gather_S100000x64_S1600000x1_S1600000x64_1_0_n_n_0_1_164 hw (col (wrap s))))

/-- layer 0's 64 × 64 weight matrix out of the stack of four -/
def weight0 (w : FVec Ideal S4x64x64 .f32) : FVec Ideal S64x64 .f32 :=
  fun i => shapeCast S64x64 (extractStridedSlice S1x64x64 ![0, 0, 0] w slices_S4x64x64_S1x64x64_0_0_0) shapeCasts_S1x64x64_S64x64 i
/-- row 0 of a 4 × 64 array, as a 1 × 64 array -/
def row0 (b : FVec Ideal S4x64 .f32) : FVec Ideal S1x64 .f32 :=
  fun i => shapeCast S1x64 (fun i => shapeCast S64 (extractStridedSlice S1x64 ![0, 0] b slices_S4x64_S1x64_0_0) shapeCasts_S1x64_S64 i) shapeCasts_S64_S1x64 i

/-- layer 1's 64 × 64 weight matrix out of the stack of four -/
def weight1 (w : FVec Ideal S4x64x64 .f32) : FVec Ideal S64x64 .f32 :=
  fun i => shapeCast S64x64 (extractStridedSlice S1x64x64 ![1, 0, 0] w slices_S4x64x64_S1x64x64_1_0_0) shapeCasts_S1x64x64_S64x64 i
/-- row 1 of a 4 × 64 array, as a 1 × 64 array -/
def row1 (b : FVec Ideal S4x64 .f32) : FVec Ideal S1x64 .f32 :=
  fun i => shapeCast S1x64 (fun i => shapeCast S64 (extractStridedSlice S1x64 ![1, 0] b slices_S4x64_S1x64_1_0) shapeCasts_S1x64_S64 i) shapeCasts_S64_S1x64 i

/-- layer 2's 64 × 64 weight matrix out of the stack of four -/
def weight2 (w : FVec Ideal S4x64x64 .f32) : FVec Ideal S64x64 .f32 :=
  fun i => shapeCast S64x64 (extractStridedSlice S1x64x64 ![2, 0, 0] w slices_S4x64x64_S1x64x64_2_0_0) shapeCasts_S1x64x64_S64x64 i
/-- row 2 of a 4 × 64 array, as a 1 × 64 array -/
def row2 (b : FVec Ideal S4x64 .f32) : FVec Ideal S1x64 .f32 :=
  fun i => shapeCast S1x64 (fun i => shapeCast S64 (extractStridedSlice S1x64 ![2, 0] b slices_S4x64_S1x64_2_0) shapeCasts_S1x64_S64 i) shapeCasts_S64_S1x64 i

/-- layer 3's 64 × 64 weight matrix out of the stack of four -/
def weight3 (w : FVec Ideal S4x64x64 .f32) : FVec Ideal S64x64 .f32 :=
  fun i => shapeCast S64x64 (extractStridedSlice S1x64x64 ![3, 0, 0] w slices_S4x64x64_S1x64x64_3_0_0) shapeCasts_S1x64x64_S64x64 i
/-- row 3 of a 4 × 64 array, as a 1 × 64 array -/
def row3 (b : FVec Ideal S4x64 .f32) : FVec Ideal S1x64 .f32 :=
  fun i => shapeCast S1x64 (fun i => shapeCast S64 (extractStridedSlice S1x64 ![3, 0] b slices_S4x64_S1x64_3_0) shapeCasts_S1x64_S64 i) shapeCasts_S64_S1x64 i

/-- the count of entries, 6 400 000, as a 1 × 1 array -/
def count : FVec Ideal S1x1 .f32 := broadcastInDim S1x1 ![] bcast_S_S1x1 (constant (F := Ideal) S_ .f32 0x4AC35000#32)
/-- the mean out of the total -/
def meanOf (t : FVec Ideal S1x1 .f32) : FVec Ideal S1x1 .f32 := Host.divf (F := Ideal) t count
/-- the variance out of the two totals: the mean of the squares minus the square of the mean -/
def varOf (t q : FVec Ideal S1x1 .f32) : FVec Ideal S1x1 .f32 :=
  subf (F := Ideal) (Host.divf (F := Ideal) q count) (mulf (F := Ideal) (meanOf t) (meanOf t))

/-- the aggregate of a layer with weight matrix `w` and bias row `b` out of the features `h` -/
def aggregate (e : EdgeList) (w : FVec Ideal S64x64 .f32) (b : FVec Ideal S1x64 .f32) (h : FVec Ideal S100000x64 .f32) :
    FVec Ideal S100000x64 .f32 :=
  Spec.comb (Spec.mm h w) (aggAt (dst e) (src e) (enorm (src e) (dst e)) (Spec.mm h w)) (selfn (dst e)) b

/-- one layer: the aggregate, normalised by the mean and variance of all its entries, scaled, shifted and rectified -/
def layer (e : EdgeList) (w : FVec Ideal S64x64 .f32) (b lw lb : FVec Ideal S1x64 .f32) (h : FVec Ideal S100000x64 .f32) :
    FVec Ideal S100000x64 .f32 :=
  Spec.norm (aggregate e w b h) (meanOf (Spec.tot (aggregate e w b h)))
    (varOf (Spec.tot (aggregate e w b h)) (Spec.totsq (aggregate e w b h))) lw lb

/-- layer 0 of the network, out of the program's arguments -/
def layer0 (e : EdgeList) (w : FVec Ideal S4x64x64 .f32) (b lw lb : FVec Ideal S4x64 .f32) (h : FVec Ideal S100000x64 .f32) :
    FVec Ideal S100000x64 .f32 :=
  layer e (weight0 w) (row0 b) (row0 lw) (row0 lb) h

/-- layer 1 of the network, out of the program's arguments -/
def layer1 (e : EdgeList) (w : FVec Ideal S4x64x64 .f32) (b lw lb : FVec Ideal S4x64 .f32) (h : FVec Ideal S100000x64 .f32) :
    FVec Ideal S100000x64 .f32 :=
  layer e (weight1 w) (row1 b) (row1 lw) (row1 lb) h

/-- layer 2 of the network, out of the program's arguments -/
def layer2 (e : EdgeList) (w : FVec Ideal S4x64x64 .f32) (b lw lb : FVec Ideal S4x64 .f32) (h : FVec Ideal S100000x64 .f32) :
    FVec Ideal S100000x64 .f32 :=
  layer e (weight2 w) (row2 b) (row2 lw) (row2 lb) h

/-- layer 3 of the network, out of the program's arguments -/
def layer3 (e : EdgeList) (w : FVec Ideal S4x64x64 .f32) (b lw lb : FVec Ideal S4x64 .f32) (h : FVec Ideal S100000x64 .f32) :
    FVec Ideal S100000x64 .f32 :=
  layer e (weight3 w) (row3 b) (row3 lw) (row3 lb) h

end Cert.KernelIdeal.Terms

end
-- ==== Proof.FoldKeep.lean ====
/-
  The buffers that live through the whole program, at every boundary between its segments.

  The edge list's two rows, every edge's factor and every node's own factor are computed once, before the first
  region, from the edge list alone; the four parameter arrays are never written. No later stretch of host operations
  writes any of them and no region has one of them as an output, so at every boundary they hold what they held after
  the first stretch: the rows, the factors, the parameters as launched.
-/
import proofs.«123589_j55817394979590_1_alg».proof.Proof.Gen.KernelIdeal.Frame
import proofs.«123589_j55817394979590_1_alg».proof.Proof.Keep
import proofs.«123589_j55817394979590_1_alg».proof.Proof.KernelTerms
import proofs.«123589_j55817394979590_1_alg».proof.Proof.Spec
import Idealize.ShloMosaic.Lib.StableHlo.Run

set_option maxRecDepth 16384

noncomputable section
namespace Cert.KernelIdeal.Fold
open Cert.KernelIdeal Cert.KernelIdeal.Gen Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

theorem at1_arg2 : W1 m ρ c (Proc.devRef .tc main_arg2) = m ((c : Thread nD τ).loc main_arg2) :=
  (by host_keep hostOps0 : W1 m ρ c (Proc.devRef .tc main_arg2) = W0 m ρ c (Proc.devRef .tc main_arg2)).trans rfl
theorem at1_arg3 : W1 m ρ c (Proc.devRef .tc main_arg3) = m ((c : Thread nD τ).loc main_arg3) :=
  (by host_keep hostOps0 : W1 m ρ c (Proc.devRef .tc main_arg3) = W0 m ρ c (Proc.devRef .tc main_arg3)).trans rfl
theorem at1_arg4 : W1 m ρ c (Proc.devRef .tc main_arg4) = m ((c : Thread nD τ).loc main_arg4) :=
  (by host_keep hostOps0 : W1 m ρ c (Proc.devRef .tc main_arg4) = W0 m ρ c (Proc.devRef .tc main_arg4)).trans rfl
theorem at1_arg5 : W1 m ρ c (Proc.devRef .tc main_arg5) = m ((c : Thread nD τ).loc main_arg5) :=
  (by host_keep hostOps0 : W1 m ρ c (Proc.devRef .tc main_arg5) = W0 m ρ c (Proc.devRef .tc main_arg5)).trans rfl
theorem at1_arg0 : W1 m ρ c (Proc.devRef .tc main_arg0) = m ((c : Thread nD τ).loc main_arg0) :=
  (by host_keep hostOps0 : W1 m ρ c (Proc.devRef .tc main_arg0) = W0 m ρ c (Proc.devRef .tc main_arg0)).trans rfl
set_option maxHeartbeats 8000000 in
theorem at1_v1 : W1 m ρ c (Proc.devRef .tc main_v1) = Terms.src (m ((c : Thread nD τ).loc main_arg1)) := by
  show StableHlo.after hostOps0 (W0 m ρ c) (Proc.devRef .tc main_v1) = _
  after_results_simp
  rfl
set_option maxHeartbeats 8000000 in
theorem at1_v3 : W1 m ρ c (Proc.devRef .tc main_v3) = Terms.dst (m ((c : Thread nD τ).loc main_arg1)) := by
  show StableHlo.after hostOps0 (W0 m ρ c) (Proc.devRef .tc main_v3) = _
  after_results_simp
  rfl
set_option maxHeartbeats 8000000 in
theorem at1_v31 : W1 m ρ c (Proc.devRef .tc main_v31) = Terms.enorm (Terms.src (m ((c : Thread nD τ).loc main_arg1))) (Terms.dst (m ((c : Thread nD τ).loc main_arg1))) := by
  show StableHlo.after hostOps0 (W0 m ρ c) (Proc.devRef .tc main_v31) = _
  after_results_simp
  rfl
set_option maxHeartbeats 8000000 in
theorem at1_v33 : W1 m ρ c (Proc.devRef .tc main_v33) = Terms.selfn (Terms.dst (m ((c : Thread nD τ).loc main_arg1))) := by
  show StableHlo.after hostOps0 (W0 m ρ c) (Proc.devRef .tc main_v33) = _
  after_results_simp
  rfl
theorem at2_arg2 : W2 m ρ c (Proc.devRef .tc main_arg2) = m ((c : Thread nD τ).loc main_arg2) :=
  (W2_of_ne m ρ c main_arg2 (by decide)).trans (at1_arg2 m ρ c)
theorem at2_arg3 : W2 m ρ c (Proc.devRef .tc main_arg3) = m ((c : Thread nD τ).loc main_arg3) :=
  (W2_of_ne m ρ c main_arg3 (by decide)).trans (at1_arg3 m ρ c)
theorem at2_arg4 : W2 m ρ c (Proc.devRef .tc main_arg4) = m ((c : Thread nD τ).loc main_arg4) :=
  (W2_of_ne m ρ c main_arg4 (by decide)).trans (at1_arg4 m ρ c)
theorem at2_arg5 : W2 m ρ c (Proc.devRef .tc main_arg5) = m ((c : Thread nD τ).loc main_arg5) :=
  (W2_of_ne m ρ c main_arg5 (by decide)).trans (at1_arg5 m ρ c)
theorem at2_v1 : W2 m ρ c (Proc.devRef .tc main_v1) = Terms.src (m ((c : Thread nD τ).loc main_arg1)) :=
  (W2_of_ne m ρ c main_v1 (by decide)).trans (at1_v1 m ρ c)
theorem at2_v3 : W2 m ρ c (Proc.devRef .tc main_v3) = Terms.dst (m ((c : Thread nD τ).loc main_arg1)) :=
  (W2_of_ne m ρ c main_v3 (by decide)).trans (at1_v3 m ρ c)
theorem at2_v31 : W2 m ρ c (Proc.devRef .tc main_v31) = Terms.enorm (Terms.src (m ((c : Thread nD τ).loc main_arg1))) (Terms.dst (m ((c : Thread nD τ).loc main_arg1))) :=
  (W2_of_ne m ρ c main_v31 (by decide)).trans (at1_v31 m ρ c)
theorem at2_v33 : W2 m ρ c (Proc.devRef .tc main_v33) = Terms.selfn (Terms.dst (m ((c : Thread nD τ).loc main_arg1))) :=
  (W2_of_ne m ρ c main_v33 (by decide)).trans (at1_v33 m ρ c)
theorem at3_arg2 : W3 m ρ c (Proc.devRef .tc main_arg2) = m ((c : Thread nD τ).loc main_arg2) :=
  (by host_keep hostOps1 : W3 m ρ c (Proc.devRef .tc main_arg2) = W2 m ρ c (Proc.devRef .tc main_arg2)).trans (at2_arg2 m ρ c)
theorem at3_arg3 : W3 m ρ c (Proc.devRef .tc main_arg3) = m ((c : Thread nD τ).loc main_arg3) :=
  (by host_keep hostOps1 : W3 m ρ c (Proc.devRef .tc main_arg3) = W2 m ρ c (Proc.devRef .tc main_arg3)).trans (at2_arg3 m ρ c)
theorem at3_arg4 : W3 m ρ c (Proc.devRef .tc main_arg4) = m ((c : Thread nD τ).loc main_arg4) :=
  (by host_keep hostOps1 : W3 m ρ c (Proc.devRef .tc main_arg4) = W2 m ρ c (Proc.devRef .tc main_arg4)).trans (at2_arg4 m ρ c)
theorem at3_arg5 : W3 m ρ c (Proc.devRef .tc main_arg5) = m ((c : Thread nD τ).loc main_arg5) :=
  (by host_keep hostOps1 : W3 m ρ c (Proc.devRef .tc main_arg5) = W2 m ρ c (Proc.devRef .tc main_arg5)).trans (at2_arg5 m ρ c)
theorem at3_v1 : W3 m ρ c (Proc.devRef .tc main_v1) = Terms.src (m ((c : Thread nD τ).loc main_arg1)) :=
  (by host_keep hostOps1 : W3 m ρ c (Proc.devRef .tc main_v1) = W2 m ρ c (Proc.devRef .tc main_v1)).trans (at2_v1 m ρ c)
theorem at3_v3 : W3 m ρ c (Proc.devRef .tc main_v3) = Terms.dst (m ((c : Thread nD τ).loc main_arg1)) :=
  (by host_keep hostOps1 : W3 m ρ c (Proc.devRef .tc main_v3) = W2 m ρ c (Proc.devRef .tc main_v3)).trans (at2_v3 m ρ c)
theorem at3_v31 : W3 m ρ c (Proc.devRef .tc main_v31) = Terms.enorm (Terms.src (m ((c : Thread nD τ).loc main_arg1))) (Terms.dst (m ((c : Thread nD τ).loc main_arg1))) :=
  (by host_keep hostOps1 : W3 m ρ c (Proc.devRef .tc main_v31) = W2 m ρ c (Proc.devRef .tc main_v31)).trans (at2_v31 m ρ c)
theorem at3_v33 : W3 m ρ c (Proc.devRef .tc main_v33) = Terms.selfn (Terms.dst (m ((c : Thread nD τ).loc main_arg1))) :=
  (by host_keep hostOps1 : W3 m ρ c (Proc.devRef .tc main_v33) = W2 m ρ c (Proc.devRef .tc main_v33)).trans (at2_v33 m ρ c)
theorem at4_arg2 : W4 m ρ c (Proc.devRef .tc main_arg2) = m ((c : Thread nD τ).loc main_arg2) :=
  (W4_of_ne m ρ c main_arg2 (by decide)).trans (at3_arg2 m ρ c)
theorem at4_arg3 : W4 m ρ c (Proc.devRef .tc main_arg3) = m ((c : Thread nD τ).loc main_arg3) :=
  (W4_of_ne m ρ c main_arg3 (by decide)).trans (at3_arg3 m ρ c)
theorem at4_arg4 : W4 m ρ c (Proc.devRef .tc main_arg4) = m ((c : Thread nD τ).loc main_arg4) :=
  (W4_of_ne m ρ c main_arg4 (by decide)).trans (at3_arg4 m ρ c)
theorem at4_arg5 : W4 m ρ c (Proc.devRef .tc main_arg5) = m ((c : Thread nD τ).loc main_arg5) :=
  (W4_of_ne m ρ c main_arg5 (by decide)).trans (at3_arg5 m ρ c)
theorem at4_v1 : W4 m ρ c (Proc.devRef .tc main_v1) = Terms.src (m ((c : Thread nD τ).loc main_arg1)) :=
  (W4_of_ne m ρ c main_v1 (by decide)).trans (at3_v1 m ρ c)
theorem at4_v3 : W4 m ρ c (Proc.devRef .tc main_v3) = Terms.dst (m ((c : Thread nD τ).loc main_arg1)) :=
  (W4_of_ne m ρ c main_v3 (by decide)).trans (at3_v3 m ρ c)
theorem at4_v31 : W4 m ρ c (Proc.devRef .tc main_v31) = Terms.enorm (Terms.src (m ((c : Thread nD τ).loc main_arg1))) (Terms.dst (m ((c : Thread nD τ).loc main_arg1))) :=
  (W4_of_ne m ρ c main_v31 (by decide)).trans (at3_v31 m ρ c)
theorem at4_v33 : W4 m ρ c (Proc.devRef .tc main_v33) = Terms.selfn (Terms.dst (m ((c : Thread nD τ).loc main_arg1))) :=
  ((W4_arr m ρ c 2).trans (((dat1 (V3 m ρ) c).arrAt_in 2 rfl _).trans (A_eq1 (V3 m ρ) c 2))).trans (at3_v33 m ρ c)
theorem at5_arg2 : W5 m ρ c (Proc.devRef .tc main_arg2) = m ((c : Thread nD τ).loc main_arg2) :=
  (by host_keep hostOps2 : W5 m ρ c (Proc.devRef .tc main_arg2) = W4 m ρ c (Proc.devRef .tc main_arg2)).trans (at4_arg2 m ρ c)
theorem at5_arg3 : W5 m ρ c (Proc.devRef .tc main_arg3) = m ((c : Thread nD τ).loc main_arg3) :=
  (by host_keep hostOps2 : W5 m ρ c (Proc.devRef .tc main_arg3) = W4 m ρ c (Proc.devRef .tc main_arg3)).trans (at4_arg3 m ρ c)
theorem at5_arg4 : W5 m ρ c (Proc.devRef .tc main_arg4) = m ((c : Thread nD τ).loc main_arg4) :=
  (by host_keep hostOps2 : W5 m ρ c (Proc.devRef .tc main_arg4) = W4 m ρ c (Proc.devRef .tc main_arg4)).trans (at4_arg4 m ρ c)
theorem at5_arg5 : W5 m ρ c (Proc.devRef .tc main_arg5) = m ((c : Thread nD τ).loc main_arg5) :=
  (by host_keep hostOps2 : W5 m ρ c (Proc.devRef .tc main_arg5) = W4 m ρ c (Proc.devRef .tc main_arg5)).trans (at4_arg5 m ρ c)
theorem at5_v1 : W5 m ρ c (Proc.devRef .tc main_v1) = Terms.src (m ((c : Thread nD τ).loc main_arg1)) :=
  (by host_keep hostOps2 : W5 m ρ c (Proc.devRef .tc main_v1) = W4 m ρ c (Proc.devRef .tc main_v1)).trans (at4_v1 m ρ c)
theorem at5_v3 : W5 m ρ c (Proc.devRef .tc main_v3) = Terms.dst (m ((c : Thread nD τ).loc main_arg1)) :=
  (by host_keep hostOps2 : W5 m ρ c (Proc.devRef .tc main_v3) = W4 m ρ c (Proc.devRef .tc main_v3)).trans (at4_v3 m ρ c)
theorem at5_v31 : W5 m ρ c (Proc.devRef .tc main_v31) = Terms.enorm (Terms.src (m ((c : Thread nD τ).loc main_arg1))) (Terms.dst (m ((c : Thread nD τ).loc main_arg1))) :=
  (by host_keep hostOps2 : W5 m ρ c (Proc.devRef .tc main_v31) = W4 m ρ c (Proc.devRef .tc main_v31)).trans (at4_v31 m ρ c)
theorem at5_v33 : W5 m ρ c (Proc.devRef .tc main_v33) = Terms.selfn (Terms.dst (m ((c : Thread nD τ).loc main_arg1))) :=
  (by host_keep hostOps2 : W5 m ρ c (Proc.devRef .tc main_v33) = W4 m ρ c (Proc.devRef .tc main_v33)).trans (at4_v33 m ρ c)
theorem at6_arg2 : W6 m ρ c (Proc.devRef .tc main_arg2) = m ((c : Thread nD τ).loc main_arg2) :=
  (W6_of_ne m ρ c main_arg2 (by decide)).trans (at5_arg2 m ρ c)
theorem at6_arg3 : W6 m ρ c (Proc.devRef .tc main_arg3) = m ((c : Thread nD τ).loc main_arg3) :=
  (W6_of_ne m ρ c main_arg3 (by decide)).trans (at5_arg3 m ρ c)
theorem at6_arg4 : W6 m ρ c (Proc.devRef .tc main_arg4) = m ((c : Thread nD τ).loc main_arg4) :=
  (W6_of_ne m ρ c main_arg4 (by decide)).trans (at5_arg4 m ρ c)
theorem at6_arg5 : W6 m ρ c (Proc.devRef .tc main_arg5) = m ((c : Thread nD τ).loc main_arg5) :=
  (W6_of_ne m ρ c main_arg5 (by decide)).trans (at5_arg5 m ρ c)
theorem at6_v1 : W6 m ρ c (Proc.devRef .tc main_v1) = Terms.src (m ((c : Thread nD τ).loc main_arg1)) :=
  (W6_of_ne m ρ c main_v1 (by decide)).trans (at5_v1 m ρ c)
theorem at6_v3 : W6 m ρ c (Proc.devRef .tc main_v3) = Terms.dst (m ((c : Thread nD τ).loc main_arg1)) :=
  (W6_of_ne m ρ c main_v3 (by decide)).trans (at5_v3 m ρ c)
theorem at6_v31 : W6 m ρ c (Proc.devRef .tc main_v31) = Terms.enorm (Terms.src (m ((c : Thread nD τ).loc main_arg1))) (Terms.dst (m ((c : Thread nD τ).loc main_arg1))) :=
  (W6_of_ne m ρ c main_v31 (by decide)).trans (at5_v31 m ρ c)
theorem at6_v33 : W6 m ρ c (Proc.devRef .tc main_v33) = Terms.selfn (Terms.dst (m ((c : Thread nD τ).loc main_arg1))) :=
  (W6_of_ne m ρ c main_v33 (by decide)).trans (at5_v33 m ρ c)
theorem at7_arg2 : W7 m ρ c (Proc.devRef .tc main_arg2) = m ((c : Thread nD τ).loc main_arg2) :=
  (by host_keep hostOps3 : W7 m ρ c (Proc.devRef .tc main_arg2) = W6 m ρ c (Proc.devRef .tc main_arg2)).trans (at6_arg2 m ρ c)
theorem at7_arg3 : W7 m ρ c (Proc.devRef .tc main_arg3) = m ((c : Thread nD τ).loc main_arg3) :=
  (by host_keep hostOps3 : W7 m ρ c (Proc.devRef .tc main_arg3) = W6 m ρ c (Proc.devRef .tc main_arg3)).trans (at6_arg3 m ρ c)
theorem at7_arg4 : W7 m ρ c (Proc.devRef .tc main_arg4) = m ((c : Thread nD τ).loc main_arg4) :=
  (by host_keep hostOps3 : W7 m ρ c (Proc.devRef .tc main_arg4) = W6 m ρ c (Proc.devRef .tc main_arg4)).trans (at6_arg4 m ρ c)
theorem at7_arg5 : W7 m ρ c (Proc.devRef .tc main_arg5) = m ((c : Thread nD τ).loc main_arg5) :=
  (by host_keep hostOps3 : W7 m ρ c (Proc.devRef .tc main_arg5) = W6 m ρ c (Proc.devRef .tc main_arg5)).trans (at6_arg5 m ρ c)
theorem at7_v1 : W7 m ρ c (Proc.devRef .tc main_v1) = Terms.src (m ((c : Thread nD τ).loc main_arg1)) :=
  (by host_keep hostOps3 : W7 m ρ c (Proc.devRef .tc main_v1) = W6 m ρ c (Proc.devRef .tc main_v1)).trans (at6_v1 m ρ c)
theorem at7_v3 : W7 m ρ c (Proc.devRef .tc main_v3) = Terms.dst (m ((c : Thread nD τ).loc main_arg1)) :=
  (by host_keep hostOps3 : W7 m ρ c (Proc.devRef .tc main_v3) = W6 m ρ c (Proc.devRef .tc main_v3)).trans (at6_v3 m ρ c)
theorem at7_v31 : W7 m ρ c (Proc.devRef .tc main_v31) = Terms.enorm (Terms.src (m ((c : Thread nD τ).loc main_arg1))) (Terms.dst (m ((c : Thread nD τ).loc main_arg1))) :=
  (by host_keep hostOps3 : W7 m ρ c (Proc.devRef .tc main_v31) = W6 m ρ c (Proc.devRef .tc main_v31)).trans (at6_v31 m ρ c)
theorem at7_v33 : W7 m ρ c (Proc.devRef .tc main_v33) = Terms.selfn (Terms.dst (m ((c : Thread nD τ).loc main_arg1))) :=
  (by host_keep hostOps3 : W7 m ρ c (Proc.devRef .tc main_v33) = W6 m ρ c (Proc.devRef .tc main_v33)).trans (at6_v33 m ρ c)
theorem at8_arg2 : W8 m ρ c (Proc.devRef .tc main_arg2) = m ((c : Thread nD τ).loc main_arg2) :=
  (W8_of_ne m ρ c main_arg2 (by decide)).trans (at7_arg2 m ρ c)
theorem at8_arg3 : W8 m ρ c (Proc.devRef .tc main_arg3) = m ((c : Thread nD τ).loc main_arg3) :=
  (W8_of_ne m ρ c main_arg3 (by decide)).trans (at7_arg3 m ρ c)
theorem at8_arg4 : W8 m ρ c (Proc.devRef .tc main_arg4) = m ((c : Thread nD τ).loc main_arg4) :=
  (W8_of_ne m ρ c main_arg4 (by decide)).trans (at7_arg4 m ρ c)
theorem at8_arg5 : W8 m ρ c (Proc.devRef .tc main_arg5) = m ((c : Thread nD τ).loc main_arg5) :=
  (W8_of_ne m ρ c main_arg5 (by decide)).trans (at7_arg5 m ρ c)
theorem at8_v1 : W8 m ρ c (Proc.devRef .tc main_v1) = Terms.src (m ((c : Thread nD τ).loc main_arg1)) :=
  (W8_of_ne m ρ c main_v1 (by decide)).trans (at7_v1 m ρ c)
theorem at8_v3 : W8 m ρ c (Proc.devRef .tc main_v3) = Terms.dst (m ((c : Thread nD τ).loc main_arg1)) :=
  (W8_of_ne m ρ c main_v3 (by decide)).trans (at7_v3 m ρ c)
theorem at8_v31 : W8 m ρ c (Proc.devRef .tc main_v31) = Terms.enorm (Terms.src (m ((c : Thread nD τ).loc main_arg1))) (Terms.dst (m ((c : Thread nD τ).loc main_arg1))) :=
  (W8_of_ne m ρ c main_v31 (by decide)).trans (at7_v31 m ρ c)
theorem at8_v33 : W8 m ρ c (Proc.devRef .tc main_v33) = Terms.selfn (Terms.dst (m ((c : Thread nD τ).loc main_arg1))) :=
  (W8_of_ne m ρ c main_v33 (by decide)).trans (at7_v33 m ρ c)
theorem at9_arg2 : W9 m ρ c (Proc.devRef .tc main_arg2) = m ((c : Thread nD τ).loc main_arg2) :=
  (by host_keep hostOps4 : W9 m ρ c (Proc.devRef .tc main_arg2) = W8 m ρ c (Proc.devRef .tc main_arg2)).trans (at8_arg2 m ρ c)
theorem at9_arg3 : W9 m ρ c (Proc.devRef .tc main_arg3) = m ((c : Thread nD τ).loc main_arg3) :=
  (by host_keep hostOps4 : W9 m ρ c (Proc.devRef .tc main_arg3) = W8 m ρ c (Proc.devRef .tc main_arg3)).trans (at8_arg3 m ρ c)
theorem at9_arg4 : W9 m ρ c (Proc.devRef .tc main_arg4) = m ((c : Thread nD τ).loc main_arg4) :=
  (by host_keep hostOps4 : W9 m ρ c (Proc.devRef .tc main_arg4) = W8 m ρ c (Proc.devRef .tc main_arg4)).trans (at8_arg4 m ρ c)
theorem at9_arg5 : W9 m ρ c (Proc.devRef .tc main_arg5) = m ((c : Thread nD τ).loc main_arg5) :=
  (by host_keep hostOps4 : W9 m ρ c (Proc.devRef .tc main_arg5) = W8 m ρ c (Proc.devRef .tc main_arg5)).trans (at8_arg5 m ρ c)
theorem at9_v1 : W9 m ρ c (Proc.devRef .tc main_v1) = Terms.src (m ((c : Thread nD τ).loc main_arg1)) :=
  (by host_keep hostOps4 : W9 m ρ c (Proc.devRef .tc main_v1) = W8 m ρ c (Proc.devRef .tc main_v1)).trans (at8_v1 m ρ c)
theorem at9_v3 : W9 m ρ c (Proc.devRef .tc main_v3) = Terms.dst (m ((c : Thread nD τ).loc main_arg1)) :=
  (by host_keep hostOps4 : W9 m ρ c (Proc.devRef .tc main_v3) = W8 m ρ c (Proc.devRef .tc main_v3)).trans (at8_v3 m ρ c)
theorem at9_v31 : W9 m ρ c (Proc.devRef .tc main_v31) = Terms.enorm (Terms.src (m ((c : Thread nD τ).loc main_arg1))) (Terms.dst (m ((c : Thread nD τ).loc main_arg1))) :=
  (by host_keep hostOps4 : W9 m ρ c (Proc.devRef .tc main_v31) = W8 m ρ c (Proc.devRef .tc main_v31)).trans (at8_v31 m ρ c)
theorem at9_v33 : W9 m ρ c (Proc.devRef .tc main_v33) = Terms.selfn (Terms.dst (m ((c : Thread nD τ).loc main_arg1))) :=
  (by host_keep hostOps4 : W9 m ρ c (Proc.devRef .tc main_v33) = W8 m ρ c (Proc.devRef .tc main_v33)).trans (at8_v33 m ρ c)
theorem at10_arg2 : W10 m ρ c (Proc.devRef .tc main_arg2) = m ((c : Thread nD τ).loc main_arg2) :=
  (W10_of_ne m ρ c main_arg2 (by decide)).trans (at9_arg2 m ρ c)
theorem at10_arg3 : W10 m ρ c (Proc.devRef .tc main_arg3) = m ((c : Thread nD τ).loc main_arg3) :=
  (W10_of_ne m ρ c main_arg3 (by decide)).trans (at9_arg3 m ρ c)
theorem at10_arg4 : W10 m ρ c (Proc.devRef .tc main_arg4) = m ((c : Thread nD τ).loc main_arg4) :=
  (W10_of_ne m ρ c main_arg4 (by decide)).trans (at9_arg4 m ρ c)
theorem at10_arg5 : W10 m ρ c (Proc.devRef .tc main_arg5) = m ((c : Thread nD τ).loc main_arg5) :=
  (W10_of_ne m ρ c main_arg5 (by decide)).trans (at9_arg5 m ρ c)
theorem at10_v1 : W10 m ρ c (Proc.devRef .tc main_v1) = Terms.src (m ((c : Thread nD τ).loc main_arg1)) :=
  (W10_of_ne m ρ c main_v1 (by decide)).trans (at9_v1 m ρ c)
theorem at10_v3 : W10 m ρ c (Proc.devRef .tc main_v3) = Terms.dst (m ((c : Thread nD τ).loc main_arg1)) :=
  (W10_of_ne m ρ c main_v3 (by decide)).trans (at9_v3 m ρ c)
theorem at10_v31 : W10 m ρ c (Proc.devRef .tc main_v31) = Terms.enorm (Terms.src (m ((c : Thread nD τ).loc main_arg1))) (Terms.dst (m ((c : Thread nD τ).loc main_arg1))) :=
  (W10_of_ne m ρ c main_v31 (by decide)).trans (at9_v31 m ρ c)
theorem at10_v33 : W10 m ρ c (Proc.devRef .tc main_v33) = Terms.selfn (Terms.dst (m ((c : Thread nD τ).loc main_arg1))) :=
  ((W10_arr m ρ c 2).trans (((dat4 (V9 m ρ) c).arrAt_in 2 rfl _).trans (A_eq4 (V9 m ρ) c 2))).trans (at9_v33 m ρ c)
theorem at11_arg2 : W11 m ρ c (Proc.devRef .tc main_arg2) = m ((c : Thread nD τ).loc main_arg2) :=
  (by host_keep hostOps5 : W11 m ρ c (Proc.devRef .tc main_arg2) = W10 m ρ c (Proc.devRef .tc main_arg2)).trans (at10_arg2 m ρ c)
theorem at11_arg3 : W11 m ρ c (Proc.devRef .tc main_arg3) = m ((c : Thread nD τ).loc main_arg3) :=
  (by host_keep hostOps5 : W11 m ρ c (Proc.devRef .tc main_arg3) = W10 m ρ c (Proc.devRef .tc main_arg3)).trans (at10_arg3 m ρ c)
theorem at11_arg4 : W11 m ρ c (Proc.devRef .tc main_arg4) = m ((c : Thread nD τ).loc main_arg4) :=
  (by host_keep hostOps5 : W11 m ρ c (Proc.devRef .tc main_arg4) = W10 m ρ c (Proc.devRef .tc main_arg4)).trans (at10_arg4 m ρ c)
theorem at11_arg5 : W11 m ρ c (Proc.devRef .tc main_arg5) = m ((c : Thread nD τ).loc main_arg5) :=
  (by host_keep hostOps5 : W11 m ρ c (Proc.devRef .tc main_arg5) = W10 m ρ c (Proc.devRef .tc main_arg5)).trans (at10_arg5 m ρ c)
theorem at11_v1 : W11 m ρ c (Proc.devRef .tc main_v1) = Terms.src (m ((c : Thread nD τ).loc main_arg1)) :=
  (by host_keep hostOps5 : W11 m ρ c (Proc.devRef .tc main_v1) = W10 m ρ c (Proc.devRef .tc main_v1)).trans (at10_v1 m ρ c)
theorem at11_v3 : W11 m ρ c (Proc.devRef .tc main_v3) = Terms.dst (m ((c : Thread nD τ).loc main_arg1)) :=
  (by host_keep hostOps5 : W11 m ρ c (Proc.devRef .tc main_v3) = W10 m ρ c (Proc.devRef .tc main_v3)).trans (at10_v3 m ρ c)
theorem at11_v31 : W11 m ρ c (Proc.devRef .tc main_v31) = Terms.enorm (Terms.src (m ((c : Thread nD τ).loc main_arg1))) (Terms.dst (m ((c : Thread nD τ).loc main_arg1))) :=
  (by host_keep hostOps5 : W11 m ρ c (Proc.devRef .tc main_v31) = W10 m ρ c (Proc.devRef .tc main_v31)).trans (at10_v31 m ρ c)
theorem at11_v33 : W11 m ρ c (Proc.devRef .tc main_v33) = Terms.selfn (Terms.dst (m ((c : Thread nD τ).loc main_arg1))) :=
  (by host_keep hostOps5 : W11 m ρ c (Proc.devRef .tc main_v33) = W10 m ρ c (Proc.devRef .tc main_v33)).trans (at10_v33 m ρ c)
theorem at12_arg2 : W12 m ρ c (Proc.devRef .tc main_arg2) = m ((c : Thread nD τ).loc main_arg2) :=
  (W12_of_ne m ρ c main_arg2 (by decide)).trans (at11_arg2 m ρ c)
theorem at12_arg3 : W12 m ρ c (Proc.devRef .tc main_arg3) = m ((c : Thread nD τ).loc main_arg3) :=
  (W12_of_ne m ρ c main_arg3 (by decide)).trans (at11_arg3 m ρ c)
theorem at12_arg4 : W12 m ρ c (Proc.devRef .tc main_arg4) = m ((c : Thread nD τ).loc main_arg4) :=
  (W12_of_ne m ρ c main_arg4 (by decide)).trans (at11_arg4 m ρ c)
theorem at12_arg5 : W12 m ρ c (Proc.devRef .tc main_arg5) = m ((c : Thread nD τ).loc main_arg5) :=
  (W12_of_ne m ρ c main_arg5 (by decide)).trans (at11_arg5 m ρ c)
theorem at12_v1 : W12 m ρ c (Proc.devRef .tc main_v1) = Terms.src (m ((c : Thread nD τ).loc main_arg1)) :=
  (W12_of_ne m ρ c main_v1 (by decide)).trans (at11_v1 m ρ c)
theorem at12_v3 : W12 m ρ c (Proc.devRef .tc main_v3) = Terms.dst (m ((c : Thread nD τ).loc main_arg1)) :=
  (W12_of_ne m ρ c main_v3 (by decide)).trans (at11_v3 m ρ c)
theorem at12_v31 : W12 m ρ c (Proc.devRef .tc main_v31) = Terms.enorm (Terms.src (m ((c : Thread nD τ).loc main_arg1))) (Terms.dst (m ((c : Thread nD τ).loc main_arg1))) :=
  (W12_of_ne m ρ c main_v31 (by decide)).trans (at11_v31 m ρ c)
theorem at12_v33 : W12 m ρ c (Proc.devRef .tc main_v33) = Terms.selfn (Terms.dst (m ((c : Thread nD τ).loc main_arg1))) :=
  (W12_of_ne m ρ c main_v33 (by decide)).trans (at11_v33 m ρ c)
theorem at13_arg2 : W13 m ρ c (Proc.devRef .tc main_arg2) = m ((c : Thread nD τ).loc main_arg2) :=
  (by host_keep hostOps6 : W13 m ρ c (Proc.devRef .tc main_arg2) = W12 m ρ c (Proc.devRef .tc main_arg2)).trans (at12_arg2 m ρ c)
theorem at13_arg3 : W13 m ρ c (Proc.devRef .tc main_arg3) = m ((c : Thread nD τ).loc main_arg3) :=
  (by host_keep hostOps6 : W13 m ρ c (Proc.devRef .tc main_arg3) = W12 m ρ c (Proc.devRef .tc main_arg3)).trans (at12_arg3 m ρ c)
theorem at13_arg4 : W13 m ρ c (Proc.devRef .tc main_arg4) = m ((c : Thread nD τ).loc main_arg4) :=
  (by host_keep hostOps6 : W13 m ρ c (Proc.devRef .tc main_arg4) = W12 m ρ c (Proc.devRef .tc main_arg4)).trans (at12_arg4 m ρ c)
theorem at13_arg5 : W13 m ρ c (Proc.devRef .tc main_arg5) = m ((c : Thread nD τ).loc main_arg5) :=
  (by host_keep hostOps6 : W13 m ρ c (Proc.devRef .tc main_arg5) = W12 m ρ c (Proc.devRef .tc main_arg5)).trans (at12_arg5 m ρ c)
theorem at13_v1 : W13 m ρ c (Proc.devRef .tc main_v1) = Terms.src (m ((c : Thread nD τ).loc main_arg1)) :=
  (by host_keep hostOps6 : W13 m ρ c (Proc.devRef .tc main_v1) = W12 m ρ c (Proc.devRef .tc main_v1)).trans (at12_v1 m ρ c)
theorem at13_v3 : W13 m ρ c (Proc.devRef .tc main_v3) = Terms.dst (m ((c : Thread nD τ).loc main_arg1)) :=
  (by host_keep hostOps6 : W13 m ρ c (Proc.devRef .tc main_v3) = W12 m ρ c (Proc.devRef .tc main_v3)).trans (at12_v3 m ρ c)
theorem at13_v31 : W13 m ρ c (Proc.devRef .tc main_v31) = Terms.enorm (Terms.src (m ((c : Thread nD τ).loc main_arg1))) (Terms.dst (m ((c : Thread nD τ).loc main_arg1))) :=
  (by host_keep hostOps6 : W13 m ρ c (Proc.devRef .tc main_v31) = W12 m ρ c (Proc.devRef .tc main_v31)).trans (at12_v31 m ρ c)
theorem at13_v33 : W13 m ρ c (Proc.devRef .tc main_v33) = Terms.selfn (Terms.dst (m ((c : Thread nD τ).loc main_arg1))) :=
  (by host_keep hostOps6 : W13 m ρ c (Proc.devRef .tc main_v33) = W12 m ρ c (Proc.devRef .tc main_v33)).trans (at12_v33 m ρ c)
theorem at14_arg2 : W14 m ρ c (Proc.devRef .tc main_arg2) = m ((c : Thread nD τ).loc main_arg2) :=
  (W14_of_ne m ρ c main_arg2 (by decide)).trans (at13_arg2 m ρ c)
theorem at14_arg3 : W14 m ρ c (Proc.devRef .tc main_arg3) = m ((c : Thread nD τ).loc main_arg3) :=
  (W14_of_ne m ρ c main_arg3 (by decide)).trans (at13_arg3 m ρ c)
theorem at14_arg4 : W14 m ρ c (Proc.devRef .tc main_arg4) = m ((c : Thread nD τ).loc main_arg4) :=
  (W14_of_ne m ρ c main_arg4 (by decide)).trans (at13_arg4 m ρ c)
theorem at14_arg5 : W14 m ρ c (Proc.devRef .tc main_arg5) = m ((c : Thread nD τ).loc main_arg5) :=
  (W14_of_ne m ρ c main_arg5 (by decide)).trans (at13_arg5 m ρ c)
theorem at14_v1 : W14 m ρ c (Proc.devRef .tc main_v1) = Terms.src (m ((c : Thread nD τ).loc main_arg1)) :=
  (W14_of_ne m ρ c main_v1 (by decide)).trans (at13_v1 m ρ c)
theorem at14_v3 : W14 m ρ c (Proc.devRef .tc main_v3) = Terms.dst (m ((c : Thread nD τ).loc main_arg1)) :=
  (W14_of_ne m ρ c main_v3 (by decide)).trans (at13_v3 m ρ c)
theorem at14_v31 : W14 m ρ c (Proc.devRef .tc main_v31) = Terms.enorm (Terms.src (m ((c : Thread nD τ).loc main_arg1))) (Terms.dst (m ((c : Thread nD τ).loc main_arg1))) :=
  (W14_of_ne m ρ c main_v31 (by decide)).trans (at13_v31 m ρ c)
theorem at14_v33 : W14 m ρ c (Proc.devRef .tc main_v33) = Terms.selfn (Terms.dst (m ((c : Thread nD τ).loc main_arg1))) :=
  (W14_of_ne m ρ c main_v33 (by decide)).trans (at13_v33 m ρ c)
theorem at15_arg2 : W15 m ρ c (Proc.devRef .tc main_arg2) = m ((c : Thread nD τ).loc main_arg2) :=
  (by host_keep hostOps7 : W15 m ρ c (Proc.devRef .tc main_arg2) = W14 m ρ c (Proc.devRef .tc main_arg2)).trans (at14_arg2 m ρ c)
theorem at15_arg3 : W15 m ρ c (Proc.devRef .tc main_arg3) = m ((c : Thread nD τ).loc main_arg3) :=
  (by host_keep hostOps7 : W15 m ρ c (Proc.devRef .tc main_arg3) = W14 m ρ c (Proc.devRef .tc main_arg3)).trans (at14_arg3 m ρ c)
theorem at15_arg4 : W15 m ρ c (Proc.devRef .tc main_arg4) = m ((c : Thread nD τ).loc main_arg4) :=
  (by host_keep hostOps7 : W15 m ρ c (Proc.devRef .tc main_arg4) = W14 m ρ c (Proc.devRef .tc main_arg4)).trans (at14_arg4 m ρ c)
theorem at15_arg5 : W15 m ρ c (Proc.devRef .tc main_arg5) = m ((c : Thread nD τ).loc main_arg5) :=
  (by host_keep hostOps7 : W15 m ρ c (Proc.devRef .tc main_arg5) = W14 m ρ c (Proc.devRef .tc main_arg5)).trans (at14_arg5 m ρ c)
theorem at15_v1 : W15 m ρ c (Proc.devRef .tc main_v1) = Terms.src (m ((c : Thread nD τ).loc main_arg1)) :=
  (by host_keep hostOps7 : W15 m ρ c (Proc.devRef .tc main_v1) = W14 m ρ c (Proc.devRef .tc main_v1)).trans (at14_v1 m ρ c)
theorem at15_v3 : W15 m ρ c (Proc.devRef .tc main_v3) = Terms.dst (m ((c : Thread nD τ).loc main_arg1)) :=
  (by host_keep hostOps7 : W15 m ρ c (Proc.devRef .tc main_v3) = W14 m ρ c (Proc.devRef .tc main_v3)).trans (at14_v3 m ρ c)
theorem at15_v31 : W15 m ρ c (Proc.devRef .tc main_v31) = Terms.enorm (Terms.src (m ((c : Thread nD τ).loc main_arg1))) (Terms.dst (m ((c : Thread nD τ).loc main_arg1))) :=
  (by host_keep hostOps7 : W15 m ρ c (Proc.devRef .tc main_v31) = W14 m ρ c (Proc.devRef .tc main_v31)).trans (at14_v31 m ρ c)
theorem at15_v33 : W15 m ρ c (Proc.devRef .tc main_v33) = Terms.selfn (Terms.dst (m ((c : Thread nD τ).loc main_arg1))) :=
  (by host_keep hostOps7 : W15 m ρ c (Proc.devRef .tc main_v33) = W14 m ρ c (Proc.devRef .tc main_v33)).trans (at14_v33 m ρ c)
theorem at16_arg2 : W16 m ρ c (Proc.devRef .tc main_arg2) = m ((c : Thread nD τ).loc main_arg2) :=
  (W16_of_ne m ρ c main_arg2 (by decide)).trans (at15_arg2 m ρ c)
theorem at16_arg3 : W16 m ρ c (Proc.devRef .tc main_arg3) = m ((c : Thread nD τ).loc main_arg3) :=
  (W16_of_ne m ρ c main_arg3 (by decide)).trans (at15_arg3 m ρ c)
theorem at16_arg4 : W16 m ρ c (Proc.devRef .tc main_arg4) = m ((c : Thread nD τ).loc main_arg4) :=
  (W16_of_ne m ρ c main_arg4 (by decide)).trans (at15_arg4 m ρ c)
theorem at16_arg5 : W16 m ρ c (Proc.devRef .tc main_arg5) = m ((c : Thread nD τ).loc main_arg5) :=
  (W16_of_ne m ρ c main_arg5 (by decide)).trans (at15_arg5 m ρ c)
theorem at16_v1 : W16 m ρ c (Proc.devRef .tc main_v1) = Terms.src (m ((c : Thread nD τ).loc main_arg1)) :=
  (W16_of_ne m ρ c main_v1 (by decide)).trans (at15_v1 m ρ c)
theorem at16_v3 : W16 m ρ c (Proc.devRef .tc main_v3) = Terms.dst (m ((c : Thread nD τ).loc main_arg1)) :=
  (W16_of_ne m ρ c main_v3 (by decide)).trans (at15_v3 m ρ c)
theorem at16_v31 : W16 m ρ c (Proc.devRef .tc main_v31) = Terms.enorm (Terms.src (m ((c : Thread nD τ).loc main_arg1))) (Terms.dst (m ((c : Thread nD τ).loc main_arg1))) :=
  (W16_of_ne m ρ c main_v31 (by decide)).trans (at15_v31 m ρ c)
theorem at16_v33 : W16 m ρ c (Proc.devRef .tc main_v33) = Terms.selfn (Terms.dst (m ((c : Thread nD τ).loc main_arg1))) :=
  ((W16_arr m ρ c 2).trans (((dat7 (V15 m ρ) c).arrAt_in 2 rfl _).trans (A_eq7 (V15 m ρ) c 2))).trans (at15_v33 m ρ c)
theorem at17_arg2 : W17 m ρ c (Proc.devRef .tc main_arg2) = m ((c : Thread nD τ).loc main_arg2) :=
  (by host_keep hostOps8 : W17 m ρ c (Proc.devRef .tc main_arg2) = W16 m ρ c (Proc.devRef .tc main_arg2)).trans (at16_arg2 m ρ c)
theorem at17_arg3 : W17 m ρ c (Proc.devRef .tc main_arg3) = m ((c : Thread nD τ).loc main_arg3) :=
  (by host_keep hostOps8 : W17 m ρ c (Proc.devRef .tc main_arg3) = W16 m ρ c (Proc.devRef .tc main_arg3)).trans (at16_arg3 m ρ c)
theorem at17_arg4 : W17 m ρ c (Proc.devRef .tc main_arg4) = m ((c : Thread nD τ).loc main_arg4) :=
  (by host_keep hostOps8 : W17 m ρ c (Proc.devRef .tc main_arg4) = W16 m ρ c (Proc.devRef .tc main_arg4)).trans (at16_arg4 m ρ c)
theorem at17_arg5 : W17 m ρ c (Proc.devRef .tc main_arg5) = m ((c : Thread nD τ).loc main_arg5) :=
  (by host_keep hostOps8 : W17 m ρ c (Proc.devRef .tc main_arg5) = W16 m ρ c (Proc.devRef .tc main_arg5)).trans (at16_arg5 m ρ c)
theorem at17_v1 : W17 m ρ c (Proc.devRef .tc main_v1) = Terms.src (m ((c : Thread nD τ).loc main_arg1)) :=
  (by host_keep hostOps8 : W17 m ρ c (Proc.devRef .tc main_v1) = W16 m ρ c (Proc.devRef .tc main_v1)).trans (at16_v1 m ρ c)
theorem at17_v3 : W17 m ρ c (Proc.devRef .tc main_v3) = Terms.dst (m ((c : Thread nD τ).loc main_arg1)) :=
  (by host_keep hostOps8 : W17 m ρ c (Proc.devRef .tc main_v3) = W16 m ρ c (Proc.devRef .tc main_v3)).trans (at16_v3 m ρ c)
theorem at17_v31 : W17 m ρ c (Proc.devRef .tc main_v31) = Terms.enorm (Terms.src (m ((c : Thread nD τ).loc main_arg1))) (Terms.dst (m ((c : Thread nD τ).loc main_arg1))) :=
  (by host_keep hostOps8 : W17 m ρ c (Proc.devRef .tc main_v31) = W16 m ρ c (Proc.devRef .tc main_v31)).trans (at16_v31 m ρ c)
theorem at17_v33 : W17 m ρ c (Proc.devRef .tc main_v33) = Terms.selfn (Terms.dst (m ((c : Thread nD τ).loc main_arg1))) :=
  (by host_keep hostOps8 : W17 m ρ c (Proc.devRef .tc main_v33) = W16 m ρ c (Proc.devRef .tc main_v33)).trans (at16_v33 m ρ c)
theorem at18_arg2 : W18 m ρ c (Proc.devRef .tc main_arg2) = m ((c : Thread nD τ).loc main_arg2) :=
  (W18_of_ne m ρ c main_arg2 (by decide)).trans (at17_arg2 m ρ c)
theorem at18_arg3 : W18 m ρ c (Proc.devRef .tc main_arg3) = m ((c : Thread nD τ).loc main_arg3) :=
  (W18_of_ne m ρ c main_arg3 (by decide)).trans (at17_arg3 m ρ c)
theorem at18_arg4 : W18 m ρ c (Proc.devRef .tc main_arg4) = m ((c : Thread nD τ).loc main_arg4) :=
  (W18_of_ne m ρ c main_arg4 (by decide)).trans (at17_arg4 m ρ c)
theorem at18_arg5 : W18 m ρ c (Proc.devRef .tc main_arg5) = m ((c : Thread nD τ).loc main_arg5) :=
  (W18_of_ne m ρ c main_arg5 (by decide)).trans (at17_arg5 m ρ c)
theorem at18_v1 : W18 m ρ c (Proc.devRef .tc main_v1) = Terms.src (m ((c : Thread nD τ).loc main_arg1)) :=
  (W18_of_ne m ρ c main_v1 (by decide)).trans (at17_v1 m ρ c)
theorem at18_v3 : W18 m ρ c (Proc.devRef .tc main_v3) = Terms.dst (m ((c : Thread nD τ).loc main_arg1)) :=
  (W18_of_ne m ρ c main_v3 (by decide)).trans (at17_v3 m ρ c)
theorem at18_v31 : W18 m ρ c (Proc.devRef .tc main_v31) = Terms.enorm (Terms.src (m ((c : Thread nD τ).loc main_arg1))) (Terms.dst (m ((c : Thread nD τ).loc main_arg1))) :=
  (W18_of_ne m ρ c main_v31 (by decide)).trans (at17_v31 m ρ c)
theorem at18_v33 : W18 m ρ c (Proc.devRef .tc main_v33) = Terms.selfn (Terms.dst (m ((c : Thread nD τ).loc main_arg1))) :=
  (W18_of_ne m ρ c main_v33 (by decide)).trans (at17_v33 m ρ c)
theorem at19_arg2 : W19 m ρ c (Proc.devRef .tc main_arg2) = m ((c : Thread nD τ).loc main_arg2) :=
  (by host_keep hostOps9 : W19 m ρ c (Proc.devRef .tc main_arg2) = W18 m ρ c (Proc.devRef .tc main_arg2)).trans (at18_arg2 m ρ c)
theorem at19_arg3 : W19 m ρ c (Proc.devRef .tc main_arg3) = m ((c : Thread nD τ).loc main_arg3) :=
  (by host_keep hostOps9 : W19 m ρ c (Proc.devRef .tc main_arg3) = W18 m ρ c (Proc.devRef .tc main_arg3)).trans (at18_arg3 m ρ c)
theorem at19_arg4 : W19 m ρ c (Proc.devRef .tc main_arg4) = m ((c : Thread nD τ).loc main_arg4) :=
  (by host_keep hostOps9 : W19 m ρ c (Proc.devRef .tc main_arg4) = W18 m ρ c (Proc.devRef .tc main_arg4)).trans (at18_arg4 m ρ c)
theorem at19_arg5 : W19 m ρ c (Proc.devRef .tc main_arg5) = m ((c : Thread nD τ).loc main_arg5) :=
  (by host_keep hostOps9 : W19 m ρ c (Proc.devRef .tc main_arg5) = W18 m ρ c (Proc.devRef .tc main_arg5)).trans (at18_arg5 m ρ c)
theorem at19_v1 : W19 m ρ c (Proc.devRef .tc main_v1) = Terms.src (m ((c : Thread nD τ).loc main_arg1)) :=
  (by host_keep hostOps9 : W19 m ρ c (Proc.devRef .tc main_v1) = W18 m ρ c (Proc.devRef .tc main_v1)).trans (at18_v1 m ρ c)
theorem at19_v3 : W19 m ρ c (Proc.devRef .tc main_v3) = Terms.dst (m ((c : Thread nD τ).loc main_arg1)) :=
  (by host_keep hostOps9 : W19 m ρ c (Proc.devRef .tc main_v3) = W18 m ρ c (Proc.devRef .tc main_v3)).trans (at18_v3 m ρ c)
theorem at19_v31 : W19 m ρ c (Proc.devRef .tc main_v31) = Terms.enorm (Terms.src (m ((c : Thread nD τ).loc main_arg1))) (Terms.dst (m ((c : Thread nD τ).loc main_arg1))) :=
  (by host_keep hostOps9 : W19 m ρ c (Proc.devRef .tc main_v31) = W18 m ρ c (Proc.devRef .tc main_v31)).trans (at18_v31 m ρ c)
theorem at19_v33 : W19 m ρ c (Proc.devRef .tc main_v33) = Terms.selfn (Terms.dst (m ((c : Thread nD τ).loc main_arg1))) :=
  (by host_keep hostOps9 : W19 m ρ c (Proc.devRef .tc main_v33) = W18 m ρ c (Proc.devRef .tc main_v33)).trans (at18_v33 m ρ c)
theorem at20_arg2 : W20 m ρ c (Proc.devRef .tc main_arg2) = m ((c : Thread nD τ).loc main_arg2) :=
  (W20_of_ne m ρ c main_arg2 (by decide)).trans (at19_arg2 m ρ c)
theorem at20_arg3 : W20 m ρ c (Proc.devRef .tc main_arg3) = m ((c : Thread nD τ).loc main_arg3) :=
  (W20_of_ne m ρ c main_arg3 (by decide)).trans (at19_arg3 m ρ c)
theorem at20_arg4 : W20 m ρ c (Proc.devRef .tc main_arg4) = m ((c : Thread nD τ).loc main_arg4) :=
  (W20_of_ne m ρ c main_arg4 (by decide)).trans (at19_arg4 m ρ c)
theorem at20_arg5 : W20 m ρ c (Proc.devRef .tc main_arg5) = m ((c : Thread nD τ).loc main_arg5) :=
  (W20_of_ne m ρ c main_arg5 (by decide)).trans (at19_arg5 m ρ c)
theorem at20_v1 : W20 m ρ c (Proc.devRef .tc main_v1) = Terms.src (m ((c : Thread nD τ).loc main_arg1)) :=
  (W20_of_ne m ρ c main_v1 (by decide)).trans (at19_v1 m ρ c)
theorem at20_v3 : W20 m ρ c (Proc.devRef .tc main_v3) = Terms.dst (m ((c : Thread nD τ).loc main_arg1)) :=
  (W20_of_ne m ρ c main_v3 (by decide)).trans (at19_v3 m ρ c)
theorem at20_v31 : W20 m ρ c (Proc.devRef .tc main_v31) = Terms.enorm (Terms.src (m ((c : Thread nD τ).loc main_arg1))) (Terms.dst (m ((c : Thread nD τ).loc main_arg1))) :=
  (W20_of_ne m ρ c main_v31 (by decide)).trans (at19_v31 m ρ c)
theorem at20_v33 : W20 m ρ c (Proc.devRef .tc main_v33) = Terms.selfn (Terms.dst (m ((c : Thread nD τ).loc main_arg1))) :=
  (W20_of_ne m ρ c main_v33 (by decide)).trans (at19_v33 m ρ c)
theorem at21_arg2 : W21 m ρ c (Proc.devRef .tc main_arg2) = m ((c : Thread nD τ).loc main_arg2) :=
  (by host_keep hostOps10 : W21 m ρ c (Proc.devRef .tc main_arg2) = W20 m ρ c (Proc.devRef .tc main_arg2)).trans (at20_arg2 m ρ c)
theorem at21_arg3 : W21 m ρ c (Proc.devRef .tc main_arg3) = m ((c : Thread nD τ).loc main_arg3) :=
  (by host_keep hostOps10 : W21 m ρ c (Proc.devRef .tc main_arg3) = W20 m ρ c (Proc.devRef .tc main_arg3)).trans (at20_arg3 m ρ c)
theorem at21_arg4 : W21 m ρ c (Proc.devRef .tc main_arg4) = m ((c : Thread nD τ).loc main_arg4) :=
  (by host_keep hostOps10 : W21 m ρ c (Proc.devRef .tc main_arg4) = W20 m ρ c (Proc.devRef .tc main_arg4)).trans (at20_arg4 m ρ c)
theorem at21_arg5 : W21 m ρ c (Proc.devRef .tc main_arg5) = m ((c : Thread nD τ).loc main_arg5) :=
  (by host_keep hostOps10 : W21 m ρ c (Proc.devRef .tc main_arg5) = W20 m ρ c (Proc.devRef .tc main_arg5)).trans (at20_arg5 m ρ c)
theorem at21_v1 : W21 m ρ c (Proc.devRef .tc main_v1) = Terms.src (m ((c : Thread nD τ).loc main_arg1)) :=
  (by host_keep hostOps10 : W21 m ρ c (Proc.devRef .tc main_v1) = W20 m ρ c (Proc.devRef .tc main_v1)).trans (at20_v1 m ρ c)
theorem at21_v3 : W21 m ρ c (Proc.devRef .tc main_v3) = Terms.dst (m ((c : Thread nD τ).loc main_arg1)) :=
  (by host_keep hostOps10 : W21 m ρ c (Proc.devRef .tc main_v3) = W20 m ρ c (Proc.devRef .tc main_v3)).trans (at20_v3 m ρ c)
theorem at21_v31 : W21 m ρ c (Proc.devRef .tc main_v31) = Terms.enorm (Terms.src (m ((c : Thread nD τ).loc main_arg1))) (Terms.dst (m ((c : Thread nD τ).loc main_arg1))) :=
  (by host_keep hostOps10 : W21 m ρ c (Proc.devRef .tc main_v31) = W20 m ρ c (Proc.devRef .tc main_v31)).trans (at20_v31 m ρ c)
theorem at21_v33 : W21 m ρ c (Proc.devRef .tc main_v33) = Terms.selfn (Terms.dst (m ((c : Thread nD τ).loc main_arg1))) :=
  (by host_keep hostOps10 : W21 m ρ c (Proc.devRef .tc main_v33) = W20 m ρ c (Proc.devRef .tc main_v33)).trans (at20_v33 m ρ c)
theorem at22_arg2 : W22 m ρ c (Proc.devRef .tc main_arg2) = m ((c : Thread nD τ).loc main_arg2) :=
  (W22_of_ne m ρ c main_arg2 (by decide)).trans (at21_arg2 m ρ c)
theorem at22_arg3 : W22 m ρ c (Proc.devRef .tc main_arg3) = m ((c : Thread nD τ).loc main_arg3) :=
  (W22_of_ne m ρ c main_arg3 (by decide)).trans (at21_arg3 m ρ c)
theorem at22_arg4 : W22 m ρ c (Proc.devRef .tc main_arg4) = m ((c : Thread nD τ).loc main_arg4) :=
  (W22_of_ne m ρ c main_arg4 (by decide)).trans (at21_arg4 m ρ c)
theorem at22_arg5 : W22 m ρ c (Proc.devRef .tc main_arg5) = m ((c : Thread nD τ).loc main_arg5) :=
  (W22_of_ne m ρ c main_arg5 (by decide)).trans (at21_arg5 m ρ c)
theorem at22_v1 : W22 m ρ c (Proc.devRef .tc main_v1) = Terms.src (m ((c : Thread nD τ).loc main_arg1)) :=
  (W22_of_ne m ρ c main_v1 (by decide)).trans (at21_v1 m ρ c)
theorem at22_v3 : W22 m ρ c (Proc.devRef .tc main_v3) = Terms.dst (m ((c : Thread nD τ).loc main_arg1)) :=
  (W22_of_ne m ρ c main_v3 (by decide)).trans (at21_v3 m ρ c)
theorem at22_v31 : W22 m ρ c (Proc.devRef .tc main_v31) = Terms.enorm (Terms.src (m ((c : Thread nD τ).loc main_arg1))) (Terms.dst (m ((c : Thread nD τ).loc main_arg1))) :=
  (W22_of_ne m ρ c main_v31 (by decide)).trans (at21_v31 m ρ c)
theorem at22_v33 : W22 m ρ c (Proc.devRef .tc main_v33) = Terms.selfn (Terms.dst (m ((c : Thread nD τ).loc main_arg1))) :=
  ((W22_arr m ρ c 2).trans (((dat10 (V21 m ρ) c).arrAt_in 2 rfl _).trans (A_eq10 (V21 m ρ) c 2))).trans (at21_v33 m ρ c)
theorem at23_arg2 : W23 m ρ c (Proc.devRef .tc main_arg2) = m ((c : Thread nD τ).loc main_arg2) :=
  (by host_keep hostOps11 : W23 m ρ c (Proc.devRef .tc main_arg2) = W22 m ρ c (Proc.devRef .tc main_arg2)).trans (at22_arg2 m ρ c)
theorem at23_arg3 : W23 m ρ c (Proc.devRef .tc main_arg3) = m ((c : Thread nD τ).loc main_arg3) :=
  (by host_keep hostOps11 : W23 m ρ c (Proc.devRef .tc main_arg3) = W22 m ρ c (Proc.devRef .tc main_arg3)).trans (at22_arg3 m ρ c)
theorem at23_arg4 : W23 m ρ c (Proc.devRef .tc main_arg4) = m ((c : Thread nD τ).loc main_arg4) :=
  (by host_keep hostOps11 : W23 m ρ c (Proc.devRef .tc main_arg4) = W22 m ρ c (Proc.devRef .tc main_arg4)).trans (at22_arg4 m ρ c)
theorem at23_arg5 : W23 m ρ c (Proc.devRef .tc main_arg5) = m ((c : Thread nD τ).loc main_arg5) :=
  (by host_keep hostOps11 : W23 m ρ c (Proc.devRef .tc main_arg5) = W22 m ρ c (Proc.devRef .tc main_arg5)).trans (at22_arg5 m ρ c)
theorem at23_v1 : W23 m ρ c (Proc.devRef .tc main_v1) = Terms.src (m ((c : Thread nD τ).loc main_arg1)) :=
  (by host_keep hostOps11 : W23 m ρ c (Proc.devRef .tc main_v1) = W22 m ρ c (Proc.devRef .tc main_v1)).trans (at22_v1 m ρ c)
theorem at23_v3 : W23 m ρ c (Proc.devRef .tc main_v3) = Terms.dst (m ((c : Thread nD τ).loc main_arg1)) :=
  (by host_keep hostOps11 : W23 m ρ c (Proc.devRef .tc main_v3) = W22 m ρ c (Proc.devRef .tc main_v3)).trans (at22_v3 m ρ c)
theorem at23_v31 : W23 m ρ c (Proc.devRef .tc main_v31) = Terms.enorm (Terms.src (m ((c : Thread nD τ).loc main_arg1))) (Terms.dst (m ((c : Thread nD τ).loc main_arg1))) :=
  (by host_keep hostOps11 : W23 m ρ c (Proc.devRef .tc main_v31) = W22 m ρ c (Proc.devRef .tc main_v31)).trans (at22_v31 m ρ c)
theorem at23_v33 : W23 m ρ c (Proc.devRef .tc main_v33) = Terms.selfn (Terms.dst (m ((c : Thread nD τ).loc main_arg1))) :=
  (by host_keep hostOps11 : W23 m ρ c (Proc.devRef .tc main_v33) = W22 m ρ c (Proc.devRef .tc main_v33)).trans (at22_v33 m ρ c)

end Cert.KernelIdeal.Fold
end
-- ==== Proof.RegionMatmul0.lean ====
/-
  Region 0: a product of the node features with a 64 × 64 matrix, computed block by block.

  The 100000 rows are cut into 20 blocks of 5000 rows. At grid point t the body reads rows 5000·t … 5000·t + 4999 of the
  features and the whole matrix, and writes the product of the two into the same rows of the result. Entry (p, q) of a
  block's product is the sum over k of (block row p, k) · (matrix k, q); row p of block t is row 5000·t + p of the
  array; every row r lies in block r / 5000. Hence the result array is the product of the two arrays as the region
  found them.
-/
import proofs.«123589_j55817394979590_1_alg».proof.Proof.Gen.KernelIdeal.Frame
import proofs.«123589_j55817394979590_1_alg».proof.Proof.Spec
import Idealize.ShloMosaic.Lib.ValueIdx
import Idealize.ShloMosaic.Lib.Pipeline.Value
import Idealize.ShloMosaic.PureOps.Ideal.Laws

noncomputable section

namespace Cert.Bridge.Matmul0

open Cert.KernelIdeal Cert.KernelIdeal.Gen Idealize.ShloMosaic Idealize.ShloMosaic.TcCoe Idealize.SL.Sem
open Idealize.ShloMosaic.ValueIdx
open Idealize.ShloMosaic.Pipeline (Dat)

/-! ## The body's product at an entry -/

/-- The left operand's index at output entry i and contraction index k keeps the row of i … -/
theorem lhs_row (i : S5000x64.Idx) (k : dot_S5000x64_S64x64_S5000x64_1_0_0_1_n_n.contr.Idx) :
    (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and the right operand's keeps the column of i. -/
theorem rhs_col (i : S5000x64.Idx) (k : dot_S5000x64_S64x64_S5000x64_1_0_0_1_n_n.contr.Idx) :
    (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (p, q) of the body's result: the change of float format is the identity on extended reals, the accumulator is
    the zero splat, so what is left is the sum over the 64 contraction indices. -/
theorem pay_apply (x0 : Vec Ideal S5000x64 .f32) (x1 : Vec Ideal S64x64 .f32) (p : Fin 5000) (q : Fin 64) :
    k0_pay1 (F := Ideal) x0 x1 (ix2 p q) = ∑ k : Fin 64, x0 (ix2 p k) * x1 (ix2 k q) := by
  unfold k0_pay1
  rw [shapeCast_self]
  show FloatOps.matmul dot_S5000x64_S64x64_S5000x64_1_0_0_1_n_n none _ _ (constant S5000x64 .f32 0x00000000#32) (ix2 p q) = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_row _ _
    | ⟨1, _⟩ => exact (dot_S5000x64_S64x64_S5000x64_1_0_0_1_n_n.lhsIdx_val_of_single rfl _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (dot_S5000x64_S64x64_S5000x64_1_0_0_1_n_n.rhsIdx_val_of_single rfl _ _).trans hk
    | ⟨1, _⟩ => exact rhs_col _ _)
  rw [el, er]
  rfl

/-! ## What the body leaves in the output block -/

theorem hz : (![0, 0] : Fin 2 → Nat) = fun _ => 0 := funext fun a => by fin_cases a <;> rfl

/-- The body loads its two whole blocks and stores one whole block: the block it leaves is its product. -/
theorem out_eq (x0 : Vec Ideal S5000x64 .f32) (x1 : Vec Ideal S64x64 .f32) :
    out0_2 (F := Ideal) x0 x1 = k0_pay1 (F := Ideal) x0 x1 := by
  unfold out0_2
  rw [View.canon_unit_zero hz]
  simp only [View.ld_unit_zero (S := S5000x64) hz, View.ld_unit_zero (S := S64x64) hz]

/-! ## The blocks as parts of the arrays -/

/-- The printed index maps over the grid: the feature block and the result block at point t are block (t, 0), the matrix
    block is always block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## What point t writes back -/

/-- Entry j of the block point t leaves is the product's entry at the place of j in the array: the feature block's row
    is the array's row 5000·t + (row of j), the matrix block is the matrix. -/
theorem block_apply (V : (c : Dev nD) → (b : Ref sig .tc) → Buf (Elt Ideal) ((c : Thread nD τ).loc b)) (c : Dev nD)
    (t : Fin cfg0.N) (j : S5000x64.Idx) :
    k0_pay1 (F := Ideal) (iblk0 V c 0 t) (iblk0 V c 1 t) j
      = Cert.Spec.mm (V c (Pipeline.arrRef spec0 0)) (V c (Pipeline.arrRef spec0 1)) (((cfg0.win 2).blk t).view.emb j) := by
  obtain ⟨p, q, rfl⟩ : ∃ (p : Fin 5000) (q : Fin 64), j = ix2 p q := ⟨j 0, j 1, eq_ix2 j⟩
  refine (pay_apply _ _ p q).trans ?_
  obtain ⟨e0, e1, e2, e3, e4, e5⟩ := idx_facts t
  unfold Cert.Spec.mm
  refine Finset.sum_congr rfl fun k _ => ?_
  refine congrArg₂ (· * ·) ?_ ?_
  · show V c (Pipeline.arrRef spec0 0) (((cfg0.win 0).blk t).view.emb (ix2 p k))
      = V c (Pipeline.arrRef spec0 0) (ix2 (Cert.Spec.rowOf (((cfg0.win 2).blk t).view.emb (ix2 p q))) k)
    congr 1
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 64 + 1 * k.val = k.val; omega
  · show V c (Pipeline.arrRef spec0 1) (((cfg0.win 1).blk t).view.emb (ix2 k q))
      = V c (Pipeline.arrRef spec0 1) (ix2 k (Cert.Spec.chanOf (((cfg0.win 2).blk t).view.emb (ix2 p q))))
    congr 1
    funext a; apply Fin.ext
    match a with
    | ⟨0, _⟩ => show win0_1.index t (0 : Fin 2) * 64 + 1 * k.val = k.val; omega
    | ⟨1, _⟩ => show win0_1.index t (1 : Fin 2) * 64 + 1 * q.val = win0_2.index t (1 : Fin 2) * 64 + 1 * q.val; omega

/-- What point t writes back is block t of the product of the two arrays as the region found them. -/
theorem flushed_eq (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal)
          (Cert.Spec.mm (V c (Pipeline.arrRef spec0 0)) (V c (Pipeline.arrRef spec0 1))) := by
  show (cfg0.win 2).cut (grid0.coords t) ((dat0 V c).after 2 t) = _
  rw [after0_2, out_eq]
  funext j
  exact block_apply V c t j

/-! ## The blocks cover the array -/

/-- An index of the array is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole (Pipeline.arrRef spec0 2)).slice (win0_2.rect t)).set ↔ _
  rw [View.set_slice_whole, Rect.mem_set_unit]
  exact Iff.rfl

/-- Row r lies in the block of point r / 5000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, by show (i 0).val / 5000 < grid0.N; rw [N_0]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-! ## The array after the region -/

/-- After all 20 points the result array is the product of the feature array and the matrix as the region found them. -/
theorem arr0_2 (V : (c : Dev nD) → (b : Ref sig .tc) → Buf (Elt Ideal) ((c : Thread nD τ).loc b)) (c : Dev nD) :
    (Cert.KernelIdeal.Gen.dat0 (F := Ideal) V c).arrAt 2 cfg0.N
      = Cert.Spec.mm (V c (Pipeline.arrRef spec0 0)) (V c (Pipeline.arrRef spec0 1)) :=
  (dat0 (F := Ideal) V c).arrAt_eq_of_cover 2 _ (fun t _ => flushed_eq V c t) cover

end Cert.Bridge.Matmul0

end
-- ==== Proof.RegionMatmul3.lean ====
/-
  Region 3: a product of the node features with a 64 × 64 matrix, computed block by block.

  The 100000 rows are cut into 20 blocks of 5000 rows. At grid point t the body reads rows 5000·t … 5000·t + 4999 of the
  features and the whole matrix, and writes the product of the two into the same rows of the result. Entry (p, q) of a
  block's product is the sum over k of (block row p, k) · (matrix k, q); row p of block t is row 5000·t + p of the
  array; every row r lies in block r / 5000. Hence the result array is the product of the two arrays as the region
  found them.
-/
import proofs.«123589_j55817394979590_1_alg».proof.Proof.Gen.KernelIdeal.Frame
import proofs.«123589_j55817394979590_1_alg».proof.Proof.Spec
import Idealize.ShloMosaic.Lib.ValueIdx
import Idealize.ShloMosaic.Lib.Pipeline.Value
import Idealize.ShloMosaic.PureOps.Ideal.Laws

noncomputable section

namespace Cert.Bridge.Matmul3

open Cert.KernelIdeal Cert.KernelIdeal.Gen Idealize.ShloMosaic Idealize.ShloMosaic.TcCoe Idealize.SL.Sem
open Idealize.ShloMosaic.ValueIdx
open Idealize.ShloMosaic.Pipeline (Dat)

/-! ## The body's product at an entry -/

/-- The left operand's index at output entry i and contraction index k keeps the row of i … -/
theorem lhs_row (i : S5000x64.Idx) (k : dot_S5000x64_S64x64_S5000x64_1_0_0_1_n_n.contr.Idx) :
    (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and the right operand's keeps the column of i. -/
theorem rhs_col (i : S5000x64.Idx) (k : dot_S5000x64_S64x64_S5000x64_1_0_0_1_n_n.contr.Idx) :
    (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (p, q) of the body's result: the change of float format is the identity on extended reals, the accumulator is
    the zero splat, so what is left is the sum over the 64 contraction indices. -/
theorem pay_apply (x0 : Vec Ideal S5000x64 .f32) (x1 : Vec Ideal S64x64 .f32) (p : Fin 5000) (q : Fin 64) :
    k3_pay1 (F := Ideal) x0 x1 (ix2 p q) = ∑ k : Fin 64, x0 (ix2 p k) * x1 (ix2 k q) := by
  unfold k3_pay1
  rw [shapeCast_self, shapeCast_self]
  show FloatOps.matmul dot_S5000x64_S64x64_S5000x64_1_0_0_1_n_n none _ _ (constant S5000x64 .f32 0x00000000#32) (ix2 p q) = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_row _ _
    | ⟨1, _⟩ => exact (dot_S5000x64_S64x64_S5000x64_1_0_0_1_n_n.lhsIdx_val_of_single rfl _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (dot_S5000x64_S64x64_S5000x64_1_0_0_1_n_n.rhsIdx_val_of_single rfl _ _).trans hk
    | ⟨1, _⟩ => exact rhs_col _ _)
  rw [el, er]
  rfl

/-! ## What the body leaves in the output block -/

theorem hz : (![0, 0] : Fin 2 → Nat) = fun _ => 0 := funext fun a => by fin_cases a <;> rfl

/-- The body loads its two whole blocks and stores one whole block: the block it leaves is its product. -/
theorem out_eq (x0 : Vec Ideal S5000x64 .f32) (x1 : Vec Ideal S64x64 .f32) :
    out3_2 (F := Ideal) x0 x1 = k3_pay1 (F := Ideal) x0 x1 := by
  unfold out3_2
  rw [View.canon_unit_zero hz]
  simp only [View.ld_unit_zero (S := S5000x64) hz, View.ld_unit_zero (S := S64x64) hz]

/-! ## The blocks as parts of the arrays -/

/-- The printed index maps over the grid: the feature block and the result block at point t are block (t, 0), the matrix
    block is always block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-! ## What point t writes back -/

/-- Entry j of the block point t leaves is the product's entry at the place of j in the array: the feature block's row
    is the array's row 5000·t + (row of j), the matrix block is the matrix. -/
theorem block_apply (V : (c : Dev nD) → (b : Ref sig .tc) → Buf (Elt Ideal) ((c : Thread nD τ).loc b)) (c : Dev nD)
    (t : Fin cfg3.N) (j : S5000x64.Idx) :
    k3_pay1 (F := Ideal) (iblk3 V c 0 t) (iblk3 V c 1 t) j
      = Cert.Spec.mm (V c (Pipeline.arrRef spec3 0)) (V c (Pipeline.arrRef spec3 1)) (((cfg3.win 2).blk t).view.emb j) := by
  obtain ⟨p, q, rfl⟩ : ∃ (p : Fin 5000) (q : Fin 64), j = ix2 p q := ⟨j 0, j 1, eq_ix2 j⟩
  refine (pay_apply _ _ p q).trans ?_
  obtain ⟨e0, e1, e2, e3, e4, e5⟩ := idx_facts t
  unfold Cert.Spec.mm
  refine Finset.sum_congr rfl fun k _ => ?_
  refine congrArg₂ (· * ·) ?_ ?_
  · show V c (Pipeline.arrRef spec3 0) (((cfg3.win 0).blk t).view.emb (ix2 p k))
      = V c (Pipeline.arrRef spec3 0) (ix2 (Cert.Spec.rowOf (((cfg3.win 2).blk t).view.emb (ix2 p q))) k)
    congr 1
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 64 + 1 * k.val = k.val; omega
  · show V c (Pipeline.arrRef spec3 1) (((cfg3.win 1).blk t).view.emb (ix2 k q))
      = V c (Pipeline.arrRef spec3 1) (ix2 k (Cert.Spec.chanOf (((cfg3.win 2).blk t).view.emb (ix2 p q))))
    congr 1
    funext a; apply Fin.ext
    match a with
    | ⟨0, _⟩ => show win3_1.index t (0 : Fin 2) * 64 + 1 * k.val = k.val; omega
    | ⟨1, _⟩ => show win3_1.index t (1 : Fin 2) * 64 + 1 * q.val = win3_2.index t (1 : Fin 2) * 64 + 1 * q.val; omega

/-- What point t writes back is block t of the product of the two arrays as the region found them. -/
theorem flushed_eq (V : (c : Dev nD) → (b : Ref sig .tc) → Buf (Elt Ideal) ((c : Thread nD τ).loc b)) (c : Dev nD)
    (t : Fin cfg3.N) :
    (dat3 (F := Ideal) V c).flushed 2 t
      = ((cfg3.win 2).blk t).view.read (Elt Ideal)
          (Cert.Spec.mm (V c (Pipeline.arrRef spec3 0)) (V c (Pipeline.arrRef spec3 1))) := by
  show (cfg3.win 2).cut (grid3.coords t) ((dat3 V c).after 2 t) = _
  rw [after3_2, out_eq]
  funext j
  exact block_apply V c t j

/-! ## The blocks cover the array -/

/-- An index of the array is in point t's block iff each coordinate is in the block's range on its axis. -/
theorem mem_blk (t : Fin cfg3.N) (i : S100000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole (Pipeline.arrRef spec3 2)).slice (win3_2.rect t)).set ↔ _
  rw [View.set_slice_whole, Rect.mem_set_unit]
  exact Iff.rfl

/-- Row r lies in the block of point r / 5000. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ : ∃ t : Fin cfg3.N, t.val = (i 0).val / 5000 :=
    ⟨⟨(i 0).val / 5000, by show (i 0).val / 5000 < grid3.N; rw [N_3]; omega⟩, rfl⟩
  obtain ⟨e0, e1, e2, e3, e4, e5⟩ := idx_facts t
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-! ## The array after the region -/

/-- After all 20 points the result array is the product of the feature array and the matrix as the region found them. -/
theorem arr3_2 (V : (c : Dev nD) → (b : Ref sig .tc) → Buf (Elt Ideal) ((c : Thread nD τ).loc b)) (c : Dev nD) :
    (Cert.KernelIdeal.Gen.dat3 (F := Ideal) V c).arrAt 2 cfg3.N
      = Cert.Spec.mm (V c (Pipeline.arrRef spec3 0)) (V c (Pipeline.arrRef spec3 1)) :=
  (dat3 (F := Ideal) V c).arrAt_eq_of_cover 2 _ (fun t _ => flushed_eq V c t) cover

end Cert.Bridge.Matmul3

end
-- ==== Proof.RegionMatmul6.lean ====
/-
  Region 6: a product of the node features with a 64 × 64 matrix, computed block by block.

  The 100000 rows are cut into 20 blocks of 5000 rows. At grid point t the body reads rows 5000·t … 5000·t + 4999 of the
  features and the whole matrix, and writes the product of the two into the same rows of the result. Entry (p, q) of a
  block's product is the sum over k of (block row p, k) · (matrix k, q); row p of block t is row 5000·t + p of the
  array; every row r lies in block r / 5000. Hence the result array is the product of the two arrays as the region
  found them.
-/
import proofs.«123589_j55817394979590_1_alg».proof.Proof.Gen.KernelIdeal.Frame
import proofs.«123589_j55817394979590_1_alg».proof.Proof.Spec
import Idealize.ShloMosaic.Lib.ValueIdx
import Idealize.ShloMosaic.Lib.Pipeline.Value
import Idealize.ShloMosaic.PureOps.Ideal.Laws

noncomputable section

namespace Cert.Bridge.Matmul6

open Cert.KernelIdeal Cert.KernelIdeal.Gen Idealize.ShloMosaic Idealize.ShloMosaic.TcCoe Idealize.SL.Sem
open Idealize.ShloMosaic.ValueIdx
open Idealize.ShloMosaic.Pipeline (Dat)

/-! ## The body's product at an entry -/

/-- The left operand's index at output entry i and contraction index k keeps the row of i … -/
theorem lhs_row (i : S5000x64.Idx) (k : dot_S5000x64_S64x64_S5000x64_1_0_0_1_n_n.contr.Idx) :
    (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and the right operand's keeps the column of i. -/
theorem rhs_col (i : S5000x64.Idx) (k : dot_S5000x64_S64x64_S5000x64_1_0_0_1_n_n.contr.Idx) :
    (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (p, q) of the body's result: the change of float format is the identity on extended reals, the accumulator is
    the zero splat, so what is left is the sum over the 64 contraction indices. -/
theorem pay_apply (x0 : Vec Ideal S5000x64 .f32) (x1 : Vec Ideal S64x64 .f32) (p : Fin 5000) (q : Fin 64) :
    k6_pay1 (F := Ideal) x0 x1 (ix2 p q) = ∑ k : Fin 64, x0 (ix2 p k) * x1 (ix2 k q) := by
  unfold k6_pay1
  rw [shapeCast_self, shapeCast_self]
  show FloatOps.matmul dot_S5000x64_S64x64_S5000x64_1_0_0_1_n_n none _ _ (constant S5000x64 .f32 0x00000000#32) (ix2 p q) = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_row _ _
    | ⟨1, _⟩ => exact (dot_S5000x64_S64x64_S5000x64_1_0_0_1_n_n.lhsIdx_val_of_single rfl _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (dot_S5000x64_S64x64_S5000x64_1_0_0_1_n_n.rhsIdx_val_of_single rfl _ _).trans hk
    | ⟨1, _⟩ => exact rhs_col _ _)
  rw [el, er]
  rfl

/-! ## What the body leaves in the output block -/

theorem hz : (![0, 0] : Fin 2 → Nat) = fun _ => 0 := funext fun a => by fin_cases a <;> rfl

/-- The body loads its two whole blocks and stores one whole block: the block it leaves is its product. -/
theorem out_eq (x0 : Vec Ideal S5000x64 .f32) (x1 : Vec Ideal S64x64 .f32) :
    out6_2 (F := Ideal) x0 x1 = k6_pay1 (F := Ideal) x0 x1 := by
  unfold out6_2
  rw [View.canon_unit_zero hz]
  simp only [View.ld_unit_zero (S := S5000x64) hz, View.ld_unit_zero (S := S64x64) hz]

/-! ## The blocks as parts of the arrays -/

/-- The printed index maps over the grid: the feature block and the result block at point t are block (t, 0), the matrix
    block is always block (0, 0). -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-! ## What point t writes back -/

/-- Entry j of the block point t leaves is the product's entry at the place of j in the array: the feature block's row
    is the array's row 5000·t + (row of j), the matrix block is the matrix. -/
theorem block_apply (V : (c : Dev nD) → (b : Ref sig .tc) → Buf (Elt Ideal) ((c : Thread nD τ).loc b)) (c : Dev nD)
    (t : Fin cfg6.N) (j : S5000x64.Idx) :
    k6_pay1 (F := Ideal) (iblk6 V c 0 t) (iblk6 V c 1 t) j
      = Cert.Spec.mm (V c (Pipeline.arrRef spec6 0)) (V c (Pipeline.arrRef spec6 1)) (((cfg6.win 2).blk t).view.emb j) := by
  obtain ⟨p, q, rfl⟩ : ∃ (p : Fin 5000) (q : Fin 64), j = ix2 p q := ⟨j 0, j 1, eq_ix2 j⟩
  refine (pay_apply _ _ p q).trans ?_
  obtain ⟨e0, e1, e2, e3, e4, e5⟩ := idx_facts t
  unfold Cert.Spec.mm
  refine Finset.sum_congr rfl fun k _ => ?_
  refine congrArg₂ (· * ·) ?_ ?_
  · show V c (Pipeline.arrRef spec6 0) (((cfg6.win 0).blk t).view.emb (ix2 p k))
      = V c (Pipeline.arrRef spec6 0) (ix2 (Cert.Spec.rowOf (((cfg6.win 2).blk t).view.emb (ix2 p q))) k)
    congr 1
    funext a; apply Fin.ext
    match a with
    | ⟨0, _⟩ => show win6_0.index t (0 : Fin 2) * 5000 + 1 * p.val = win6_2.index t (0 : Fin 2) * 5000 + 1 * p.val; omega
    | ⟨1, _⟩ => show win6_0.index t (1 : Fin 2) * 64 + 1 * k.val = k.val; omega
  · show V c (Pipeline.arrRef spec6 1) (((cfg6.win 1).blk t).view.emb (ix2 k q))
      = V c (Pipeline.arrRef spec6 1) (ix2 k (Cert.Spec.chanOf (((cfg6.win 2).blk t).view.emb (ix2 p q))))
    congr 1
    funext a; apply Fin.ext
    match a with
    | ⟨0, _⟩ => show win6_1.index t (0 : Fin 2) * 64 + 1 * k.val = k.val; omega
    | ⟨1, _⟩ => show win6_1.index t (1 : Fin 2) * 64 + 1 * q.val = win6_2.index t (1 : Fin 2) * 64 + 1 * q.val; omega

/-- What point t writes back is block t of the product of the two arrays as the region found them. -/
theorem flushed_eq (V : (c : Dev nD) → (b : Ref sig .tc) → Buf (Elt Ideal) ((c : Thread nD τ).loc b)) (c : Dev nD)
    (t : Fin cfg6.N) :
    (dat6 (F := Ideal) V c).flushed 2 t
      = ((cfg6.win 2).blk t).view.read (Elt Ideal)
          (Cert.Spec.mm (V c (Pipeline.arrRef spec6 0)) (V c (Pipeline.arrRef spec6 1))) := by
  show (cfg6.win 2).cut (grid6.coords t) ((dat6 V c).after 2 t) = _
  rw [after6_2, out_eq]
  funext j
  exact block_apply V c t j

/-! ## The blocks cover the array -/

/-- An index of the array is in point t's block iff each coordinate is in the block's range on its axis. -/
theorem mem_blk (t : Fin cfg6.N) (i : S100000x64.Idx) :
    i ∈ ((cfg6.win 2).blk t).view.set ↔ ∀ a : Fin 2, win6_2.index t a * S5000x64.size a ≤ (i a).val
      ∧ (i a).val < win6_2.index t a * S5000x64.size a + S5000x64.size a := by
  show i ∈ ((View.whole (Pipeline.arrRef spec6 2)).slice (win6_2.rect t)).set ↔ _
  rw [View.set_slice_whole, Rect.mem_set_unit]
  exact Iff.rfl

/-- Row r lies in the block of point r / 5000. -/
theorem cover (i : S100000x64.Idx) :
    ∃ t : Fin cfg6.N, (cfg6.win 2).flush t = true ∧ i ∈ ((cfg6.win 2).blk t).view.set := by
  have hi0 : (i 0).val < 100000 := (i 0).isLt
  have hi1 : (i 1).val < 64 := (i 1).isLt
  obtain ⟨t, ht⟩ : ∃ t : Fin cfg6.N, t.val = (i 0).val / 5000 :=
    ⟨⟨(i 0).val / 5000, by show (i 0).val / 5000 < grid6.N; rw [N_6]; omega⟩, rfl⟩
  obtain ⟨e0, e1, e2, e3, e4, e5⟩ := idx_facts t
  refine ⟨t, flush6_2 t, ?_⟩
  rw [mem_blk]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 64 ≤ (i 1).val ∧ (i 1).val < win6_2.index t (1 : Fin 2) * 64 + 64; omega

/-! ## The array after the region -/

/-- After all 20 points the result array is the product of the feature array and the matrix as the region found them. -/
theorem arr6_2 (V : (c : Dev nD) → (b : Ref sig .tc) → Buf (Elt Ideal) ((c : Thread nD τ).loc b)) (c : Dev nD) :
    (Cert.KernelIdeal.Gen.dat6 (F := Ideal) V c).arrAt 2 cfg6.N
      = Cert.Spec.mm (V c (Pipeline.arrRef spec6 0)) (V c (Pipeline.arrRef spec6 1)) :=
  (dat6 (F := Ideal) V c).arrAt_eq_of_cover 2 _ (fun t _ => flushed_eq V c t) cover

end Cert.Bridge.Matmul6

end
-- ==== Proof.RegionMatmul9.lean ====
/-
  Region 9: a product of the node features with a 64 × 64 matrix, computed block by block.

  The 100000 rows are cut into 20 blocks of 5000 rows. At grid point t the body reads rows 5000·t … 5000·t + 4999 of the
  features and the whole matrix, and writes the product of the two into the same rows of the result. Entry (p, q) of a
  block's product is the sum over k of (block row p, k) · (matrix k, q); row p of block t is row 5000·t + p of the
  array; every row r lies in block r / 5000. Hence the result array is the product of the two arrays as the region
  found them.
-/
import proofs.«123589_j55817394979590_1_alg».proof.Proof.Gen.KernelIdeal.Frame
import proofs.«123589_j55817394979590_1_alg».proof.Proof.Spec
import Idealize.ShloMosaic.Lib.ValueIdx
import Idealize.ShloMosaic.Lib.Pipeline.Value
import Idealize.ShloMosaic.PureOps.Ideal.Laws

noncomputable section

namespace Cert.Bridge.Matmul9

open Cert.KernelIdeal Cert.KernelIdeal.Gen Idealize.ShloMosaic Idealize.ShloMosaic.TcCoe Idealize.SL.Sem
open Idealize.ShloMosaic.ValueIdx
open Idealize.ShloMosaic.Pipeline (Dat)

/-! ## The body's product at an entry -/

/-- The left operand's index at output entry i and contraction index k keeps the row of i … -/
theorem lhs_row (i : S5000x64.Idx) (k : dot_S5000x64_S64x64_S5000x64_1_0_0_1_n_n.contr.Idx) :
    (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and the right operand's keeps the column of i. -/
theorem rhs_col (i : S5000x64.Idx) (k : dot_S5000x64_S64x64_S5000x64_1_0_0_1_n_n.contr.Idx) :
    (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (p, q) of the body's result: the change of float format is the identity on extended reals, the accumulator is
    the zero splat, so what is left is the sum over the 64 contraction indices. -/
theorem pay_apply (x0 : Vec Ideal S5000x64 .f32) (x1 : Vec Ideal S64x64 .f32) (p : Fin 5000) (q : Fin 64) :
    k9_pay1 (F := Ideal) x0 x1 (ix2 p q) = ∑ k : Fin 64, x0 (ix2 p k) * x1 (ix2 k q) := by
  unfold k9_pay1
  rw [shapeCast_self, shapeCast_self]
  show FloatOps.matmul dot_S5000x64_S64x64_S5000x64_1_0_0_1_n_n none _ _ (constant S5000x64 .f32 0x00000000#32) (ix2 p q) = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_row _ _
    | ⟨1, _⟩ => exact (dot_S5000x64_S64x64_S5000x64_1_0_0_1_n_n.lhsIdx_val_of_single rfl _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (dot_S5000x64_S64x64_S5000x64_1_0_0_1_n_n.rhsIdx_val_of_single rfl _ _).trans hk
    | ⟨1, _⟩ => exact rhs_col _ _)
  rw [el, er]
  rfl

/-! ## What the body leaves in the output block -/

theorem hz : (![0, 0] : Fin 2 → Nat) = fun _ => 0 := funext fun a => by fin_cases a <;> rfl

/-- The body loads its two whole blocks and stores one whole block: the block it leaves is its product. -/
theorem out_eq (x0 : Vec Ideal S5000x64 .f32) (x1 : Vec Ideal S64x64 .f32) :
    out9_2 (F := Ideal) x0 x1 = k9_pay1 (F := Ideal) x0 x1 := by
  unfold out9_2
  rw [View.canon_unit_zero hz]
  simp only [View.ld_unit_zero (S := S5000x64) hz, View.ld_unit_zero (S := S64x64) hz]

/-! ## The blocks as parts of the arrays -/

/-- The printed index maps over the grid: the feature block and the result block at point t are block (t, 0), the matrix
    block is always block (0, 0). -/
theorem idx_facts : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-! ## What point t writes back -/

/-- Entry j of the block point t leaves is the product's entry at the place of j in the array: the feature block's row
    is the array's row 5000·t + (row of j), the matrix block is the matrix. -/
theorem block_apply (V : (c : Dev nD) → (b : Ref sig .tc) → Buf (Elt Ideal) ((c : Thread nD τ).loc b)) (c : Dev nD)
    (t : Fin cfg9.N) (j : S5000x64.Idx) :
    k9_pay1 (F := Ideal) (iblk9 V c 0 t) (iblk9 V c 1 t) j
      = Cert.Spec.mm (V c (Pipeline.arrRef spec9 0)) (V c (Pipeline.arrRef spec9 1)) (((cfg9.win 2).blk t).view.emb j) := by
  obtain ⟨p, q, rfl⟩ : ∃ (p : Fin 5000) (q : Fin 64), j = ix2 p q := ⟨j 0, j 1, eq_ix2 j⟩
  refine (pay_apply _ _ p q).trans ?_
  obtain ⟨e0, e1, e2, e3, e4, e5⟩ := idx_facts t
  unfold Cert.Spec.mm
  refine Finset.sum_congr rfl fun k _ => ?_
  refine congrArg₂ (· * ·) ?_ ?_
  · show V c (Pipeline.arrRef spec9 0) (((cfg9.win 0).blk t).view.emb (ix2 p k))
      = V c (Pipeline.arrRef spec9 0) (ix2 (Cert.Spec.rowOf (((cfg9.win 2).blk t).view.emb (ix2 p q))) k)
    congr 1
    funext a; apply Fin.ext
    match a with
    | ⟨0, _⟩ => show win9_0.index t (0 : Fin 2) * 5000 + 1 * p.val = win9_2.index t (0 : Fin 2) * 5000 + 1 * p.val; omega
    | ⟨1, _⟩ => show win9_0.index t (1 : Fin 2) * 64 + 1 * k.val = k.val; omega
  · show V c (Pipeline.arrRef spec9 1) (((cfg9.win 1).blk t).view.emb (ix2 k q))
      = V c (Pipeline.arrRef spec9 1) (ix2 k (Cert.Spec.chanOf (((cfg9.win 2).blk t).view.emb (ix2 p q))))
    congr 1
    funext a; apply Fin.ext
    match a with
    | ⟨0, _⟩ => show win9_1.index t (0 : Fin 2) * 64 + 1 * k.val = k.val; omega
    | ⟨1, _⟩ => show win9_1.index t (1 : Fin 2) * 64 + 1 * q.val = win9_2.index t (1 : Fin 2) * 64 + 1 * q.val; omega

/-- What point t writes back is block t of the product of the two arrays as the region found them. -/
theorem flushed_eq (V : (c : Dev nD) → (b : Ref sig .tc) → Buf (Elt Ideal) ((c : Thread nD τ).loc b)) (c : Dev nD)
    (t : Fin cfg9.N) :
    (dat9 (F := Ideal) V c).flushed 2 t
      = ((cfg9.win 2).blk t).view.read (Elt Ideal)
          (Cert.Spec.mm (V c (Pipeline.arrRef spec9 0)) (V c (Pipeline.arrRef spec9 1))) := by
  show (cfg9.win 2).cut (grid9.coords t) ((dat9 V c).after 2 t) = _
  rw [after9_2, out_eq]
  funext j
  exact block_apply V c t j

/-! ## The blocks cover the array -/

/-- An index of the array is in point t's block iff each coordinate is in the block's range on its axis. -/
theorem mem_blk (t : Fin cfg9.N) (i : S100000x64.Idx) :
    i ∈ ((cfg9.win 2).blk t).view.set ↔ ∀ a : Fin 2, win9_2.index t a * S5000x64.size a ≤ (i a).val
      ∧ (i a).val < win9_2.index t a * S5000x64.size a + S5000x64.size a := by
  show i ∈ ((View.whole (Pipeline.arrRef spec9 2)).slice (win9_2.rect t)).set ↔ _
  rw [View.set_slice_whole, Rect.mem_set_unit]
  exact Iff.rfl

/-- Row r lies in the block of point r / 5000. -/
theorem cover (i : S100000x64.Idx) :
    ∃ t : Fin cfg9.N, (cfg9.win 2).flush t = true ∧ i ∈ ((cfg9.win 2).blk t).view.set := by
  have hi0 : (i 0).val < 100000 := (i 0).isLt
  have hi1 : (i 1).val < 64 := (i 1).isLt
  obtain ⟨t, ht⟩ : ∃ t : Fin cfg9.N, t.val = (i 0).val / 5000 :=
    ⟨⟨(i 0).val / 5000, by show (i 0).val / 5000 < grid9.N; rw [N_9]; omega⟩, rfl⟩
  obtain ⟨e0, e1, e2, e3, e4, e5⟩ := idx_facts t
  refine ⟨t, flush9_2 t, ?_⟩
  rw [mem_blk]
  intro a
  match a with
  | ⟨0, _⟩ => show win9_2.index t (0 : Fin 2) * 5000 ≤ (i 0).val ∧ (i 0).val < win9_2.index t (0 : Fin 2) * 5000 + 5000; omega
  | ⟨1, _⟩ => show win9_2.index t (1 : Fin 2) * 64 ≤ (i 1).val ∧ (i 1).val < win9_2.index t (1 : Fin 2) * 64 + 64; omega

/-! ## The array after the region -/

/-- After all 20 points the result array is the product of the feature array and the matrix as the region found them. -/
theorem arr9_2 (V : (c : Dev nD) → (b : Ref sig .tc) → Buf (Elt Ideal) ((c : Thread nD τ).loc b)) (c : Dev nD) :
    (Cert.KernelIdeal.Gen.dat9 (F := Ideal) V c).arrAt 2 cfg9.N
      = Cert.Spec.mm (V c (Pipeline.arrRef spec9 0)) (V c (Pipeline.arrRef spec9 1)) :=
  (dat9 (F := Ideal) V c).arrAt_eq_of_cover 2 _ (fun t _ => flushed_eq V c t) cover

end Cert.Bridge.Matmul9

end
-- ==== Proof.RegionCombine1.lean ====
/-
  The second kernel of layer 0 — the aggregate with its self loop and bias, and the two running totals — read as values
  over the extended reals.

  The kernel walks the 100000 × 64 node array in 20 row blocks of 5000 rows. At block t it forms, entry by entry,
      a = (aggs + selfn · hw) + bias
  (the per-node factor selfn spread over the 64 channels, the per-channel bias spread over the rows), writes that block
  of a back, and adds the block's total Σ a and total of squares Σ a² to two 1 × 1 accumulators that it zeroes at the
  first block, carries from block to block, and writes back once, after the last block.

  What is proved, for ANY contents V of the buffers when the kernel starts: the aggregate's array ends holding
  a = comb hw aggs selfn bias of the four input arrays found in V; the total's array ends holding Σ over all
  6 400 000 entries of a; the array of the total of squares ends holding Σ a².

  The steps: the body's arithmetic read at an index (a pointwise formula; a lane sum followed by a row sum is the double
  sum over the block); each input block read where its window places it (row 5000·t + p); the carried accumulator after
  block n is the sum of the totals of blocks 0 … n, by induction on n, starting from the stored zero; and a sum over the
  100000 rows regroups as the sum over 20 blocks of sums over 5000 rows. Sums of extended reals commute and
  associate, so nothing here needs the entries to be finite.
-/
import proofs.«123589_j55817394979590_1_alg».proof.Proof.Gen.KernelIdeal.Frame
import proofs.«123589_j55817394979590_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Tactic

noncomputable section

namespace Cert.Combine1

open Idealize.ShloMosaic Idealize.ShloMosaic.TcCoe Idealize.ShloMosaic.ValueIdx Idealize.SL.Sem
open Idealize.ShloMosaic.Pipeline (Dat)
open Cert.KernelIdeal Cert.KernelIdeal.Gen

/-- A column of per-row factors spread over the 64 channels reads, at (p, q), the factor of row p. -/
theorem bcast_col (x : S5000x1.Idx → EReal) (h : S5000x1.Broadcasts S5000x64) (p : Fin 5000) (q : Fin 64) :
    broadcastTo S5000x64 x h (ix2 p q) = x (ix2 p (0 : Fin 1)) :=
  broadcastTo_apply x h (ix2 p q) (ix2 p (0 : Fin 1)) (fun a => by
    match a with
    | ⟨0, _⟩ => rfl
    | ⟨1, _⟩ => rfl)

/-- A row of per-channel values spread over the 5000 rows reads, at (p, q), the value of channel q. -/
theorem bcast_row (x : S1x64.Idx → EReal) (h : S1x64.Broadcasts S5000x64) (p : Fin 5000) (q : Fin 64) :
    broadcastTo S5000x64 x h (ix2 p q) = x (ix2 (0 : Fin 1) q) :=
  broadcastTo_apply x h (ix2 p q) (ix2 (0 : Fin 1) q) (fun a => by
    match a with
    | ⟨0, _⟩ => rfl
    | ⟨1, _⟩ => rfl)

/-- The aggregate of one block at (p, q): (aggs + selfn · hw) + bias. -/
theorem pay3_apply (x0 x1 : Vec Ideal S5000x64 .f32) (x2 : Vec Ideal S5000x1 .f32) (x3 : Vec Ideal S1x64 .f32)
    (p : Fin 5000) (q : Fin 64) :
    k1_pay3 (F := Ideal) x0 x1 x2 x3 (ix2 p q)
      = (x1 (ix2 p q) + x2 (ix2 p (0 : Fin 1)) * x0 (ix2 p q)) + x3 (ix2 (0 : Fin 1) q) := by
  unfold k1_pay3
  simp only [shapeCast_self]
  show (x1 (ix2 p q) + broadcastTo S5000x64 x2 _ (ix2 p q) * x0 (ix2 p q)) + broadcastTo S5000x64 x3 _ (ix2 p q) = _
  rw [bcast_col, bcast_row]

/-- The lane sum: a sum over the channel axis of a 5000 × 64 block, at row p, is the sum over the 64 channels. -/
theorem lane_sum (src : FVec Ideal S5000x64 .f32) (h : S5000x64.Reduces [1] S5000) (hφ : FKind.Formats .f32)
    (hacc : (0x00000000#32 : BitVec 32) = FKind.add.neutral .f32 hφ) (p : Fin 5000) :
    multiReduction (F := Ideal) .add [1] S5000 src 0x00000000#32 h hφ hacc (ix1 p) = ∑ q : Fin 64, src (ix2 p q) := by
  refine (Ideal.multiReduction_add_single src _ h hφ hacc (ix1 p)).trans ?_
  show ∑ q : Fin 64, src (h.lift (ix1 p) q) = _
  refine Finset.sum_congr rfl fun q _ => congrArg src (funext fun a => ?_)
  match a with
  | ⟨0, _⟩ => rfl
  | ⟨1, _⟩ => rfl

/-- The row sum: a sum over the row axis of a 5000 × 1 column is the sum over its 5000 rows. -/
theorem row_sum (src : FVec Ideal S5000x1 .f32) (h : S5000x1.Reduces [0] S1) (hφ : FKind.Formats .f32)
    (hacc : (0x00000000#32 : BitVec 32) = FKind.add.neutral .f32 hφ) (j : S1.Idx) :
    multiReduction (F := Ideal) .add [0] S1 src 0x00000000#32 h hφ hacc j = ∑ p : Fin 5000, src (ix2 p (0 : Fin 1)) := by
  refine (Ideal.multiReduction_add_single src _ h hφ hacc j).trans ?_
  show ∑ p : Fin 5000, src (h.lift j p) = _
  refine Finset.sum_congr rfl fun p _ => congrArg src (funext fun a => ?_)
  match a with
  | ⟨0, _⟩ => rfl
  | ⟨1, _⟩ => exact Fin.ext (by
      show (j 0).val = 0
      have hj : (j 0).val < 1 := (j 0).isLt
      omega)

/-- A vector of 5000 values viewed as a 5000 × 1 column reads, at (p, 0), value p. -/
theorem col_of_vec (v : S5000.Idx → EReal) (h : S5000.ShapeCasts S5000x1) (p : Fin 5000) :
    shapeCast S5000x1 v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- The sum of one block's entries: lanes first, then rows. -/
theorem block_total (src : FVec Ideal S5000x64 .f32) (h1 : S5000x64.Reduces [1] S5000) (h2 : S5000.ShapeCasts S5000x1)
    (h3 : S5000x1.Reduces [0] S1) (h4 : S1.ShapeCasts S1x1) (hφ : FKind.Formats .f32)
    (hacc : (0x00000000#32 : BitVec 32) = FKind.add.neutral .f32 hφ) (j : S1x1.Idx) :
    shapeCast S1x1 (multiReduction (F := Ideal) .add [0] S1
        (shapeCast S5000x1 (multiReduction (F := Ideal) .add [1] S5000 src 0x00000000#32 h1 hφ hacc) h2)
        0x00000000#32 h3 hφ hacc) h4 j
      = ∑ p : Fin 5000, ∑ q : Fin 64, src (ix2 p q) := by
  refine (shapeCast_addUnit_apply ![1] _ h4 j).trans ?_
  refine (row_sum _ h3 hφ hacc _).trans ?_
  refine Finset.sum_congr rfl fun p _ => ?_
  exact (col_of_vec _ h2 p).trans (lane_sum src h1 hφ hacc p)

/-- The running total after a block: the old total plus the sum of the block's aggregate. -/
theorem pay4_apply (x0 x1 : Vec Ideal S5000x64 .f32) (x2 : Vec Ideal S5000x1 .f32) (x3 : Vec Ideal S1x64 .f32)
    (acc : Vec Ideal S1x1 .f32) (j : S1x1.Idx) :
    k1_pay4 (F := Ideal) x0 x1 x2 x3 acc j
      = acc j + ∑ p : Fin 5000, ∑ q : Fin 64, k1_pay3 (F := Ideal) x0 x1 x2 x3 (ix2 p q) := by
  unfold k1_pay4
  simp only [shapeCast_self]
  exact congrArg (acc j + ·) (block_total _ _ _ _ _ _ _ j)

/-- The running total of squares after a block: the old one plus the sum of the squares of the block's aggregate. -/
theorem pay5_apply (x0 x1 : Vec Ideal S5000x64 .f32) (x2 : Vec Ideal S5000x1 .f32) (x3 : Vec Ideal S1x64 .f32)
    (acc : Vec Ideal S1x1 .f32) (j : S1x1.Idx) :
    k1_pay5 (F := Ideal) x0 x1 x2 x3 acc j
      = acc j + ∑ p : Fin 5000, ∑ q : Fin 64,
          k1_pay3 (F := Ideal) x0 x1 x2 x3 (ix2 p q) * k1_pay3 (F := Ideal) x0 x1 x2 x3 (ix2 p q) := by
  unfold k1_pay5
  simp only [shapeCast_self]
  exact congrArg (acc j + ·) (block_total _ _ _ _ _ _ _ j)

/-- Row `5000·t + p` of the node array: row p of block t. -/
abbrev brow (t : Fin 20) (p : Fin 5000) : Fin 100000 :=
  ⟨5000 * t.val + p.val, by have := t.isLt; have := p.isLt; omega⟩

/-- A sum over the 100000 rows is the sum over the 20 blocks of the sums over each block's 5000 rows. -/
theorem sum_rows (g : Fin 100000 → EReal) :
    ∑ r : Fin 100000, g r = ∑ t : Fin 20, ∑ p : Fin 5000, g (brow t p) := by
  rw [← Equiv.sum_comp (finProdFinEquiv (m := 20) (n := 5000)) g, Fintype.sum_prod_type]
  refine Finset.sum_congr rfl fun t _ => Finset.sum_congr rfl fun p _ => congrArg g (Fin.ext ?_)
  show p.val + 5000 * t.val = 5000 * t.val + p.val
  omega

/-- So the sum of all entries of a node array is the sum over the blocks of each block's total. -/
theorem sum_all (a : Cert.Spec.SN.Idx → EReal) :
    ∑ i : Cert.Spec.SN.Idx, a i = ∑ t : Fin 20, ∑ p : Fin 5000, ∑ q : Fin 64, a (ix2 (brow t p) q) := by
  rw [sum_idx2, sum_rows]

/-- A sum over the first n + 1 = 20 block numbers is the sum over all 20. -/
theorem sum_cast (f : Fin 20 → EReal) (n : ℕ) (e : n + 1 = 20) (h : ∀ s : Fin (n + 1), s.val < 20) :
    ∑ s : Fin (n + 1), f ⟨s.val, h s⟩ = ∑ t : Fin 20, f t :=
  Equiv.sum_comp (finCongr e) f

/-- The grid has 20 points. -/
theorem N20 : cfg1.N = 20 := by decide

/-- A grid point as a block number below 20. -/
abbrev t20 (t : Fin cfg1.N) : Fin 20 := ⟨t.val, lt_of_lt_of_eq t.isLt N20⟩

/-- Where each window's block sits at point t: the row-blocked windows at block row t, the bias and the two running
    totals always at block (0, 0). Decided over the 20 points. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = t.val ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0) :=
  (by decide +kernel : ∀ t : Fin grid1.N, _)

/-- Entry (p, q) of block t of a node-feature window is entry (5000·t + p, q) of its array. -/
theorem emb_0 (t : Fin cfg1.N) (p : Fin 5000) (q : Fin 64) :
    ((cfg1.win 0).blk t).view.emb (ix2 p q) = (ix2 (brow (t20 t) p) q : Cert.Spec.SN.Idx) := by
  obtain ⟨⟨e0, e1⟩, -⟩ := idx_facts t
  funext a; apply Fin.ext
  match a with
  | ⟨0, _⟩ => show win1_0.index t (0 : Fin 2) * 5000 + 1 * p.val = 5000 * t.val + p.val; rw [e0]; omega
  | ⟨1, _⟩ => show win1_0.index t (1 : Fin 2) * 64 + 1 * q.val = q.val; rw [e1]; omega
theorem emb_1 (t : Fin cfg1.N) (p : Fin 5000) (q : Fin 64) :
    ((cfg1.win 1).blk t).view.emb (ix2 p q) = (ix2 (brow (t20 t) p) q : Cert.Spec.SN.Idx) := by
  obtain ⟨-, ⟨e0, e1⟩, -⟩ := idx_facts t
  funext a; apply Fin.ext
  match a with
  | ⟨0, _⟩ => show win1_1.index t (0 : Fin 2) * 5000 + 1 * p.val = 5000 * t.val + p.val; rw [e0]; omega
  | ⟨1, _⟩ => show win1_1.index t (1 : Fin 2) * 64 + 1 * q.val = q.val; rw [e1]; omega
theorem emb_4 (t : Fin cfg1.N) (p : Fin 5000) (q : Fin 64) :
    ((cfg1.win 4).blk t).view.emb (ix2 p q) = (ix2 (brow (t20 t) p) q : Cert.Spec.SN.Idx) := by
  obtain ⟨-, -, -, -, ⟨e0, e1⟩, -⟩ := idx_facts t
  funext a; apply Fin.ext
  match a with
  | ⟨0, _⟩ => show win1_4.index t (0 : Fin 2) * 5000 + 1 * p.val = 5000 * t.val + p.val; rw [e0]; omega
  | ⟨1, _⟩ => show win1_4.index t (1 : Fin 2) * 64 + 1 * q.val = q.val; rw [e1]; omega
/-- Entry (p, 0) of block t of the per-node factors is entry (5000·t + p, 0) of their array. -/
theorem emb_2 (t : Fin cfg1.N) (p : Fin 5000) :
    ((cfg1.win 2).blk t).view.emb (ix2 p (0 : Fin 1)) = (ix2 (brow (t20 t) p) (0 : Fin 1) : Cert.Spec.SC.Idx) := by
  obtain ⟨-, -, ⟨e0, e1⟩, -⟩ := idx_facts t
  funext a; apply Fin.ext
  match a with
  | ⟨0, _⟩ => show win1_2.index t (0 : Fin 2) * 5000 + 1 * p.val = 5000 * t.val + p.val; rw [e0]; omega
  | ⟨1, _⟩ => show win1_2.index t (1 : Fin 2) * 1 + 1 * 0 = 0; rw [e1]
/-- The bias window's one block is the whole bias row. -/
theorem emb_3 (t : Fin cfg1.N) (q : Fin 64) :
    ((cfg1.win 3).blk t).view.emb (ix2 (0 : Fin 1) q) = (ix2 (0 : Fin 1) q : Cert.Spec.SR.Idx) := by
  obtain ⟨-, -, -, ⟨e0, e1⟩, -⟩ := idx_facts t
  funext a; apply Fin.ext
  match a with
  | ⟨0, _⟩ => show win1_3.index t (0 : Fin 2) * 1 + 1 * 0 = 0; rw [e0]
  | ⟨1, _⟩ => show win1_3.index t (1 : Fin 2) * 64 + 1 * q.val = q.val; rw [e1]; omega

section Found
variable {F : FTy → Type} [FloatOps F]

theorem hz : (![0, 0] : Fin 2 → Nat) = fun _ => 0 := funext fun a => by fin_cases a <;> rfl
/-- At the first point the body leaves the block's aggregate in the aggregate's buffer, -/
theorem out_A_4 (c : Dev nD) (i : grid1.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1 .f32) (h6 : a6.IsWhole) (a7 : Memref sig .tc .vmem S1x1 .f32) (h7 : a7.IsWhole) (hc : cond1_0 i) (x0 x1 : Vec F S5000x64 .f32) (x2 : Vec F S5000x1 .f32) (x3 : Vec F S1x64 .f32) :
    out1_A_4 (F := F) c i a1 h1 a2 h2 a3 h3 a4 h4 a5 h5 a6 h6 a7 h7 hc x0 x1 x2 x3 = k1_pay3 x0 x1 x2 x3 := by
  unfold out1_A_4
  rw [View.read_writes_eq_canon _ _ _ (cover1_A_4 c i a1 h1 a2 h2 a3 h3 a4 h4 a5 h5 a6 h6 a7 h7 hc x0 x1 x2 x3)]
  unfold kernelRun1_A
  dsimp only
  sl_unfold_words
  rw [View.canon_unit_zero hz]
  simp only [View.readAt_eq_ld, h1.read_unread, h2.read_unread, h3.read_unread, h4.read_unread, h5.read_unread, h6.read_unread, h7.read_unread, View.ld_unit_zero (S := S5000x64) hz, View.ld_unit_zero (S := S5000x1) hz, View.ld_unit_zero (S := S1x64) hz, View.ld_unit_zero (S := S1x1) hz]
/-- the block's total added to the zero it has just stored in the total's buffer, -/
theorem out_A_5 (c : Dev nD) (i : grid1.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1 .f32) (h6 : a6.IsWhole) (a7 : Memref sig .tc .vmem S1x1 .f32) (h7 : a7.IsWhole) (hc : cond1_0 i) (x0 x1 : Vec F S5000x64 .f32) (x2 : Vec F S5000x1 .f32) (x3 : Vec F S1x64 .f32) :
    out1_A_5 (F := F) c i a1 h1 a2 h2 a3 h3 a4 h4 a5 h5 a6 h6 a7 h7 hc x0 x1 x2 x3 = k1_pay4 x0 x1 x2 x3 k1_pay1 := by
  unfold out1_A_5
  rw [View.read_writes_eq_canon _ _ _ (cover1_A_5 c i a1 h1 a2 h2 a3 h3 a4 h4 a5 h5 a6 h6 a7 h7 hc x0 x1 x2 x3)]
  unfold kernelRun1_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h6.read_unread, h7.read_unread, View.ld_unit_zero (S := S5000x64) hz, View.ld_unit_zero (S := S5000x1) hz, View.ld_unit_zero (S := S1x64) hz, View.ld_unit_zero (S := S1x1) hz]
/-- and likewise the block's total of squares added to a stored zero. -/
theorem out_A_6 (c : Dev nD) (i : grid1.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1 .f32) (h6 : a6.IsWhole) (a7 : Memref sig .tc .vmem S1x1 .f32) (h7 : a7.IsWhole) (hc : cond1_0 i) (x0 x1 : Vec F S5000x64 .f32) (x2 : Vec F S5000x1 .f32) (x3 : Vec F S1x64 .f32) :
    out1_A_6 (F := F) c i a1 h1 a2 h2 a3 h3 a4 h4 a5 h5 a6 h6 a7 h7 hc x0 x1 x2 x3 = k1_pay5 x0 x1 x2 x3 k1_pay2 := by
  unfold out1_A_6
  rw [View.read_writes_eq_canon _ _ _ (cover1_A_6 c i a1 h1 a2 h2 a3 h3 a4 h4 a5 h5 a6 h6 a7 h7 hc x0 x1 x2 x3)]
  unfold kernelRun1_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h6.read_unread, h7.read_unread, View.ld_unit_zero (S := S5000x64) hz, View.ld_unit_zero (S := S5000x1) hz, View.ld_unit_zero (S := S1x64) hz, View.ld_unit_zero (S := S1x1) hz]
/-- At a later point it leaves the block's aggregate, -/
theorem out_B_4 (c : Dev nD) (i : grid1.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1 .f32) (h6 : a6.IsWhole) (a7 : Memref sig .tc .vmem S1x1 .f32) (h7 : a7.IsWhole) (hc : ¬cond1_0 i) (x0 x1 : Vec F S5000x64 .f32) (x2 : Vec F S5000x1 .f32) (x3 : Vec F S1x64 .f32) (xo5 xo6 : Vec F S1x1 .f32) :
    out1_B_4 (F := F) c i a1 h1 a2 h2 a3 h3 a4 h4 a5 h5 a6 h6 a7 h7 hc x0 x1 x2 x3 xo5 xo6 = k1_pay3 x0 x1 x2 x3 := by
  unfold out1_B_4
  rw [View.read_writes_eq_canon _ _ _ (cover1_B_4 c i a1 h1 a2 h2 a3 h3 a4 h4 a5 h5 a6 h6 a7 h7 hc x0 x1 x2 x3 xo5 xo6)]
  unfold kernelRun1_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S5000x64) hz, View.ld_unit_zero (S := S5000x1) hz, View.ld_unit_zero (S := S1x64) hz, View.ld_unit_zero (S := S1x1) hz]
/-- the block's total added to the total carried from the point before, -/
theorem out_B_5 (c : Dev nD) (i : grid1.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1 .f32) (h6 : a6.IsWhole) (a7 : Memref sig .tc .vmem S1x1 .f32) (h7 : a7.IsWhole) (hc : ¬cond1_0 i) (x0 x1 : Vec F S5000x64 .f32) (x2 : Vec F S5000x1 .f32) (x3 : Vec F S1x64 .f32) (xo5 xo6 : Vec F S1x1 .f32) :
    out1_B_5 (F := F) c i a1 h1 a2 h2 a3 h3 a4 h4 a5 h5 a6 h6 a7 h7 hc x0 x1 x2 x3 xo5 xo6 = k1_pay4 x0 x1 x2 x3 xo5 := by
  unfold out1_B_5
  rw [View.read_writes_eq_canon _ _ _ (cover1_B_5 c i a1 h1 a2 h2 a3 h3 a4 h4 a5 h5 a6 h6 a7 h7 hc x0 x1 x2 x3 xo5 xo6)]
  unfold kernelRun1_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S5000x64) hz, View.ld_unit_zero (S := S5000x1) hz, View.ld_unit_zero (S := S1x64) hz, View.ld_unit_zero (S := S1x1) hz]
/-- and the block's total of squares added to the carried one. -/
theorem out_B_6 (c : Dev nD) (i : grid1.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1 .f32) (h6 : a6.IsWhole) (a7 : Memref sig .tc .vmem S1x1 .f32) (h7 : a7.IsWhole) (hc : ¬cond1_0 i) (x0 x1 : Vec F S5000x64 .f32) (x2 : Vec F S5000x1 .f32) (x3 : Vec F S1x64 .f32) (xo5 xo6 : Vec F S1x1 .f32) :
    out1_B_6 (F := F) c i a1 h1 a2 h2 a3 h3 a4 h4 a5 h5 a6 h6 a7 h7 hc x0 x1 x2 x3 xo5 xo6 = k1_pay5 x0 x1 x2 x3 xo6 := by
  unfold out1_B_6
  rw [View.read_writes_eq_canon _ _ _ (cover1_B_6 c i a1 h1 a2 h2 a3 h3 a4 h4 a5 h5 a6 h6 a7 h7 hc x0 x1 x2 x3 xo5 xo6)]
  unfold kernelRun1_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S5000x64) hz, View.ld_unit_zero (S := S5000x1) hz, View.ld_unit_zero (S := S1x64) hz, View.ld_unit_zero (S := S1x1) hz]

end Found

section Arrays
variable (V : (c : Dev nD) → (b : Ref sig .tc) → Buf (Elt Ideal) ((c : Thread nD τ).loc b)) (c : Dev nD)

/-- The aggregate as one function of the four arrays the region finds: (aggs + selfn · hw) + bias. -/
abbrev agg : Cert.Spec.SN.Idx → EReal :=
  Cert.Spec.comb (V c (Pipeline.arrRef spec1 0)) (V c (Pipeline.arrRef spec1 1)) (V c (Pipeline.arrRef spec1 2))
    (V c (Pipeline.arrRef spec1 3))

/-- The four arrays the region finds, typed by their shapes. -/
abbrev hwA : Cert.Spec.SN.Idx → EReal := V c (Pipeline.arrRef spec1 0)
abbrev aggsA : Cert.Spec.SN.Idx → EReal := V c (Pipeline.arrRef spec1 1)
abbrev selfnA : Cert.Spec.SC.Idx → EReal := V c (Pipeline.arrRef spec1 2)
abbrev biasA : Cert.Spec.SR.Idx → EReal := V c (Pipeline.arrRef spec1 3)

/-- Each input block at point t reads its array where the window puts it. -/
theorem iblk_0 (t : Fin cfg1.N) (p : Fin 5000) (q : Fin 64) :
    (iblk1 V c 0 t : S5000x64.Idx → EReal) (ix2 p q) = hwA V c (ix2 (brow (t20 t) p) q) :=
  congrArg (hwA V c) (emb_0 t p q)
theorem iblk_1 (t : Fin cfg1.N) (p : Fin 5000) (q : Fin 64) :
    (iblk1 V c 1 t : S5000x64.Idx → EReal) (ix2 p q) = aggsA V c (ix2 (brow (t20 t) p) q) :=
  congrArg (aggsA V c) (emb_1 t p q)
theorem iblk_2 (t : Fin cfg1.N) (p : Fin 5000) :
    (iblk1 V c 2 t : S5000x1.Idx → EReal) (ix2 p (0 : Fin 1)) = selfnA V c (ix2 (brow (t20 t) p) (0 : Fin 1)) :=
  congrArg (selfnA V c) (emb_2 t p)
theorem iblk_3 (t : Fin cfg1.N) (q : Fin 64) :
    (iblk1 V c 3 t : S1x64.Idx → EReal) (ix2 (0 : Fin 1) q) = biasA V c (ix2 (0 : Fin 1) q) :=
  congrArg (biasA V c) (emb_3 t q)

/-- The whole aggregate at (r, q), spelled out. -/
theorem agg_apply (r : Fin 100000) (q : Fin 64) :
    agg V c (ix2 r q)
      = (aggsA V c (ix2 r q) + selfnA V c (ix2 r (0 : Fin 1)) * hwA V c (ix2 r q)) + biasA V c (ix2 (0 : Fin 1) q) := rfl

/-- The aggregate of block t at (p, q) is the whole aggregate at row 5000·t + p, channel q: each input block is read
    where its window puts it. -/
theorem agg_blk (t : Fin cfg1.N) (p : Fin 5000) (q : Fin 64) :
    k1_pay3 (F := Ideal) (iblk1 V c 0 t) (iblk1 V c 1 t) (iblk1 V c 2 t) (iblk1 V c 3 t) (ix2 p q) = agg V c (ix2 (brow (t20 t) p) q) := by
  refine (pay3_apply (iblk1 V c 0 t) (iblk1 V c 1 t) (iblk1 V c 2 t) (iblk1 V c 3 t) p q).trans ?_
  refine Eq.trans ?_ (agg_apply V c (brow (t20 t) p) q).symm
  exact congrArg₂ (· + ·)
    (congrArg₂ (· + ·) (iblk_1 V c t p q) (congrArg₂ (· * ·) (iblk_2 V c t p) (iblk_0 V c t p q)))
    (iblk_3 V c t q)

/-- At every point the aggregate's buffer holds the aggregate of the point's blocks. -/
theorem outs_4 (t : Fin cfg1.N) :
    (outsAt1 V c t.val t.isLt).1 = k1_pay3 (F := Ideal) (iblk1 V c 0 t) (iblk1 V c 1 t) (iblk1 V c 2 t) (iblk1 V c 3 t) := by
  by_cases h0 : t.val % 20 = 0
  · rw [outsAt1_A V c t h0]
    dsimp only
    exact out_A_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t)
  · rw [outsAt1_B V c t h0]
    dsimp only
    exact out_B_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) _ _

/-- What point t writes back of the aggregate is block t of the whole aggregate. -/
theorem flushed_4 (t : Fin cfg1.N) :
    (dat1 V c).flushed 4 t = ((cfg1.win 4).blk t).view.read (Elt Ideal) (agg V c) := by
  show (cfg1.win 4).cut (grid1.coords t) ((dat1 V c).after 4 t) = _
  rw [after1_4, outs_4]
  refine funext fun (j : S5000x64.Idx) => ?_
  obtain ⟨p, q, rfl⟩ : ∃ (p : Fin 5000) (q : Fin 64), j = ix2 p q := ⟨j 0, j 1, eq_ix2 j⟩
  show k1_pay3 (F := Ideal) (iblk1 V c 0 t) (iblk1 V c 1 t) (iblk1 V c 2 t) (iblk1 V c 3 t) (ix2 p q) = agg V c (((cfg1.win 4).blk t).view.emb (ix2 p q))
  rw [emb_4]
  exact agg_blk V c t p q

/-- Row r lies in the block of point r / 5000. -/
theorem cover_4 (i : ((cfg1.win 4).arr.view.loc (c.tc : Thread nD τ)).2.ty.Idx) :
    ∃ t : Fin cfg1.N, (cfg1.win 4).flush t = true ∧ i ∈ ((cfg1.win 4).blk t).view.set := by
  have h0 : (i 0).val < 100000 := (i 0).isLt
  have h1 : (i 1).val < 64 := (i 1).isLt
  obtain ⟨t, ht⟩ : ∃ t : Fin cfg1.N, t.val = (i 0).val / 5000 := ⟨⟨(i 0).val / 5000, by rw [N20]; omega⟩, rfl⟩
  obtain ⟨-, -, -, -, ⟨e0, e1⟩, -⟩ := idx_facts t
  refine ⟨t, flush1_4 t, ?_⟩
  show i ∈ ((View.whole main_v52_0).slice (win1_4.rect t)).set
  rw [View.set_slice_whole, Rect.mem_set_unit]
  intro a
  match a with
  | ⟨0, _⟩ => show win1_4.index t (0 : Fin 2) * 5000 ≤ (i 0).val ∧ (i 0).val < win1_4.index t (0 : Fin 2) * 5000 + 5000; rw [e0]; omega
  | ⟨1, _⟩ => show win1_4.index t (1 : Fin 2) * 64 ≤ (i 1).val ∧ (i 1).val < win1_4.index t (1 : Fin 2) * 64 + 64; rw [e1]; omega

/-- So the aggregate's array ends holding the aggregate of the four arrays the region found. -/
theorem arr1_4 : (dat1 (F := Ideal) V c).arrAt 4 cfg1.N = agg V c :=
  (dat1 V c).arrAt_eq_of_cover 4 (agg V c) (fun t _ => flushed_4 V c t) (cover_4 c)

/-- The total of block t of the aggregate, -/
abbrev blockTot (t : Fin 20) : EReal := ∑ p : Fin 5000, ∑ q : Fin 64, agg V c (ix2 (brow t p) q)
/-- and the total of its squares. -/
abbrev blockSq (t : Fin 20) : EReal :=
  ∑ p : Fin 5000, ∑ q : Fin 64, agg V c (ix2 (brow t p) q) * agg V c (ix2 (brow t p) q)

/-- After point n the carried total is the sum, over the blocks 0 … n, of each block's total: by induction on the
    point — the first point adds its block to a stored zero, every later one to what the point before left. -/
theorem outs_5 : ∀ (n : ℕ) (hn : n < cfg1.N) (j : S1x1.Idx),
    (outsAt1 V c n hn).2.1 j = ∑ s : Fin (n + 1), blockTot V c ⟨s.val, by have := s.isLt; have := lt_of_lt_of_eq hn N20; omega⟩
  | 0, hn, j => by
    rw [outsAt1_A V c ⟨0, hn⟩ rfl]
    dsimp only
    refine (congrFun (out_A_5 (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) ((hcond1_0 ⟨0, hn⟩).mpr rfl) (iblk1 V c 0 ⟨0, hn⟩) (iblk1 V c 1 ⟨0, hn⟩) (iblk1 V c 2 ⟨0, hn⟩) (iblk1 V c 3 ⟨0, hn⟩)) j).trans ?_
    refine (pay4_apply (iblk1 V c 0 ⟨0, hn⟩) (iblk1 V c 1 ⟨0, hn⟩) (iblk1 V c 2 ⟨0, hn⟩) (iblk1 V c 3 ⟨0, hn⟩) _ j).trans ?_
    rw [Fin.sum_univ_one]
    show Ideal.ofBits .f32 0x00000000#32 + _ = _
    rw [Ideal.ofBits_zero_f32, zero_add]
    refine Finset.sum_congr rfl fun p _ => Finset.sum_congr rfl fun q _ => ?_
    exact agg_blk V c ⟨0, hn⟩ p q
  | n + 1, hn, j => by
    have hN : cfg1.N = 20 := N20
    have hB : ¬(⟨n + 1, hn⟩ : Fin cfg1.N).val % 20 = 0 := by dsimp only; omega
    rw [outsAt1_B V c ⟨n + 1, hn⟩ hB]
    dsimp only
    refine (congrFun (out_B_5 (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (fun h => hB ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) _ _) j).trans ?_
    refine (pay4_apply (iblk1 V c 0 ⟨n + 1, hn⟩) (iblk1 V c 1 ⟨n + 1, hn⟩) (iblk1 V c 2 ⟨n + 1, hn⟩) (iblk1 V c 3 ⟨n + 1, hn⟩) _ j).trans ?_
    conv_rhs => rw [Fin.sum_univ_castSucc]
    refine congrArg₂ (· + ·) (outs_5 n (Nat.lt_of_succ_lt hn) j) ?_
    refine Finset.sum_congr rfl fun p _ => Finset.sum_congr rfl fun q _ => ?_
    exact agg_blk V c ⟨n + 1, hn⟩ p q

/-- After point n the carried total of squares is the sum, over the blocks 0 … n, of each block's total of squares: by induction on the
    point — the first point adds its block to a stored zero, every later one to what the point before left. -/
theorem outs_6 : ∀ (n : ℕ) (hn : n < cfg1.N) (j : S1x1.Idx),
    (outsAt1 V c n hn).2.2 j = ∑ s : Fin (n + 1), blockSq V c ⟨s.val, by have := s.isLt; have := lt_of_lt_of_eq hn N20; omega⟩
  | 0, hn, j => by
    rw [outsAt1_A V c ⟨0, hn⟩ rfl]
    dsimp only
    refine (congrFun (out_A_6 (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) ((hcond1_0 ⟨0, hn⟩).mpr rfl) (iblk1 V c 0 ⟨0, hn⟩) (iblk1 V c 1 ⟨0, hn⟩) (iblk1 V c 2 ⟨0, hn⟩) (iblk1 V c 3 ⟨0, hn⟩)) j).trans ?_
    refine (pay5_apply (iblk1 V c 0 ⟨0, hn⟩) (iblk1 V c 1 ⟨0, hn⟩) (iblk1 V c 2 ⟨0, hn⟩) (iblk1 V c 3 ⟨0, hn⟩) _ j).trans ?_
    rw [Fin.sum_univ_one]
    show Ideal.ofBits .f32 0x00000000#32 + _ = _
    rw [Ideal.ofBits_zero_f32, zero_add]
    refine Finset.sum_congr rfl fun p _ => Finset.sum_congr rfl fun q _ => ?_
    exact congrArg₂ (· * ·) (agg_blk V c ⟨0, hn⟩ p q) (agg_blk V c ⟨0, hn⟩ p q)
  | n + 1, hn, j => by
    have hN : cfg1.N = 20 := N20
    have hB : ¬(⟨n + 1, hn⟩ : Fin cfg1.N).val % 20 = 0 := by dsimp only; omega
    rw [outsAt1_B V c ⟨n + 1, hn⟩ hB]
    dsimp only
    refine (congrFun (out_B_6 (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (fun h => hB ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) _ _) j).trans ?_
    refine (pay5_apply (iblk1 V c 0 ⟨n + 1, hn⟩) (iblk1 V c 1 ⟨n + 1, hn⟩) (iblk1 V c 2 ⟨n + 1, hn⟩) (iblk1 V c 3 ⟨n + 1, hn⟩) _ j).trans ?_
    conv_rhs => rw [Fin.sum_univ_castSucc]
    refine congrArg₂ (· + ·) (outs_6 n (Nat.lt_of_succ_lt hn) j) ?_
    refine Finset.sum_congr rfl fun p _ => Finset.sum_congr rfl fun q _ => ?_
    exact congrArg₂ (· * ·) (agg_blk V c ⟨n + 1, hn⟩ p q) (agg_blk V c ⟨n + 1, hn⟩ p q)

/-- The one write-back of the total, after the last point, writes the sum over all 20 blocks: the sum of all
    6 400 000 entries. -/
theorem flushed_5 (t : Fin cfg1.N) (hf : (cfg1.win 5).flush t = true) :
    (dat1 V c).flushed 5 t = ((cfg1.win 5).blk t).view.read (Elt Ideal) (Cert.Spec.tot (agg V c)) := by
  have hN : cfg1.N = 20 := N20
  have h19 : t.val = 19 := by have := (flush1_5 t).mp hf; have := t.isLt; omega
  show (cfg1.win 5).cut (grid1.coords t) ((dat1 V c).after 5 t) = _
  rw [after1_5]
  have e : Cert.Spec.tot (agg V c) = fun _ => ∑ i : Cert.Spec.SN.Idx, agg V c i := rfl
  rw [e]
  generalize hT : (∑ i : Cert.Spec.SN.Idx, agg V c i) = T
  refine funext fun (j : S1x1.Idx) => ?_
  show (outsAt1 V c t.val t.isLt).2.1 j = T
  rw [← hT, outs_5 V c t.val t.isLt j, sum_all]
  exact sum_cast _ t.val (by omega) _

/-- The last point's block is the whole 1 × 1 array. -/
theorem cover_5 (i : ((cfg1.win 5).arr.view.loc (c.tc : Thread nD τ)).2.ty.Idx) :
    ∃ t : Fin cfg1.N, (cfg1.win 5).flush t = true ∧ i ∈ ((cfg1.win 5).blk t).view.set := by
  have h0 : (i 0).val < 1 := (i 0).isLt
  have h1 : (i 1).val < 1 := (i 1).isLt
  obtain ⟨t, ht⟩ : ∃ t : Fin cfg1.N, t.val = 19 := ⟨⟨19, by rw [N20]; omega⟩, rfl⟩
  obtain ⟨-, -, -, -, -, ⟨e0, e1⟩, -⟩ := idx_facts t
  refine ⟨t, (flush1_5 t).mpr (by rw [ht]), ?_⟩
  show i ∈ ((View.whole main_v52_1).slice (win1_5.rect t)).set
  rw [View.set_slice_whole, Rect.mem_set_unit]
  intro a
  match a with
  | ⟨0, _⟩ => show win1_5.index t (0 : Fin 2) * 1 ≤ (i 0).val ∧ (i 0).val < win1_5.index t (0 : Fin 2) * 1 + 1; rw [e0]; omega
  | ⟨1, _⟩ => show win1_5.index t (1 : Fin 2) * 1 ≤ (i 1).val ∧ (i 1).val < win1_5.index t (1 : Fin 2) * 1 + 1; rw [e1]; omega

/-- So the total's array ends holding the sum of all entries of the aggregate. -/
theorem arr1_5 : (dat1 (F := Ideal) V c).arrAt 5 cfg1.N = Cert.Spec.tot (agg V c) :=
  (dat1 V c).arrAt_eq_of_cover 5 (Cert.Spec.tot (agg V c)) (flushed_5 V c) (cover_5 c)

/-- The one write-back of the total of squares, after the last point, writes the sum over all 20 blocks: the sum of the squares of all
    6 400 000 entries. -/
theorem flushed_6 (t : Fin cfg1.N) (hf : (cfg1.win 6).flush t = true) :
    (dat1 V c).flushed 6 t = ((cfg1.win 6).blk t).view.read (Elt Ideal) (Cert.Spec.totsq (agg V c)) := by
  have hN : cfg1.N = 20 := N20
  have h19 : t.val = 19 := by have := (flush1_6 t).mp hf; have := t.isLt; omega
  show (cfg1.win 6).cut (grid1.coords t) ((dat1 V c).after 6 t) = _
  rw [after1_6]
  have e : Cert.Spec.totsq (agg V c) = fun _ => ∑ i : Cert.Spec.SN.Idx, agg V c i * agg V c i := rfl
  rw [e]
  generalize hT : (∑ i : Cert.Spec.SN.Idx, agg V c i * agg V c i) = T
  refine funext fun (j : S1x1.Idx) => ?_
  show (outsAt1 V c t.val t.isLt).2.2 j = T
  rw [← hT, outs_6 V c t.val t.isLt j, sum_all]
  exact sum_cast _ t.val (by omega) _

/-- The last point's block is the whole 1 × 1 array. -/
theorem cover_6 (i : ((cfg1.win 6).arr.view.loc (c.tc : Thread nD τ)).2.ty.Idx) :
    ∃ t : Fin cfg1.N, (cfg1.win 6).flush t = true ∧ i ∈ ((cfg1.win 6).blk t).view.set := by
  have h0 : (i 0).val < 1 := (i 0).isLt
  have h1 : (i 1).val < 1 := (i 1).isLt
  obtain ⟨t, ht⟩ : ∃ t : Fin cfg1.N, t.val = 19 := ⟨⟨19, by rw [N20]; omega⟩, rfl⟩
  obtain ⟨-, -, -, -, -, -, ⟨e0, e1⟩⟩ := idx_facts t
  refine ⟨t, (flush1_6 t).mpr (by rw [ht]), ?_⟩
  show i ∈ ((View.whole main_v52_2).slice (win1_6.rect t)).set
  rw [View.set_slice_whole, Rect.mem_set_unit]
  intro a
  match a with
  | ⟨0, _⟩ => show win1_6.index t (0 : Fin 2) * 1 ≤ (i 0).val ∧ (i 0).val < win1_6.index t (0 : Fin 2) * 1 + 1; rw [e0]; omega
  | ⟨1, _⟩ => show win1_6.index t (1 : Fin 2) * 1 ≤ (i 1).val ∧ (i 1).val < win1_6.index t (1 : Fin 2) * 1 + 1; rw [e1]; omega

/-- So the total of squares's array ends holding the sum of the squares of all entries of the aggregate. -/
theorem arr1_6 : (dat1 (F := Ideal) V c).arrAt 6 cfg1.N = Cert.Spec.totsq (agg V c) :=
  (dat1 V c).arrAt_eq_of_cover 6 (Cert.Spec.totsq (agg V c)) (flushed_6 V c) (cover_6 c)

end Arrays

end Cert.Combine1

end
-- ==== Proof.RegionCombine4.lean ====
/-
  The second kernel of layer 1 — the aggregate with its self loop and bias, and the two running totals — read as values
  over the extended reals.

  The kernel walks the 100000 × 64 node array in 20 row blocks of 5000 rows. At block t it forms, entry by entry,
      a = (aggs + selfn · hw) + bias
  (the per-node factor selfn spread over the 64 channels, the per-channel bias spread over the rows), writes that block
  of a back, and adds the block's total Σ a and total of squares Σ a² to two 1 × 1 accumulators that it zeroes at the
  first block, carries from block to block, and writes back once, after the last block.

  What is proved, for ANY contents V of the buffers when the kernel starts: the aggregate's array ends holding
  a = comb hw aggs selfn bias of the four input arrays found in V; the total's array ends holding Σ over all
  6 400 000 entries of a; the array of the total of squares ends holding Σ a².

  The steps: the body's arithmetic read at an index (a pointwise formula; a lane sum followed by a row sum is the double
  sum over the block); each input block read where its window places it (row 5000·t + p); the carried accumulator after
  block n is the sum of the totals of blocks 0 … n, by induction on n, starting from the stored zero; and a sum over the
  100000 rows regroups as the sum over 20 blocks of sums over 5000 rows. Sums of extended reals commute and
  associate, so nothing here needs the entries to be finite.
-/
import proofs.«123589_j55817394979590_1_alg».proof.Proof.Gen.KernelIdeal.Frame
import proofs.«123589_j55817394979590_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Tactic

noncomputable section

namespace Cert.Combine4

open Idealize.ShloMosaic Idealize.ShloMosaic.TcCoe Idealize.ShloMosaic.ValueIdx Idealize.SL.Sem
open Idealize.ShloMosaic.Pipeline (Dat)
open Cert.KernelIdeal Cert.KernelIdeal.Gen

/-- A column of per-row factors spread over the 64 channels reads, at (p, q), the factor of row p. -/
theorem bcast_col (x : S5000x1.Idx → EReal) (h : S5000x1.Broadcasts S5000x64) (p : Fin 5000) (q : Fin 64) :
    broadcastTo S5000x64 x h (ix2 p q) = x (ix2 p (0 : Fin 1)) :=
  broadcastTo_apply x h (ix2 p q) (ix2 p (0 : Fin 1)) (fun a => by
    match a with
    | ⟨0, _⟩ => rfl
    | ⟨1, _⟩ => rfl)

/-- A row of per-channel values spread over the 5000 rows reads, at (p, q), the value of channel q. -/
theorem bcast_row (x : S1x64.Idx → EReal) (h : S1x64.Broadcasts S5000x64) (p : Fin 5000) (q : Fin 64) :
    broadcastTo S5000x64 x h (ix2 p q) = x (ix2 (0 : Fin 1) q) :=
  broadcastTo_apply x h (ix2 p q) (ix2 (0 : Fin 1) q) (fun a => by
    match a with
    | ⟨0, _⟩ => rfl
    | ⟨1, _⟩ => rfl)

/-- The aggregate of one block at (p, q): (aggs + selfn · hw) + bias. -/
theorem pay3_apply (x0 x1 : Vec Ideal S5000x64 .f32) (x2 : Vec Ideal S5000x1 .f32) (x3 : Vec Ideal S1x64 .f32)
    (p : Fin 5000) (q : Fin 64) :
    k4_pay3 (F := Ideal) x0 x1 x2 x3 (ix2 p q)
      = (x1 (ix2 p q) + x2 (ix2 p (0 : Fin 1)) * x0 (ix2 p q)) + x3 (ix2 (0 : Fin 1) q) := by
  unfold k4_pay3
  simp only [shapeCast_self]
  show (x1 (ix2 p q) + broadcastTo S5000x64 x2 _ (ix2 p q) * x0 (ix2 p q)) + broadcastTo S5000x64 x3 _ (ix2 p q) = _
  rw [bcast_col, bcast_row]

/-- The lane sum: a sum over the channel axis of a 5000 × 64 block, at row p, is the sum over the 64 channels. -/
theorem lane_sum (src : FVec Ideal S5000x64 .f32) (h : S5000x64.Reduces [1] S5000) (hφ : FKind.Formats .f32)
    (hacc : (0x00000000#32 : BitVec 32) = FKind.add.neutral .f32 hφ) (p : Fin 5000) :
    multiReduction (F := Ideal) .add [1] S5000 src 0x00000000#32 h hφ hacc (ix1 p) = ∑ q : Fin 64, src (ix2 p q) := by
  refine (Ideal.multiReduction_add_single src _ h hφ hacc (ix1 p)).trans ?_
  show ∑ q : Fin 64, src (h.lift (ix1 p) q) = _
  refine Finset.sum_congr rfl fun q _ => congrArg src (funext fun a => ?_)
  match a with
  | ⟨0, _⟩ => rfl
  | ⟨1, _⟩ => rfl

/-- The row sum: a sum over the row axis of a 5000 × 1 column is the sum over its 5000 rows. -/
theorem row_sum (src : FVec Ideal S5000x1 .f32) (h : S5000x1.Reduces [0] S1) (hφ : FKind.Formats .f32)
    (hacc : (0x00000000#32 : BitVec 32) = FKind.add.neutral .f32 hφ) (j : S1.Idx) :
    multiReduction (F := Ideal) .add [0] S1 src 0x00000000#32 h hφ hacc j = ∑ p : Fin 5000, src (ix2 p (0 : Fin 1)) := by
  refine (Ideal.multiReduction_add_single src _ h hφ hacc j).trans ?_
  show ∑ p : Fin 5000, src (h.lift j p) = _
  refine Finset.sum_congr rfl fun p _ => congrArg src (funext fun a => ?_)
  match a with
  | ⟨0, _⟩ => rfl
  | ⟨1, _⟩ => exact Fin.ext (by
      show (j 0).val = 0
      have hj : (j 0).val < 1 := (j 0).isLt
      omega)

/-- A vector of 5000 values viewed as a 5000 × 1 column reads, at (p, 0), value p. -/
theorem col_of_vec (v : S5000.Idx → EReal) (h : S5000.ShapeCasts S5000x1) (p : Fin 5000) :
    shapeCast S5000x1 v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- The sum of one block's entries: lanes first, then rows. -/
theorem block_total (src : FVec Ideal S5000x64 .f32) (h1 : S5000x64.Reduces [1] S5000) (h2 : S5000.ShapeCasts S5000x1)
    (h3 : S5000x1.Reduces [0] S1) (h4 : S1.ShapeCasts S1x1) (hφ : FKind.Formats .f32)
    (hacc : (0x00000000#32 : BitVec 32) = FKind.add.neutral .f32 hφ) (j : S1x1.Idx) :
    shapeCast S1x1 (multiReduction (F := Ideal) .add [0] S1
        (shapeCast S5000x1 (multiReduction (F := Ideal) .add [1] S5000 src 0x00000000#32 h1 hφ hacc) h2)
        0x00000000#32 h3 hφ hacc) h4 j
      = ∑ p : Fin 5000, ∑ q : Fin 64, src (ix2 p q) := by
  refine (shapeCast_addUnit_apply ![1] _ h4 j).trans ?_
  refine (row_sum _ h3 hφ hacc _).trans ?_
  refine Finset.sum_congr rfl fun p _ => ?_
  exact (col_of_vec _ h2 p).trans (lane_sum src h1 hφ hacc p)

/-- The running total after a block: the old total plus the sum of the block's aggregate. -/
theorem pay4_apply (x0 x1 : Vec Ideal S5000x64 .f32) (x2 : Vec Ideal S5000x1 .f32) (x3 : Vec Ideal S1x64 .f32)
    (acc : Vec Ideal S1x1 .f32) (j : S1x1.Idx) :
    k4_pay4 (F := Ideal) x0 x1 x2 x3 acc j
      = acc j + ∑ p : Fin 5000, ∑ q : Fin 64, k4_pay3 (F := Ideal) x0 x1 x2 x3 (ix2 p q) := by
  unfold k4_pay4
  simp only [shapeCast_self]
  exact congrArg (acc j + ·) (block_total _ _ _ _ _ _ _ j)

/-- The running total of squares after a block: the old one plus the sum of the squares of the block's aggregate. -/
theorem pay5_apply (x0 x1 : Vec Ideal S5000x64 .f32) (x2 : Vec Ideal S5000x1 .f32) (x3 : Vec Ideal S1x64 .f32)
    (acc : Vec Ideal S1x1 .f32) (j : S1x1.Idx) :
    k4_pay5 (F := Ideal) x0 x1 x2 x3 acc j
      = acc j + ∑ p : Fin 5000, ∑ q : Fin 64,
          k4_pay3 (F := Ideal) x0 x1 x2 x3 (ix2 p q) * k4_pay3 (F := Ideal) x0 x1 x2 x3 (ix2 p q) := by
  unfold k4_pay5
  simp only [shapeCast_self]
  exact congrArg (acc j + ·) (block_total _ _ _ _ _ _ _ j)

/-- Row `5000·t + p` of the node array: row p of block t. -/
abbrev brow (t : Fin 20) (p : Fin 5000) : Fin 100000 :=
  ⟨5000 * t.val + p.val, by have := t.isLt; have := p.isLt; omega⟩

/-- A sum over the 100000 rows is the sum over the 20 blocks of the sums over each block's 5000 rows. -/
theorem sum_rows (g : Fin 100000 → EReal) :
    ∑ r : Fin 100000, g r = ∑ t : Fin 20, ∑ p : Fin 5000, g (brow t p) := by
  rw [← Equiv.sum_comp (finProdFinEquiv (m := 20) (n := 5000)) g, Fintype.sum_prod_type]
  refine Finset.sum_congr rfl fun t _ => Finset.sum_congr rfl fun p _ => congrArg g (Fin.ext ?_)
  show p.val + 5000 * t.val = 5000 * t.val + p.val
  omega

/-- So the sum of all entries of a node array is the sum over the blocks of each block's total. -/
theorem sum_all (a : Cert.Spec.SN.Idx → EReal) :
    ∑ i : Cert.Spec.SN.Idx, a i = ∑ t : Fin 20, ∑ p : Fin 5000, ∑ q : Fin 64, a (ix2 (brow t p) q) := by
  rw [sum_idx2, sum_rows]

/-- A sum over the first n + 1 = 20 block numbers is the sum over all 20. -/
theorem sum_cast (f : Fin 20 → EReal) (n : ℕ) (e : n + 1 = 20) (h : ∀ s : Fin (n + 1), s.val < 20) :
    ∑ s : Fin (n + 1), f ⟨s.val, h s⟩ = ∑ t : Fin 20, f t :=
  Equiv.sum_comp (finCongr e) f

/-- The grid has 20 points. -/
theorem N20 : cfg4.N = 20 := by decide

/-- A grid point as a block number below 20. -/
abbrev t20 (t : Fin cfg4.N) : Fin 20 := ⟨t.val, lt_of_lt_of_eq t.isLt N20⟩

/-- Where each window's block sits at point t: the row-blocked windows at block row t, the bias and the two running
    totals always at block (0, 0). Decided over the 20 points. -/
theorem idx_facts : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_3.index t (0 : Fin 2) = 0 ∧ win4_3.index t (1 : Fin 2) = 0)
    ∧ (win4_4.index t (0 : Fin 2) = t.val ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0) :=
  (by decide +kernel : ∀ t : Fin grid4.N, _)

/-- Entry (p, q) of block t of a node-feature window is entry (5000·t + p, q) of its array. -/
theorem emb_0 (t : Fin cfg4.N) (p : Fin 5000) (q : Fin 64) :
    ((cfg4.win 0).blk t).view.emb (ix2 p q) = (ix2 (brow (t20 t) p) q : Cert.Spec.SN.Idx) := by
  obtain ⟨⟨e0, e1⟩, -⟩ := idx_facts t
  funext a; apply Fin.ext
  match a with
  | ⟨0, _⟩ => show win4_0.index t (0 : Fin 2) * 5000 + 1 * p.val = 5000 * t.val + p.val; rw [e0]; omega
  | ⟨1, _⟩ => show win4_0.index t (1 : Fin 2) * 64 + 1 * q.val = q.val; rw [e1]; omega
theorem emb_1 (t : Fin cfg4.N) (p : Fin 5000) (q : Fin 64) :
    ((cfg4.win 1).blk t).view.emb (ix2 p q) = (ix2 (brow (t20 t) p) q : Cert.Spec.SN.Idx) := by
  obtain ⟨-, ⟨e0, e1⟩, -⟩ := idx_facts t
  funext a; apply Fin.ext
  match a with
  | ⟨0, _⟩ => show win4_1.index t (0 : Fin 2) * 5000 + 1 * p.val = 5000 * t.val + p.val; rw [e0]; omega
  | ⟨1, _⟩ => show win4_1.index t (1 : Fin 2) * 64 + 1 * q.val = q.val; rw [e1]; omega
theorem emb_4 (t : Fin cfg4.N) (p : Fin 5000) (q : Fin 64) :
    ((cfg4.win 4).blk t).view.emb (ix2 p q) = (ix2 (brow (t20 t) p) q : Cert.Spec.SN.Idx) := by
  obtain ⟨-, -, -, -, ⟨e0, e1⟩, -⟩ := idx_facts t
  funext a; apply Fin.ext
  match a with
  | ⟨0, _⟩ => show win4_4.index t (0 : Fin 2) * 5000 + 1 * p.val = 5000 * t.val + p.val; rw [e0]; omega
  | ⟨1, _⟩ => show win4_4.index t (1 : Fin 2) * 64 + 1 * q.val = q.val; rw [e1]; omega
/-- Entry (p, 0) of block t of the per-node factors is entry (5000·t + p, 0) of their array. -/
theorem emb_2 (t : Fin cfg4.N) (p : Fin 5000) :
    ((cfg4.win 2).blk t).view.emb (ix2 p (0 : Fin 1)) = (ix2 (brow (t20 t) p) (0 : Fin 1) : Cert.Spec.SC.Idx) := by
  obtain ⟨-, -, ⟨e0, e1⟩, -⟩ := idx_facts t
  funext a; apply Fin.ext
  match a with
  | ⟨0, _⟩ => show win4_2.index t (0 : Fin 2) * 5000 + 1 * p.val = 5000 * t.val + p.val; rw [e0]; omega
  | ⟨1, _⟩ => show win4_2.index t (1 : Fin 2) * 1 + 1 * 0 = 0; rw [e1]
/-- The bias window's one block is the whole bias row. -/
theorem emb_3 (t : Fin cfg4.N) (q : Fin 64) :
    ((cfg4.win 3).blk t).view.emb (ix2 (0 : Fin 1) q) = (ix2 (0 : Fin 1) q : Cert.Spec.SR.Idx) := by
  obtain ⟨-, -, -, ⟨e0, e1⟩, -⟩ := idx_facts t
  funext a; apply Fin.ext
  match a with
  | ⟨0, _⟩ => show win4_3.index t (0 : Fin 2) * 1 + 1 * 0 = 0; rw [e0]
  | ⟨1, _⟩ => show win4_3.index t (1 : Fin 2) * 64 + 1 * q.val = q.val; rw [e1]; omega

section Found
variable {F : FTy → Type} [FloatOps F]

theorem hz : (![0, 0] : Fin 2 → Nat) = fun _ => 0 := funext fun a => by fin_cases a <;> rfl
/-- At the first point the body leaves the block's aggregate in the aggregate's buffer, -/
theorem out_A_4 (c : Dev nD) (i : grid4.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1 .f32) (h6 : a6.IsWhole) (a7 : Memref sig .tc .vmem S1x1 .f32) (h7 : a7.IsWhole) (hc : cond4_0 i) (x0 x1 : Vec F S5000x64 .f32) (x2 : Vec F S5000x1 .f32) (x3 : Vec F S1x64 .f32) :
    out4_A_4 (F := F) c i a1 h1 a2 h2 a3 h3 a4 h4 a5 h5 a6 h6 a7 h7 hc x0 x1 x2 x3 = k4_pay3 x0 x1 x2 x3 := by
  unfold out4_A_4
  rw [View.read_writes_eq_canon _ _ _ (cover4_A_4 c i a1 h1 a2 h2 a3 h3 a4 h4 a5 h5 a6 h6 a7 h7 hc x0 x1 x2 x3)]
  unfold kernelRun4_A
  dsimp only
  sl_unfold_words
  rw [View.canon_unit_zero hz]
  simp only [View.readAt_eq_ld, h1.read_unread, h2.read_unread, h3.read_unread, h4.read_unread, h5.read_unread, h6.read_unread, h7.read_unread, View.ld_unit_zero (S := S5000x64) hz, View.ld_unit_zero (S := S5000x1) hz, View.ld_unit_zero (S := S1x64) hz, View.ld_unit_zero (S := S1x1) hz]
/-- the block's total added to the zero it has just stored in the total's buffer, -/
theorem out_A_5 (c : Dev nD) (i : grid4.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1 .f32) (h6 : a6.IsWhole) (a7 : Memref sig .tc .vmem S1x1 .f32) (h7 : a7.IsWhole) (hc : cond4_0 i) (x0 x1 : Vec F S5000x64 .f32) (x2 : Vec F S5000x1 .f32) (x3 : Vec F S1x64 .f32) :
    out4_A_5 (F := F) c i a1 h1 a2 h2 a3 h3 a4 h4 a5 h5 a6 h6 a7 h7 hc x0 x1 x2 x3 = k4_pay4 x0 x1 x2 x3 k4_pay1 := by
  unfold out4_A_5
  rw [View.read_writes_eq_canon _ _ _ (cover4_A_5 c i a1 h1 a2 h2 a3 h3 a4 h4 a5 h5 a6 h6 a7 h7 hc x0 x1 x2 x3)]
  unfold kernelRun4_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h6.read_unread, h7.read_unread, View.ld_unit_zero (S := S5000x64) hz, View.ld_unit_zero (S := S5000x1) hz, View.ld_unit_zero (S := S1x64) hz, View.ld_unit_zero (S := S1x1) hz]
/-- and likewise the block's total of squares added to a stored zero. -/
theorem out_A_6 (c : Dev nD) (i : grid4.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1 .f32) (h6 : a6.IsWhole) (a7 : Memref sig .tc .vmem S1x1 .f32) (h7 : a7.IsWhole) (hc : cond4_0 i) (x0 x1 : Vec F S5000x64 .f32) (x2 : Vec F S5000x1 .f32) (x3 : Vec F S1x64 .f32) :
    out4_A_6 (F := F) c i a1 h1 a2 h2 a3 h3 a4 h4 a5 h5 a6 h6 a7 h7 hc x0 x1 x2 x3 = k4_pay5 x0 x1 x2 x3 k4_pay2 := by
  unfold out4_A_6
  rw [View.read_writes_eq_canon _ _ _ (cover4_A_6 c i a1 h1 a2 h2 a3 h3 a4 h4 a5 h5 a6 h6 a7 h7 hc x0 x1 x2 x3)]
  unfold kernelRun4_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h6.read_unread, h7.read_unread, View.ld_unit_zero (S := S5000x64) hz, View.ld_unit_zero (S := S5000x1) hz, View.ld_unit_zero (S := S1x64) hz, View.ld_unit_zero (S := S1x1) hz]
/-- At a later point it leaves the block's aggregate, -/
theorem out_B_4 (c : Dev nD) (i : grid4.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1 .f32) (h6 : a6.IsWhole) (a7 : Memref sig .tc .vmem S1x1 .f32) (h7 : a7.IsWhole) (hc : ¬cond4_0 i) (x0 x1 : Vec F S5000x64 .f32) (x2 : Vec F S5000x1 .f32) (x3 : Vec F S1x64 .f32) (xo5 xo6 : Vec F S1x1 .f32) :
    out4_B_4 (F := F) c i a1 h1 a2 h2 a3 h3 a4 h4 a5 h5 a6 h6 a7 h7 hc x0 x1 x2 x3 xo5 xo6 = k4_pay3 x0 x1 x2 x3 := by
  unfold out4_B_4
  rw [View.read_writes_eq_canon _ _ _ (cover4_B_4 c i a1 h1 a2 h2 a3 h3 a4 h4 a5 h5 a6 h6 a7 h7 hc x0 x1 x2 x3 xo5 xo6)]
  unfold kernelRun4_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S5000x64) hz, View.ld_unit_zero (S := S5000x1) hz, View.ld_unit_zero (S := S1x64) hz, View.ld_unit_zero (S := S1x1) hz]
/-- the block's total added to the total carried from the point before, -/
theorem out_B_5 (c : Dev nD) (i : grid4.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1 .f32) (h6 : a6.IsWhole) (a7 : Memref sig .tc .vmem S1x1 .f32) (h7 : a7.IsWhole) (hc : ¬cond4_0 i) (x0 x1 : Vec F S5000x64 .f32) (x2 : Vec F S5000x1 .f32) (x3 : Vec F S1x64 .f32) (xo5 xo6 : Vec F S1x1 .f32) :
    out4_B_5 (F := F) c i a1 h1 a2 h2 a3 h3 a4 h4 a5 h5 a6 h6 a7 h7 hc x0 x1 x2 x3 xo5 xo6 = k4_pay4 x0 x1 x2 x3 xo5 := by
  unfold out4_B_5
  rw [View.read_writes_eq_canon _ _ _ (cover4_B_5 c i a1 h1 a2 h2 a3 h3 a4 h4 a5 h5 a6 h6 a7 h7 hc x0 x1 x2 x3 xo5 xo6)]
  unfold kernelRun4_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S5000x64) hz, View.ld_unit_zero (S := S5000x1) hz, View.ld_unit_zero (S := S1x64) hz, View.ld_unit_zero (S := S1x1) hz]
/-- and the block's total of squares added to the carried one. -/
theorem out_B_6 (c : Dev nD) (i : grid4.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1 .f32) (h6 : a6.IsWhole) (a7 : Memref sig .tc .vmem S1x1 .f32) (h7 : a7.IsWhole) (hc : ¬cond4_0 i) (x0 x1 : Vec F S5000x64 .f32) (x2 : Vec F S5000x1 .f32) (x3 : Vec F S1x64 .f32) (xo5 xo6 : Vec F S1x1 .f32) :
    out4_B_6 (F := F) c i a1 h1 a2 h2 a3 h3 a4 h4 a5 h5 a6 h6 a7 h7 hc x0 x1 x2 x3 xo5 xo6 = k4_pay5 x0 x1 x2 x3 xo6 := by
  unfold out4_B_6
  rw [View.read_writes_eq_canon _ _ _ (cover4_B_6 c i a1 h1 a2 h2 a3 h3 a4 h4 a5 h5 a6 h6 a7 h7 hc x0 x1 x2 x3 xo5 xo6)]
  unfold kernelRun4_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S5000x64) hz, View.ld_unit_zero (S := S5000x1) hz, View.ld_unit_zero (S := S1x64) hz, View.ld_unit_zero (S := S1x1) hz]

end Found

section Arrays
variable (V : (c : Dev nD) → (b : Ref sig .tc) → Buf (Elt Ideal) ((c : Thread nD τ).loc b)) (c : Dev nD)

/-- The aggregate as one function of the four arrays the region finds: (aggs + selfn · hw) + bias. -/
abbrev agg : Cert.Spec.SN.Idx → EReal :=
  Cert.Spec.comb (V c (Pipeline.arrRef spec4 0)) (V c (Pipeline.arrRef spec4 1)) (V c (Pipeline.arrRef spec4 2))
    (V c (Pipeline.arrRef spec4 3))

/-- The four arrays the region finds, typed by their shapes. -/
abbrev hwA : Cert.Spec.SN.Idx → EReal := V c (Pipeline.arrRef spec4 0)
abbrev aggsA : Cert.Spec.SN.Idx → EReal := V c (Pipeline.arrRef spec4 1)
abbrev selfnA : Cert.Spec.SC.Idx → EReal := V c (Pipeline.arrRef spec4 2)
abbrev biasA : Cert.Spec.SR.Idx → EReal := V c (Pipeline.arrRef spec4 3)

/-- Each input block at point t reads its array where the window puts it. -/
theorem iblk_0 (t : Fin cfg4.N) (p : Fin 5000) (q : Fin 64) :
    (iblk4 V c 0 t : S5000x64.Idx → EReal) (ix2 p q) = hwA V c (ix2 (brow (t20 t) p) q) :=
  congrArg (hwA V c) (emb_0 t p q)
theorem iblk_1 (t : Fin cfg4.N) (p : Fin 5000) (q : Fin 64) :
    (iblk4 V c 1 t : S5000x64.Idx → EReal) (ix2 p q) = aggsA V c (ix2 (brow (t20 t) p) q) :=
  congrArg (aggsA V c) (emb_1 t p q)
theorem iblk_2 (t : Fin cfg4.N) (p : Fin 5000) :
    (iblk4 V c 2 t : S5000x1.Idx → EReal) (ix2 p (0 : Fin 1)) = selfnA V c (ix2 (brow (t20 t) p) (0 : Fin 1)) :=
  congrArg (selfnA V c) (emb_2 t p)
theorem iblk_3 (t : Fin cfg4.N) (q : Fin 64) :
    (iblk4 V c 3 t : S1x64.Idx → EReal) (ix2 (0 : Fin 1) q) = biasA V c (ix2 (0 : Fin 1) q) :=
  congrArg (biasA V c) (emb_3 t q)

/-- The whole aggregate at (r, q), spelled out. -/
theorem agg_apply (r : Fin 100000) (q : Fin 64) :
    agg V c (ix2 r q)
      = (aggsA V c (ix2 r q) + selfnA V c (ix2 r (0 : Fin 1)) * hwA V c (ix2 r q)) + biasA V c (ix2 (0 : Fin 1) q) := rfl

/-- The aggregate of block t at (p, q) is the whole aggregate at row 5000·t + p, channel q: each input block is read
    where its window puts it. -/
theorem agg_blk (t : Fin cfg4.N) (p : Fin 5000) (q : Fin 64) :
    k4_pay3 (F := Ideal) (iblk4 V c 0 t) (iblk4 V c 1 t) (iblk4 V c 2 t) (iblk4 V c 3 t) (ix2 p q) = agg V c (ix2 (brow (t20 t) p) q) := by
  refine (pay3_apply (iblk4 V c 0 t) (iblk4 V c 1 t) (iblk4 V c 2 t) (iblk4 V c 3 t) p q).trans ?_
  refine Eq.trans ?_ (agg_apply V c (brow (t20 t) p) q).symm
  exact congrArg₂ (· + ·)
    (congrArg₂ (· + ·) (iblk_1 V c t p q) (congrArg₂ (· * ·) (iblk_2 V c t p) (iblk_0 V c t p q)))
    (iblk_3 V c t q)

/-- At every point the aggregate's buffer holds the aggregate of the point's blocks. -/
theorem outs_4 (t : Fin cfg4.N) :
    (outsAt4 V c t.val t.isLt).1 = k4_pay3 (F := Ideal) (iblk4 V c 0 t) (iblk4 V c 1 t) (iblk4 V c 2 t) (iblk4 V c 3 t) := by
  by_cases h0 : t.val % 20 = 0
  · rw [outsAt4_A V c t h0]
    dsimp only
    exact out_A_4 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t) (iblk4 V c 2 t) (iblk4 V c 3 t)
  · rw [outsAt4_B V c t h0]
    dsimp only
    exact out_B_4 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (iblk4 V c 2 t) (iblk4 V c 3 t) _ _

/-- What point t writes back of the aggregate is block t of the whole aggregate. -/
theorem flushed_4 (t : Fin cfg4.N) :
    (dat4 V c).flushed 4 t = ((cfg4.win 4).blk t).view.read (Elt Ideal) (agg V c) := by
  show (cfg4.win 4).cut (grid4.coords t) ((dat4 V c).after 4 t) = _
  rw [after4_4, outs_4]
  refine funext fun (j : S5000x64.Idx) => ?_
  obtain ⟨p, q, rfl⟩ : ∃ (p : Fin 5000) (q : Fin 64), j = ix2 p q := ⟨j 0, j 1, eq_ix2 j⟩
  show k4_pay3 (F := Ideal) (iblk4 V c 0 t) (iblk4 V c 1 t) (iblk4 V c 2 t) (iblk4 V c 3 t) (ix2 p q) = agg V c (((cfg4.win 4).blk t).view.emb (ix2 p q))
  rw [emb_4]
  exact agg_blk V c t p q

/-- Row r lies in the block of point r / 5000. -/
theorem cover_4 (i : ((cfg4.win 4).arr.view.loc (c.tc : Thread nD τ)).2.ty.Idx) :
    ∃ t : Fin cfg4.N, (cfg4.win 4).flush t = true ∧ i ∈ ((cfg4.win 4).blk t).view.set := by
  have h0 : (i 0).val < 100000 := (i 0).isLt
  have h1 : (i 1).val < 64 := (i 1).isLt
  obtain ⟨t, ht⟩ : ∃ t : Fin cfg4.N, t.val = (i 0).val / 5000 := ⟨⟨(i 0).val / 5000, by rw [N20]; omega⟩, rfl⟩
  obtain ⟨-, -, -, -, ⟨e0, e1⟩, -⟩ := idx_facts t
  refine ⟨t, flush4_4 t, ?_⟩
  show i ∈ ((View.whole main_v84_0).slice (win4_4.rect t)).set
  rw [View.set_slice_whole, Rect.mem_set_unit]
  intro a
  match a with
  | ⟨0, _⟩ => show win4_4.index t (0 : Fin 2) * 5000 ≤ (i 0).val ∧ (i 0).val < win4_4.index t (0 : Fin 2) * 5000 + 5000; rw [e0]; omega
  | ⟨1, _⟩ => show win4_4.index t (1 : Fin 2) * 64 ≤ (i 1).val ∧ (i 1).val < win4_4.index t (1 : Fin 2) * 64 + 64; rw [e1]; omega

/-- So the aggregate's array ends holding the aggregate of the four arrays the region found. -/
theorem arr4_4 : (dat4 (F := Ideal) V c).arrAt 4 cfg4.N = agg V c :=
  (dat4 V c).arrAt_eq_of_cover 4 (agg V c) (fun t _ => flushed_4 V c t) (cover_4 c)

/-- The total of block t of the aggregate, -/
abbrev blockTot (t : Fin 20) : EReal := ∑ p : Fin 5000, ∑ q : Fin 64, agg V c (ix2 (brow t p) q)
/-- and the total of its squares. -/
abbrev blockSq (t : Fin 20) : EReal :=
  ∑ p : Fin 5000, ∑ q : Fin 64, agg V c (ix2 (brow t p) q) * agg V c (ix2 (brow t p) q)

/-- After point n the carried total is the sum, over the blocks 0 … n, of each block's total: by induction on the
    point — the first point adds its block to a stored zero, every later one to what the point before left. -/
theorem outs_5 : ∀ (n : ℕ) (hn : n < cfg4.N) (j : S1x1.Idx),
    (outsAt4 V c n hn).2.1 j = ∑ s : Fin (n + 1), blockTot V c ⟨s.val, by have := s.isLt; have := lt_of_lt_of_eq hn N20; omega⟩
  | 0, hn, j => by
    rw [outsAt4_A V c ⟨0, hn⟩ rfl]
    dsimp only
    refine (congrFun (out_A_5 (F := Ideal) c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) ((hcond4_0 ⟨0, hn⟩).mpr rfl) (iblk4 V c 0 ⟨0, hn⟩) (iblk4 V c 1 ⟨0, hn⟩) (iblk4 V c 2 ⟨0, hn⟩) (iblk4 V c 3 ⟨0, hn⟩)) j).trans ?_
    refine (pay4_apply (iblk4 V c 0 ⟨0, hn⟩) (iblk4 V c 1 ⟨0, hn⟩) (iblk4 V c 2 ⟨0, hn⟩) (iblk4 V c 3 ⟨0, hn⟩) _ j).trans ?_
    rw [Fin.sum_univ_one]
    show Ideal.ofBits .f32 0x00000000#32 + _ = _
    rw [Ideal.ofBits_zero_f32, zero_add]
    refine Finset.sum_congr rfl fun p _ => Finset.sum_congr rfl fun q _ => ?_
    exact agg_blk V c ⟨0, hn⟩ p q
  | n + 1, hn, j => by
    have hN : cfg4.N = 20 := N20
    have hB : ¬(⟨n + 1, hn⟩ : Fin cfg4.N).val % 20 = 0 := by dsimp only; omega
    rw [outsAt4_B V c ⟨n + 1, hn⟩ hB]
    dsimp only
    refine (congrFun (out_B_5 (F := Ideal) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (fun h => hB ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) _ _) j).trans ?_
    refine (pay4_apply (iblk4 V c 0 ⟨n + 1, hn⟩) (iblk4 V c 1 ⟨n + 1, hn⟩) (iblk4 V c 2 ⟨n + 1, hn⟩) (iblk4 V c 3 ⟨n + 1, hn⟩) _ j).trans ?_
    conv_rhs => rw [Fin.sum_univ_castSucc]
    refine congrArg₂ (· + ·) (outs_5 n (Nat.lt_of_succ_lt hn) j) ?_
    refine Finset.sum_congr rfl fun p _ => Finset.sum_congr rfl fun q _ => ?_
    exact agg_blk V c ⟨n + 1, hn⟩ p q

/-- After point n the carried total of squares is the sum, over the blocks 0 … n, of each block's total of squares: by induction on the
    point — the first point adds its block to a stored zero, every later one to what the point before left. -/
theorem outs_6 : ∀ (n : ℕ) (hn : n < cfg4.N) (j : S1x1.Idx),
    (outsAt4 V c n hn).2.2 j = ∑ s : Fin (n + 1), blockSq V c ⟨s.val, by have := s.isLt; have := lt_of_lt_of_eq hn N20; omega⟩
  | 0, hn, j => by
    rw [outsAt4_A V c ⟨0, hn⟩ rfl]
    dsimp only
    refine (congrFun (out_A_6 (F := Ideal) c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) ((hcond4_0 ⟨0, hn⟩).mpr rfl) (iblk4 V c 0 ⟨0, hn⟩) (iblk4 V c 1 ⟨0, hn⟩) (iblk4 V c 2 ⟨0, hn⟩) (iblk4 V c 3 ⟨0, hn⟩)) j).trans ?_
    refine (pay5_apply (iblk4 V c 0 ⟨0, hn⟩) (iblk4 V c 1 ⟨0, hn⟩) (iblk4 V c 2 ⟨0, hn⟩) (iblk4 V c 3 ⟨0, hn⟩) _ j).trans ?_
    rw [Fin.sum_univ_one]
    show Ideal.ofBits .f32 0x00000000#32 + _ = _
    rw [Ideal.ofBits_zero_f32, zero_add]
    refine Finset.sum_congr rfl fun p _ => Finset.sum_congr rfl fun q _ => ?_
    exact congrArg₂ (· * ·) (agg_blk V c ⟨0, hn⟩ p q) (agg_blk V c ⟨0, hn⟩ p q)
  | n + 1, hn, j => by
    have hN : cfg4.N = 20 := N20
    have hB : ¬(⟨n + 1, hn⟩ : Fin cfg4.N).val % 20 = 0 := by dsimp only; omega
    rw [outsAt4_B V c ⟨n + 1, hn⟩ hB]
    dsimp only
    refine (congrFun (out_B_6 (F := Ideal) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (fun h => hB ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) _ _) j).trans ?_
    refine (pay5_apply (iblk4 V c 0 ⟨n + 1, hn⟩) (iblk4 V c 1 ⟨n + 1, hn⟩) (iblk4 V c 2 ⟨n + 1, hn⟩) (iblk4 V c 3 ⟨n + 1, hn⟩) _ j).trans ?_
    conv_rhs => rw [Fin.sum_univ_castSucc]
    refine congrArg₂ (· + ·) (outs_6 n (Nat.lt_of_succ_lt hn) j) ?_
    refine Finset.sum_congr rfl fun p _ => Finset.sum_congr rfl fun q _ => ?_
    exact congrArg₂ (· * ·) (agg_blk V c ⟨n + 1, hn⟩ p q) (agg_blk V c ⟨n + 1, hn⟩ p q)

/-- The one write-back of the total, after the last point, writes the sum over all 20 blocks: the sum of all
    6 400 000 entries. -/
theorem flushed_5 (t : Fin cfg4.N) (hf : (cfg4.win 5).flush t = true) :
    (dat4 V c).flushed 5 t = ((cfg4.win 5).blk t).view.read (Elt Ideal) (Cert.Spec.tot (agg V c)) := by
  have hN : cfg4.N = 20 := N20
  have h19 : t.val = 19 := by have := (flush4_5 t).mp hf; have := t.isLt; omega
  show (cfg4.win 5).cut (grid4.coords t) ((dat4 V c).after 5 t) = _
  rw [after4_5]
  have e : Cert.Spec.tot (agg V c) = fun _ => ∑ i : Cert.Spec.SN.Idx, agg V c i := rfl
  rw [e]
  generalize hT : (∑ i : Cert.Spec.SN.Idx, agg V c i) = T
  refine funext fun (j : S1x1.Idx) => ?_
  show (outsAt4 V c t.val t.isLt).2.1 j = T
  rw [← hT, outs_5 V c t.val t.isLt j, sum_all]
  exact sum_cast _ t.val (by omega) _

/-- The last point's block is the whole 1 × 1 array. -/
theorem cover_5 (i : ((cfg4.win 5).arr.view.loc (c.tc : Thread nD τ)).2.ty.Idx) :
    ∃ t : Fin cfg4.N, (cfg4.win 5).flush t = true ∧ i ∈ ((cfg4.win 5).blk t).view.set := by
  have h0 : (i 0).val < 1 := (i 0).isLt
  have h1 : (i 1).val < 1 := (i 1).isLt
  obtain ⟨t, ht⟩ : ∃ t : Fin cfg4.N, t.val = 19 := ⟨⟨19, by rw [N20]; omega⟩, rfl⟩
  obtain ⟨-, -, -, -, -, ⟨e0, e1⟩, -⟩ := idx_facts t
  refine ⟨t, (flush4_5 t).mpr (by rw [ht]), ?_⟩
  show i ∈ ((View.whole main_v84_1).slice (win4_5.rect t)).set
  rw [View.set_slice_whole, Rect.mem_set_unit]
  intro a
  match a with
  | ⟨0, _⟩ => show win4_5.index t (0 : Fin 2) * 1 ≤ (i 0).val ∧ (i 0).val < win4_5.index t (0 : Fin 2) * 1 + 1; rw [e0]; omega
  | ⟨1, _⟩ => show win4_5.index t (1 : Fin 2) * 1 ≤ (i 1).val ∧ (i 1).val < win4_5.index t (1 : Fin 2) * 1 + 1; rw [e1]; omega

/-- So the total's array ends holding the sum of all entries of the aggregate. -/
theorem arr4_5 : (dat4 (F := Ideal) V c).arrAt 5 cfg4.N = Cert.Spec.tot (agg V c) :=
  (dat4 V c).arrAt_eq_of_cover 5 (Cert.Spec.tot (agg V c)) (flushed_5 V c) (cover_5 c)

/-- The one write-back of the total of squares, after the last point, writes the sum over all 20 blocks: the sum of the squares of all
    6 400 000 entries. -/
theorem flushed_6 (t : Fin cfg4.N) (hf : (cfg4.win 6).flush t = true) :
    (dat4 V c).flushed 6 t = ((cfg4.win 6).blk t).view.read (Elt Ideal) (Cert.Spec.totsq (agg V c)) := by
  have hN : cfg4.N = 20 := N20
  have h19 : t.val = 19 := by have := (flush4_6 t).mp hf; have := t.isLt; omega
  show (cfg4.win 6).cut (grid4.coords t) ((dat4 V c).after 6 t) = _
  rw [after4_6]
  have e : Cert.Spec.totsq (agg V c) = fun _ => ∑ i : Cert.Spec.SN.Idx, agg V c i * agg V c i := rfl
  rw [e]
  generalize hT : (∑ i : Cert.Spec.SN.Idx, agg V c i * agg V c i) = T
  refine funext fun (j : S1x1.Idx) => ?_
  show (outsAt4 V c t.val t.isLt).2.2 j = T
  rw [← hT, outs_6 V c t.val t.isLt j, sum_all]
  exact sum_cast _ t.val (by omega) _

/-- The last point's block is the whole 1 × 1 array. -/
theorem cover_6 (i : ((cfg4.win 6).arr.view.loc (c.tc : Thread nD τ)).2.ty.Idx) :
    ∃ t : Fin cfg4.N, (cfg4.win 6).flush t = true ∧ i ∈ ((cfg4.win 6).blk t).view.set := by
  have h0 : (i 0).val < 1 := (i 0).isLt
  have h1 : (i 1).val < 1 := (i 1).isLt
  obtain ⟨t, ht⟩ : ∃ t : Fin cfg4.N, t.val = 19 := ⟨⟨19, by rw [N20]; omega⟩, rfl⟩
  obtain ⟨-, -, -, -, -, -, ⟨e0, e1⟩⟩ := idx_facts t
  refine ⟨t, (flush4_6 t).mpr (by rw [ht]), ?_⟩
  show i ∈ ((View.whole main_v84_2).slice (win4_6.rect t)).set
  rw [View.set_slice_whole, Rect.mem_set_unit]
  intro a
  match a with
  | ⟨0, _⟩ => show win4_6.index t (0 : Fin 2) * 1 ≤ (i 0).val ∧ (i 0).val < win4_6.index t (0 : Fin 2) * 1 + 1; rw [e0]; omega
  | ⟨1, _⟩ => show win4_6.index t (1 : Fin 2) * 1 ≤ (i 1).val ∧ (i 1).val < win4_6.index t (1 : Fin 2) * 1 + 1; rw [e1]; omega

/-- So the total of squares's array ends holding the sum of the squares of all entries of the aggregate. -/
theorem arr4_6 : (dat4 (F := Ideal) V c).arrAt 6 cfg4.N = Cert.Spec.totsq (agg V c) :=
  (dat4 V c).arrAt_eq_of_cover 6 (Cert.Spec.totsq (agg V c)) (flushed_6 V c) (cover_6 c)

end Arrays

end Cert.Combine4

end
-- ==== Proof.RegionCombine7.lean ====
/-
  The second kernel of layer 2 — the aggregate with its self loop and bias, and the two running totals — read as values
  over the extended reals.

  The kernel walks the 100000 × 64 node array in 20 row blocks of 5000 rows. At block t it forms, entry by entry,
      a = (aggs + selfn · hw) + bias
  (the per-node factor selfn spread over the 64 channels, the per-channel bias spread over the rows), writes that block
  of a back, and adds the block's total Σ a and total of squares Σ a² to two 1 × 1 accumulators that it zeroes at the
  first block, carries from block to block, and writes back once, after the last block.

  What is proved, for ANY contents V of the buffers when the kernel starts: the aggregate's array ends holding
  a = comb hw aggs selfn bias of the four input arrays found in V; the total's array ends holding Σ over all
  6 400 000 entries of a; the array of the total of squares ends holding Σ a².

  The steps: the body's arithmetic read at an index (a pointwise formula; a lane sum followed by a row sum is the double
  sum over the block); each input block read where its window places it (row 5000·t + p); the carried accumulator after
  block n is the sum of the totals of blocks 0 … n, by induction on n, starting from the stored zero; and a sum over the
  100000 rows regroups as the sum over 20 blocks of sums over 5000 rows. Sums of extended reals commute and
  associate, so nothing here needs the entries to be finite.
-/
import proofs.«123589_j55817394979590_1_alg».proof.Proof.Gen.KernelIdeal.Frame
import proofs.«123589_j55817394979590_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Tactic

noncomputable section

namespace Cert.Combine7

open Idealize.ShloMosaic Idealize.ShloMosaic.TcCoe Idealize.ShloMosaic.ValueIdx Idealize.SL.Sem
open Idealize.ShloMosaic.Pipeline (Dat)
open Cert.KernelIdeal Cert.KernelIdeal.Gen

/-- A column of per-row factors spread over the 64 channels reads, at (p, q), the factor of row p. -/
theorem bcast_col (x : S5000x1.Idx → EReal) (h : S5000x1.Broadcasts S5000x64) (p : Fin 5000) (q : Fin 64) :
    broadcastTo S5000x64 x h (ix2 p q) = x (ix2 p (0 : Fin 1)) :=
  broadcastTo_apply x h (ix2 p q) (ix2 p (0 : Fin 1)) (fun a => by
    match a with
    | ⟨0, _⟩ => rfl
    | ⟨1, _⟩ => rfl)

/-- A row of per-channel values spread over the 5000 rows reads, at (p, q), the value of channel q. -/
theorem bcast_row (x : S1x64.Idx → EReal) (h : S1x64.Broadcasts S5000x64) (p : Fin 5000) (q : Fin 64) :
    broadcastTo S5000x64 x h (ix2 p q) = x (ix2 (0 : Fin 1) q) :=
  broadcastTo_apply x h (ix2 p q) (ix2 (0 : Fin 1) q) (fun a => by
    match a with
    | ⟨0, _⟩ => rfl
    | ⟨1, _⟩ => rfl)

/-- The aggregate of one block at (p, q): (aggs + selfn · hw) + bias. -/
theorem pay3_apply (x0 x1 : Vec Ideal S5000x64 .f32) (x2 : Vec Ideal S5000x1 .f32) (x3 : Vec Ideal S1x64 .f32)
    (p : Fin 5000) (q : Fin 64) :
    k7_pay3 (F := Ideal) x0 x1 x2 x3 (ix2 p q)
      = (x1 (ix2 p q) + x2 (ix2 p (0 : Fin 1)) * x0 (ix2 p q)) + x3 (ix2 (0 : Fin 1) q) := by
  unfold k7_pay3
  simp only [shapeCast_self]
  show (x1 (ix2 p q) + broadcastTo S5000x64 x2 _ (ix2 p q) * x0 (ix2 p q)) + broadcastTo S5000x64 x3 _ (ix2 p q) = _
  rw [bcast_col, bcast_row]

/-- The lane sum: a sum over the channel axis of a 5000 × 64 block, at row p, is the sum over the 64 channels. -/
theorem lane_sum (src : FVec Ideal S5000x64 .f32) (h : S5000x64.Reduces [1] S5000) (hφ : FKind.Formats .f32)
    (hacc : (0x00000000#32 : BitVec 32) = FKind.add.neutral .f32 hφ) (p : Fin 5000) :
    multiReduction (F := Ideal) .add [1] S5000 src 0x00000000#32 h hφ hacc (ix1 p) = ∑ q : Fin 64, src (ix2 p q) := by
  refine (Ideal.multiReduction_add_single src _ h hφ hacc (ix1 p)).trans ?_
  show ∑ q : Fin 64, src (h.lift (ix1 p) q) = _
  refine Finset.sum_congr rfl fun q _ => congrArg src (funext fun a => ?_)
  match a with
  | ⟨0, _⟩ => rfl
  | ⟨1, _⟩ => rfl

/-- The row sum: a sum over the row axis of a 5000 × 1 column is the sum over its 5000 rows. -/
theorem row_sum (src : FVec Ideal S5000x1 .f32) (h : S5000x1.Reduces [0] S1) (hφ : FKind.Formats .f32)
    (hacc : (0x00000000#32 : BitVec 32) = FKind.add.neutral .f32 hφ) (j : S1.Idx) :
    multiReduction (F := Ideal) .add [0] S1 src 0x00000000#32 h hφ hacc j = ∑ p : Fin 5000, src (ix2 p (0 : Fin 1)) := by
  refine (Ideal.multiReduction_add_single src _ h hφ hacc j).trans ?_
  show ∑ p : Fin 5000, src (h.lift j p) = _
  refine Finset.sum_congr rfl fun p _ => congrArg src (funext fun a => ?_)
  match a with
  | ⟨0, _⟩ => rfl
  | ⟨1, _⟩ => exact Fin.ext (by
      show (j 0).val = 0
      have hj : (j 0).val < 1 := (j 0).isLt
      omega)

/-- A vector of 5000 values viewed as a 5000 × 1 column reads, at (p, 0), value p. -/
theorem col_of_vec (v : S5000.Idx → EReal) (h : S5000.ShapeCasts S5000x1) (p : Fin 5000) :
    shapeCast S5000x1 v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- The sum of one block's entries: lanes first, then rows. -/
theorem block_total (src : FVec Ideal S5000x64 .f32) (h1 : S5000x64.Reduces [1] S5000) (h2 : S5000.ShapeCasts S5000x1)
    (h3 : S5000x1.Reduces [0] S1) (h4 : S1.ShapeCasts S1x1) (hφ : FKind.Formats .f32)
    (hacc : (0x00000000#32 : BitVec 32) = FKind.add.neutral .f32 hφ) (j : S1x1.Idx) :
    shapeCast S1x1 (multiReduction (F := Ideal) .add [0] S1
        (shapeCast S5000x1 (multiReduction (F := Ideal) .add [1] S5000 src 0x00000000#32 h1 hφ hacc) h2)
        0x00000000#32 h3 hφ hacc) h4 j
      = ∑ p : Fin 5000, ∑ q : Fin 64, src (ix2 p q) := by
  refine (shapeCast_addUnit_apply ![1] _ h4 j).trans ?_
  refine (row_sum _ h3 hφ hacc _).trans ?_
  refine Finset.sum_congr rfl fun p _ => ?_
  exact (col_of_vec _ h2 p).trans (lane_sum src h1 hφ hacc p)

/-- The running total after a block: the old total plus the sum of the block's aggregate. -/
theorem pay4_apply (x0 x1 : Vec Ideal S5000x64 .f32) (x2 : Vec Ideal S5000x1 .f32) (x3 : Vec Ideal S1x64 .f32)
    (acc : Vec Ideal S1x1 .f32) (j : S1x1.Idx) :
    k7_pay4 (F := Ideal) x0 x1 x2 x3 acc j
      = acc j + ∑ p : Fin 5000, ∑ q : Fin 64, k7_pay3 (F := Ideal) x0 x1 x2 x3 (ix2 p q) := by
  unfold k7_pay4
  simp only [shapeCast_self]
  exact congrArg (acc j + ·) (block_total _ _ _ _ _ _ _ j)

/-- The running total of squares after a block: the old one plus the sum of the squares of the block's aggregate. -/
theorem pay5_apply (x0 x1 : Vec Ideal S5000x64 .f32) (x2 : Vec Ideal S5000x1 .f32) (x3 : Vec Ideal S1x64 .f32)
    (acc : Vec Ideal S1x1 .f32) (j : S1x1.Idx) :
    k7_pay5 (F := Ideal) x0 x1 x2 x3 acc j
      = acc j + ∑ p : Fin 5000, ∑ q : Fin 64,
          k7_pay3 (F := Ideal) x0 x1 x2 x3 (ix2 p q) * k7_pay3 (F := Ideal) x0 x1 x2 x3 (ix2 p q) := by
  unfold k7_pay5
  simp only [shapeCast_self]
  exact congrArg (acc j + ·) (block_total _ _ _ _ _ _ _ j)

/-- Row `5000·t + p` of the node array: row p of block t. -/
abbrev brow (t : Fin 20) (p : Fin 5000) : Fin 100000 :=
  ⟨5000 * t.val + p.val, by have := t.isLt; have := p.isLt; omega⟩

/-- A sum over the 100000 rows is the sum over the 20 blocks of the sums over each block's 5000 rows. -/
theorem sum_rows (g : Fin 100000 → EReal) :
    ∑ r : Fin 100000, g r = ∑ t : Fin 20, ∑ p : Fin 5000, g (brow t p) := by
  rw [← Equiv.sum_comp (finProdFinEquiv (m := 20) (n := 5000)) g, Fintype.sum_prod_type]
  refine Finset.sum_congr rfl fun t _ => Finset.sum_congr rfl fun p _ => congrArg g (Fin.ext ?_)
  show p.val + 5000 * t.val = 5000 * t.val + p.val
  omega

/-- So the sum of all entries of a node array is the sum over the blocks of each block's total. -/
theorem sum_all (a : Cert.Spec.SN.Idx → EReal) :
    ∑ i : Cert.Spec.SN.Idx, a i = ∑ t : Fin 20, ∑ p : Fin 5000, ∑ q : Fin 64, a (ix2 (brow t p) q) := by
  rw [sum_idx2, sum_rows]

/-- A sum over the first n + 1 = 20 block numbers is the sum over all 20. -/
theorem sum_cast (f : Fin 20 → EReal) (n : ℕ) (e : n + 1 = 20) (h : ∀ s : Fin (n + 1), s.val < 20) :
    ∑ s : Fin (n + 1), f ⟨s.val, h s⟩ = ∑ t : Fin 20, f t :=
  Equiv.sum_comp (finCongr e) f

/-- The grid has 20 points. -/
theorem N20 : cfg7.N = 20 := by decide

/-- A grid point as a block number below 20. -/
abbrev t20 (t : Fin cfg7.N) : Fin 20 := ⟨t.val, lt_of_lt_of_eq t.isLt N20⟩

/-- Where each window's block sits at point t: the row-blocked windows at block row t, the bias and the two running
    totals always at block (0, 0). Decided over the 20 points. -/
theorem idx_facts : ∀ t : Fin cfg7.N,
    (win7_0.index t (0 : Fin 2) = t.val ∧ win7_0.index t (1 : Fin 2) = 0)
    ∧ (win7_1.index t (0 : Fin 2) = t.val ∧ win7_1.index t (1 : Fin 2) = 0)
    ∧ (win7_2.index t (0 : Fin 2) = t.val ∧ win7_2.index t (1 : Fin 2) = 0)
    ∧ (win7_3.index t (0 : Fin 2) = 0 ∧ win7_3.index t (1 : Fin 2) = 0)
    ∧ (win7_4.index t (0 : Fin 2) = t.val ∧ win7_4.index t (1 : Fin 2) = 0)
    ∧ (win7_5.index t (0 : Fin 2) = 0 ∧ win7_5.index t (1 : Fin 2) = 0)
    ∧ (win7_6.index t (0 : Fin 2) = 0 ∧ win7_6.index t (1 : Fin 2) = 0) :=
  (by decide +kernel : ∀ t : Fin grid7.N, _)

/-- Entry (p, q) of block t of a node-feature window is entry (5000·t + p, q) of its array. -/
theorem emb_0 (t : Fin cfg7.N) (p : Fin 5000) (q : Fin 64) :
    ((cfg7.win 0).blk t).view.emb (ix2 p q) = (ix2 (brow (t20 t) p) q : Cert.Spec.SN.Idx) := by
  obtain ⟨⟨e0, e1⟩, -⟩ := idx_facts t
  funext a; apply Fin.ext
  match a with
  | ⟨0, _⟩ => show win7_0.index t (0 : Fin 2) * 5000 + 1 * p.val = 5000 * t.val + p.val; rw [e0]; omega
  | ⟨1, _⟩ => show win7_0.index t (1 : Fin 2) * 64 + 1 * q.val = q.val; rw [e1]; omega
theorem emb_1 (t : Fin cfg7.N) (p : Fin 5000) (q : Fin 64) :
    ((cfg7.win 1).blk t).view.emb (ix2 p q) = (ix2 (brow (t20 t) p) q : Cert.Spec.SN.Idx) := by
  obtain ⟨-, ⟨e0, e1⟩, -⟩ := idx_facts t
  funext a; apply Fin.ext
  match a with
  | ⟨0, _⟩ => show win7_1.index t (0 : Fin 2) * 5000 + 1 * p.val = 5000 * t.val + p.val; rw [e0]; omega
  | ⟨1, _⟩ => show win7_1.index t (1 : Fin 2) * 64 + 1 * q.val = q.val; rw [e1]; omega
theorem emb_4 (t : Fin cfg7.N) (p : Fin 5000) (q : Fin 64) :
    ((cfg7.win 4).blk t).view.emb (ix2 p q) = (ix2 (brow (t20 t) p) q : Cert.Spec.SN.Idx) := by
  obtain ⟨-, -, -, -, ⟨e0, e1⟩, -⟩ := idx_facts t
  funext a; apply Fin.ext
  match a with
  | ⟨0, _⟩ => show win7_4.index t (0 : Fin 2) * 5000 + 1 * p.val = 5000 * t.val + p.val; rw [e0]; omega
  | ⟨1, _⟩ => show win7_4.index t (1 : Fin 2) * 64 + 1 * q.val = q.val; rw [e1]; omega
/-- Entry (p, 0) of block t of the per-node factors is entry (5000·t + p, 0) of their array. -/
theorem emb_2 (t : Fin cfg7.N) (p : Fin 5000) :
    ((cfg7.win 2).blk t).view.emb (ix2 p (0 : Fin 1)) = (ix2 (brow (t20 t) p) (0 : Fin 1) : Cert.Spec.SC.Idx) := by
  obtain ⟨-, -, ⟨e0, e1⟩, -⟩ := idx_facts t
  funext a; apply Fin.ext
  match a with
  | ⟨0, _⟩ => show win7_2.index t (0 : Fin 2) * 5000 + 1 * p.val = 5000 * t.val + p.val; rw [e0]; omega
  | ⟨1, _⟩ => show win7_2.index t (1 : Fin 2) * 1 + 1 * 0 = 0; rw [e1]
/-- The bias window's one block is the whole bias row. -/
theorem emb_3 (t : Fin cfg7.N) (q : Fin 64) :
    ((cfg7.win 3).blk t).view.emb (ix2 (0 : Fin 1) q) = (ix2 (0 : Fin 1) q : Cert.Spec.SR.Idx) := by
  obtain ⟨-, -, -, ⟨e0, e1⟩, -⟩ := idx_facts t
  funext a; apply Fin.ext
  match a with
  | ⟨0, _⟩ => show win7_3.index t (0 : Fin 2) * 1 + 1 * 0 = 0; rw [e0]
  | ⟨1, _⟩ => show win7_3.index t (1 : Fin 2) * 64 + 1 * q.val = q.val; rw [e1]; omega

section Found
variable {F : FTy → Type} [FloatOps F]

theorem hz : (![0, 0] : Fin 2 → Nat) = fun _ => 0 := funext fun a => by fin_cases a <;> rfl
/-- At the first point the body leaves the block's aggregate in the aggregate's buffer, -/
theorem out_A_4 (c : Dev nD) (i : grid7.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1 .f32) (h6 : a6.IsWhole) (a7 : Memref sig .tc .vmem S1x1 .f32) (h7 : a7.IsWhole) (hc : cond7_0 i) (x0 x1 : Vec F S5000x64 .f32) (x2 : Vec F S5000x1 .f32) (x3 : Vec F S1x64 .f32) :
    out7_A_4 (F := F) c i a1 h1 a2 h2 a3 h3 a4 h4 a5 h5 a6 h6 a7 h7 hc x0 x1 x2 x3 = k7_pay3 x0 x1 x2 x3 := by
  unfold out7_A_4
  rw [View.read_writes_eq_canon _ _ _ (cover7_A_4 c i a1 h1 a2 h2 a3 h3 a4 h4 a5 h5 a6 h6 a7 h7 hc x0 x1 x2 x3)]
  unfold kernelRun7_A
  dsimp only
  sl_unfold_words
  rw [View.canon_unit_zero hz]
  simp only [View.readAt_eq_ld, h1.read_unread, h2.read_unread, h3.read_unread, h4.read_unread, h5.read_unread, h6.read_unread, h7.read_unread, View.ld_unit_zero (S := S5000x64) hz, View.ld_unit_zero (S := S5000x1) hz, View.ld_unit_zero (S := S1x64) hz, View.ld_unit_zero (S := S1x1) hz]
/-- the block's total added to the zero it has just stored in the total's buffer, -/
theorem out_A_5 (c : Dev nD) (i : grid7.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1 .f32) (h6 : a6.IsWhole) (a7 : Memref sig .tc .vmem S1x1 .f32) (h7 : a7.IsWhole) (hc : cond7_0 i) (x0 x1 : Vec F S5000x64 .f32) (x2 : Vec F S5000x1 .f32) (x3 : Vec F S1x64 .f32) :
    out7_A_5 (F := F) c i a1 h1 a2 h2 a3 h3 a4 h4 a5 h5 a6 h6 a7 h7 hc x0 x1 x2 x3 = k7_pay4 x0 x1 x2 x3 k7_pay1 := by
  unfold out7_A_5
  rw [View.read_writes_eq_canon _ _ _ (cover7_A_5 c i a1 h1 a2 h2 a3 h3 a4 h4 a5 h5 a6 h6 a7 h7 hc x0 x1 x2 x3)]
  unfold kernelRun7_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h6.read_unread, h7.read_unread, View.ld_unit_zero (S := S5000x64) hz, View.ld_unit_zero (S := S5000x1) hz, View.ld_unit_zero (S := S1x64) hz, View.ld_unit_zero (S := S1x1) hz]
/-- and likewise the block's total of squares added to a stored zero. -/
theorem out_A_6 (c : Dev nD) (i : grid7.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1 .f32) (h6 : a6.IsWhole) (a7 : Memref sig .tc .vmem S1x1 .f32) (h7 : a7.IsWhole) (hc : cond7_0 i) (x0 x1 : Vec F S5000x64 .f32) (x2 : Vec F S5000x1 .f32) (x3 : Vec F S1x64 .f32) :
    out7_A_6 (F := F) c i a1 h1 a2 h2 a3 h3 a4 h4 a5 h5 a6 h6 a7 h7 hc x0 x1 x2 x3 = k7_pay5 x0 x1 x2 x3 k7_pay2 := by
  unfold out7_A_6
  rw [View.read_writes_eq_canon _ _ _ (cover7_A_6 c i a1 h1 a2 h2 a3 h3 a4 h4 a5 h5 a6 h6 a7 h7 hc x0 x1 x2 x3)]
  unfold kernelRun7_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h6.read_unread, h7.read_unread, View.ld_unit_zero (S := S5000x64) hz, View.ld_unit_zero (S := S5000x1) hz, View.ld_unit_zero (S := S1x64) hz, View.ld_unit_zero (S := S1x1) hz]
/-- At a later point it leaves the block's aggregate, -/
theorem out_B_4 (c : Dev nD) (i : grid7.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1 .f32) (h6 : a6.IsWhole) (a7 : Memref sig .tc .vmem S1x1 .f32) (h7 : a7.IsWhole) (hc : ¬cond7_0 i) (x0 x1 : Vec F S5000x64 .f32) (x2 : Vec F S5000x1 .f32) (x3 : Vec F S1x64 .f32) (xo5 xo6 : Vec F S1x1 .f32) :
    out7_B_4 (F := F) c i a1 h1 a2 h2 a3 h3 a4 h4 a5 h5 a6 h6 a7 h7 hc x0 x1 x2 x3 xo5 xo6 = k7_pay3 x0 x1 x2 x3 := by
  unfold out7_B_4
  rw [View.read_writes_eq_canon _ _ _ (cover7_B_4 c i a1 h1 a2 h2 a3 h3 a4 h4 a5 h5 a6 h6 a7 h7 hc x0 x1 x2 x3 xo5 xo6)]
  unfold kernelRun7_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S5000x64) hz, View.ld_unit_zero (S := S5000x1) hz, View.ld_unit_zero (S := S1x64) hz, View.ld_unit_zero (S := S1x1) hz]
/-- the block's total added to the total carried from the point before, -/
theorem out_B_5 (c : Dev nD) (i : grid7.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1 .f32) (h6 : a6.IsWhole) (a7 : Memref sig .tc .vmem S1x1 .f32) (h7 : a7.IsWhole) (hc : ¬cond7_0 i) (x0 x1 : Vec F S5000x64 .f32) (x2 : Vec F S5000x1 .f32) (x3 : Vec F S1x64 .f32) (xo5 xo6 : Vec F S1x1 .f32) :
    out7_B_5 (F := F) c i a1 h1 a2 h2 a3 h3 a4 h4 a5 h5 a6 h6 a7 h7 hc x0 x1 x2 x3 xo5 xo6 = k7_pay4 x0 x1 x2 x3 xo5 := by
  unfold out7_B_5
  rw [View.read_writes_eq_canon _ _ _ (cover7_B_5 c i a1 h1 a2 h2 a3 h3 a4 h4 a5 h5 a6 h6 a7 h7 hc x0 x1 x2 x3 xo5 xo6)]
  unfold kernelRun7_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S5000x64) hz, View.ld_unit_zero (S := S5000x1) hz, View.ld_unit_zero (S := S1x64) hz, View.ld_unit_zero (S := S1x1) hz]
/-- and the block's total of squares added to the carried one. -/
theorem out_B_6 (c : Dev nD) (i : grid7.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1 .f32) (h6 : a6.IsWhole) (a7 : Memref sig .tc .vmem S1x1 .f32) (h7 : a7.IsWhole) (hc : ¬cond7_0 i) (x0 x1 : Vec F S5000x64 .f32) (x2 : Vec F S5000x1 .f32) (x3 : Vec F S1x64 .f32) (xo5 xo6 : Vec F S1x1 .f32) :
    out7_B_6 (F := F) c i a1 h1 a2 h2 a3 h3 a4 h4 a5 h5 a6 h6 a7 h7 hc x0 x1 x2 x3 xo5 xo6 = k7_pay5 x0 x1 x2 x3 xo6 := by
  unfold out7_B_6
  rw [View.read_writes_eq_canon _ _ _ (cover7_B_6 c i a1 h1 a2 h2 a3 h3 a4 h4 a5 h5 a6 h6 a7 h7 hc x0 x1 x2 x3 xo5 xo6)]
  unfold kernelRun7_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S5000x64) hz, View.ld_unit_zero (S := S5000x1) hz, View.ld_unit_zero (S := S1x64) hz, View.ld_unit_zero (S := S1x1) hz]

end Found

section Arrays
variable (V : (c : Dev nD) → (b : Ref sig .tc) → Buf (Elt Ideal) ((c : Thread nD τ).loc b)) (c : Dev nD)

/-- The aggregate as one function of the four arrays the region finds: (aggs + selfn · hw) + bias. -/
abbrev agg : Cert.Spec.SN.Idx → EReal :=
  Cert.Spec.comb (V c (Pipeline.arrRef spec7 0)) (V c (Pipeline.arrRef spec7 1)) (V c (Pipeline.arrRef spec7 2))
    (V c (Pipeline.arrRef spec7 3))

/-- The four arrays the region finds, typed by their shapes. -/
abbrev hwA : Cert.Spec.SN.Idx → EReal := V c (Pipeline.arrRef spec7 0)
abbrev aggsA : Cert.Spec.SN.Idx → EReal := V c (Pipeline.arrRef spec7 1)
abbrev selfnA : Cert.Spec.SC.Idx → EReal := V c (Pipeline.arrRef spec7 2)
abbrev biasA : Cert.Spec.SR.Idx → EReal := V c (Pipeline.arrRef spec7 3)

/-- Each input block at point t reads its array where the window puts it. -/
theorem iblk_0 (t : Fin cfg7.N) (p : Fin 5000) (q : Fin 64) :
    (iblk7 V c 0 t : S5000x64.Idx → EReal) (ix2 p q) = hwA V c (ix2 (brow (t20 t) p) q) :=
  congrArg (hwA V c) (emb_0 t p q)
theorem iblk_1 (t : Fin cfg7.N) (p : Fin 5000) (q : Fin 64) :
    (iblk7 V c 1 t : S5000x64.Idx → EReal) (ix2 p q) = aggsA V c (ix2 (brow (t20 t) p) q) :=
  congrArg (aggsA V c) (emb_1 t p q)
theorem iblk_2 (t : Fin cfg7.N) (p : Fin 5000) :
    (iblk7 V c 2 t : S5000x1.Idx → EReal) (ix2 p (0 : Fin 1)) = selfnA V c (ix2 (brow (t20 t) p) (0 : Fin 1)) :=
  congrArg (selfnA V c) (emb_2 t p)
theorem iblk_3 (t : Fin cfg7.N) (q : Fin 64) :
    (iblk7 V c 3 t : S1x64.Idx → EReal) (ix2 (0 : Fin 1) q) = biasA V c (ix2 (0 : Fin 1) q) :=
  congrArg (biasA V c) (emb_3 t q)

/-- The whole aggregate at (r, q), spelled out. -/
theorem agg_apply (r : Fin 100000) (q : Fin 64) :
    agg V c (ix2 r q)
      = (aggsA V c (ix2 r q) + selfnA V c (ix2 r (0 : Fin 1)) * hwA V c (ix2 r q)) + biasA V c (ix2 (0 : Fin 1) q) := rfl

/-- The aggregate of block t at (p, q) is the whole aggregate at row 5000·t + p, channel q: each input block is read
    where its window puts it. -/
theorem agg_blk (t : Fin cfg7.N) (p : Fin 5000) (q : Fin 64) :
    k7_pay3 (F := Ideal) (iblk7 V c 0 t) (iblk7 V c 1 t) (iblk7 V c 2 t) (iblk7 V c 3 t) (ix2 p q) = agg V c (ix2 (brow (t20 t) p) q) := by
  refine (pay3_apply (iblk7 V c 0 t) (iblk7 V c 1 t) (iblk7 V c 2 t) (iblk7 V c 3 t) p q).trans ?_
  refine Eq.trans ?_ (agg_apply V c (brow (t20 t) p) q).symm
  exact congrArg₂ (· + ·)
    (congrArg₂ (· + ·) (iblk_1 V c t p q) (congrArg₂ (· * ·) (iblk_2 V c t p) (iblk_0 V c t p q)))
    (iblk_3 V c t q)

/-- At every point the aggregate's buffer holds the aggregate of the point's blocks. -/
theorem outs_4 (t : Fin cfg7.N) :
    (outsAt7 V c t.val t.isLt).1 = k7_pay3 (F := Ideal) (iblk7 V c 0 t) (iblk7 V c 1 t) (iblk7 V c 2 t) (iblk7 V c 3 t) := by
  by_cases h0 : t.val % 20 = 0
  · rw [outsAt7_A V c t h0]
    dsimp only
    exact out_A_4 (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) ((hcond7_0 t).mpr h0) (iblk7 V c 0 t) (iblk7 V c 1 t) (iblk7 V c 2 t) (iblk7 V c 3 t)
  · rw [outsAt7_B V c t h0]
    dsimp only
    exact out_B_4 (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (fun h => h0 ((hcond7_0 t).mp h)) (iblk7 V c 0 t) (iblk7 V c 1 t) (iblk7 V c 2 t) (iblk7 V c 3 t) _ _

/-- What point t writes back of the aggregate is block t of the whole aggregate. -/
theorem flushed_4 (t : Fin cfg7.N) :
    (dat7 V c).flushed 4 t = ((cfg7.win 4).blk t).view.read (Elt Ideal) (agg V c) := by
  show (cfg7.win 4).cut (grid7.coords t) ((dat7 V c).after 4 t) = _
  rw [after7_4, outs_4]
  refine funext fun (j : S5000x64.Idx) => ?_
  obtain ⟨p, q, rfl⟩ : ∃ (p : Fin 5000) (q : Fin 64), j = ix2 p q := ⟨j 0, j 1, eq_ix2 j⟩
  show k7_pay3 (F := Ideal) (iblk7 V c 0 t) (iblk7 V c 1 t) (iblk7 V c 2 t) (iblk7 V c 3 t) (ix2 p q) = agg V c (((cfg7.win 4).blk t).view.emb (ix2 p q))
  rw [emb_4]
  exact agg_blk V c t p q

/-- Row r lies in the block of point r / 5000. -/
theorem cover_4 (i : ((cfg7.win 4).arr.view.loc (c.tc : Thread nD τ)).2.ty.Idx) :
    ∃ t : Fin cfg7.N, (cfg7.win 4).flush t = true ∧ i ∈ ((cfg7.win 4).blk t).view.set := by
  have h0 : (i 0).val < 100000 := (i 0).isLt
  have h1 : (i 1).val < 64 := (i 1).isLt
  obtain ⟨t, ht⟩ : ∃ t : Fin cfg7.N, t.val = (i 0).val / 5000 := ⟨⟨(i 0).val / 5000, by rw [N20]; omega⟩, rfl⟩
  obtain ⟨-, -, -, -, ⟨e0, e1⟩, -⟩ := idx_facts t
  refine ⟨t, flush7_4 t, ?_⟩
  show i ∈ ((View.whole main_v116_0).slice (win7_4.rect t)).set
  rw [View.set_slice_whole, Rect.mem_set_unit]
  intro a
  match a with
  | ⟨0, _⟩ => show win7_4.index t (0 : Fin 2) * 5000 ≤ (i 0).val ∧ (i 0).val < win7_4.index t (0 : Fin 2) * 5000 + 5000; rw [e0]; omega
  | ⟨1, _⟩ => show win7_4.index t (1 : Fin 2) * 64 ≤ (i 1).val ∧ (i 1).val < win7_4.index t (1 : Fin 2) * 64 + 64; rw [e1]; omega

/-- So the aggregate's array ends holding the aggregate of the four arrays the region found. -/
theorem arr7_4 : (dat7 (F := Ideal) V c).arrAt 4 cfg7.N = agg V c :=
  (dat7 V c).arrAt_eq_of_cover 4 (agg V c) (fun t _ => flushed_4 V c t) (cover_4 c)

/-- The total of block t of the aggregate, -/
abbrev blockTot (t : Fin 20) : EReal := ∑ p : Fin 5000, ∑ q : Fin 64, agg V c (ix2 (brow t p) q)
/-- and the total of its squares. -/
abbrev blockSq (t : Fin 20) : EReal :=
  ∑ p : Fin 5000, ∑ q : Fin 64, agg V c (ix2 (brow t p) q) * agg V c (ix2 (brow t p) q)

/-- After point n the carried total is the sum, over the blocks 0 … n, of each block's total: by induction on the
    point — the first point adds its block to a stored zero, every later one to what the point before left. -/
theorem outs_5 : ∀ (n : ℕ) (hn : n < cfg7.N) (j : S1x1.Idx),
    (outsAt7 V c n hn).2.1 j = ∑ s : Fin (n + 1), blockTot V c ⟨s.val, by have := s.isLt; have := lt_of_lt_of_eq hn N20; omega⟩
  | 0, hn, j => by
    rw [outsAt7_A V c ⟨0, hn⟩ rfl]
    dsimp only
    refine (congrFun (out_A_5 (F := Ideal) c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) ((hcond7_0 ⟨0, hn⟩).mpr rfl) (iblk7 V c 0 ⟨0, hn⟩) (iblk7 V c 1 ⟨0, hn⟩) (iblk7 V c 2 ⟨0, hn⟩) (iblk7 V c 3 ⟨0, hn⟩)) j).trans ?_
    refine (pay4_apply (iblk7 V c 0 ⟨0, hn⟩) (iblk7 V c 1 ⟨0, hn⟩) (iblk7 V c 2 ⟨0, hn⟩) (iblk7 V c 3 ⟨0, hn⟩) _ j).trans ?_
    rw [Fin.sum_univ_one]
    show Ideal.ofBits .f32 0x00000000#32 + _ = _
    rw [Ideal.ofBits_zero_f32, zero_add]
    refine Finset.sum_congr rfl fun p _ => Finset.sum_congr rfl fun q _ => ?_
    exact agg_blk V c ⟨0, hn⟩ p q
  | n + 1, hn, j => by
    have hN : cfg7.N = 20 := N20
    have hB : ¬(⟨n + 1, hn⟩ : Fin cfg7.N).val % 20 = 0 := by dsimp only; omega
    rw [outsAt7_B V c ⟨n + 1, hn⟩ hB]
    dsimp only
    refine (congrFun (out_B_5 (F := Ideal) c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) (fun h => hB ((hcond7_0 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) _ _) j).trans ?_
    refine (pay4_apply (iblk7 V c 0 ⟨n + 1, hn⟩) (iblk7 V c 1 ⟨n + 1, hn⟩) (iblk7 V c 2 ⟨n + 1, hn⟩) (iblk7 V c 3 ⟨n + 1, hn⟩) _ j).trans ?_
    conv_rhs => rw [Fin.sum_univ_castSucc]
    refine congrArg₂ (· + ·) (outs_5 n (Nat.lt_of_succ_lt hn) j) ?_
    refine Finset.sum_congr rfl fun p _ => Finset.sum_congr rfl fun q _ => ?_
    exact agg_blk V c ⟨n + 1, hn⟩ p q

/-- After point n the carried total of squares is the sum, over the blocks 0 … n, of each block's total of squares: by induction on the
    point — the first point adds its block to a stored zero, every later one to what the point before left. -/
theorem outs_6 : ∀ (n : ℕ) (hn : n < cfg7.N) (j : S1x1.Idx),
    (outsAt7 V c n hn).2.2 j = ∑ s : Fin (n + 1), blockSq V c ⟨s.val, by have := s.isLt; have := lt_of_lt_of_eq hn N20; omega⟩
  | 0, hn, j => by
    rw [outsAt7_A V c ⟨0, hn⟩ rfl]
    dsimp only
    refine (congrFun (out_A_6 (F := Ideal) c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) ((hcond7_0 ⟨0, hn⟩).mpr rfl) (iblk7 V c 0 ⟨0, hn⟩) (iblk7 V c 1 ⟨0, hn⟩) (iblk7 V c 2 ⟨0, hn⟩) (iblk7 V c 3 ⟨0, hn⟩)) j).trans ?_
    refine (pay5_apply (iblk7 V c 0 ⟨0, hn⟩) (iblk7 V c 1 ⟨0, hn⟩) (iblk7 V c 2 ⟨0, hn⟩) (iblk7 V c 3 ⟨0, hn⟩) _ j).trans ?_
    rw [Fin.sum_univ_one]
    show Ideal.ofBits .f32 0x00000000#32 + _ = _
    rw [Ideal.ofBits_zero_f32, zero_add]
    refine Finset.sum_congr rfl fun p _ => Finset.sum_congr rfl fun q _ => ?_
    exact congrArg₂ (· * ·) (agg_blk V c ⟨0, hn⟩ p q) (agg_blk V c ⟨0, hn⟩ p q)
  | n + 1, hn, j => by
    have hN : cfg7.N = 20 := N20
    have hB : ¬(⟨n + 1, hn⟩ : Fin cfg7.N).val % 20 = 0 := by dsimp only; omega
    rw [outsAt7_B V c ⟨n + 1, hn⟩ hB]
    dsimp only
    refine (congrFun (out_B_6 (F := Ideal) c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) (fun h => hB ((hcond7_0 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) _ _) j).trans ?_
    refine (pay5_apply (iblk7 V c 0 ⟨n + 1, hn⟩) (iblk7 V c 1 ⟨n + 1, hn⟩) (iblk7 V c 2 ⟨n + 1, hn⟩) (iblk7 V c 3 ⟨n + 1, hn⟩) _ j).trans ?_
    conv_rhs => rw [Fin.sum_univ_castSucc]
    refine congrArg₂ (· + ·) (outs_6 n (Nat.lt_of_succ_lt hn) j) ?_
    refine Finset.sum_congr rfl fun p _ => Finset.sum_congr rfl fun q _ => ?_
    exact congrArg₂ (· * ·) (agg_blk V c ⟨n + 1, hn⟩ p q) (agg_blk V c ⟨n + 1, hn⟩ p q)

/-- The one write-back of the total, after the last point, writes the sum over all 20 blocks: the sum of all
    6 400 000 entries. -/
theorem flushed_5 (t : Fin cfg7.N) (hf : (cfg7.win 5).flush t = true) :
    (dat7 V c).flushed 5 t = ((cfg7.win 5).blk t).view.read (Elt Ideal) (Cert.Spec.tot (agg V c)) := by
  have hN : cfg7.N = 20 := N20
  have h19 : t.val = 19 := by have := (flush7_5 t).mp hf; have := t.isLt; omega
  show (cfg7.win 5).cut (grid7.coords t) ((dat7 V c).after 5 t) = _
  rw [after7_5]
  have e : Cert.Spec.tot (agg V c) = fun _ => ∑ i : Cert.Spec.SN.Idx, agg V c i := rfl
  rw [e]
  generalize hT : (∑ i : Cert.Spec.SN.Idx, agg V c i) = T
  refine funext fun (j : S1x1.Idx) => ?_
  show (outsAt7 V c t.val t.isLt).2.1 j = T
  rw [← hT, outs_5 V c t.val t.isLt j, sum_all]
  exact sum_cast _ t.val (by omega) _

/-- The last point's block is the whole 1 × 1 array. -/
theorem cover_5 (i : ((cfg7.win 5).arr.view.loc (c.tc : Thread nD τ)).2.ty.Idx) :
    ∃ t : Fin cfg7.N, (cfg7.win 5).flush t = true ∧ i ∈ ((cfg7.win 5).blk t).view.set := by
  have h0 : (i 0).val < 1 := (i 0).isLt
  have h1 : (i 1).val < 1 := (i 1).isLt
  obtain ⟨t, ht⟩ : ∃ t : Fin cfg7.N, t.val = 19 := ⟨⟨19, by rw [N20]; omega⟩, rfl⟩
  obtain ⟨-, -, -, -, -, ⟨e0, e1⟩, -⟩ := idx_facts t
  refine ⟨t, (flush7_5 t).mpr (by rw [ht]), ?_⟩
  show i ∈ ((View.whole main_v116_1).slice (win7_5.rect t)).set
  rw [View.set_slice_whole, Rect.mem_set_unit]
  intro a
  match a with
  | ⟨0, _⟩ => show win7_5.index t (0 : Fin 2) * 1 ≤ (i 0).val ∧ (i 0).val < win7_5.index t (0 : Fin 2) * 1 + 1; rw [e0]; omega
  | ⟨1, _⟩ => show win7_5.index t (1 : Fin 2) * 1 ≤ (i 1).val ∧ (i 1).val < win7_5.index t (1 : Fin 2) * 1 + 1; rw [e1]; omega

/-- So the total's array ends holding the sum of all entries of the aggregate. -/
theorem arr7_5 : (dat7 (F := Ideal) V c).arrAt 5 cfg7.N = Cert.Spec.tot (agg V c) :=
  (dat7 V c).arrAt_eq_of_cover 5 (Cert.Spec.tot (agg V c)) (flushed_5 V c) (cover_5 c)

/-- The one write-back of the total of squares, after the last point, writes the sum over all 20 blocks: the sum of the squares of all
    6 400 000 entries. -/
theorem flushed_6 (t : Fin cfg7.N) (hf : (cfg7.win 6).flush t = true) :
    (dat7 V c).flushed 6 t = ((cfg7.win 6).blk t).view.read (Elt Ideal) (Cert.Spec.totsq (agg V c)) := by
  have hN : cfg7.N = 20 := N20
  have h19 : t.val = 19 := by have := (flush7_6 t).mp hf; have := t.isLt; omega
  show (cfg7.win 6).cut (grid7.coords t) ((dat7 V c).after 6 t) = _
  rw [after7_6]
  have e : Cert.Spec.totsq (agg V c) = fun _ => ∑ i : Cert.Spec.SN.Idx, agg V c i * agg V c i := rfl
  rw [e]
  generalize hT : (∑ i : Cert.Spec.SN.Idx, agg V c i * agg V c i) = T
  refine funext fun (j : S1x1.Idx) => ?_
  show (outsAt7 V c t.val t.isLt).2.2 j = T
  rw [← hT, outs_6 V c t.val t.isLt j, sum_all]
  exact sum_cast _ t.val (by omega) _

/-- The last point's block is the whole 1 × 1 array. -/
theorem cover_6 (i : ((cfg7.win 6).arr.view.loc (c.tc : Thread nD τ)).2.ty.Idx) :
    ∃ t : Fin cfg7.N, (cfg7.win 6).flush t = true ∧ i ∈ ((cfg7.win 6).blk t).view.set := by
  have h0 : (i 0).val < 1 := (i 0).isLt
  have h1 : (i 1).val < 1 := (i 1).isLt
  obtain ⟨t, ht⟩ : ∃ t : Fin cfg7.N, t.val = 19 := ⟨⟨19, by rw [N20]; omega⟩, rfl⟩
  obtain ⟨-, -, -, -, -, -, ⟨e0, e1⟩⟩ := idx_facts t
  refine ⟨t, (flush7_6 t).mpr (by rw [ht]), ?_⟩
  show i ∈ ((View.whole main_v116_2).slice (win7_6.rect t)).set
  rw [View.set_slice_whole, Rect.mem_set_unit]
  intro a
  match a with
  | ⟨0, _⟩ => show win7_6.index t (0 : Fin 2) * 1 ≤ (i 0).val ∧ (i 0).val < win7_6.index t (0 : Fin 2) * 1 + 1; rw [e0]; omega
  | ⟨1, _⟩ => show win7_6.index t (1 : Fin 2) * 1 ≤ (i 1).val ∧ (i 1).val < win7_6.index t (1 : Fin 2) * 1 + 1; rw [e1]; omega

/-- So the total of squares's array ends holding the sum of the squares of all entries of the aggregate. -/
theorem arr7_6 : (dat7 (F := Ideal) V c).arrAt 6 cfg7.N = Cert.Spec.totsq (agg V c) :=
  (dat7 V c).arrAt_eq_of_cover 6 (Cert.Spec.totsq (agg V c)) (flushed_6 V c) (cover_6 c)

end Arrays

end Cert.Combine7

end
-- ==== Proof.RegionCombine10.lean ====
/-
  The second kernel of layer 3 — the aggregate with its self loop and bias, and the two running totals — read as values
  over the extended reals.

  The kernel walks the 100000 × 64 node array in 20 row blocks of 5000 rows. At block t it forms, entry by entry,
      a = (aggs + selfn · hw) + bias
  (the per-node factor selfn spread over the 64 channels, the per-channel bias spread over the rows), writes that block
  of a back, and adds the block's total Σ a and total of squares Σ a² to two 1 × 1 accumulators that it zeroes at the
  first block, carries from block to block, and writes back once, after the last block.

  What is proved, for ANY contents V of the buffers when the kernel starts: the aggregate's array ends holding
  a = comb hw aggs selfn bias of the four input arrays found in V; the total's array ends holding Σ over all
  6 400 000 entries of a; the array of the total of squares ends holding Σ a².

  The steps: the body's arithmetic read at an index (a pointwise formula; a lane sum followed by a row sum is the double
  sum over the block); each input block read where its window places it (row 5000·t + p); the carried accumulator after
  block n is the sum of the totals of blocks 0 … n, by induction on n, starting from the stored zero; and a sum over the
  100000 rows regroups as the sum over 20 blocks of sums over 5000 rows. Sums of extended reals commute and
  associate, so nothing here needs the entries to be finite.
-/
import proofs.«123589_j55817394979590_1_alg».proof.Proof.Gen.KernelIdeal.Frame
import proofs.«123589_j55817394979590_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Tactic

noncomputable section

namespace Cert.Combine10

open Idealize.ShloMosaic Idealize.ShloMosaic.TcCoe Idealize.ShloMosaic.ValueIdx Idealize.SL.Sem
open Idealize.ShloMosaic.Pipeline (Dat)
open Cert.KernelIdeal Cert.KernelIdeal.Gen

/-- A column of per-row factors spread over the 64 channels reads, at (p, q), the factor of row p. -/
theorem bcast_col (x : S5000x1.Idx → EReal) (h : S5000x1.Broadcasts S5000x64) (p : Fin 5000) (q : Fin 64) :
    broadcastTo S5000x64 x h (ix2 p q) = x (ix2 p (0 : Fin 1)) :=
  broadcastTo_apply x h (ix2 p q) (ix2 p (0 : Fin 1)) (fun a => by
    match a with
    | ⟨0, _⟩ => rfl
    | ⟨1, _⟩ => rfl)

/-- A row of per-channel values spread over the 5000 rows reads, at (p, q), the value of channel q. -/
theorem bcast_row (x : S1x64.Idx → EReal) (h : S1x64.Broadcasts S5000x64) (p : Fin 5000) (q : Fin 64) :
    broadcastTo S5000x64 x h (ix2 p q) = x (ix2 (0 : Fin 1) q) :=
  broadcastTo_apply x h (ix2 p q) (ix2 (0 : Fin 1) q) (fun a => by
    match a with
    | ⟨0, _⟩ => rfl
    | ⟨1, _⟩ => rfl)

/-- The aggregate of one block at (p, q): (aggs + selfn · hw) + bias. -/
theorem pay3_apply (x0 x1 : Vec Ideal S5000x64 .f32) (x2 : Vec Ideal S5000x1 .f32) (x3 : Vec Ideal S1x64 .f32)
    (p : Fin 5000) (q : Fin 64) :
    k10_pay3 (F := Ideal) x0 x1 x2 x3 (ix2 p q)
      = (x1 (ix2 p q) + x2 (ix2 p (0 : Fin 1)) * x0 (ix2 p q)) + x3 (ix2 (0 : Fin 1) q) := by
  unfold k10_pay3
  simp only [shapeCast_self]
  show (x1 (ix2 p q) + broadcastTo S5000x64 x2 _ (ix2 p q) * x0 (ix2 p q)) + broadcastTo S5000x64 x3 _ (ix2 p q) = _
  rw [bcast_col, bcast_row]

/-- The lane sum: a sum over the channel axis of a 5000 × 64 block, at row p, is the sum over the 64 channels. -/
theorem lane_sum (src : FVec Ideal S5000x64 .f32) (h : S5000x64.Reduces [1] S5000) (hφ : FKind.Formats .f32)
    (hacc : (0x00000000#32 : BitVec 32) = FKind.add.neutral .f32 hφ) (p : Fin 5000) :
    multiReduction (F := Ideal) .add [1] S5000 src 0x00000000#32 h hφ hacc (ix1 p) = ∑ q : Fin 64, src (ix2 p q) := by
  refine (Ideal.multiReduction_add_single src _ h hφ hacc (ix1 p)).trans ?_
  show ∑ q : Fin 64, src (h.lift (ix1 p) q) = _
  refine Finset.sum_congr rfl fun q _ => congrArg src (funext fun a => ?_)
  match a with
  | ⟨0, _⟩ => rfl
  | ⟨1, _⟩ => rfl

/-- The row sum: a sum over the row axis of a 5000 × 1 column is the sum over its 5000 rows. -/
theorem row_sum (src : FVec Ideal S5000x1 .f32) (h : S5000x1.Reduces [0] S1) (hφ : FKind.Formats .f32)
    (hacc : (0x00000000#32 : BitVec 32) = FKind.add.neutral .f32 hφ) (j : S1.Idx) :
    multiReduction (F := Ideal) .add [0] S1 src 0x00000000#32 h hφ hacc j = ∑ p : Fin 5000, src (ix2 p (0 : Fin 1)) := by
  refine (Ideal.multiReduction_add_single src _ h hφ hacc j).trans ?_
  show ∑ p : Fin 5000, src (h.lift j p) = _
  refine Finset.sum_congr rfl fun p _ => congrArg src (funext fun a => ?_)
  match a with
  | ⟨0, _⟩ => rfl
  | ⟨1, _⟩ => exact Fin.ext (by
      show (j 0).val = 0
      have hj : (j 0).val < 1 := (j 0).isLt
      omega)

/-- A vector of 5000 values viewed as a 5000 × 1 column reads, at (p, 0), value p. -/
theorem col_of_vec (v : S5000.Idx → EReal) (h : S5000.ShapeCasts S5000x1) (p : Fin 5000) :
    shapeCast S5000x1 v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- The sum of one block's entries: lanes first, then rows. -/
theorem block_total (src : FVec Ideal S5000x64 .f32) (h1 : S5000x64.Reduces [1] S5000) (h2 : S5000.ShapeCasts S5000x1)
    (h3 : S5000x1.Reduces [0] S1) (h4 : S1.ShapeCasts S1x1) (hφ : FKind.Formats .f32)
    (hacc : (0x00000000#32 : BitVec 32) = FKind.add.neutral .f32 hφ) (j : S1x1.Idx) :
    shapeCast S1x1 (multiReduction (F := Ideal) .add [0] S1
        (shapeCast S5000x1 (multiReduction (F := Ideal) .add [1] S5000 src 0x00000000#32 h1 hφ hacc) h2)
        0x00000000#32 h3 hφ hacc) h4 j
      = ∑ p : Fin 5000, ∑ q : Fin 64, src (ix2 p q) := by
  refine (shapeCast_addUnit_apply ![1] _ h4 j).trans ?_
  refine (row_sum _ h3 hφ hacc _).trans ?_
  refine Finset.sum_congr rfl fun p _ => ?_
  exact (col_of_vec _ h2 p).trans (lane_sum src h1 hφ hacc p)

/-- The running total after a block: the old total plus the sum of the block's aggregate. -/
theorem pay4_apply (x0 x1 : Vec Ideal S5000x64 .f32) (x2 : Vec Ideal S5000x1 .f32) (x3 : Vec Ideal S1x64 .f32)
    (acc : Vec Ideal S1x1 .f32) (j : S1x1.Idx) :
    k10_pay4 (F := Ideal) x0 x1 x2 x3 acc j
      = acc j + ∑ p : Fin 5000, ∑ q : Fin 64, k10_pay3 (F := Ideal) x0 x1 x2 x3 (ix2 p q) := by
  unfold k10_pay4
  simp only [shapeCast_self]
  exact congrArg (acc j + ·) (block_total _ _ _ _ _ _ _ j)

/-- The running total of squares after a block: the old one plus the sum of the squares of the block's aggregate. -/
theorem pay5_apply (x0 x1 : Vec Ideal S5000x64 .f32) (x2 : Vec Ideal S5000x1 .f32) (x3 : Vec Ideal S1x64 .f32)
    (acc : Vec Ideal S1x1 .f32) (j : S1x1.Idx) :
    k10_pay5 (F := Ideal) x0 x1 x2 x3 acc j
      = acc j + ∑ p : Fin 5000, ∑ q : Fin 64,
          k10_pay3 (F := Ideal) x0 x1 x2 x3 (ix2 p q) * k10_pay3 (F := Ideal) x0 x1 x2 x3 (ix2 p q) := by
  unfold k10_pay5
  simp only [shapeCast_self]
  exact congrArg (acc j + ·) (block_total _ _ _ _ _ _ _ j)

/-- Row `5000·t + p` of the node array: row p of block t. -/
abbrev brow (t : Fin 20) (p : Fin 5000) : Fin 100000 :=
  ⟨5000 * t.val + p.val, by have := t.isLt; have := p.isLt; omega⟩

/-- A sum over the 100000 rows is the sum over the 20 blocks of the sums over each block's 5000 rows. -/
theorem sum_rows (g : Fin 100000 → EReal) :
    ∑ r : Fin 100000, g r = ∑ t : Fin 20, ∑ p : Fin 5000, g (brow t p) := by
  rw [← Equiv.sum_comp (finProdFinEquiv (m := 20) (n := 5000)) g, Fintype.sum_prod_type]
  refine Finset.sum_congr rfl fun t _ => Finset.sum_congr rfl fun p _ => congrArg g (Fin.ext ?_)
  show p.val + 5000 * t.val = 5000 * t.val + p.val
  omega

/-- So the sum of all entries of a node array is the sum over the blocks of each block's total. -/
theorem sum_all (a : Cert.Spec.SN.Idx → EReal) :
    ∑ i : Cert.Spec.SN.Idx, a i = ∑ t : Fin 20, ∑ p : Fin 5000, ∑ q : Fin 64, a (ix2 (brow t p) q) := by
  rw [sum_idx2, sum_rows]

/-- A sum over the first n + 1 = 20 block numbers is the sum over all 20. -/
theorem sum_cast (f : Fin 20 → EReal) (n : ℕ) (e : n + 1 = 20) (h : ∀ s : Fin (n + 1), s.val < 20) :
    ∑ s : Fin (n + 1), f ⟨s.val, h s⟩ = ∑ t : Fin 20, f t :=
  Equiv.sum_comp (finCongr e) f

/-- The grid has 20 points. -/
theorem N20 : cfg10.N = 20 := by decide

/-- A grid point as a block number below 20. -/
abbrev t20 (t : Fin cfg10.N) : Fin 20 := ⟨t.val, lt_of_lt_of_eq t.isLt N20⟩

/-- Where each window's block sits at point t: the row-blocked windows at block row t, the bias and the two running
    totals always at block (0, 0). Decided over the 20 points. -/
theorem idx_facts : ∀ t : Fin cfg10.N,
    (win10_0.index t (0 : Fin 2) = t.val ∧ win10_0.index t (1 : Fin 2) = 0)
    ∧ (win10_1.index t (0 : Fin 2) = t.val ∧ win10_1.index t (1 : Fin 2) = 0)
    ∧ (win10_2.index t (0 : Fin 2) = t.val ∧ win10_2.index t (1 : Fin 2) = 0)
    ∧ (win10_3.index t (0 : Fin 2) = 0 ∧ win10_3.index t (1 : Fin 2) = 0)
    ∧ (win10_4.index t (0 : Fin 2) = t.val ∧ win10_4.index t (1 : Fin 2) = 0)
    ∧ (win10_5.index t (0 : Fin 2) = 0 ∧ win10_5.index t (1 : Fin 2) = 0)
    ∧ (win10_6.index t (0 : Fin 2) = 0 ∧ win10_6.index t (1 : Fin 2) = 0) :=
  (by decide +kernel : ∀ t : Fin grid10.N, _)

/-- Entry (p, q) of block t of a node-feature window is entry (5000·t + p, q) of its array. -/
theorem emb_0 (t : Fin cfg10.N) (p : Fin 5000) (q : Fin 64) :
    ((cfg10.win 0).blk t).view.emb (ix2 p q) = (ix2 (brow (t20 t) p) q : Cert.Spec.SN.Idx) := by
  obtain ⟨⟨e0, e1⟩, -⟩ := idx_facts t
  funext a; apply Fin.ext
  match a with
  | ⟨0, _⟩ => show win10_0.index t (0 : Fin 2) * 5000 + 1 * p.val = 5000 * t.val + p.val; rw [e0]; omega
  | ⟨1, _⟩ => show win10_0.index t (1 : Fin 2) * 64 + 1 * q.val = q.val; rw [e1]; omega
theorem emb_1 (t : Fin cfg10.N) (p : Fin 5000) (q : Fin 64) :
    ((cfg10.win 1).blk t).view.emb (ix2 p q) = (ix2 (brow (t20 t) p) q : Cert.Spec.SN.Idx) := by
  obtain ⟨-, ⟨e0, e1⟩, -⟩ := idx_facts t
  funext a; apply Fin.ext
  match a with
  | ⟨0, _⟩ => show win10_1.index t (0 : Fin 2) * 5000 + 1 * p.val = 5000 * t.val + p.val; rw [e0]; omega
  | ⟨1, _⟩ => show win10_1.index t (1 : Fin 2) * 64 + 1 * q.val = q.val; rw [e1]; omega
theorem emb_4 (t : Fin cfg10.N) (p : Fin 5000) (q : Fin 64) :
    ((cfg10.win 4).blk t).view.emb (ix2 p q) = (ix2 (brow (t20 t) p) q : Cert.Spec.SN.Idx) := by
  obtain ⟨-, -, -, -, ⟨e0, e1⟩, -⟩ := idx_facts t
  funext a; apply Fin.ext
  match a with
  | ⟨0, _⟩ => show win10_4.index t (0 : Fin 2) * 5000 + 1 * p.val = 5000 * t.val + p.val; rw [e0]; omega
  | ⟨1, _⟩ => show win10_4.index t (1 : Fin 2) * 64 + 1 * q.val = q.val; rw [e1]; omega
/-- Entry (p, 0) of block t of the per-node factors is entry (5000·t + p, 0) of their array. -/
theorem emb_2 (t : Fin cfg10.N) (p : Fin 5000) :
    ((cfg10.win 2).blk t).view.emb (ix2 p (0 : Fin 1)) = (ix2 (brow (t20 t) p) (0 : Fin 1) : Cert.Spec.SC.Idx) := by
  obtain ⟨-, -, ⟨e0, e1⟩, -⟩ := idx_facts t
  funext a; apply Fin.ext
  match a with
  | ⟨0, _⟩ => show win10_2.index t (0 : Fin 2) * 5000 + 1 * p.val = 5000 * t.val + p.val; rw [e0]; omega
  | ⟨1, _⟩ => show win10_2.index t (1 : Fin 2) * 1 + 1 * 0 = 0; rw [e1]
/-- The bias window's one block is the whole bias row. -/
theorem emb_3 (t : Fin cfg10.N) (q : Fin 64) :
    ((cfg10.win 3).blk t).view.emb (ix2 (0 : Fin 1) q) = (ix2 (0 : Fin 1) q : Cert.Spec.SR.Idx) := by
  obtain ⟨-, -, -, ⟨e0, e1⟩, -⟩ := idx_facts t
  funext a; apply Fin.ext
  match a with
  | ⟨0, _⟩ => show win10_3.index t (0 : Fin 2) * 1 + 1 * 0 = 0; rw [e0]
  | ⟨1, _⟩ => show win10_3.index t (1 : Fin 2) * 64 + 1 * q.val = q.val; rw [e1]; omega

section Found
variable {F : FTy → Type} [FloatOps F]

theorem hz : (![0, 0] : Fin 2 → Nat) = fun _ => 0 := funext fun a => by fin_cases a <;> rfl
/-- At the first point the body leaves the block's aggregate in the aggregate's buffer, -/
theorem out_A_4 (c : Dev nD) (i : grid10.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1 .f32) (h6 : a6.IsWhole) (a7 : Memref sig .tc .vmem S1x1 .f32) (h7 : a7.IsWhole) (hc : cond10_0 i) (x0 x1 : Vec F S5000x64 .f32) (x2 : Vec F S5000x1 .f32) (x3 : Vec F S1x64 .f32) :
    out10_A_4 (F := F) c i a1 h1 a2 h2 a3 h3 a4 h4 a5 h5 a6 h6 a7 h7 hc x0 x1 x2 x3 = k10_pay3 x0 x1 x2 x3 := by
  unfold out10_A_4
  rw [View.read_writes_eq_canon _ _ _ (cover10_A_4 c i a1 h1 a2 h2 a3 h3 a4 h4 a5 h5 a6 h6 a7 h7 hc x0 x1 x2 x3)]
  unfold kernelRun10_A
  dsimp only
  sl_unfold_words
  rw [View.canon_unit_zero hz]
  simp only [View.readAt_eq_ld, h1.read_unread, h2.read_unread, h3.read_unread, h4.read_unread, h5.read_unread, h6.read_unread, h7.read_unread, View.ld_unit_zero (S := S5000x64) hz, View.ld_unit_zero (S := S5000x1) hz, View.ld_unit_zero (S := S1x64) hz, View.ld_unit_zero (S := S1x1) hz]
/-- the block's total added to the zero it has just stored in the total's buffer, -/
theorem out_A_5 (c : Dev nD) (i : grid10.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1 .f32) (h6 : a6.IsWhole) (a7 : Memref sig .tc .vmem S1x1 .f32) (h7 : a7.IsWhole) (hc : cond10_0 i) (x0 x1 : Vec F S5000x64 .f32) (x2 : Vec F S5000x1 .f32) (x3 : Vec F S1x64 .f32) :
    out10_A_5 (F := F) c i a1 h1 a2 h2 a3 h3 a4 h4 a5 h5 a6 h6 a7 h7 hc x0 x1 x2 x3 = k10_pay4 x0 x1 x2 x3 k10_pay1 := by
  unfold out10_A_5
  rw [View.read_writes_eq_canon _ _ _ (cover10_A_5 c i a1 h1 a2 h2 a3 h3 a4 h4 a5 h5 a6 h6 a7 h7 hc x0 x1 x2 x3)]
  unfold kernelRun10_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h6.read_unread, h7.read_unread, View.ld_unit_zero (S := S5000x64) hz, View.ld_unit_zero (S := S5000x1) hz, View.ld_unit_zero (S := S1x64) hz, View.ld_unit_zero (S := S1x1) hz]
/-- and likewise the block's total of squares added to a stored zero. -/
theorem out_A_6 (c : Dev nD) (i : grid10.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1 .f32) (h6 : a6.IsWhole) (a7 : Memref sig .tc .vmem S1x1 .f32) (h7 : a7.IsWhole) (hc : cond10_0 i) (x0 x1 : Vec F S5000x64 .f32) (x2 : Vec F S5000x1 .f32) (x3 : Vec F S1x64 .f32) :
    out10_A_6 (F := F) c i a1 h1 a2 h2 a3 h3 a4 h4 a5 h5 a6 h6 a7 h7 hc x0 x1 x2 x3 = k10_pay5 x0 x1 x2 x3 k10_pay2 := by
  unfold out10_A_6
  rw [View.read_writes_eq_canon _ _ _ (cover10_A_6 c i a1 h1 a2 h2 a3 h3 a4 h4 a5 h5 a6 h6 a7 h7 hc x0 x1 x2 x3)]
  unfold kernelRun10_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h6.read_unread, h7.read_unread, View.ld_unit_zero (S := S5000x64) hz, View.ld_unit_zero (S := S5000x1) hz, View.ld_unit_zero (S := S1x64) hz, View.ld_unit_zero (S := S1x1) hz]
/-- At a later point it leaves the block's aggregate, -/
theorem out_B_4 (c : Dev nD) (i : grid10.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1 .f32) (h6 : a6.IsWhole) (a7 : Memref sig .tc .vmem S1x1 .f32) (h7 : a7.IsWhole) (hc : ¬cond10_0 i) (x0 x1 : Vec F S5000x64 .f32) (x2 : Vec F S5000x1 .f32) (x3 : Vec F S1x64 .f32) (xo5 xo6 : Vec F S1x1 .f32) :
    out10_B_4 (F := F) c i a1 h1 a2 h2 a3 h3 a4 h4 a5 h5 a6 h6 a7 h7 hc x0 x1 x2 x3 xo5 xo6 = k10_pay3 x0 x1 x2 x3 := by
  unfold out10_B_4
  rw [View.read_writes_eq_canon _ _ _ (cover10_B_4 c i a1 h1 a2 h2 a3 h3 a4 h4 a5 h5 a6 h6 a7 h7 hc x0 x1 x2 x3 xo5 xo6)]
  unfold kernelRun10_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S5000x64) hz, View.ld_unit_zero (S := S5000x1) hz, View.ld_unit_zero (S := S1x64) hz, View.ld_unit_zero (S := S1x1) hz]
/-- the block's total added to the total carried from the point before, -/
theorem out_B_5 (c : Dev nD) (i : grid10.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1 .f32) (h6 : a6.IsWhole) (a7 : Memref sig .tc .vmem S1x1 .f32) (h7 : a7.IsWhole) (hc : ¬cond10_0 i) (x0 x1 : Vec F S5000x64 .f32) (x2 : Vec F S5000x1 .f32) (x3 : Vec F S1x64 .f32) (xo5 xo6 : Vec F S1x1 .f32) :
    out10_B_5 (F := F) c i a1 h1 a2 h2 a3 h3 a4 h4 a5 h5 a6 h6 a7 h7 hc x0 x1 x2 x3 xo5 xo6 = k10_pay4 x0 x1 x2 x3 xo5 := by
  unfold out10_B_5
  rw [View.read_writes_eq_canon _ _ _ (cover10_B_5 c i a1 h1 a2 h2 a3 h3 a4 h4 a5 h5 a6 h6 a7 h7 hc x0 x1 x2 x3 xo5 xo6)]
  unfold kernelRun10_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S5000x64) hz, View.ld_unit_zero (S := S5000x1) hz, View.ld_unit_zero (S := S1x64) hz, View.ld_unit_zero (S := S1x1) hz]
/-- and the block's total of squares added to the carried one. -/
theorem out_B_6 (c : Dev nD) (i : grid10.Coords) (a1 : Memref sig .tc .vmem S5000x64 .f32) (h1 : a1.IsWhole) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1 .f32) (h6 : a6.IsWhole) (a7 : Memref sig .tc .vmem S1x1 .f32) (h7 : a7.IsWhole) (hc : ¬cond10_0 i) (x0 x1 : Vec F S5000x64 .f32) (x2 : Vec F S5000x1 .f32) (x3 : Vec F S1x64 .f32) (xo5 xo6 : Vec F S1x1 .f32) :
    out10_B_6 (F := F) c i a1 h1 a2 h2 a3 h3 a4 h4 a5 h5 a6 h6 a7 h7 hc x0 x1 x2 x3 xo5 xo6 = k10_pay5 x0 x1 x2 x3 xo6 := by
  unfold out10_B_6
  rw [View.read_writes_eq_canon _ _ _ (cover10_B_6 c i a1 h1 a2 h2 a3 h3 a4 h4 a5 h5 a6 h6 a7 h7 hc x0 x1 x2 x3 xo5 xo6)]
  unfold kernelRun10_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S5000x64) hz, View.ld_unit_zero (S := S5000x1) hz, View.ld_unit_zero (S := S1x64) hz, View.ld_unit_zero (S := S1x1) hz]

end Found

section Arrays
variable (V : (c : Dev nD) → (b : Ref sig .tc) → Buf (Elt Ideal) ((c : Thread nD τ).loc b)) (c : Dev nD)

/-- The aggregate as one function of the four arrays the region finds: (aggs + selfn · hw) + bias. -/
abbrev agg : Cert.Spec.SN.Idx → EReal :=
  Cert.Spec.comb (V c (Pipeline.arrRef spec10 0)) (V c (Pipeline.arrRef spec10 1)) (V c (Pipeline.arrRef spec10 2))
    (V c (Pipeline.arrRef spec10 3))

/-- The four arrays the region finds, typed by their shapes. -/
abbrev hwA : Cert.Spec.SN.Idx → EReal := V c (Pipeline.arrRef spec10 0)
abbrev aggsA : Cert.Spec.SN.Idx → EReal := V c (Pipeline.arrRef spec10 1)
abbrev selfnA : Cert.Spec.SC.Idx → EReal := V c (Pipeline.arrRef spec10 2)
abbrev biasA : Cert.Spec.SR.Idx → EReal := V c (Pipeline.arrRef spec10 3)

/-- Each input block at point t reads its array where the window puts it. -/
theorem iblk_0 (t : Fin cfg10.N) (p : Fin 5000) (q : Fin 64) :
    (iblk10 V c 0 t : S5000x64.Idx → EReal) (ix2 p q) = hwA V c (ix2 (brow (t20 t) p) q) :=
  congrArg (hwA V c) (emb_0 t p q)
theorem iblk_1 (t : Fin cfg10.N) (p : Fin 5000) (q : Fin 64) :
    (iblk10 V c 1 t : S5000x64.Idx → EReal) (ix2 p q) = aggsA V c (ix2 (brow (t20 t) p) q) :=
  congrArg (aggsA V c) (emb_1 t p q)
theorem iblk_2 (t : Fin cfg10.N) (p : Fin 5000) :
    (iblk10 V c 2 t : S5000x1.Idx → EReal) (ix2 p (0 : Fin 1)) = selfnA V c (ix2 (brow (t20 t) p) (0 : Fin 1)) :=
  congrArg (selfnA V c) (emb_2 t p)
theorem iblk_3 (t : Fin cfg10.N) (q : Fin 64) :
    (iblk10 V c 3 t : S1x64.Idx → EReal) (ix2 (0 : Fin 1) q) = biasA V c (ix2 (0 : Fin 1) q) :=
  congrArg (biasA V c) (emb_3 t q)

/-- The whole aggregate at (r, q), spelled out. -/
theorem agg_apply (r : Fin 100000) (q : Fin 64) :
    agg V c (ix2 r q)
      = (aggsA V c (ix2 r q) + selfnA V c (ix2 r (0 : Fin 1)) * hwA V c (ix2 r q)) + biasA V c (ix2 (0 : Fin 1) q) := rfl

/-- The aggregate of block t at (p, q) is the whole aggregate at row 5000·t + p, channel q: each input block is read
    where its window puts it. -/
theorem agg_blk (t : Fin cfg10.N) (p : Fin 5000) (q : Fin 64) :
    k10_pay3 (F := Ideal) (iblk10 V c 0 t) (iblk10 V c 1 t) (iblk10 V c 2 t) (iblk10 V c 3 t) (ix2 p q) = agg V c (ix2 (brow (t20 t) p) q) := by
  refine (pay3_apply (iblk10 V c 0 t) (iblk10 V c 1 t) (iblk10 V c 2 t) (iblk10 V c 3 t) p q).trans ?_
  refine Eq.trans ?_ (agg_apply V c (brow (t20 t) p) q).symm
  exact congrArg₂ (· + ·)
    (congrArg₂ (· + ·) (iblk_1 V c t p q) (congrArg₂ (· * ·) (iblk_2 V c t p) (iblk_0 V c t p q)))
    (iblk_3 V c t q)

/-- At every point the aggregate's buffer holds the aggregate of the point's blocks. -/
theorem outs_4 (t : Fin cfg10.N) :
    (outsAt10 V c t.val t.isLt).1 = k10_pay3 (F := Ideal) (iblk10 V c 0 t) (iblk10 V c 1 t) (iblk10 V c 2 t) (iblk10 V c 3 t) := by
  by_cases h0 : t.val % 20 = 0
  · rw [outsAt10_A V c t h0]
    dsimp only
    exact out_A_4 (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) ((hcond10_0 t).mpr h0) (iblk10 V c 0 t) (iblk10 V c 1 t) (iblk10 V c 2 t) (iblk10 V c 3 t)
  · rw [outsAt10_B V c t h0]
    dsimp only
    exact out_B_4 (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (fun h => h0 ((hcond10_0 t).mp h)) (iblk10 V c 0 t) (iblk10 V c 1 t) (iblk10 V c 2 t) (iblk10 V c 3 t) _ _

/-- What point t writes back of the aggregate is block t of the whole aggregate. -/
theorem flushed_4 (t : Fin cfg10.N) :
    (dat10 V c).flushed 4 t = ((cfg10.win 4).blk t).view.read (Elt Ideal) (agg V c) := by
  show (cfg10.win 4).cut (grid10.coords t) ((dat10 V c).after 4 t) = _
  rw [after10_4, outs_4]
  refine funext fun (j : S5000x64.Idx) => ?_
  obtain ⟨p, q, rfl⟩ : ∃ (p : Fin 5000) (q : Fin 64), j = ix2 p q := ⟨j 0, j 1, eq_ix2 j⟩
  show k10_pay3 (F := Ideal) (iblk10 V c 0 t) (iblk10 V c 1 t) (iblk10 V c 2 t) (iblk10 V c 3 t) (ix2 p q) = agg V c (((cfg10.win 4).blk t).view.emb (ix2 p q))
  rw [emb_4]
  exact agg_blk V c t p q

/-- Row r lies in the block of point r / 5000. -/
theorem cover_4 (i : ((cfg10.win 4).arr.view.loc (c.tc : Thread nD τ)).2.ty.Idx) :
    ∃ t : Fin cfg10.N, (cfg10.win 4).flush t = true ∧ i ∈ ((cfg10.win 4).blk t).view.set := by
  have h0 : (i 0).val < 100000 := (i 0).isLt
  have h1 : (i 1).val < 64 := (i 1).isLt
  obtain ⟨t, ht⟩ : ∃ t : Fin cfg10.N, t.val = (i 0).val / 5000 := ⟨⟨(i 0).val / 5000, by rw [N20]; omega⟩, rfl⟩
  obtain ⟨-, -, -, -, ⟨e0, e1⟩, -⟩ := idx_facts t
  refine ⟨t, flush10_4 t, ?_⟩
  show i ∈ ((View.whole main_v148_0).slice (win10_4.rect t)).set
  rw [View.set_slice_whole, Rect.mem_set_unit]
  intro a
  match a with
  | ⟨0, _⟩ => show win10_4.index t (0 : Fin 2) * 5000 ≤ (i 0).val ∧ (i 0).val < win10_4.index t (0 : Fin 2) * 5000 + 5000; rw [e0]; omega
  | ⟨1, _⟩ => show win10_4.index t (1 : Fin 2) * 64 ≤ (i 1).val ∧ (i 1).val < win10_4.index t (1 : Fin 2) * 64 + 64; rw [e1]; omega

/-- So the aggregate's array ends holding the aggregate of the four arrays the region found. -/
theorem arr10_4 : (dat10 (F := Ideal) V c).arrAt 4 cfg10.N = agg V c :=
  (dat10 V c).arrAt_eq_of_cover 4 (agg V c) (fun t _ => flushed_4 V c t) (cover_4 c)

/-- The total of block t of the aggregate, -/
abbrev blockTot (t : Fin 20) : EReal := ∑ p : Fin 5000, ∑ q : Fin 64, agg V c (ix2 (brow t p) q)
/-- and the total of its squares. -/
abbrev blockSq (t : Fin 20) : EReal :=
  ∑ p : Fin 5000, ∑ q : Fin 64, agg V c (ix2 (brow t p) q) * agg V c (ix2 (brow t p) q)

/-- After point n the carried total is the sum, over the blocks 0 … n, of each block's total: by induction on the
    point — the first point adds its block to a stored zero, every later one to what the point before left. -/
theorem outs_5 : ∀ (n : ℕ) (hn : n < cfg10.N) (j : S1x1.Idx),
    (outsAt10 V c n hn).2.1 j = ∑ s : Fin (n + 1), blockTot V c ⟨s.val, by have := s.isLt; have := lt_of_lt_of_eq hn N20; omega⟩
  | 0, hn, j => by
    rw [outsAt10_A V c ⟨0, hn⟩ rfl]
    dsimp only
    refine (congrFun (out_A_5 (F := Ideal) c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) (ms10_6 ⟨0, hn⟩) (hs10_6 ⟨0, hn⟩) ((hcond10_0 ⟨0, hn⟩).mpr rfl) (iblk10 V c 0 ⟨0, hn⟩) (iblk10 V c 1 ⟨0, hn⟩) (iblk10 V c 2 ⟨0, hn⟩) (iblk10 V c 3 ⟨0, hn⟩)) j).trans ?_
    refine (pay4_apply (iblk10 V c 0 ⟨0, hn⟩) (iblk10 V c 1 ⟨0, hn⟩) (iblk10 V c 2 ⟨0, hn⟩) (iblk10 V c 3 ⟨0, hn⟩) _ j).trans ?_
    rw [Fin.sum_univ_one]
    show Ideal.ofBits .f32 0x00000000#32 + _ = _
    rw [Ideal.ofBits_zero_f32, zero_add]
    refine Finset.sum_congr rfl fun p _ => Finset.sum_congr rfl fun q _ => ?_
    exact agg_blk V c ⟨0, hn⟩ p q
  | n + 1, hn, j => by
    have hN : cfg10.N = 20 := N20
    have hB : ¬(⟨n + 1, hn⟩ : Fin cfg10.N).val % 20 = 0 := by dsimp only; omega
    rw [outsAt10_B V c ⟨n + 1, hn⟩ hB]
    dsimp only
    refine (congrFun (out_B_5 (F := Ideal) c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) (fun h => hB ((hcond10_0 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) _ _) j).trans ?_
    refine (pay4_apply (iblk10 V c 0 ⟨n + 1, hn⟩) (iblk10 V c 1 ⟨n + 1, hn⟩) (iblk10 V c 2 ⟨n + 1, hn⟩) (iblk10 V c 3 ⟨n + 1, hn⟩) _ j).trans ?_
    conv_rhs => rw [Fin.sum_univ_castSucc]
    refine congrArg₂ (· + ·) (outs_5 n (Nat.lt_of_succ_lt hn) j) ?_
    refine Finset.sum_congr rfl fun p _ => Finset.sum_congr rfl fun q _ => ?_
    exact agg_blk V c ⟨n + 1, hn⟩ p q

/-- After point n the carried total of squares is the sum, over the blocks 0 … n, of each block's total of squares: by induction on the
    point — the first point adds its block to a stored zero, every later one to what the point before left. -/
theorem outs_6 : ∀ (n : ℕ) (hn : n < cfg10.N) (j : S1x1.Idx),
    (outsAt10 V c n hn).2.2 j = ∑ s : Fin (n + 1), blockSq V c ⟨s.val, by have := s.isLt; have := lt_of_lt_of_eq hn N20; omega⟩
  | 0, hn, j => by
    rw [outsAt10_A V c ⟨0, hn⟩ rfl]
    dsimp only
    refine (congrFun (out_A_6 (F := Ideal) c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) (ms10_6 ⟨0, hn⟩) (hs10_6 ⟨0, hn⟩) ((hcond10_0 ⟨0, hn⟩).mpr rfl) (iblk10 V c 0 ⟨0, hn⟩) (iblk10 V c 1 ⟨0, hn⟩) (iblk10 V c 2 ⟨0, hn⟩) (iblk10 V c 3 ⟨0, hn⟩)) j).trans ?_
    refine (pay5_apply (iblk10 V c 0 ⟨0, hn⟩) (iblk10 V c 1 ⟨0, hn⟩) (iblk10 V c 2 ⟨0, hn⟩) (iblk10 V c 3 ⟨0, hn⟩) _ j).trans ?_
    rw [Fin.sum_univ_one]
    show Ideal.ofBits .f32 0x00000000#32 + _ = _
    rw [Ideal.ofBits_zero_f32, zero_add]
    refine Finset.sum_congr rfl fun p _ => Finset.sum_congr rfl fun q _ => ?_
    exact congrArg₂ (· * ·) (agg_blk V c ⟨0, hn⟩ p q) (agg_blk V c ⟨0, hn⟩ p q)
  | n + 1, hn, j => by
    have hN : cfg10.N = 20 := N20
    have hB : ¬(⟨n + 1, hn⟩ : Fin cfg10.N).val % 20 = 0 := by dsimp only; omega
    rw [outsAt10_B V c ⟨n + 1, hn⟩ hB]
    dsimp only
    refine (congrFun (out_B_6 (F := Ideal) c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (ms10_6 ⟨n + 1, hn⟩) (hs10_6 ⟨n + 1, hn⟩) (fun h => hB ((hcond10_0 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) _ _) j).trans ?_
    refine (pay5_apply (iblk10 V c 0 ⟨n + 1, hn⟩) (iblk10 V c 1 ⟨n + 1, hn⟩) (iblk10 V c 2 ⟨n + 1, hn⟩) (iblk10 V c 3 ⟨n + 1, hn⟩) _ j).trans ?_
    conv_rhs => rw [Fin.sum_univ_castSucc]
    refine congrArg₂ (· + ·) (outs_6 n (Nat.lt_of_succ_lt hn) j) ?_
    refine Finset.sum_congr rfl fun p _ => Finset.sum_congr rfl fun q _ => ?_
    exact congrArg₂ (· * ·) (agg_blk V c ⟨n + 1, hn⟩ p q) (agg_blk V c ⟨n + 1, hn⟩ p q)

/-- The one write-back of the total, after the last point, writes the sum over all 20 blocks: the sum of all
    6 400 000 entries. -/
theorem flushed_5 (t : Fin cfg10.N) (hf : (cfg10.win 5).flush t = true) :
    (dat10 V c).flushed 5 t = ((cfg10.win 5).blk t).view.read (Elt Ideal) (Cert.Spec.tot (agg V c)) := by
  have hN : cfg10.N = 20 := N20
  have h19 : t.val = 19 := by have := (flush10_5 t).mp hf; have := t.isLt; omega
  show (cfg10.win 5).cut (grid10.coords t) ((dat10 V c).after 5 t) = _
  rw [after10_5]
  have e : Cert.Spec.tot (agg V c) = fun _ => ∑ i : Cert.Spec.SN.Idx, agg V c i := rfl
  rw [e]
  generalize hT : (∑ i : Cert.Spec.SN.Idx, agg V c i) = T
  refine funext fun (j : S1x1.Idx) => ?_
  show (outsAt10 V c t.val t.isLt).2.1 j = T
  rw [← hT, outs_5 V c t.val t.isLt j, sum_all]
  exact sum_cast _ t.val (by omega) _

/-- The last point's block is the whole 1 × 1 array. -/
theorem cover_5 (i : ((cfg10.win 5).arr.view.loc (c.tc : Thread nD τ)).2.ty.Idx) :
    ∃ t : Fin cfg10.N, (cfg10.win 5).flush t = true ∧ i ∈ ((cfg10.win 5).blk t).view.set := by
  have h0 : (i 0).val < 1 := (i 0).isLt
  have h1 : (i 1).val < 1 := (i 1).isLt
  obtain ⟨t, ht⟩ : ∃ t : Fin cfg10.N, t.val = 19 := ⟨⟨19, by rw [N20]; omega⟩, rfl⟩
  obtain ⟨-, -, -, -, -, ⟨e0, e1⟩, -⟩ := idx_facts t
  refine ⟨t, (flush10_5 t).mpr (by rw [ht]), ?_⟩
  show i ∈ ((View.whole main_v148_1).slice (win10_5.rect t)).set
  rw [View.set_slice_whole, Rect.mem_set_unit]
  intro a
  match a with
  | ⟨0, _⟩ => show win10_5.index t (0 : Fin 2) * 1 ≤ (i 0).val ∧ (i 0).val < win10_5.index t (0 : Fin 2) * 1 + 1; rw [e0]; omega
  | ⟨1, _⟩ => show win10_5.index t (1 : Fin 2) * 1 ≤ (i 1).val ∧ (i 1).val < win10_5.index t (1 : Fin 2) * 1 + 1; rw [e1]; omega

/-- So the total's array ends holding the sum of all entries of the aggregate. -/
theorem arr10_5 : (dat10 (F := Ideal) V c).arrAt 5 cfg10.N = Cert.Spec.tot (agg V c) :=
  (dat10 V c).arrAt_eq_of_cover 5 (Cert.Spec.tot (agg V c)) (flushed_5 V c) (cover_5 c)

/-- The one write-back of the total of squares, after the last point, writes the sum over all 20 blocks: the sum of the squares of all
    6 400 000 entries. -/
theorem flushed_6 (t : Fin cfg10.N) (hf : (cfg10.win 6).flush t = true) :
    (dat10 V c).flushed 6 t = ((cfg10.win 6).blk t).view.read (Elt Ideal) (Cert.Spec.totsq (agg V c)) := by
  have hN : cfg10.N = 20 := N20
  have h19 : t.val = 19 := by have := (flush10_6 t).mp hf; have := t.isLt; omega
  show (cfg10.win 6).cut (grid10.coords t) ((dat10 V c).after 6 t) = _
  rw [after10_6]
  have e : Cert.Spec.totsq (agg V c) = fun _ => ∑ i : Cert.Spec.SN.Idx, agg V c i * agg V c i := rfl
  rw [e]
  generalize hT : (∑ i : Cert.Spec.SN.Idx, agg V c i * agg V c i) = T
  refine funext fun (j : S1x1.Idx) => ?_
  show (outsAt10 V c t.val t.isLt).2.2 j = T
  rw [← hT, outs_6 V c t.val t.isLt j, sum_all]
  exact sum_cast _ t.val (by omega) _

/-- The last point's block is the whole 1 × 1 array. -/
theorem cover_6 (i : ((cfg10.win 6).arr.view.loc (c.tc : Thread nD τ)).2.ty.Idx) :
    ∃ t : Fin cfg10.N, (cfg10.win 6).flush t = true ∧ i ∈ ((cfg10.win 6).blk t).view.set := by
  have h0 : (i 0).val < 1 := (i 0).isLt
  have h1 : (i 1).val < 1 := (i 1).isLt
  obtain ⟨t, ht⟩ : ∃ t : Fin cfg10.N, t.val = 19 := ⟨⟨19, by rw [N20]; omega⟩, rfl⟩
  obtain ⟨-, -, -, -, -, -, ⟨e0, e1⟩⟩ := idx_facts t
  refine ⟨t, (flush10_6 t).mpr (by rw [ht]), ?_⟩
  show i ∈ ((View.whole main_v148_2).slice (win10_6.rect t)).set
  rw [View.set_slice_whole, Rect.mem_set_unit]
  intro a
  match a with
  | ⟨0, _⟩ => show win10_6.index t (0 : Fin 2) * 1 ≤ (i 0).val ∧ (i 0).val < win10_6.index t (0 : Fin 2) * 1 + 1; rw [e0]; omega
  | ⟨1, _⟩ => show win10_6.index t (1 : Fin 2) * 1 ≤ (i 1).val ∧ (i 1).val < win10_6.index t (1 : Fin 2) * 1 + 1; rw [e1]; omega

/-- So the total of squares's array ends holding the sum of the squares of all entries of the aggregate. -/
theorem arr10_6 : (dat10 (F := Ideal) V c).arrAt 6 cfg10.N = Cert.Spec.totsq (agg V c) :=
  (dat10 V c).arrAt_eq_of_cover 6 (Cert.Spec.totsq (agg V c)) (flushed_6 V c) (cover_6 c)

end Arrays

end Cert.Combine10

end
-- ==== Proof.RegionNorm2.lean ====
/-
  Region 2: normalisation and rectifier, computed block by block.

  The 100000 rows are cut into 20 blocks of 5000 rows. At grid point t the body reads rows 5000·t … 5000·t + 4999 of the
  aggregate a, the 1 × 1 arrays holding the mean and the variance, and the two 1 × 64 rows lnw and lnb, and writes
      max ((lnw · (a − mean)) · (var + ε)^(-1/2) + lnb) 0
  into the same rows of the result, the single values spread over the block and the rows spread over its 5000 rows.
  Every operation acts entry by entry, row p of block t is row 5000·t + p of the array, and every row r lies in block
  r / 5000. Hence the result array is that formula of the five arrays as the region found them.
-/
import proofs.«123589_j55817394979590_1_alg».proof.Proof.Gen.KernelIdeal.Frame
import proofs.«123589_j55817394979590_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Bridge.Norm2

open Cert.KernelIdeal Cert.KernelIdeal.Gen Idealize.ShloMosaic Idealize.ShloMosaic.TcCoe Idealize.SL.Sem
open Idealize.ShloMosaic.ValueIdx
open Idealize.ShloMosaic.Pipeline (Dat)

/-! ## The body's result at an entry -/

/-- A 1 × 1 array spread over an a × b array reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- Entry (p, q) of the body's result, from the loaded blocks: xa the aggregate's block, xv the variance, xw the row lnw,
    xm the mean, xb the row lnb. The casts to the same shape are the identity, the arithmetic acts entry by entry, a
    spread single value reads its entry and a spread row reads its entry in the column. -/
theorem pay_apply (xa : Vec Ideal S5000x64 .f32) (xv : Vec Ideal S1x1 .f32) (xw : Vec Ideal S1x64 .f32)
    (xm : Vec Ideal S1x1 .f32) (xb : Vec Ideal S1x64 .f32) (p : Fin 5000) (q : Fin 64) :
    k2_pay1 (F := Ideal) xa xv xw xm xb (ix2 p q)
      = max ((xw (ix2 (0 : Fin 1) q) * (xa (ix2 p q) - xm (ix2 (0 : Fin 1) (0 : Fin 1))))
              * Ideal.rsqrt (xv (ix2 (0 : Fin 1) (0 : Fin 1)) + Cert.Spec.eps)
            + xb (ix2 (0 : Fin 1) q)) 0 := by
  unfold k2_pay1
  simp only [shapeCast_self]
  show max ((broadcastTo S5000x64 xw _ (ix2 p q) * (xa (ix2 p q) - broadcastTo S5000x64 xm _ (ix2 p q)))
              * broadcastTo S5000x64 (rsqrt (addf xv (broadcast S1x1 (Scalar.ofBits (F := Ideal) .f32 0x3727C5AC#32)))) _ (ix2 p q)
            + broadcastTo S5000x64 xb _ (ix2 p q)) (Ideal.ofBits .f32 0x00000000#32) = _
  rw [broadcastTo_1b_ab_apply xw _ p q, broadcastTo_1b_ab_apply xb _ p q, broadcastTo_11_ab_apply xm _ p q,
    broadcastTo_11_ab_apply (rsqrt (addf xv (broadcast S1x1 (Scalar.ofBits (F := Ideal) .f32 0x3727C5AC#32)))) _ p q,
    Ideal.ofBits_zero_f32]
  rfl

/-- The same with each loaded entry NAMED: if the five blocks' entries that the formula reads are those of whole arrays
    A (aggregate), M (mean), Vr (variance), Wt (lnw), B (lnb) at the array index i, the body's entry is the formula's. -/
theorem pay_eq_norm (xa : Vec Ideal S5000x64 .f32) (xv : Vec Ideal S1x1 .f32) (xw : Vec Ideal S1x64 .f32)
    (xm : Vec Ideal S1x1 .f32) (xb : Vec Ideal S1x64 .f32) (p : Fin 5000) (q : Fin 64)
    (A : Cert.Spec.SN.Idx → EReal) (M Vr : Cert.Spec.S1.Idx → EReal) (Wt B : Cert.Spec.SR.Idx → EReal) (i : Cert.Spec.SN.Idx)
    (ha : xa (ix2 p q) = A i) (hm : xm (ix2 (0 : Fin 1) (0 : Fin 1)) = M Cert.Spec.one11)
    (hv : xv (ix2 (0 : Fin 1) (0 : Fin 1)) = Vr Cert.Spec.one11)
    (hw : xw (ix2 (0 : Fin 1) q) = Wt (ix2 (0 : Fin 1) (Cert.Spec.chanOf i)))
    (hb : xb (ix2 (0 : Fin 1) q) = B (ix2 (0 : Fin 1) (Cert.Spec.chanOf i))) :
    k2_pay1 (F := Ideal) xa xv xw xm xb (ix2 p q) = Cert.Spec.norm A M Vr Wt B i := by
  rw [pay_apply, ha, hm, hv, hw, hb]
  rfl

/-! ## What the body leaves in the output block -/

theorem hz : (![0, 0] : Fin 2 → Nat) = fun _ => 0 := funext fun a => by fin_cases a <;> rfl

/-- The body loads its five whole blocks and stores one whole block: the block it leaves is its result, read from the
    aggregate's block (window 0), the variance (window 2), the row lnw (window 3), the mean (window 1) and the row lnb
    (window 4), in the order of the body's loads. -/
theorem out_eq (x0 : Vec Ideal S5000x64 .f32) (x1 x2 : Vec Ideal S1x1 .f32) (x3 x4 : Vec Ideal S1x64 .f32) :
    out2_5 (F := Ideal) x0 x1 x2 x3 x4 = k2_pay1 (F := Ideal) x0 x2 x3 x1 x4 := by
  unfold out2_5
  rw [View.canon_unit_zero hz]
  simp only [View.ld_unit_zero (S := S5000x64) hz, View.ld_unit_zero (S := S1x1) hz, View.ld_unit_zero (S := S1x64) hz]

/-! ## The blocks as parts of the arrays -/

/-- The printed index maps over the grid: the aggregate's block and the result block at point t are block (t, 0); the
    four small arrays are one block each, block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Entry (p, q) of the aggregate's block at point t sits in the array where entry (p, q) of the result block does. -/
theorem emb_a (t : Fin cfg2.N) (p : Fin 5000) (q : Fin 64) :
    (((cfg2.win 0).blk t).view.emb (ix2 p q) : S100000x64.Idx) = ((cfg2.win 5).blk t).view.emb (ix2 p q) := by
  obtain ⟨e00, e01, e10, e11, e20, e21, e30, e31, e40, e41, e50, e51⟩ := idx_facts t
  funext a; apply Fin.ext
  match a with
  | ⟨0, _⟩ => show win2_0.index t (0 : Fin 2) * 5000 + 1 * p.val = win2_5.index t (0 : Fin 2) * 5000 + 1 * p.val; omega
  | ⟨1, _⟩ => show win2_0.index t (1 : Fin 2) * 64 + 1 * q.val = win2_5.index t (1 : Fin 2) * 64 + 1 * q.val; omega

/-- The mean's block is the mean's array. -/
theorem emb_m (t : Fin cfg2.N) :
    (((cfg2.win 1).blk t).view.emb (ix2 (0 : Fin 1) (0 : Fin 1)) : S1x1.Idx) = Cert.Spec.one11 := by
  obtain ⟨e00, e01, e10, e11, e20, e21, e30, e31, e40, e41, e50, e51⟩ := idx_facts t
  funext a; apply Fin.ext
  match a with
  | ⟨0, _⟩ => show win2_1.index t (0 : Fin 2) * 1 + 1 * 0 = 0; omega
  | ⟨1, _⟩ => show win2_1.index t (1 : Fin 2) * 1 + 1 * 0 = 0; omega

/-- The variance's block is the variance's array. -/
theorem emb_v (t : Fin cfg2.N) :
    (((cfg2.win 2).blk t).view.emb (ix2 (0 : Fin 1) (0 : Fin 1)) : S1x1.Idx) = Cert.Spec.one11 := by
  obtain ⟨e00, e01, e10, e11, e20, e21, e30, e31, e40, e41, e50, e51⟩ := idx_facts t
  funext a; apply Fin.ext
  match a with
  | ⟨0, _⟩ => show win2_2.index t (0 : Fin 2) * 1 + 1 * 0 = 0; omega
  | ⟨1, _⟩ => show win2_2.index t (1 : Fin 2) * 1 + 1 * 0 = 0; omega

/-- The block of the row lnw is the row: its entry q is the row's entry in the column of the result's entry (p, q). -/
theorem emb_w (t : Fin cfg2.N) (p : Fin 5000) (q : Fin 64) :
    (((cfg2.win 3).blk t).view.emb (ix2 (0 : Fin 1) q) : S1x64.Idx)
      = ix2 (0 : Fin 1) (Cert.Spec.chanOf (((cfg2.win 5).blk t).view.emb (ix2 p q))) := by
  obtain ⟨e00, e01, e10, e11, e20, e21, e30, e31, e40, e41, e50, e51⟩ := idx_facts t
  funext a; apply Fin.ext
  match a with
  | ⟨0, _⟩ => show win2_3.index t (0 : Fin 2) * 1 + 1 * 0 = 0; omega
  | ⟨1, _⟩ => show win2_3.index t (1 : Fin 2) * 64 + 1 * q.val = win2_5.index t (1 : Fin 2) * 64 + 1 * q.val; omega

/-- The block of the row lnb likewise. -/
theorem emb_b (t : Fin cfg2.N) (p : Fin 5000) (q : Fin 64) :
    (((cfg2.win 4).blk t).view.emb (ix2 (0 : Fin 1) q) : S1x64.Idx)
      = ix2 (0 : Fin 1) (Cert.Spec.chanOf (((cfg2.win 5).blk t).view.emb (ix2 p q))) := by
  obtain ⟨e00, e01, e10, e11, e20, e21, e30, e31, e40, e41, e50, e51⟩ := idx_facts t
  funext a; apply Fin.ext
  match a with
  | ⟨0, _⟩ => show win2_4.index t (0 : Fin 2) * 1 + 1 * 0 = 0; omega
  | ⟨1, _⟩ => show win2_4.index t (1 : Fin 2) * 64 + 1 * q.val = win2_5.index t (1 : Fin 2) * 64 + 1 * q.val; omega

/-! ## What point t writes back -/

/-- The aggregate's block at point t, read at (p, q), is the aggregate's array where the result block's (p, q) sits. -/
theorem iblk_a (V : (c : Dev nD) → (b : Ref sig .tc) → Buf (Elt Ideal) ((c : Thread nD τ).loc b)) (c : Dev nD)
    (t : Fin cfg2.N) (p : Fin 5000) (q : Fin 64) :
    (iblk2 V c 0 t : Vec Ideal S5000x64 .f32) (ix2 p q)
      = V c (Pipeline.arrRef spec2 0) (((cfg2.win 5).blk t).view.emb (ix2 p q)) :=
  congrArg (V c (Pipeline.arrRef spec2 0)) (emb_a t p q)

/-- The mean's block is the mean's array. -/
theorem iblk_m (V : (c : Dev nD) → (b : Ref sig .tc) → Buf (Elt Ideal) ((c : Thread nD τ).loc b)) (c : Dev nD)
    (t : Fin cfg2.N) :
    (iblk2 V c 1 t : Vec Ideal S1x1 .f32) (ix2 (0 : Fin 1) (0 : Fin 1)) = V c (Pipeline.arrRef spec2 1) Cert.Spec.one11 :=
  congrArg (V c (Pipeline.arrRef spec2 1)) (emb_m t)

/-- The variance's block is the variance's array. -/
theorem iblk_v (V : (c : Dev nD) → (b : Ref sig .tc) → Buf (Elt Ideal) ((c : Thread nD τ).loc b)) (c : Dev nD)
    (t : Fin cfg2.N) :
    (iblk2 V c 2 t : Vec Ideal S1x1 .f32) (ix2 (0 : Fin 1) (0 : Fin 1)) = V c (Pipeline.arrRef spec2 2) Cert.Spec.one11 :=
  congrArg (V c (Pipeline.arrRef spec2 2)) (emb_v t)

/-- The block of the row lnw is the row. -/
theorem iblk_w (V : (c : Dev nD) → (b : Ref sig .tc) → Buf (Elt Ideal) ((c : Thread nD τ).loc b)) (c : Dev nD)
    (t : Fin cfg2.N) (p : Fin 5000) (q : Fin 64) :
    (iblk2 V c 3 t : Vec Ideal S1x64 .f32) (ix2 (0 : Fin 1) q)
      = V c (Pipeline.arrRef spec2 3) (ix2 (0 : Fin 1) (Cert.Spec.chanOf (((cfg2.win 5).blk t).view.emb (ix2 p q)))) :=
  congrArg (V c (Pipeline.arrRef spec2 3)) (emb_w t p q)

/-- The block of the row lnb is the row. -/
theorem iblk_b (V : (c : Dev nD) → (b : Ref sig .tc) → Buf (Elt Ideal) ((c : Thread nD τ).loc b)) (c : Dev nD)
    (t : Fin cfg2.N) (p : Fin 5000) (q : Fin 64) :
    (iblk2 V c 4 t : Vec Ideal S1x64 .f32) (ix2 (0 : Fin 1) q)
      = V c (Pipeline.arrRef spec2 4) (ix2 (0 : Fin 1) (Cert.Spec.chanOf (((cfg2.win 5).blk t).view.emb (ix2 p q)))) :=
  congrArg (V c (Pipeline.arrRef spec2 4)) (emb_b t p q)

/-- Entry j of the block point t leaves is the formula's entry at the place of j in the array: the aggregate's block is
    the array's rows from 5000·t on, the four small blocks are the small arrays. -/
theorem block_apply (V : (c : Dev nD) → (b : Ref sig .tc) → Buf (Elt Ideal) ((c : Thread nD τ).loc b)) (c : Dev nD)
    (t : Fin cfg2.N) (j : S5000x64.Idx) :
    k2_pay1 (F := Ideal) (iblk2 V c 0 t) (iblk2 V c 2 t) (iblk2 V c 3 t) (iblk2 V c 1 t) (iblk2 V c 4 t) j
      = Cert.Spec.norm (V c (Pipeline.arrRef spec2 0)) (V c (Pipeline.arrRef spec2 1)) (V c (Pipeline.arrRef spec2 2))
          (V c (Pipeline.arrRef spec2 3)) (V c (Pipeline.arrRef spec2 4)) (((cfg2.win 5).blk t).view.emb j) := by
  obtain ⟨p, q, rfl⟩ : ∃ (p : Fin 5000) (q : Fin 64), j = ix2 p q := ⟨j 0, j 1, eq_ix2 j⟩
  exact pay_eq_norm (iblk2 V c 0 t) (iblk2 V c 2 t) (iblk2 V c 3 t) (iblk2 V c 1 t) (iblk2 V c 4 t) p q
    (V c (Pipeline.arrRef spec2 0)) (V c (Pipeline.arrRef spec2 1)) (V c (Pipeline.arrRef spec2 2))
    (V c (Pipeline.arrRef spec2 3)) (V c (Pipeline.arrRef spec2 4)) (((cfg2.win 5).blk t).view.emb (ix2 p q))
    (iblk_a V c t p q) (iblk_m V c t) (iblk_v V c t) (iblk_w V c t p q) (iblk_b V c t p q)

/-- What point t writes back is block t of the formula of the five arrays as the region found them. -/
theorem flushed_eq (V : (c : Dev nD) → (b : Ref sig .tc) → Buf (Elt Ideal) ((c : Thread nD τ).loc b)) (c : Dev nD)
    (t : Fin cfg2.N) :
    (dat2 (F := Ideal) V c).flushed 5 t
      = ((cfg2.win 5).blk t).view.read (Elt Ideal)
          (Cert.Spec.norm (V c (Pipeline.arrRef spec2 0)) (V c (Pipeline.arrRef spec2 1)) (V c (Pipeline.arrRef spec2 2))
            (V c (Pipeline.arrRef spec2 3)) (V c (Pipeline.arrRef spec2 4))) := by
  show (cfg2.win 5).cut (grid2.coords t) ((dat2 V c).after 5 t) = _
  rw [after2_5, out_eq]
  funext j
  exact block_apply V c t j

/-! ## The blocks cover the array -/

/-- An index of the array is in point t's block iff each coordinate is in the block's range on its axis. -/
theorem mem_blk (t : Fin cfg2.N) (i : S100000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole (Pipeline.arrRef spec2 5)).slice (win2_5.rect t)).set ↔ _
  rw [View.set_slice_whole, Rect.mem_set_unit]
  exact Iff.rfl

/-- Row r lies in the block of point r / 5000. -/
theorem cover (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ : ∃ t : Fin cfg2.N, t.val = (i 0).val / 5000 :=
    ⟨⟨(i 0).val / 5000, by show (i 0).val / 5000 < grid2.N; rw [N_2]; omega⟩, rfl⟩
  obtain ⟨e00, e01, e10, e11, e20, e21, e30, e31, e40, e41, e50, e51⟩ := idx_facts t
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-! ## The array after the region -/

/-- After all 20 points the result array is the normalised, rectified aggregate: the formula of the aggregate, the mean,
    the variance and the two rows lnw, lnb as the region found them. -/
theorem arr2_5 (V : (c : Dev nD) → (b : Ref sig .tc) → Buf (Elt Ideal) ((c : Thread nD τ).loc b)) (c : Dev nD) :
    (Cert.KernelIdeal.Gen.dat2 (F := Ideal) V c).arrAt 5 cfg2.N
      = Cert.Spec.norm (V c (Pipeline.arrRef spec2 0)) (V c (Pipeline.arrRef spec2 1)) (V c (Pipeline.arrRef spec2 2))
          (V c (Pipeline.arrRef spec2 3)) (V c (Pipeline.arrRef spec2 4)) :=
  (dat2 (F := Ideal) V c).arrAt_eq_of_cover 5 _ (fun t _ => flushed_eq V c t) cover

end Cert.Bridge.Norm2

end
-- ==== Proof.RegionNorm5.lean ====
/-
  Region 5: normalisation and rectifier, computed block by block.

  The 100000 rows are cut into 20 blocks of 5000 rows. At grid point t the body reads rows 5000·t … 5000·t + 4999 of the
  aggregate a, the 1 × 1 arrays holding the mean and the variance, and the two 1 × 64 rows lnw and lnb, and writes
      max ((lnw · (a − mean)) · (var + ε)^(-1/2) + lnb) 0
  into the same rows of the result, the single values spread over the block and the rows spread over its 5000 rows.
  Every operation acts entry by entry, row p of block t is row 5000·t + p of the array, and every row r lies in block
  r / 5000. Hence the result array is that formula of the five arrays as the region found them.
-/
import proofs.«123589_j55817394979590_1_alg».proof.Proof.Gen.KernelIdeal.Frame
import proofs.«123589_j55817394979590_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Bridge.Norm5

open Cert.KernelIdeal Cert.KernelIdeal.Gen Idealize.ShloMosaic Idealize.ShloMosaic.TcCoe Idealize.SL.Sem
open Idealize.ShloMosaic.ValueIdx
open Idealize.ShloMosaic.Pipeline (Dat)

/-! ## The body's result at an entry -/

/-- A 1 × 1 array spread over an a × b array reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- Entry (p, q) of the body's result, from the loaded blocks: xa the aggregate's block, xv the variance, xw the row lnw,
    xm the mean, xb the row lnb. The casts to the same shape are the identity, the arithmetic acts entry by entry, a
    spread single value reads its entry and a spread row reads its entry in the column. -/
theorem pay_apply (xa : Vec Ideal S5000x64 .f32) (xv : Vec Ideal S1x1 .f32) (xw : Vec Ideal S1x64 .f32)
    (xm : Vec Ideal S1x1 .f32) (xb : Vec Ideal S1x64 .f32) (p : Fin 5000) (q : Fin 64) :
    k5_pay1 (F := Ideal) xa xv xw xm xb (ix2 p q)
      = max ((xw (ix2 (0 : Fin 1) q) * (xa (ix2 p q) - xm (ix2 (0 : Fin 1) (0 : Fin 1))))
              * Ideal.rsqrt (xv (ix2 (0 : Fin 1) (0 : Fin 1)) + Cert.Spec.eps)
            + xb (ix2 (0 : Fin 1) q)) 0 := by
  unfold k5_pay1
  simp only [shapeCast_self]
  show max ((broadcastTo S5000x64 xw _ (ix2 p q) * (xa (ix2 p q) - broadcastTo S5000x64 xm _ (ix2 p q)))
              * broadcastTo S5000x64 (rsqrt (addf xv (broadcast S1x1 (Scalar.ofBits (F := Ideal) .f32 0x3727C5AC#32)))) _ (ix2 p q)
            + broadcastTo S5000x64 xb _ (ix2 p q)) (Ideal.ofBits .f32 0x00000000#32) = _
  rw [broadcastTo_1b_ab_apply xw _ p q, broadcastTo_1b_ab_apply xb _ p q, broadcastTo_11_ab_apply xm _ p q,
    broadcastTo_11_ab_apply (rsqrt (addf xv (broadcast S1x1 (Scalar.ofBits (F := Ideal) .f32 0x3727C5AC#32)))) _ p q,
    Ideal.ofBits_zero_f32]
  rfl

/-- The same with each loaded entry NAMED: if the five blocks' entries that the formula reads are those of whole arrays
    A (aggregate), M (mean), Vr (variance), Wt (lnw), B (lnb) at the array index i, the body's entry is the formula's. -/
theorem pay_eq_norm (xa : Vec Ideal S5000x64 .f32) (xv : Vec Ideal S1x1 .f32) (xw : Vec Ideal S1x64 .f32)
    (xm : Vec Ideal S1x1 .f32) (xb : Vec Ideal S1x64 .f32) (p : Fin 5000) (q : Fin 64)
    (A : Cert.Spec.SN.Idx → EReal) (M Vr : Cert.Spec.S1.Idx → EReal) (Wt B : Cert.Spec.SR.Idx → EReal) (i : Cert.Spec.SN.Idx)
    (ha : xa (ix2 p q) = A i) (hm : xm (ix2 (0 : Fin 1) (0 : Fin 1)) = M Cert.Spec.one11)
    (hv : xv (ix2 (0 : Fin 1) (0 : Fin 1)) = Vr Cert.Spec.one11)
    (hw : xw (ix2 (0 : Fin 1) q) = Wt (ix2 (0 : Fin 1) (Cert.Spec.chanOf i)))
    (hb : xb (ix2 (0 : Fin 1) q) = B (ix2 (0 : Fin 1) (Cert.Spec.chanOf i))) :
    k5_pay1 (F := Ideal) xa xv xw xm xb (ix2 p q) = Cert.Spec.norm A M Vr Wt B i := by
  rw [pay_apply, ha, hm, hv, hw, hb]
  rfl

/-! ## What the body leaves in the output block -/

theorem hz : (![0, 0] : Fin 2 → Nat) = fun _ => 0 := funext fun a => by fin_cases a <;> rfl

/-- The body loads its five whole blocks and stores one whole block: the block it leaves is its result, read from the
    aggregate's block (window 0), the variance (window 2), the row lnw (window 3), the mean (window 1) and the row lnb
    (window 4), in the order of the body's loads. -/
theorem out_eq (x0 : Vec Ideal S5000x64 .f32) (x1 x2 : Vec Ideal S1x1 .f32) (x3 x4 : Vec Ideal S1x64 .f32) :
    out5_5 (F := Ideal) x0 x1 x2 x3 x4 = k5_pay1 (F := Ideal) x0 x2 x3 x1 x4 := by
  unfold out5_5
  rw [View.canon_unit_zero hz]
  simp only [View.ld_unit_zero (S := S5000x64) hz, View.ld_unit_zero (S := S1x1) hz, View.ld_unit_zero (S := S1x64) hz]

/-! ## The blocks as parts of the arrays -/

/-- The printed index maps over the grid: the aggregate's block and the result block at point t are block (t, 0); the
    four small arrays are one block each, block (0, 0). -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Entry (p, q) of the aggregate's block at point t sits in the array where entry (p, q) of the result block does. -/
theorem emb_a (t : Fin cfg5.N) (p : Fin 5000) (q : Fin 64) :
    (((cfg5.win 0).blk t).view.emb (ix2 p q) : S100000x64.Idx) = ((cfg5.win 5).blk t).view.emb (ix2 p q) := by
  obtain ⟨e00, e01, e10, e11, e20, e21, e30, e31, e40, e41, e50, e51⟩ := idx_facts t
  funext a; apply Fin.ext
  match a with
  | ⟨0, _⟩ => show win5_0.index t (0 : Fin 2) * 5000 + 1 * p.val = win5_5.index t (0 : Fin 2) * 5000 + 1 * p.val; omega
  | ⟨1, _⟩ => show win5_0.index t (1 : Fin 2) * 64 + 1 * q.val = win5_5.index t (1 : Fin 2) * 64 + 1 * q.val; omega

/-- The mean's block is the mean's array. -/
theorem emb_m (t : Fin cfg5.N) :
    (((cfg5.win 1).blk t).view.emb (ix2 (0 : Fin 1) (0 : Fin 1)) : S1x1.Idx) = Cert.Spec.one11 := by
  obtain ⟨e00, e01, e10, e11, e20, e21, e30, e31, e40, e41, e50, e51⟩ := idx_facts t
  funext a; apply Fin.ext
  match a with
  | ⟨0, _⟩ => show win5_1.index t (0 : Fin 2) * 1 + 1 * 0 = 0; omega
  | ⟨1, _⟩ => show win5_1.index t (1 : Fin 2) * 1 + 1 * 0 = 0; omega

/-- The variance's block is the variance's array. -/
theorem emb_v (t : Fin cfg5.N) :
    (((cfg5.win 2).blk t).view.emb (ix2 (0 : Fin 1) (0 : Fin 1)) : S1x1.Idx) = Cert.Spec.one11 := by
  obtain ⟨e00, e01, e10, e11, e20, e21, e30, e31, e40, e41, e50, e51⟩ := idx_facts t
  funext a; apply Fin.ext
  match a with
  | ⟨0, _⟩ => show win5_2.index t (0 : Fin 2) * 1 + 1 * 0 = 0; omega
  | ⟨1, _⟩ => show win5_2.index t (1 : Fin 2) * 1 + 1 * 0 = 0; omega

/-- The block of the row lnw is the row: its entry q is the row's entry in the column of the result's entry (p, q). -/
theorem emb_w (t : Fin cfg5.N) (p : Fin 5000) (q : Fin 64) :
    (((cfg5.win 3).blk t).view.emb (ix2 (0 : Fin 1) q) : S1x64.Idx)
      = ix2 (0 : Fin 1) (Cert.Spec.chanOf (((cfg5.win 5).blk t).view.emb (ix2 p q))) := by
  obtain ⟨e00, e01, e10, e11, e20, e21, e30, e31, e40, e41, e50, e51⟩ := idx_facts t
  funext a; apply Fin.ext
  match a with
  | ⟨0, _⟩ => show win5_3.index t (0 : Fin 2) * 1 + 1 * 0 = 0; omega
  | ⟨1, _⟩ => show win5_3.index t (1 : Fin 2) * 64 + 1 * q.val = win5_5.index t (1 : Fin 2) * 64 + 1 * q.val; omega

/-- The block of the row lnb likewise. -/
theorem emb_b (t : Fin cfg5.N) (p : Fin 5000) (q : Fin 64) :
    (((cfg5.win 4).blk t).view.emb (ix2 (0 : Fin 1) q) : S1x64.Idx)
      = ix2 (0 : Fin 1) (Cert.Spec.chanOf (((cfg5.win 5).blk t).view.emb (ix2 p q))) := by
  obtain ⟨e00, e01, e10, e11, e20, e21, e30, e31, e40, e41, e50, e51⟩ := idx_facts t
  funext a; apply Fin.ext
  match a with
  | ⟨0, _⟩ => show win5_4.index t (0 : Fin 2) * 1 + 1 * 0 = 0; omega
  | ⟨1, _⟩ => show win5_4.index t (1 : Fin 2) * 64 + 1 * q.val = win5_5.index t (1 : Fin 2) * 64 + 1 * q.val; omega

/-! ## What point t writes back -/

/-- The aggregate's block at point t, read at (p, q), is the aggregate's array where the result block's (p, q) sits. -/
theorem iblk_a (V : (c : Dev nD) → (b : Ref sig .tc) → Buf (Elt Ideal) ((c : Thread nD τ).loc b)) (c : Dev nD)
    (t : Fin cfg5.N) (p : Fin 5000) (q : Fin 64) :
    (iblk5 V c 0 t : Vec Ideal S5000x64 .f32) (ix2 p q)
      = V c (Pipeline.arrRef spec5 0) (((cfg5.win 5).blk t).view.emb (ix2 p q)) :=
  congrArg (V c (Pipeline.arrRef spec5 0)) (emb_a t p q)

/-- The mean's block is the mean's array. -/
theorem iblk_m (V : (c : Dev nD) → (b : Ref sig .tc) → Buf (Elt Ideal) ((c : Thread nD τ).loc b)) (c : Dev nD)
    (t : Fin cfg5.N) :
    (iblk5 V c 1 t : Vec Ideal S1x1 .f32) (ix2 (0 : Fin 1) (0 : Fin 1)) = V c (Pipeline.arrRef spec5 1) Cert.Spec.one11 :=
  congrArg (V c (Pipeline.arrRef spec5 1)) (emb_m t)

/-- The variance's block is the variance's array. -/
theorem iblk_v (V : (c : Dev nD) → (b : Ref sig .tc) → Buf (Elt Ideal) ((c : Thread nD τ).loc b)) (c : Dev nD)
    (t : Fin cfg5.N) :
    (iblk5 V c 2 t : Vec Ideal S1x1 .f32) (ix2 (0 : Fin 1) (0 : Fin 1)) = V c (Pipeline.arrRef spec5 2) Cert.Spec.one11 :=
  congrArg (V c (Pipeline.arrRef spec5 2)) (emb_v t)

/-- The block of the row lnw is the row. -/
theorem iblk_w (V : (c : Dev nD) → (b : Ref sig .tc) → Buf (Elt Ideal) ((c : Thread nD τ).loc b)) (c : Dev nD)
    (t : Fin cfg5.N) (p : Fin 5000) (q : Fin 64) :
    (iblk5 V c 3 t : Vec Ideal S1x64 .f32) (ix2 (0 : Fin 1) q)
      = V c (Pipeline.arrRef spec5 3) (ix2 (0 : Fin 1) (Cert.Spec.chanOf (((cfg5.win 5).blk t).view.emb (ix2 p q)))) :=
  congrArg (V c (Pipeline.arrRef spec5 3)) (emb_w t p q)

/-- The block of the row lnb is the row. -/
theorem iblk_b (V : (c : Dev nD) → (b : Ref sig .tc) → Buf (Elt Ideal) ((c : Thread nD τ).loc b)) (c : Dev nD)
    (t : Fin cfg5.N) (p : Fin 5000) (q : Fin 64) :
    (iblk5 V c 4 t : Vec Ideal S1x64 .f32) (ix2 (0 : Fin 1) q)
      = V c (Pipeline.arrRef spec5 4) (ix2 (0 : Fin 1) (Cert.Spec.chanOf (((cfg5.win 5).blk t).view.emb (ix2 p q)))) :=
  congrArg (V c (Pipeline.arrRef spec5 4)) (emb_b t p q)

/-- Entry j of the block point t leaves is the formula's entry at the place of j in the array: the aggregate's block is
    the array's rows from 5000·t on, the four small blocks are the small arrays. -/
theorem block_apply (V : (c : Dev nD) → (b : Ref sig .tc) → Buf (Elt Ideal) ((c : Thread nD τ).loc b)) (c : Dev nD)
    (t : Fin cfg5.N) (j : S5000x64.Idx) :
    k5_pay1 (F := Ideal) (iblk5 V c 0 t) (iblk5 V c 2 t) (iblk5 V c 3 t) (iblk5 V c 1 t) (iblk5 V c 4 t) j
      = Cert.Spec.norm (V c (Pipeline.arrRef spec5 0)) (V c (Pipeline.arrRef spec5 1)) (V c (Pipeline.arrRef spec5 2))
          (V c (Pipeline.arrRef spec5 3)) (V c (Pipeline.arrRef spec5 4)) (((cfg5.win 5).blk t).view.emb j) := by
  obtain ⟨p, q, rfl⟩ : ∃ (p : Fin 5000) (q : Fin 64), j = ix2 p q := ⟨j 0, j 1, eq_ix2 j⟩
  exact pay_eq_norm (iblk5 V c 0 t) (iblk5 V c 2 t) (iblk5 V c 3 t) (iblk5 V c 1 t) (iblk5 V c 4 t) p q
    (V c (Pipeline.arrRef spec5 0)) (V c (Pipeline.arrRef spec5 1)) (V c (Pipeline.arrRef spec5 2))
    (V c (Pipeline.arrRef spec5 3)) (V c (Pipeline.arrRef spec5 4)) (((cfg5.win 5).blk t).view.emb (ix2 p q))
    (iblk_a V c t p q) (iblk_m V c t) (iblk_v V c t) (iblk_w V c t p q) (iblk_b V c t p q)

/-- What point t writes back is block t of the formula of the five arrays as the region found them. -/
theorem flushed_eq (V : (c : Dev nD) → (b : Ref sig .tc) → Buf (Elt Ideal) ((c : Thread nD τ).loc b)) (c : Dev nD)
    (t : Fin cfg5.N) :
    (dat5 (F := Ideal) V c).flushed 5 t
      = ((cfg5.win 5).blk t).view.read (Elt Ideal)
          (Cert.Spec.norm (V c (Pipeline.arrRef spec5 0)) (V c (Pipeline.arrRef spec5 1)) (V c (Pipeline.arrRef spec5 2))
            (V c (Pipeline.arrRef spec5 3)) (V c (Pipeline.arrRef spec5 4))) := by
  show (cfg5.win 5).cut (grid5.coords t) ((dat5 V c).after 5 t) = _
  rw [after5_5, out_eq]
  funext j
  exact block_apply V c t j

/-! ## The blocks cover the array -/

/-- An index of the array is in point t's block iff each coordinate is in the block's range on its axis. -/
theorem mem_blk (t : Fin cfg5.N) (i : S100000x64.Idx) :
    i ∈ ((cfg5.win 5).blk t).view.set ↔ ∀ a : Fin 2, win5_5.index t a * S5000x64.size a ≤ (i a).val
      ∧ (i a).val < win5_5.index t a * S5000x64.size a + S5000x64.size a := by
  show i ∈ ((View.whole (Pipeline.arrRef spec5 5)).slice (win5_5.rect t)).set ↔ _
  rw [View.set_slice_whole, Rect.mem_set_unit]
  exact Iff.rfl

/-- Row r lies in the block of point r / 5000. -/
theorem cover (i : S100000x64.Idx) :
    ∃ t : Fin cfg5.N, (cfg5.win 5).flush t = true ∧ i ∈ ((cfg5.win 5).blk t).view.set := by
  have hi0 : (i 0).val < 100000 := (i 0).isLt
  have hi1 : (i 1).val < 64 := (i 1).isLt
  obtain ⟨t, ht⟩ : ∃ t : Fin cfg5.N, t.val = (i 0).val / 5000 :=
    ⟨⟨(i 0).val / 5000, by show (i 0).val / 5000 < grid5.N; rw [N_5]; omega⟩, rfl⟩
  obtain ⟨e00, e01, e10, e11, e20, e21, e30, e31, e40, e41, e50, e51⟩ := idx_facts t
  refine ⟨t, flush5_5 t, ?_⟩
  rw [mem_blk]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 64 ≤ (i 1).val ∧ (i 1).val < win5_5.index t (1 : Fin 2) * 64 + 64; omega

/-! ## The array after the region -/

/-- After all 20 points the result array is the normalised, rectified aggregate: the formula of the aggregate, the mean,
    the variance and the two rows lnw, lnb as the region found them. -/
theorem arr5_5 (V : (c : Dev nD) → (b : Ref sig .tc) → Buf (Elt Ideal) ((c : Thread nD τ).loc b)) (c : Dev nD) :
    (Cert.KernelIdeal.Gen.dat5 (F := Ideal) V c).arrAt 5 cfg5.N
      = Cert.Spec.norm (V c (Pipeline.arrRef spec5 0)) (V c (Pipeline.arrRef spec5 1)) (V c (Pipeline.arrRef spec5 2))
          (V c (Pipeline.arrRef spec5 3)) (V c (Pipeline.arrRef spec5 4)) :=
  (dat5 (F := Ideal) V c).arrAt_eq_of_cover 5 _ (fun t _ => flushed_eq V c t) cover

end Cert.Bridge.Norm5

end
-- ==== Proof.RegionNorm8.lean ====
/-
  Region 8: normalisation and rectifier, computed block by block.

  The 100000 rows are cut into 20 blocks of 5000 rows. At grid point t the body reads rows 5000·t … 5000·t + 4999 of the
  aggregate a, the 1 × 1 arrays holding the mean and the variance, and the two 1 × 64 rows lnw and lnb, and writes
      max ((lnw · (a − mean)) · (var + ε)^(-1/2) + lnb) 0
  into the same rows of the result, the single values spread over the block and the rows spread over its 5000 rows.
  Every operation acts entry by entry, row p of block t is row 5000·t + p of the array, and every row r lies in block
  r / 5000. Hence the result array is that formula of the five arrays as the region found them.
-/
import proofs.«123589_j55817394979590_1_alg».proof.Proof.Gen.KernelIdeal.Frame
import proofs.«123589_j55817394979590_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Bridge.Norm8

open Cert.KernelIdeal Cert.KernelIdeal.Gen Idealize.ShloMosaic Idealize.ShloMosaic.TcCoe Idealize.SL.Sem
open Idealize.ShloMosaic.ValueIdx
open Idealize.ShloMosaic.Pipeline (Dat)

/-! ## The body's result at an entry -/

/-- A 1 × 1 array spread over an a × b array reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- Entry (p, q) of the body's result, from the loaded blocks: xa the aggregate's block, xv the variance, xw the row lnw,
    xm the mean, xb the row lnb. The casts to the same shape are the identity, the arithmetic acts entry by entry, a
    spread single value reads its entry and a spread row reads its entry in the column. -/
theorem pay_apply (xa : Vec Ideal S5000x64 .f32) (xv : Vec Ideal S1x1 .f32) (xw : Vec Ideal S1x64 .f32)
    (xm : Vec Ideal S1x1 .f32) (xb : Vec Ideal S1x64 .f32) (p : Fin 5000) (q : Fin 64) :
    k8_pay1 (F := Ideal) xa xv xw xm xb (ix2 p q)
      = max ((xw (ix2 (0 : Fin 1) q) * (xa (ix2 p q) - xm (ix2 (0 : Fin 1) (0 : Fin 1))))
              * Ideal.rsqrt (xv (ix2 (0 : Fin 1) (0 : Fin 1)) + Cert.Spec.eps)
            + xb (ix2 (0 : Fin 1) q)) 0 := by
  unfold k8_pay1
  simp only [shapeCast_self]
  show max ((broadcastTo S5000x64 xw _ (ix2 p q) * (xa (ix2 p q) - broadcastTo S5000x64 xm _ (ix2 p q)))
              * broadcastTo S5000x64 (rsqrt (addf xv (broadcast S1x1 (Scalar.ofBits (F := Ideal) .f32 0x3727C5AC#32)))) _ (ix2 p q)
            + broadcastTo S5000x64 xb _ (ix2 p q)) (Ideal.ofBits .f32 0x00000000#32) = _
  rw [broadcastTo_1b_ab_apply xw _ p q, broadcastTo_1b_ab_apply xb _ p q, broadcastTo_11_ab_apply xm _ p q,
    broadcastTo_11_ab_apply (rsqrt (addf xv (broadcast S1x1 (Scalar.ofBits (F := Ideal) .f32 0x3727C5AC#32)))) _ p q,
    Ideal.ofBits_zero_f32]
  rfl

/-- The same with each loaded entry NAMED: if the five blocks' entries that the formula reads are those of whole arrays
    A (aggregate), M (mean), Vr (variance), Wt (lnw), B (lnb) at the array index i, the body's entry is the formula's. -/
theorem pay_eq_norm (xa : Vec Ideal S5000x64 .f32) (xv : Vec Ideal S1x1 .f32) (xw : Vec Ideal S1x64 .f32)
    (xm : Vec Ideal S1x1 .f32) (xb : Vec Ideal S1x64 .f32) (p : Fin 5000) (q : Fin 64)
    (A : Cert.Spec.SN.Idx → EReal) (M Vr : Cert.Spec.S1.Idx → EReal) (Wt B : Cert.Spec.SR.Idx → EReal) (i : Cert.Spec.SN.Idx)
    (ha : xa (ix2 p q) = A i) (hm : xm (ix2 (0 : Fin 1) (0 : Fin 1)) = M Cert.Spec.one11)
    (hv : xv (ix2 (0 : Fin 1) (0 : Fin 1)) = Vr Cert.Spec.one11)
    (hw : xw (ix2 (0 : Fin 1) q) = Wt (ix2 (0 : Fin 1) (Cert.Spec.chanOf i)))
    (hb : xb (ix2 (0 : Fin 1) q) = B (ix2 (0 : Fin 1) (Cert.Spec.chanOf i))) :
    k8_pay1 (F := Ideal) xa xv xw xm xb (ix2 p q) = Cert.Spec.norm A M Vr Wt B i := by
  rw [pay_apply, ha, hm, hv, hw, hb]
  rfl

/-! ## What the body leaves in the output block -/

theorem hz : (![0, 0] : Fin 2 → Nat) = fun _ => 0 := funext fun a => by fin_cases a <;> rfl

/-- The body loads its five whole blocks and stores one whole block: the block it leaves is its result, read from the
    aggregate's block (window 0), the variance (window 2), the row lnw (window 3), the mean (window 1) and the row lnb
    (window 4), in the order of the body's loads. -/
theorem out_eq (x0 : Vec Ideal S5000x64 .f32) (x1 x2 : Vec Ideal S1x1 .f32) (x3 x4 : Vec Ideal S1x64 .f32) :
    out8_5 (F := Ideal) x0 x1 x2 x3 x4 = k8_pay1 (F := Ideal) x0 x2 x3 x1 x4 := by
  unfold out8_5
  rw [View.canon_unit_zero hz]
  simp only [View.ld_unit_zero (S := S5000x64) hz, View.ld_unit_zero (S := S1x1) hz, View.ld_unit_zero (S := S1x64) hz]

/-! ## The blocks as parts of the arrays -/

/-- The printed index maps over the grid: the aggregate's block and the result block at point t are block (t, 0); the
    four small arrays are one block each, block (0, 0). -/
theorem idx_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- Entry (p, q) of the aggregate's block at point t sits in the array where entry (p, q) of the result block does. -/
theorem emb_a (t : Fin cfg8.N) (p : Fin 5000) (q : Fin 64) :
    (((cfg8.win 0).blk t).view.emb (ix2 p q) : S100000x64.Idx) = ((cfg8.win 5).blk t).view.emb (ix2 p q) := by
  obtain ⟨e00, e01, e10, e11, e20, e21, e30, e31, e40, e41, e50, e51⟩ := idx_facts t
  funext a; apply Fin.ext
  match a with
  | ⟨0, _⟩ => show win8_0.index t (0 : Fin 2) * 5000 + 1 * p.val = win8_5.index t (0 : Fin 2) * 5000 + 1 * p.val; omega
  | ⟨1, _⟩ => show win8_0.index t (1 : Fin 2) * 64 + 1 * q.val = win8_5.index t (1 : Fin 2) * 64 + 1 * q.val; omega

/-- The mean's block is the mean's array. -/
theorem emb_m (t : Fin cfg8.N) :
    (((cfg8.win 1).blk t).view.emb (ix2 (0 : Fin 1) (0 : Fin 1)) : S1x1.Idx) = Cert.Spec.one11 := by
  obtain ⟨e00, e01, e10, e11, e20, e21, e30, e31, e40, e41, e50, e51⟩ := idx_facts t
  funext a; apply Fin.ext
  match a with
  | ⟨0, _⟩ => show win8_1.index t (0 : Fin 2) * 1 + 1 * 0 = 0; omega
  | ⟨1, _⟩ => show win8_1.index t (1 : Fin 2) * 1 + 1 * 0 = 0; omega

/-- The variance's block is the variance's array. -/
theorem emb_v (t : Fin cfg8.N) :
    (((cfg8.win 2).blk t).view.emb (ix2 (0 : Fin 1) (0 : Fin 1)) : S1x1.Idx) = Cert.Spec.one11 := by
  obtain ⟨e00, e01, e10, e11, e20, e21, e30, e31, e40, e41, e50, e51⟩ := idx_facts t
  funext a; apply Fin.ext
  match a with
  | ⟨0, _⟩ => show win8_2.index t (0 : Fin 2) * 1 + 1 * 0 = 0; omega
  | ⟨1, _⟩ => show win8_2.index t (1 : Fin 2) * 1 + 1 * 0 = 0; omega

/-- The block of the row lnw is the row: its entry q is the row's entry in the column of the result's entry (p, q). -/
theorem emb_w (t : Fin cfg8.N) (p : Fin 5000) (q : Fin 64) :
    (((cfg8.win 3).blk t).view.emb (ix2 (0 : Fin 1) q) : S1x64.Idx)
      = ix2 (0 : Fin 1) (Cert.Spec.chanOf (((cfg8.win 5).blk t).view.emb (ix2 p q))) := by
  obtain ⟨e00, e01, e10, e11, e20, e21, e30, e31, e40, e41, e50, e51⟩ := idx_facts t
  funext a; apply Fin.ext
  match a with
  | ⟨0, _⟩ => show win8_3.index t (0 : Fin 2) * 1 + 1 * 0 = 0; omega
  | ⟨1, _⟩ => show win8_3.index t (1 : Fin 2) * 64 + 1 * q.val = win8_5.index t (1 : Fin 2) * 64 + 1 * q.val; omega

/-- The block of the row lnb likewise. -/
theorem emb_b (t : Fin cfg8.N) (p : Fin 5000) (q : Fin 64) :
    (((cfg8.win 4).blk t).view.emb (ix2 (0 : Fin 1) q) : S1x64.Idx)
      = ix2 (0 : Fin 1) (Cert.Spec.chanOf (((cfg8.win 5).blk t).view.emb (ix2 p q))) := by
  obtain ⟨e00, e01, e10, e11, e20, e21, e30, e31, e40, e41, e50, e51⟩ := idx_facts t
  funext a; apply Fin.ext
  match a with
  | ⟨0, _⟩ => show win8_4.index t (0 : Fin 2) * 1 + 1 * 0 = 0; omega
  | ⟨1, _⟩ => show win8_4.index t (1 : Fin 2) * 64 + 1 * q.val = win8_5.index t (1 : Fin 2) * 64 + 1 * q.val; omega

/-! ## What point t writes back -/

/-- The aggregate's block at point t, read at (p, q), is the aggregate's array where the result block's (p, q) sits. -/
theorem iblk_a (V : (c : Dev nD) → (b : Ref sig .tc) → Buf (Elt Ideal) ((c : Thread nD τ).loc b)) (c : Dev nD)
    (t : Fin cfg8.N) (p : Fin 5000) (q : Fin 64) :
    (iblk8 V c 0 t : Vec Ideal S5000x64 .f32) (ix2 p q)
      = V c (Pipeline.arrRef spec8 0) (((cfg8.win 5).blk t).view.emb (ix2 p q)) :=
  congrArg (V c (Pipeline.arrRef spec8 0)) (emb_a t p q)

/-- The mean's block is the mean's array. -/
theorem iblk_m (V : (c : Dev nD) → (b : Ref sig .tc) → Buf (Elt Ideal) ((c : Thread nD τ).loc b)) (c : Dev nD)
    (t : Fin cfg8.N) :
    (iblk8 V c 1 t : Vec Ideal S1x1 .f32) (ix2 (0 : Fin 1) (0 : Fin 1)) = V c (Pipeline.arrRef spec8 1) Cert.Spec.one11 :=
  congrArg (V c (Pipeline.arrRef spec8 1)) (emb_m t)

/-- The variance's block is the variance's array. -/
theorem iblk_v (V : (c : Dev nD) → (b : Ref sig .tc) → Buf (Elt Ideal) ((c : Thread nD τ).loc b)) (c : Dev nD)
    (t : Fin cfg8.N) :
    (iblk8 V c 2 t : Vec Ideal S1x1 .f32) (ix2 (0 : Fin 1) (0 : Fin 1)) = V c (Pipeline.arrRef spec8 2) Cert.Spec.one11 :=
  congrArg (V c (Pipeline.arrRef spec8 2)) (emb_v t)

/-- The block of the row lnw is the row. -/
theorem iblk_w (V : (c : Dev nD) → (b : Ref sig .tc) → Buf (Elt Ideal) ((c : Thread nD τ).loc b)) (c : Dev nD)
    (t : Fin cfg8.N) (p : Fin 5000) (q : Fin 64) :
    (iblk8 V c 3 t : Vec Ideal S1x64 .f32) (ix2 (0 : Fin 1) q)
      = V c (Pipeline.arrRef spec8 3) (ix2 (0 : Fin 1) (Cert.Spec.chanOf (((cfg8.win 5).blk t).view.emb (ix2 p q)))) :=
  congrArg (V c (Pipeline.arrRef spec8 3)) (emb_w t p q)

/-- The block of the row lnb is the row. -/
theorem iblk_b (V : (c : Dev nD) → (b : Ref sig .tc) → Buf (Elt Ideal) ((c : Thread nD τ).loc b)) (c : Dev nD)
    (t : Fin cfg8.N) (p : Fin 5000) (q : Fin 64) :
    (iblk8 V c 4 t : Vec Ideal S1x64 .f32) (ix2 (0 : Fin 1) q)
      = V c (Pipeline.arrRef spec8 4) (ix2 (0 : Fin 1) (Cert.Spec.chanOf (((cfg8.win 5).blk t).view.emb (ix2 p q)))) :=
  congrArg (V c (Pipeline.arrRef spec8 4)) (emb_b t p q)

/-- Entry j of the block point t leaves is the formula's entry at the place of j in the array: the aggregate's block is
    the array's rows from 5000·t on, the four small blocks are the small arrays. -/
theorem block_apply (V : (c : Dev nD) → (b : Ref sig .tc) → Buf (Elt Ideal) ((c : Thread nD τ).loc b)) (c : Dev nD)
    (t : Fin cfg8.N) (j : S5000x64.Idx) :
    k8_pay1 (F := Ideal) (iblk8 V c 0 t) (iblk8 V c 2 t) (iblk8 V c 3 t) (iblk8 V c 1 t) (iblk8 V c 4 t) j
      = Cert.Spec.norm (V c (Pipeline.arrRef spec8 0)) (V c (Pipeline.arrRef spec8 1)) (V c (Pipeline.arrRef spec8 2))
          (V c (Pipeline.arrRef spec8 3)) (V c (Pipeline.arrRef spec8 4)) (((cfg8.win 5).blk t).view.emb j) := by
  obtain ⟨p, q, rfl⟩ : ∃ (p : Fin 5000) (q : Fin 64), j = ix2 p q := ⟨j 0, j 1, eq_ix2 j⟩
  exact pay_eq_norm (iblk8 V c 0 t) (iblk8 V c 2 t) (iblk8 V c 3 t) (iblk8 V c 1 t) (iblk8 V c 4 t) p q
    (V c (Pipeline.arrRef spec8 0)) (V c (Pipeline.arrRef spec8 1)) (V c (Pipeline.arrRef spec8 2))
    (V c (Pipeline.arrRef spec8 3)) (V c (Pipeline.arrRef spec8 4)) (((cfg8.win 5).blk t).view.emb (ix2 p q))
    (iblk_a V c t p q) (iblk_m V c t) (iblk_v V c t) (iblk_w V c t p q) (iblk_b V c t p q)

/-- What point t writes back is block t of the formula of the five arrays as the region found them. -/
theorem flushed_eq (V : (c : Dev nD) → (b : Ref sig .tc) → Buf (Elt Ideal) ((c : Thread nD τ).loc b)) (c : Dev nD)
    (t : Fin cfg8.N) :
    (dat8 (F := Ideal) V c).flushed 5 t
      = ((cfg8.win 5).blk t).view.read (Elt Ideal)
          (Cert.Spec.norm (V c (Pipeline.arrRef spec8 0)) (V c (Pipeline.arrRef spec8 1)) (V c (Pipeline.arrRef spec8 2))
            (V c (Pipeline.arrRef spec8 3)) (V c (Pipeline.arrRef spec8 4))) := by
  show (cfg8.win 5).cut (grid8.coords t) ((dat8 V c).after 5 t) = _
  rw [after8_5, out_eq]
  funext j
  exact block_apply V c t j

/-! ## The blocks cover the array -/

/-- An index of the array is in point t's block iff each coordinate is in the block's range on its axis. -/
theorem mem_blk (t : Fin cfg8.N) (i : S100000x64.Idx) :
    i ∈ ((cfg8.win 5).blk t).view.set ↔ ∀ a : Fin 2, win8_5.index t a * S5000x64.size a ≤ (i a).val
      ∧ (i a).val < win8_5.index t a * S5000x64.size a + S5000x64.size a := by
  show i ∈ ((View.whole (Pipeline.arrRef spec8 5)).slice (win8_5.rect t)).set ↔ _
  rw [View.set_slice_whole, Rect.mem_set_unit]
  exact Iff.rfl

/-- Row r lies in the block of point r / 5000. -/
theorem cover (i : S100000x64.Idx) :
    ∃ t : Fin cfg8.N, (cfg8.win 5).flush t = true ∧ i ∈ ((cfg8.win 5).blk t).view.set := by
  have hi0 : (i 0).val < 100000 := (i 0).isLt
  have hi1 : (i 1).val < 64 := (i 1).isLt
  obtain ⟨t, ht⟩ : ∃ t : Fin cfg8.N, t.val = (i 0).val / 5000 :=
    ⟨⟨(i 0).val / 5000, by show (i 0).val / 5000 < grid8.N; rw [N_8]; omega⟩, rfl⟩
  obtain ⟨e00, e01, e10, e11, e20, e21, e30, e31, e40, e41, e50, e51⟩ := idx_facts t
  refine ⟨t, flush8_5 t, ?_⟩
  rw [mem_blk]
  intro a
  match a with
  | ⟨0, _⟩ => show win8_5.index t (0 : Fin 2) * 5000 ≤ (i 0).val ∧ (i 0).val < win8_5.index t (0 : Fin 2) * 5000 + 5000; omega
  | ⟨1, _⟩ => show win8_5.index t (1 : Fin 2) * 64 ≤ (i 1).val ∧ (i 1).val < win8_5.index t (1 : Fin 2) * 64 + 64; omega

/-! ## The array after the region -/

/-- After all 20 points the result array is the normalised, rectified aggregate: the formula of the aggregate, the mean,
    the variance and the two rows lnw, lnb as the region found them. -/
theorem arr8_5 (V : (c : Dev nD) → (b : Ref sig .tc) → Buf (Elt Ideal) ((c : Thread nD τ).loc b)) (c : Dev nD) :
    (Cert.KernelIdeal.Gen.dat8 (F := Ideal) V c).arrAt 5 cfg8.N
      = Cert.Spec.norm (V c (Pipeline.arrRef spec8 0)) (V c (Pipeline.arrRef spec8 1)) (V c (Pipeline.arrRef spec8 2))
          (V c (Pipeline.arrRef spec8 3)) (V c (Pipeline.arrRef spec8 4)) :=
  (dat8 (F := Ideal) V c).arrAt_eq_of_cover 5 _ (fun t _ => flushed_eq V c t) cover

end Cert.Bridge.Norm8

end
-- ==== Proof.RegionNorm11.lean ====
/-
  Region 11: normalisation and rectifier, computed block by block.

  The 100000 rows are cut into 20 blocks of 5000 rows. At grid point t the body reads rows 5000·t … 5000·t + 4999 of the
  aggregate a, the 1 × 1 arrays holding the mean and the variance, and the two 1 × 64 rows lnw and lnb, and writes
      max ((lnw · (a − mean)) · (var + ε)^(-1/2) + lnb) 0
  into the same rows of the result, the single values spread over the block and the rows spread over its 5000 rows.
  Every operation acts entry by entry, row p of block t is row 5000·t + p of the array, and every row r lies in block
  r / 5000. Hence the result array is that formula of the five arrays as the region found them.
-/
import proofs.«123589_j55817394979590_1_alg».proof.Proof.Gen.KernelIdeal.Frame
import proofs.«123589_j55817394979590_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Bridge.Norm11

open Cert.KernelIdeal Cert.KernelIdeal.Gen Idealize.ShloMosaic Idealize.ShloMosaic.TcCoe Idealize.SL.Sem
open Idealize.ShloMosaic.ValueIdx
open Idealize.ShloMosaic.Pipeline (Dat)

/-! ## The body's result at an entry -/

/-- A 1 × 1 array spread over an a × b array reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- Entry (p, q) of the body's result, from the loaded blocks: xa the aggregate's block, xv the variance, xw the row lnw,
    xm the mean, xb the row lnb. The casts to the same shape are the identity, the arithmetic acts entry by entry, a
    spread single value reads its entry and a spread row reads its entry in the column. -/
theorem pay_apply (xa : Vec Ideal S5000x64 .f32) (xv : Vec Ideal S1x1 .f32) (xw : Vec Ideal S1x64 .f32)
    (xm : Vec Ideal S1x1 .f32) (xb : Vec Ideal S1x64 .f32) (p : Fin 5000) (q : Fin 64) :
    k11_pay1 (F := Ideal) xa xv xw xm xb (ix2 p q)
      = max ((xw (ix2 (0 : Fin 1) q) * (xa (ix2 p q) - xm (ix2 (0 : Fin 1) (0 : Fin 1))))
              * Ideal.rsqrt (xv (ix2 (0 : Fin 1) (0 : Fin 1)) + Cert.Spec.eps)
            + xb (ix2 (0 : Fin 1) q)) 0 := by
  unfold k11_pay1
  simp only [shapeCast_self]
  show max ((broadcastTo S5000x64 xw _ (ix2 p q) * (xa (ix2 p q) - broadcastTo S5000x64 xm _ (ix2 p q)))
              * broadcastTo S5000x64 (rsqrt (addf xv (broadcast S1x1 (Scalar.ofBits (F := Ideal) .f32 0x3727C5AC#32)))) _ (ix2 p q)
            + broadcastTo S5000x64 xb _ (ix2 p q)) (Ideal.ofBits .f32 0x00000000#32) = _
  rw [broadcastTo_1b_ab_apply xw _ p q, broadcastTo_1b_ab_apply xb _ p q, broadcastTo_11_ab_apply xm _ p q,
    broadcastTo_11_ab_apply (rsqrt (addf xv (broadcast S1x1 (Scalar.ofBits (F := Ideal) .f32 0x3727C5AC#32)))) _ p q,
    Ideal.ofBits_zero_f32]
  rfl

/-- The same with each loaded entry NAMED: if the five blocks' entries that the formula reads are those of whole arrays
    A (aggregate), M (mean), Vr (variance), Wt (lnw), B (lnb) at the array index i, the body's entry is the formula's. -/
theorem pay_eq_norm (xa : Vec Ideal S5000x64 .f32) (xv : Vec Ideal S1x1 .f32) (xw : Vec Ideal S1x64 .f32)
    (xm : Vec Ideal S1x1 .f32) (xb : Vec Ideal S1x64 .f32) (p : Fin 5000) (q : Fin 64)
    (A : Cert.Spec.SN.Idx → EReal) (M Vr : Cert.Spec.S1.Idx → EReal) (Wt B : Cert.Spec.SR.Idx → EReal) (i : Cert.Spec.SN.Idx)
    (ha : xa (ix2 p q) = A i) (hm : xm (ix2 (0 : Fin 1) (0 : Fin 1)) = M Cert.Spec.one11)
    (hv : xv (ix2 (0 : Fin 1) (0 : Fin 1)) = Vr Cert.Spec.one11)
    (hw : xw (ix2 (0 : Fin 1) q) = Wt (ix2 (0 : Fin 1) (Cert.Spec.chanOf i)))
    (hb : xb (ix2 (0 : Fin 1) q) = B (ix2 (0 : Fin 1) (Cert.Spec.chanOf i))) :
    k11_pay1 (F := Ideal) xa xv xw xm xb (ix2 p q) = Cert.Spec.norm A M Vr Wt B i := by
  rw [pay_apply, ha, hm, hv, hw, hb]
  rfl

/-! ## What the body leaves in the output block -/

theorem hz : (![0, 0] : Fin 2 → Nat) = fun _ => 0 := funext fun a => by fin_cases a <;> rfl

/-- The body loads its five whole blocks and stores one whole block: the block it leaves is its result, read from the
    aggregate's block (window 0), the variance (window 2), the row lnw (window 3), the mean (window 1) and the row lnb
    (window 4), in the order of the body's loads. -/
theorem out_eq (x0 : Vec Ideal S5000x64 .f32) (x1 x2 : Vec Ideal S1x1 .f32) (x3 x4 : Vec Ideal S1x64 .f32) :
    out11_5 (F := Ideal) x0 x1 x2 x3 x4 = k11_pay1 (F := Ideal) x0 x2 x3 x1 x4 := by
  unfold out11_5
  rw [View.canon_unit_zero hz]
  simp only [View.ld_unit_zero (S := S5000x64) hz, View.ld_unit_zero (S := S1x1) hz, View.ld_unit_zero (S := S1x64) hz]

/-! ## The blocks as parts of the arrays -/

/-- The printed index maps over the grid: the aggregate's block and the result block at point t are block (t, 0); the
    four small arrays are one block each, block (0, 0). -/
theorem idx_facts : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

/-- Entry (p, q) of the aggregate's block at point t sits in the array where entry (p, q) of the result block does. -/
theorem emb_a (t : Fin cfg11.N) (p : Fin 5000) (q : Fin 64) :
    (((cfg11.win 0).blk t).view.emb (ix2 p q) : S100000x64.Idx) = ((cfg11.win 5).blk t).view.emb (ix2 p q) := by
  obtain ⟨e00, e01, e10, e11, e20, e21, e30, e31, e40, e41, e50, e51⟩ := idx_facts t
  funext a; apply Fin.ext
  match a with
  | ⟨0, _⟩ => show win11_0.index t (0 : Fin 2) * 5000 + 1 * p.val = win11_5.index t (0 : Fin 2) * 5000 + 1 * p.val; omega
  | ⟨1, _⟩ => show win11_0.index t (1 : Fin 2) * 64 + 1 * q.val = win11_5.index t (1 : Fin 2) * 64 + 1 * q.val; omega

/-- The mean's block is the mean's array. -/
theorem emb_m (t : Fin cfg11.N) :
    (((cfg11.win 1).blk t).view.emb (ix2 (0 : Fin 1) (0 : Fin 1)) : S1x1.Idx) = Cert.Spec.one11 := by
  obtain ⟨e00, e01, e10, e11, e20, e21, e30, e31, e40, e41, e50, e51⟩ := idx_facts t
  funext a; apply Fin.ext
  match a with
  | ⟨0, _⟩ => show win11_1.index t (0 : Fin 2) * 1 + 1 * 0 = 0; omega
  | ⟨1, _⟩ => show win11_1.index t (1 : Fin 2) * 1 + 1 * 0 = 0; omega

/-- The variance's block is the variance's array. -/
theorem emb_v (t : Fin cfg11.N) :
    (((cfg11.win 2).blk t).view.emb (ix2 (0 : Fin 1) (0 : Fin 1)) : S1x1.Idx) = Cert.Spec.one11 := by
  obtain ⟨e00, e01, e10, e11, e20, e21, e30, e31, e40, e41, e50, e51⟩ := idx_facts t
  funext a; apply Fin.ext
  match a with
  | ⟨0, _⟩ => show win11_2.index t (0 : Fin 2) * 1 + 1 * 0 = 0; omega
  | ⟨1, _⟩ => show win11_2.index t (1 : Fin 2) * 1 + 1 * 0 = 0; omega

/-- The block of the row lnw is the row: its entry q is the row's entry in the column of the result's entry (p, q). -/
theorem emb_w (t : Fin cfg11.N) (p : Fin 5000) (q : Fin 64) :
    (((cfg11.win 3).blk t).view.emb (ix2 (0 : Fin 1) q) : S1x64.Idx)
      = ix2 (0 : Fin 1) (Cert.Spec.chanOf (((cfg11.win 5).blk t).view.emb (ix2 p q))) := by
  obtain ⟨e00, e01, e10, e11, e20, e21, e30, e31, e40, e41, e50, e51⟩ := idx_facts t
  funext a; apply Fin.ext
  match a with
  | ⟨0, _⟩ => show win11_3.index t (0 : Fin 2) * 1 + 1 * 0 = 0; omega
  | ⟨1, _⟩ => show win11_3.index t (1 : Fin 2) * 64 + 1 * q.val = win11_5.index t (1 : Fin 2) * 64 + 1 * q.val; omega

/-- The block of the row lnb likewise. -/
theorem emb_b (t : Fin cfg11.N) (p : Fin 5000) (q : Fin 64) :
    (((cfg11.win 4).blk t).view.emb (ix2 (0 : Fin 1) q) : S1x64.Idx)
      = ix2 (0 : Fin 1) (Cert.Spec.chanOf (((cfg11.win 5).blk t).view.emb (ix2 p q))) := by
  obtain ⟨e00, e01, e10, e11, e20, e21, e30, e31, e40, e41, e50, e51⟩ := idx_facts t
  funext a; apply Fin.ext
  match a with
  | ⟨0, _⟩ => show win11_4.index t (0 : Fin 2) * 1 + 1 * 0 = 0; omega
  | ⟨1, _⟩ => show win11_4.index t (1 : Fin 2) * 64 + 1 * q.val = win11_5.index t (1 : Fin 2) * 64 + 1 * q.val; omega

/-! ## What point t writes back -/

/-- The aggregate's block at point t, read at (p, q), is the aggregate's array where the result block's (p, q) sits. -/
theorem iblk_a (V : (c : Dev nD) → (b : Ref sig .tc) → Buf (Elt Ideal) ((c : Thread nD τ).loc b)) (c : Dev nD)
    (t : Fin cfg11.N) (p : Fin 5000) (q : Fin 64) :
    (iblk11 V c 0 t : Vec Ideal S5000x64 .f32) (ix2 p q)
      = V c (Pipeline.arrRef spec11 0) (((cfg11.win 5).blk t).view.emb (ix2 p q)) :=
  congrArg (V c (Pipeline.arrRef spec11 0)) (emb_a t p q)

/-- The mean's block is the mean's array. -/
theorem iblk_m (V : (c : Dev nD) → (b : Ref sig .tc) → Buf (Elt Ideal) ((c : Thread nD τ).loc b)) (c : Dev nD)
    (t : Fin cfg11.N) :
    (iblk11 V c 1 t : Vec Ideal S1x1 .f32) (ix2 (0 : Fin 1) (0 : Fin 1)) = V c (Pipeline.arrRef spec11 1) Cert.Spec.one11 :=
  congrArg (V c (Pipeline.arrRef spec11 1)) (emb_m t)

/-- The variance's block is the variance's array. -/
theorem iblk_v (V : (c : Dev nD) → (b : Ref sig .tc) → Buf (Elt Ideal) ((c : Thread nD τ).loc b)) (c : Dev nD)
    (t : Fin cfg11.N) :
    (iblk11 V c 2 t : Vec Ideal S1x1 .f32) (ix2 (0 : Fin 1) (0 : Fin 1)) = V c (Pipeline.arrRef spec11 2) Cert.Spec.one11 :=
  congrArg (V c (Pipeline.arrRef spec11 2)) (emb_v t)

/-- The block of the row lnw is the row. -/
theorem iblk_w (V : (c : Dev nD) → (b : Ref sig .tc) → Buf (Elt Ideal) ((c : Thread nD τ).loc b)) (c : Dev nD)
    (t : Fin cfg11.N) (p : Fin 5000) (q : Fin 64) :
    (iblk11 V c 3 t : Vec Ideal S1x64 .f32) (ix2 (0 : Fin 1) q)
      = V c (Pipeline.arrRef spec11 3) (ix2 (0 : Fin 1) (Cert.Spec.chanOf (((cfg11.win 5).blk t).view.emb (ix2 p q)))) :=
  congrArg (V c (Pipeline.arrRef spec11 3)) (emb_w t p q)

/-- The block of the row lnb is the row. -/
theorem iblk_b (V : (c : Dev nD) → (b : Ref sig .tc) → Buf (Elt Ideal) ((c : Thread nD τ).loc b)) (c : Dev nD)
    (t : Fin cfg11.N) (p : Fin 5000) (q : Fin 64) :
    (iblk11 V c 4 t : Vec Ideal S1x64 .f32) (ix2 (0 : Fin 1) q)
      = V c (Pipeline.arrRef spec11 4) (ix2 (0 : Fin 1) (Cert.Spec.chanOf (((cfg11.win 5).blk t).view.emb (ix2 p q)))) :=
  congrArg (V c (Pipeline.arrRef spec11 4)) (emb_b t p q)

/-- Entry j of the block point t leaves is the formula's entry at the place of j in the array: the aggregate's block is
    the array's rows from 5000·t on, the four small blocks are the small arrays. -/
theorem block_apply (V : (c : Dev nD) → (b : Ref sig .tc) → Buf (Elt Ideal) ((c : Thread nD τ).loc b)) (c : Dev nD)
    (t : Fin cfg11.N) (j : S5000x64.Idx) :
    k11_pay1 (F := Ideal) (iblk11 V c 0 t) (iblk11 V c 2 t) (iblk11 V c 3 t) (iblk11 V c 1 t) (iblk11 V c 4 t) j
      = Cert.Spec.norm (V c (Pipeline.arrRef spec11 0)) (V c (Pipeline.arrRef spec11 1)) (V c (Pipeline.arrRef spec11 2))
          (V c (Pipeline.arrRef spec11 3)) (V c (Pipeline.arrRef spec11 4)) (((cfg11.win 5).blk t).view.emb j) := by
  obtain ⟨p, q, rfl⟩ : ∃ (p : Fin 5000) (q : Fin 64), j = ix2 p q := ⟨j 0, j 1, eq_ix2 j⟩
  exact pay_eq_norm (iblk11 V c 0 t) (iblk11 V c 2 t) (iblk11 V c 3 t) (iblk11 V c 1 t) (iblk11 V c 4 t) p q
    (V c (Pipeline.arrRef spec11 0)) (V c (Pipeline.arrRef spec11 1)) (V c (Pipeline.arrRef spec11 2))
    (V c (Pipeline.arrRef spec11 3)) (V c (Pipeline.arrRef spec11 4)) (((cfg11.win 5).blk t).view.emb (ix2 p q))
    (iblk_a V c t p q) (iblk_m V c t) (iblk_v V c t) (iblk_w V c t p q) (iblk_b V c t p q)

/-- What point t writes back is block t of the formula of the five arrays as the region found them. -/
theorem flushed_eq (V : (c : Dev nD) → (b : Ref sig .tc) → Buf (Elt Ideal) ((c : Thread nD τ).loc b)) (c : Dev nD)
    (t : Fin cfg11.N) :
    (dat11 (F := Ideal) V c).flushed 5 t
      = ((cfg11.win 5).blk t).view.read (Elt Ideal)
          (Cert.Spec.norm (V c (Pipeline.arrRef spec11 0)) (V c (Pipeline.arrRef spec11 1)) (V c (Pipeline.arrRef spec11 2))
            (V c (Pipeline.arrRef spec11 3)) (V c (Pipeline.arrRef spec11 4))) := by
  show (cfg11.win 5).cut (grid11.coords t) ((dat11 V c).after 5 t) = _
  rw [after11_5, out_eq]
  funext j
  exact block_apply V c t j

/-! ## The blocks cover the array -/

/-- An index of the array is in point t's block iff each coordinate is in the block's range on its axis. -/
theorem mem_blk (t : Fin cfg11.N) (i : S100000x64.Idx) :
    i ∈ ((cfg11.win 5).blk t).view.set ↔ ∀ a : Fin 2, win11_5.index t a * S5000x64.size a ≤ (i a).val
      ∧ (i a).val < win11_5.index t a * S5000x64.size a + S5000x64.size a := by
  show i ∈ ((View.whole (Pipeline.arrRef spec11 5)).slice (win11_5.rect t)).set ↔ _
  rw [View.set_slice_whole, Rect.mem_set_unit]
  exact Iff.rfl

/-- Row r lies in the block of point r / 5000. -/
theorem cover (i : S100000x64.Idx) :
    ∃ t : Fin cfg11.N, (cfg11.win 5).flush t = true ∧ i ∈ ((cfg11.win 5).blk t).view.set := by
  have hi0 : (i 0).val < 100000 := (i 0).isLt
  have hi1 : (i 1).val < 64 := (i 1).isLt
  obtain ⟨t, ht⟩ : ∃ t : Fin cfg11.N, t.val = (i 0).val / 5000 :=
    ⟨⟨(i 0).val / 5000, by show (i 0).val / 5000 < grid11.N; rw [N_11]; omega⟩, rfl⟩
  obtain ⟨e00, e01, e10, e11, e20, e21, e30, e31, e40, e41, e50, e51⟩ := idx_facts t
  refine ⟨t, flush11_5 t, ?_⟩
  rw [mem_blk]
  intro a
  match a with
  | ⟨0, _⟩ => show win11_5.index t (0 : Fin 2) * 5000 ≤ (i 0).val ∧ (i 0).val < win11_5.index t (0 : Fin 2) * 5000 + 5000; omega
  | ⟨1, _⟩ => show win11_5.index t (1 : Fin 2) * 64 ≤ (i 1).val ∧ (i 1).val < win11_5.index t (1 : Fin 2) * 64 + 64; omega

/-! ## The array after the region -/

/-- After all 20 points the result array is the normalised, rectified aggregate: the formula of the aggregate, the mean,
    the variance and the two rows lnw, lnb as the region found them. -/
theorem arr11_5 (V : (c : Dev nD) → (b : Ref sig .tc) → Buf (Elt Ideal) ((c : Thread nD τ).loc b)) (c : Dev nD) :
    (Cert.KernelIdeal.Gen.dat11 (F := Ideal) V c).arrAt 5 cfg11.N
      = Cert.Spec.norm (V c (Pipeline.arrRef spec11 0)) (V c (Pipeline.arrRef spec11 1)) (V c (Pipeline.arrRef spec11 2))
          (V c (Pipeline.arrRef spec11 3)) (V c (Pipeline.arrRef spec11 4)) :=
  (dat11 (F := Ideal) V c).arrAt_eq_of_cover 5 _ (fun t _ => flushed_eq V c t) cover

end Cert.Bridge.Norm11

end
-- ==== Proof.FoldLayers.lean ====
/-
  The four layers of the idealized kernel program, read off its segments.

  Each layer is three regions and the host stretches before them. The first region multiplies the layer's input by
  the layer's weight matrix, block of rows by block of rows; the stretch after it gathers, scales and scatters that
  product along the edges; the second region adds the self loop and the bias and accumulates the total of the entries
  and of their squares over its twenty blocks; the next stretch divides the totals by the number of entries; the third
  region normalises, scales, shifts and rectifies. At every boundary the buffers involved hold the corresponding
  whole-array functions of the program's arguments, so the layer's output buffer holds `Terms.layerL` of them, and the
  program's result is the four layers composed.
-/
import proofs.«123589_j55817394979590_1_alg».proof.Proof.Gen.KernelIdeal.Frame
import proofs.«123589_j55817394979590_1_alg».proof.Proof.Keep
import proofs.«123589_j55817394979590_1_alg».proof.Proof.KernelTerms
import proofs.«123589_j55817394979590_1_alg».proof.Proof.Spec
import proofs.«123589_j55817394979590_1_alg».proof.Proof.FoldKeep
import proofs.«123589_j55817394979590_1_alg».proof.Proof.RegionMatmul0
import proofs.«123589_j55817394979590_1_alg».proof.Proof.RegionMatmul3
import proofs.«123589_j55817394979590_1_alg».proof.Proof.RegionMatmul6
import proofs.«123589_j55817394979590_1_alg».proof.Proof.RegionMatmul9
import proofs.«123589_j55817394979590_1_alg».proof.Proof.RegionCombine1
import proofs.«123589_j55817394979590_1_alg».proof.Proof.RegionCombine4
import proofs.«123589_j55817394979590_1_alg».proof.Proof.RegionCombine7
import proofs.«123589_j55817394979590_1_alg».proof.Proof.RegionCombine10
import proofs.«123589_j55817394979590_1_alg».proof.Proof.RegionNorm2
import proofs.«123589_j55817394979590_1_alg».proof.Proof.RegionNorm5
import proofs.«123589_j55817394979590_1_alg».proof.Proof.RegionNorm8
import proofs.«123589_j55817394979590_1_alg».proof.Proof.RegionNorm11
import Idealize.ShloMosaic.Lib.StableHlo.Run

set_option maxRecDepth 16384

noncomputable section
namespace Cert.KernelIdeal.Fold
open Cert.KernelIdeal Cert.KernelIdeal.Gen Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## layer 0 -/
theorem h0_in : W1 m ρ c (Proc.devRef .tc main_arg0) = (m ((c : Thread nD τ).loc main_arg0)) := at1_arg0 m ρ c
theorem w0_raw : W1 m ρ c (Proc.devRef .tc main_v35) = Terms.weight0 (W0 m ρ c (Proc.devRef .tc main_arg2)) := by
  show StableHlo.after hostOps0 (W0 m ρ c) (Proc.devRef .tc main_v35) = _
  after_results_simp
  rfl
theorem w0_at : W1 m ρ c (Proc.devRef .tc main_v35) = (Terms.weight0 (m ((c : Thread nD τ).loc main_arg2))) :=
  (w0_raw m ρ c).trans (congrArg Terms.weight0 rfl)
theorem hw0_at : W2 m ρ c (Proc.devRef .tc main_v36) = (Spec.mm (m ((c : Thread nD τ).loc main_arg0)) (Terms.weight0 (m ((c : Thread nD τ).loc main_arg2)))) :=
  (W2_arr m ρ c 2).trans ((Cert.Bridge.Matmul0.arr0_2 (V1 m ρ) c).trans (congrArg₂ Spec.mm (h0_in m ρ c) (w0_at m ρ c)))
set_option maxHeartbeats 4000000 in
theorem aggs0_raw : W3 m ρ c (Proc.devRef .tc main_v48) = Terms.aggAt (W2 m ρ c (Proc.devRef .tc main_v3)) (W2 m ρ c (Proc.devRef .tc main_v1)) (W2 m ρ c (Proc.devRef .tc main_v31)) (W2 m ρ c (Proc.devRef .tc main_v36)) := by
  show StableHlo.after hostOps1 (W2 m ρ c) (Proc.devRef .tc main_v48) = _
  after_results_simp
  rfl
theorem aggs0_at : W3 m ρ c (Proc.devRef .tc main_v48) = (Terms.aggAt (Terms.dst (m ((c : Thread nD τ).loc main_arg1))) (Terms.src (m ((c : Thread nD τ).loc main_arg1))) (Terms.enorm (Terms.src (m ((c : Thread nD τ).loc main_arg1))) (Terms.dst (m ((c : Thread nD τ).loc main_arg1)))) (Spec.mm (m ((c : Thread nD τ).loc main_arg0)) (Terms.weight0 (m ((c : Thread nD τ).loc main_arg2))))) := by
  rw [aggs0_raw, at2_v3, at2_v1, at2_v31, hw0_at]
set_option maxHeartbeats 4000000 in
theorem bias0_raw : W3 m ρ c (Proc.devRef .tc main_v51) = Terms.row0 (W2 m ρ c (Proc.devRef .tc main_arg3)) := by
  show StableHlo.after hostOps1 (W2 m ρ c) (Proc.devRef .tc main_v51) = _
  after_results_simp
  rfl
theorem bias0_at : W3 m ρ c (Proc.devRef .tc main_v51) = (Terms.row0 (m ((c : Thread nD τ).loc main_arg3))) :=
  (bias0_raw m ρ c).trans (congrArg Terms.row0 (at2_arg3 m ρ c))
theorem hw0_at3 : W3 m ρ c (Proc.devRef .tc main_v36) = (Spec.mm (m ((c : Thread nD τ).loc main_arg0)) (Terms.weight0 (m ((c : Thread nD τ).loc main_arg2)))) :=
  (by host_keep hostOps1 : W3 m ρ c (Proc.devRef .tc main_v36) = W2 m ρ c (Proc.devRef .tc main_v36)).trans (hw0_at m ρ c)
theorem a0_in : Spec.comb (V3 m ρ c (Pipeline.arrRef spec1 0)) (V3 m ρ c (Pipeline.arrRef spec1 1)) (V3 m ρ c (Pipeline.arrRef spec1 2)) (V3 m ρ c (Pipeline.arrRef spec1 3)) = (Spec.comb (Spec.mm (m ((c : Thread nD τ).loc main_arg0)) (Terms.weight0 (m ((c : Thread nD τ).loc main_arg2)))) (Terms.aggAt (Terms.dst (m ((c : Thread nD τ).loc main_arg1))) (Terms.src (m ((c : Thread nD τ).loc main_arg1))) (Terms.enorm (Terms.src (m ((c : Thread nD τ).loc main_arg1))) (Terms.dst (m ((c : Thread nD τ).loc main_arg1)))) (Spec.mm (m ((c : Thread nD τ).loc main_arg0)) (Terms.weight0 (m ((c : Thread nD τ).loc main_arg2))))) (Terms.selfn (Terms.dst (m ((c : Thread nD τ).loc main_arg1)))) (Terms.row0 (m ((c : Thread nD τ).loc main_arg3)))) :=
  (show Spec.comb (W3 m ρ c (Proc.devRef .tc main_v36)) (W3 m ρ c (Proc.devRef .tc main_v48)) (W3 m ρ c (Proc.devRef .tc main_v33)) (W3 m ρ c (Proc.devRef .tc main_v51)) = _ by rw [hw0_at3, aggs0_at, at3_v33, bias0_at])
theorem a0_at : W4 m ρ c (Proc.devRef .tc main_v52_0) = (Spec.comb (Spec.mm (m ((c : Thread nD τ).loc main_arg0)) (Terms.weight0 (m ((c : Thread nD τ).loc main_arg2)))) (Terms.aggAt (Terms.dst (m ((c : Thread nD τ).loc main_arg1))) (Terms.src (m ((c : Thread nD τ).loc main_arg1))) (Terms.enorm (Terms.src (m ((c : Thread nD τ).loc main_arg1))) (Terms.dst (m ((c : Thread nD τ).loc main_arg1)))) (Spec.mm (m ((c : Thread nD τ).loc main_arg0)) (Terms.weight0 (m ((c : Thread nD τ).loc main_arg2))))) (Terms.selfn (Terms.dst (m ((c : Thread nD τ).loc main_arg1)))) (Terms.row0 (m ((c : Thread nD τ).loc main_arg3)))) :=
  (W4_arr m ρ c 4).trans ((Cert.Combine1.arr1_4 (V3 m ρ) c).trans (a0_in m ρ c))
theorem t0_at : W4 m ρ c (Proc.devRef .tc main_v52_1) = (Spec.tot (Spec.comb (Spec.mm (m ((c : Thread nD τ).loc main_arg0)) (Terms.weight0 (m ((c : Thread nD τ).loc main_arg2)))) (Terms.aggAt (Terms.dst (m ((c : Thread nD τ).loc main_arg1))) (Terms.src (m ((c : Thread nD τ).loc main_arg1))) (Terms.enorm (Terms.src (m ((c : Thread nD τ).loc main_arg1))) (Terms.dst (m ((c : Thread nD τ).loc main_arg1)))) (Spec.mm (m ((c : Thread nD τ).loc main_arg0)) (Terms.weight0 (m ((c : Thread nD τ).loc main_arg2))))) (Terms.selfn (Terms.dst (m ((c : Thread nD τ).loc main_arg1)))) (Terms.row0 (m ((c : Thread nD τ).loc main_arg3))))) :=
  (W4_arr m ρ c 5).trans ((Cert.Combine1.arr1_5 (V3 m ρ) c).trans (congrArg Spec.tot (a0_in m ρ c)))
theorem q0_at : W4 m ρ c (Proc.devRef .tc main_v52_2) = (Spec.totsq (Spec.comb (Spec.mm (m ((c : Thread nD τ).loc main_arg0)) (Terms.weight0 (m ((c : Thread nD τ).loc main_arg2)))) (Terms.aggAt (Terms.dst (m ((c : Thread nD τ).loc main_arg1))) (Terms.src (m ((c : Thread nD τ).loc main_arg1))) (Terms.enorm (Terms.src (m ((c : Thread nD τ).loc main_arg1))) (Terms.dst (m ((c : Thread nD τ).loc main_arg1)))) (Spec.mm (m ((c : Thread nD τ).loc main_arg0)) (Terms.weight0 (m ((c : Thread nD τ).loc main_arg2))))) (Terms.selfn (Terms.dst (m ((c : Thread nD τ).loc main_arg1)))) (Terms.row0 (m ((c : Thread nD τ).loc main_arg3))))) :=
  (W4_arr m ρ c 6).trans ((Cert.Combine1.arr1_6 (V3 m ρ) c).trans (congrArg Spec.totsq (a0_in m ρ c)))
set_option maxHeartbeats 4000000 in
theorem mean0_raw : W5 m ρ c (Proc.devRef .tc main_v54) = Terms.meanOf (W4 m ρ c (Proc.devRef .tc main_v52_1)) := by
  show StableHlo.after hostOps2 (W4 m ρ c) (Proc.devRef .tc main_v54) = _
  after_results_simp
  rfl
set_option maxHeartbeats 4000000 in
theorem var0_raw : W5 m ρ c (Proc.devRef .tc main_v58) = Terms.varOf (W4 m ρ c (Proc.devRef .tc main_v52_1)) (W4 m ρ c (Proc.devRef .tc main_v52_2)) := by
  show StableHlo.after hostOps2 (W4 m ρ c) (Proc.devRef .tc main_v58) = _
  after_results_simp
  rfl
set_option maxHeartbeats 4000000 in
theorem lw0_raw : W5 m ρ c (Proc.devRef .tc main_v61) = Terms.row0 (W4 m ρ c (Proc.devRef .tc main_arg4)) := by
  show StableHlo.after hostOps2 (W4 m ρ c) (Proc.devRef .tc main_v61) = _
  after_results_simp
  rfl
set_option maxHeartbeats 4000000 in
theorem lb0_raw : W5 m ρ c (Proc.devRef .tc main_v64) = Terms.row0 (W4 m ρ c (Proc.devRef .tc main_arg5)) := by
  show StableHlo.after hostOps2 (W4 m ρ c) (Proc.devRef .tc main_v64) = _
  after_results_simp
  rfl
theorem a0_at5 : W5 m ρ c (Proc.devRef .tc main_v52_0) = (Spec.comb (Spec.mm (m ((c : Thread nD τ).loc main_arg0)) (Terms.weight0 (m ((c : Thread nD τ).loc main_arg2)))) (Terms.aggAt (Terms.dst (m ((c : Thread nD τ).loc main_arg1))) (Terms.src (m ((c : Thread nD τ).loc main_arg1))) (Terms.enorm (Terms.src (m ((c : Thread nD τ).loc main_arg1))) (Terms.dst (m ((c : Thread nD τ).loc main_arg1)))) (Spec.mm (m ((c : Thread nD τ).loc main_arg0)) (Terms.weight0 (m ((c : Thread nD τ).loc main_arg2))))) (Terms.selfn (Terms.dst (m ((c : Thread nD τ).loc main_arg1)))) (Terms.row0 (m ((c : Thread nD τ).loc main_arg3)))) :=
  (by host_keep hostOps2 : W5 m ρ c (Proc.devRef .tc main_v52_0) = W4 m ρ c (Proc.devRef .tc main_v52_0)).trans (a0_at m ρ c)
theorem h0_out : W6 m ρ c (Proc.devRef .tc main_v65) = Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0)) :=
  (W6_arr m ρ c 5).trans ((Cert.Bridge.Norm2.arr2_5 (V5 m ρ) c).trans
    (show Spec.norm (W5 m ρ c (Proc.devRef .tc main_v52_0)) (W5 m ρ c (Proc.devRef .tc main_v54)) (W5 m ρ c (Proc.devRef .tc main_v58)) (W5 m ρ c (Proc.devRef .tc main_v61)) (W5 m ρ c (Proc.devRef .tc main_v64)) = _ by
      rw [a0_at5, mean0_raw, var0_raw, lw0_raw, lb0_raw, t0_at, q0_at, at4_arg4, at4_arg5]; rfl))

/-! ## layer 1 -/
theorem h1_in : W7 m ρ c (Proc.devRef .tc main_v65) = (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))) :=
  (by host_keep hostOps3 : W7 m ρ c (Proc.devRef .tc main_v65) = W6 m ρ c (Proc.devRef .tc main_v65)).trans (h0_out m ρ c)
theorem w1_raw : W7 m ρ c (Proc.devRef .tc main_v67) = Terms.weight1 (W6 m ρ c (Proc.devRef .tc main_arg2)) := by
  show StableHlo.after hostOps3 (W6 m ρ c) (Proc.devRef .tc main_v67) = _
  after_results_simp
  rfl
theorem w1_at : W7 m ρ c (Proc.devRef .tc main_v67) = (Terms.weight1 (m ((c : Thread nD τ).loc main_arg2))) :=
  (w1_raw m ρ c).trans (congrArg Terms.weight1 (at6_arg2 m ρ c))
theorem hw1_at : W8 m ρ c (Proc.devRef .tc main_v68) = (Spec.mm (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))) (Terms.weight1 (m ((c : Thread nD τ).loc main_arg2)))) :=
  (W8_arr m ρ c 2).trans ((Cert.Bridge.Matmul3.arr3_2 (V7 m ρ) c).trans (congrArg₂ Spec.mm (h1_in m ρ c) (w1_at m ρ c)))
set_option maxHeartbeats 4000000 in
theorem aggs1_raw : W9 m ρ c (Proc.devRef .tc main_v80) = Terms.aggAt (W8 m ρ c (Proc.devRef .tc main_v3)) (W8 m ρ c (Proc.devRef .tc main_v1)) (W8 m ρ c (Proc.devRef .tc main_v31)) (W8 m ρ c (Proc.devRef .tc main_v68)) := by
  show StableHlo.after hostOps4 (W8 m ρ c) (Proc.devRef .tc main_v80) = _
  after_results_simp
  rfl
theorem aggs1_at : W9 m ρ c (Proc.devRef .tc main_v80) = (Terms.aggAt (Terms.dst (m ((c : Thread nD τ).loc main_arg1))) (Terms.src (m ((c : Thread nD τ).loc main_arg1))) (Terms.enorm (Terms.src (m ((c : Thread nD τ).loc main_arg1))) (Terms.dst (m ((c : Thread nD τ).loc main_arg1)))) (Spec.mm (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))) (Terms.weight1 (m ((c : Thread nD τ).loc main_arg2))))) := by
  rw [aggs1_raw, at8_v3, at8_v1, at8_v31, hw1_at]
set_option maxHeartbeats 4000000 in
theorem bias1_raw : W9 m ρ c (Proc.devRef .tc main_v83) = Terms.row1 (W8 m ρ c (Proc.devRef .tc main_arg3)) := by
  show StableHlo.after hostOps4 (W8 m ρ c) (Proc.devRef .tc main_v83) = _
  after_results_simp
  rfl
theorem bias1_at : W9 m ρ c (Proc.devRef .tc main_v83) = (Terms.row1 (m ((c : Thread nD τ).loc main_arg3))) :=
  (bias1_raw m ρ c).trans (congrArg Terms.row1 (at8_arg3 m ρ c))
theorem hw1_at3 : W9 m ρ c (Proc.devRef .tc main_v68) = (Spec.mm (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))) (Terms.weight1 (m ((c : Thread nD τ).loc main_arg2)))) :=
  (by host_keep hostOps4 : W9 m ρ c (Proc.devRef .tc main_v68) = W8 m ρ c (Proc.devRef .tc main_v68)).trans (hw1_at m ρ c)
theorem a1_in : Spec.comb (V9 m ρ c (Pipeline.arrRef spec4 0)) (V9 m ρ c (Pipeline.arrRef spec4 1)) (V9 m ρ c (Pipeline.arrRef spec4 2)) (V9 m ρ c (Pipeline.arrRef spec4 3)) = (Spec.comb (Spec.mm (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))) (Terms.weight1 (m ((c : Thread nD τ).loc main_arg2)))) (Terms.aggAt (Terms.dst (m ((c : Thread nD τ).loc main_arg1))) (Terms.src (m ((c : Thread nD τ).loc main_arg1))) (Terms.enorm (Terms.src (m ((c : Thread nD τ).loc main_arg1))) (Terms.dst (m ((c : Thread nD τ).loc main_arg1)))) (Spec.mm (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))) (Terms.weight1 (m ((c : Thread nD τ).loc main_arg2))))) (Terms.selfn (Terms.dst (m ((c : Thread nD τ).loc main_arg1)))) (Terms.row1 (m ((c : Thread nD τ).loc main_arg3)))) :=
  (show Spec.comb (W9 m ρ c (Proc.devRef .tc main_v68)) (W9 m ρ c (Proc.devRef .tc main_v80)) (W9 m ρ c (Proc.devRef .tc main_v33)) (W9 m ρ c (Proc.devRef .tc main_v83)) = _ by rw [hw1_at3, aggs1_at, at9_v33, bias1_at])
theorem a1_at : W10 m ρ c (Proc.devRef .tc main_v84_0) = (Spec.comb (Spec.mm (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))) (Terms.weight1 (m ((c : Thread nD τ).loc main_arg2)))) (Terms.aggAt (Terms.dst (m ((c : Thread nD τ).loc main_arg1))) (Terms.src (m ((c : Thread nD τ).loc main_arg1))) (Terms.enorm (Terms.src (m ((c : Thread nD τ).loc main_arg1))) (Terms.dst (m ((c : Thread nD τ).loc main_arg1)))) (Spec.mm (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))) (Terms.weight1 (m ((c : Thread nD τ).loc main_arg2))))) (Terms.selfn (Terms.dst (m ((c : Thread nD τ).loc main_arg1)))) (Terms.row1 (m ((c : Thread nD τ).loc main_arg3)))) :=
  (W10_arr m ρ c 4).trans ((Cert.Combine4.arr4_4 (V9 m ρ) c).trans (a1_in m ρ c))
theorem t1_at : W10 m ρ c (Proc.devRef .tc main_v84_1) = (Spec.tot (Spec.comb (Spec.mm (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))) (Terms.weight1 (m ((c : Thread nD τ).loc main_arg2)))) (Terms.aggAt (Terms.dst (m ((c : Thread nD τ).loc main_arg1))) (Terms.src (m ((c : Thread nD τ).loc main_arg1))) (Terms.enorm (Terms.src (m ((c : Thread nD τ).loc main_arg1))) (Terms.dst (m ((c : Thread nD τ).loc main_arg1)))) (Spec.mm (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))) (Terms.weight1 (m ((c : Thread nD τ).loc main_arg2))))) (Terms.selfn (Terms.dst (m ((c : Thread nD τ).loc main_arg1)))) (Terms.row1 (m ((c : Thread nD τ).loc main_arg3))))) :=
  (W10_arr m ρ c 5).trans ((Cert.Combine4.arr4_5 (V9 m ρ) c).trans (congrArg Spec.tot (a1_in m ρ c)))
theorem q1_at : W10 m ρ c (Proc.devRef .tc main_v84_2) = (Spec.totsq (Spec.comb (Spec.mm (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))) (Terms.weight1 (m ((c : Thread nD τ).loc main_arg2)))) (Terms.aggAt (Terms.dst (m ((c : Thread nD τ).loc main_arg1))) (Terms.src (m ((c : Thread nD τ).loc main_arg1))) (Terms.enorm (Terms.src (m ((c : Thread nD τ).loc main_arg1))) (Terms.dst (m ((c : Thread nD τ).loc main_arg1)))) (Spec.mm (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))) (Terms.weight1 (m ((c : Thread nD τ).loc main_arg2))))) (Terms.selfn (Terms.dst (m ((c : Thread nD τ).loc main_arg1)))) (Terms.row1 (m ((c : Thread nD τ).loc main_arg3))))) :=
  (W10_arr m ρ c 6).trans ((Cert.Combine4.arr4_6 (V9 m ρ) c).trans (congrArg Spec.totsq (a1_in m ρ c)))
set_option maxHeartbeats 4000000 in
theorem mean1_raw : W11 m ρ c (Proc.devRef .tc main_v86) = Terms.meanOf (W10 m ρ c (Proc.devRef .tc main_v84_1)) := by
  show StableHlo.after hostOps5 (W10 m ρ c) (Proc.devRef .tc main_v86) = _
  after_results_simp
  rfl
set_option maxHeartbeats 4000000 in
theorem var1_raw : W11 m ρ c (Proc.devRef .tc main_v90) = Terms.varOf (W10 m ρ c (Proc.devRef .tc main_v84_1)) (W10 m ρ c (Proc.devRef .tc main_v84_2)) := by
  show StableHlo.after hostOps5 (W10 m ρ c) (Proc.devRef .tc main_v90) = _
  after_results_simp
  rfl
set_option maxHeartbeats 4000000 in
theorem lw1_raw : W11 m ρ c (Proc.devRef .tc main_v93) = Terms.row1 (W10 m ρ c (Proc.devRef .tc main_arg4)) := by
  show StableHlo.after hostOps5 (W10 m ρ c) (Proc.devRef .tc main_v93) = _
  after_results_simp
  rfl
set_option maxHeartbeats 4000000 in
theorem lb1_raw : W11 m ρ c (Proc.devRef .tc main_v96) = Terms.row1 (W10 m ρ c (Proc.devRef .tc main_arg5)) := by
  show StableHlo.after hostOps5 (W10 m ρ c) (Proc.devRef .tc main_v96) = _
  after_results_simp
  rfl
theorem a1_at5 : W11 m ρ c (Proc.devRef .tc main_v84_0) = (Spec.comb (Spec.mm (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))) (Terms.weight1 (m ((c : Thread nD τ).loc main_arg2)))) (Terms.aggAt (Terms.dst (m ((c : Thread nD τ).loc main_arg1))) (Terms.src (m ((c : Thread nD τ).loc main_arg1))) (Terms.enorm (Terms.src (m ((c : Thread nD τ).loc main_arg1))) (Terms.dst (m ((c : Thread nD τ).loc main_arg1)))) (Spec.mm (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))) (Terms.weight1 (m ((c : Thread nD τ).loc main_arg2))))) (Terms.selfn (Terms.dst (m ((c : Thread nD τ).loc main_arg1)))) (Terms.row1 (m ((c : Thread nD τ).loc main_arg3)))) :=
  (by host_keep hostOps5 : W11 m ρ c (Proc.devRef .tc main_v84_0) = W10 m ρ c (Proc.devRef .tc main_v84_0)).trans (a1_at m ρ c)
theorem h1_out : W12 m ρ c (Proc.devRef .tc main_v97) = Terms.layer1 (m ((c : Thread nD τ).loc main_arg1)) (m ((c : Thread nD τ).loc main_arg2)) (m ((c : Thread nD τ).loc main_arg3)) (m ((c : Thread nD τ).loc main_arg4)) (m ((c : Thread nD τ).loc main_arg5)) (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))) :=
  (W12_arr m ρ c 5).trans ((Cert.Bridge.Norm5.arr5_5 (V11 m ρ) c).trans
    (show Spec.norm (W11 m ρ c (Proc.devRef .tc main_v84_0)) (W11 m ρ c (Proc.devRef .tc main_v86)) (W11 m ρ c (Proc.devRef .tc main_v90)) (W11 m ρ c (Proc.devRef .tc main_v93)) (W11 m ρ c (Proc.devRef .tc main_v96)) = _ by
      rw [a1_at5, mean1_raw, var1_raw, lw1_raw, lb1_raw, t1_at, q1_at, at10_arg4, at10_arg5]; rfl))

/-! ## layer 2 -/
theorem h2_in : W13 m ρ c (Proc.devRef .tc main_v97) = (Terms.layer1 (m ((c : Thread nD τ).loc main_arg1)) (m ((c : Thread nD τ).loc main_arg2)) (m ((c : Thread nD τ).loc main_arg3)) (m ((c : Thread nD τ).loc main_arg4)) (m ((c : Thread nD τ).loc main_arg5)) (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0)))) :=
  (by host_keep hostOps6 : W13 m ρ c (Proc.devRef .tc main_v97) = W12 m ρ c (Proc.devRef .tc main_v97)).trans (h1_out m ρ c)
theorem w2_raw : W13 m ρ c (Proc.devRef .tc main_v99) = Terms.weight2 (W12 m ρ c (Proc.devRef .tc main_arg2)) := by
  show StableHlo.after hostOps6 (W12 m ρ c) (Proc.devRef .tc main_v99) = _
  after_results_simp
  rfl
theorem w2_at : W13 m ρ c (Proc.devRef .tc main_v99) = (Terms.weight2 (m ((c : Thread nD τ).loc main_arg2))) :=
  (w2_raw m ρ c).trans (congrArg Terms.weight2 (at12_arg2 m ρ c))
theorem hw2_at : W14 m ρ c (Proc.devRef .tc main_v100) = (Spec.mm (Terms.layer1 (m ((c : Thread nD τ).loc main_arg1)) (m ((c : Thread nD τ).loc main_arg2)) (m ((c : Thread nD τ).loc main_arg3)) (m ((c : Thread nD τ).loc main_arg4)) (m ((c : Thread nD τ).loc main_arg5)) (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0)))) (Terms.weight2 (m ((c : Thread nD τ).loc main_arg2)))) :=
  (W14_arr m ρ c 2).trans ((Cert.Bridge.Matmul6.arr6_2 (V13 m ρ) c).trans (congrArg₂ Spec.mm (h2_in m ρ c) (w2_at m ρ c)))
set_option maxHeartbeats 4000000 in
theorem aggs2_raw : W15 m ρ c (Proc.devRef .tc main_v112) = Terms.aggAt (W14 m ρ c (Proc.devRef .tc main_v3)) (W14 m ρ c (Proc.devRef .tc main_v1)) (W14 m ρ c (Proc.devRef .tc main_v31)) (W14 m ρ c (Proc.devRef .tc main_v100)) := by
  show StableHlo.after hostOps7 (W14 m ρ c) (Proc.devRef .tc main_v112) = _
  after_results_simp
  rfl
theorem aggs2_at : W15 m ρ c (Proc.devRef .tc main_v112) = (Terms.aggAt (Terms.dst (m ((c : Thread nD τ).loc main_arg1))) (Terms.src (m ((c : Thread nD τ).loc main_arg1))) (Terms.enorm (Terms.src (m ((c : Thread nD τ).loc main_arg1))) (Terms.dst (m ((c : Thread nD τ).loc main_arg1)))) (Spec.mm (Terms.layer1 (m ((c : Thread nD τ).loc main_arg1)) (m ((c : Thread nD τ).loc main_arg2)) (m ((c : Thread nD τ).loc main_arg3)) (m ((c : Thread nD τ).loc main_arg4)) (m ((c : Thread nD τ).loc main_arg5)) (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0)))) (Terms.weight2 (m ((c : Thread nD τ).loc main_arg2))))) := by
  rw [aggs2_raw, at14_v3, at14_v1, at14_v31, hw2_at]
set_option maxHeartbeats 4000000 in
theorem bias2_raw : W15 m ρ c (Proc.devRef .tc main_v115) = Terms.row2 (W14 m ρ c (Proc.devRef .tc main_arg3)) := by
  show StableHlo.after hostOps7 (W14 m ρ c) (Proc.devRef .tc main_v115) = _
  after_results_simp
  rfl
theorem bias2_at : W15 m ρ c (Proc.devRef .tc main_v115) = (Terms.row2 (m ((c : Thread nD τ).loc main_arg3))) :=
  (bias2_raw m ρ c).trans (congrArg Terms.row2 (at14_arg3 m ρ c))
theorem hw2_at3 : W15 m ρ c (Proc.devRef .tc main_v100) = (Spec.mm (Terms.layer1 (m ((c : Thread nD τ).loc main_arg1)) (m ((c : Thread nD τ).loc main_arg2)) (m ((c : Thread nD τ).loc main_arg3)) (m ((c : Thread nD τ).loc main_arg4)) (m ((c : Thread nD τ).loc main_arg5)) (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0)))) (Terms.weight2 (m ((c : Thread nD τ).loc main_arg2)))) :=
  (by host_keep hostOps7 : W15 m ρ c (Proc.devRef .tc main_v100) = W14 m ρ c (Proc.devRef .tc main_v100)).trans (hw2_at m ρ c)
theorem a2_in : Spec.comb (V15 m ρ c (Pipeline.arrRef spec7 0)) (V15 m ρ c (Pipeline.arrRef spec7 1)) (V15 m ρ c (Pipeline.arrRef spec7 2)) (V15 m ρ c (Pipeline.arrRef spec7 3)) = (Spec.comb (Spec.mm (Terms.layer1 (m ((c : Thread nD τ).loc main_arg1)) (m ((c : Thread nD τ).loc main_arg2)) (m ((c : Thread nD τ).loc main_arg3)) (m ((c : Thread nD τ).loc main_arg4)) (m ((c : Thread nD τ).loc main_arg5)) (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0)))) (Terms.weight2 (m ((c : Thread nD τ).loc main_arg2)))) (Terms.aggAt (Terms.dst (m ((c : Thread nD τ).loc main_arg1))) (Terms.src (m ((c : Thread nD τ).loc main_arg1))) (Terms.enorm (Terms.src (m ((c : Thread nD τ).loc main_arg1))) (Terms.dst (m ((c : Thread nD τ).loc main_arg1)))) (Spec.mm (Terms.layer1 (m ((c : Thread nD τ).loc main_arg1)) (m ((c : Thread nD τ).loc main_arg2)) (m ((c : Thread nD τ).loc main_arg3)) (m ((c : Thread nD τ).loc main_arg4)) (m ((c : Thread nD τ).loc main_arg5)) (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0)))) (Terms.weight2 (m ((c : Thread nD τ).loc main_arg2))))) (Terms.selfn (Terms.dst (m ((c : Thread nD τ).loc main_arg1)))) (Terms.row2 (m ((c : Thread nD τ).loc main_arg3)))) :=
  (show Spec.comb (W15 m ρ c (Proc.devRef .tc main_v100)) (W15 m ρ c (Proc.devRef .tc main_v112)) (W15 m ρ c (Proc.devRef .tc main_v33)) (W15 m ρ c (Proc.devRef .tc main_v115)) = _ by rw [hw2_at3, aggs2_at, at15_v33, bias2_at])
theorem a2_at : W16 m ρ c (Proc.devRef .tc main_v116_0) = (Spec.comb (Spec.mm (Terms.layer1 (m ((c : Thread nD τ).loc main_arg1)) (m ((c : Thread nD τ).loc main_arg2)) (m ((c : Thread nD τ).loc main_arg3)) (m ((c : Thread nD τ).loc main_arg4)) (m ((c : Thread nD τ).loc main_arg5)) (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0)))) (Terms.weight2 (m ((c : Thread nD τ).loc main_arg2)))) (Terms.aggAt (Terms.dst (m ((c : Thread nD τ).loc main_arg1))) (Terms.src (m ((c : Thread nD τ).loc main_arg1))) (Terms.enorm (Terms.src (m ((c : Thread nD τ).loc main_arg1))) (Terms.dst (m ((c : Thread nD τ).loc main_arg1)))) (Spec.mm (Terms.layer1 (m ((c : Thread nD τ).loc main_arg1)) (m ((c : Thread nD τ).loc main_arg2)) (m ((c : Thread nD τ).loc main_arg3)) (m ((c : Thread nD τ).loc main_arg4)) (m ((c : Thread nD τ).loc main_arg5)) (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0)))) (Terms.weight2 (m ((c : Thread nD τ).loc main_arg2))))) (Terms.selfn (Terms.dst (m ((c : Thread nD τ).loc main_arg1)))) (Terms.row2 (m ((c : Thread nD τ).loc main_arg3)))) :=
  (W16_arr m ρ c 4).trans ((Cert.Combine7.arr7_4 (V15 m ρ) c).trans (a2_in m ρ c))
theorem t2_at : W16 m ρ c (Proc.devRef .tc main_v116_1) = (Spec.tot (Spec.comb (Spec.mm (Terms.layer1 (m ((c : Thread nD τ).loc main_arg1)) (m ((c : Thread nD τ).loc main_arg2)) (m ((c : Thread nD τ).loc main_arg3)) (m ((c : Thread nD τ).loc main_arg4)) (m ((c : Thread nD τ).loc main_arg5)) (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0)))) (Terms.weight2 (m ((c : Thread nD τ).loc main_arg2)))) (Terms.aggAt (Terms.dst (m ((c : Thread nD τ).loc main_arg1))) (Terms.src (m ((c : Thread nD τ).loc main_arg1))) (Terms.enorm (Terms.src (m ((c : Thread nD τ).loc main_arg1))) (Terms.dst (m ((c : Thread nD τ).loc main_arg1)))) (Spec.mm (Terms.layer1 (m ((c : Thread nD τ).loc main_arg1)) (m ((c : Thread nD τ).loc main_arg2)) (m ((c : Thread nD τ).loc main_arg3)) (m ((c : Thread nD τ).loc main_arg4)) (m ((c : Thread nD τ).loc main_arg5)) (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0)))) (Terms.weight2 (m ((c : Thread nD τ).loc main_arg2))))) (Terms.selfn (Terms.dst (m ((c : Thread nD τ).loc main_arg1)))) (Terms.row2 (m ((c : Thread nD τ).loc main_arg3))))) :=
  (W16_arr m ρ c 5).trans ((Cert.Combine7.arr7_5 (V15 m ρ) c).trans (congrArg Spec.tot (a2_in m ρ c)))
theorem q2_at : W16 m ρ c (Proc.devRef .tc main_v116_2) = (Spec.totsq (Spec.comb (Spec.mm (Terms.layer1 (m ((c : Thread nD τ).loc main_arg1)) (m ((c : Thread nD τ).loc main_arg2)) (m ((c : Thread nD τ).loc main_arg3)) (m ((c : Thread nD τ).loc main_arg4)) (m ((c : Thread nD τ).loc main_arg5)) (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0)))) (Terms.weight2 (m ((c : Thread nD τ).loc main_arg2)))) (Terms.aggAt (Terms.dst (m ((c : Thread nD τ).loc main_arg1))) (Terms.src (m ((c : Thread nD τ).loc main_arg1))) (Terms.enorm (Terms.src (m ((c : Thread nD τ).loc main_arg1))) (Terms.dst (m ((c : Thread nD τ).loc main_arg1)))) (Spec.mm (Terms.layer1 (m ((c : Thread nD τ).loc main_arg1)) (m ((c : Thread nD τ).loc main_arg2)) (m ((c : Thread nD τ).loc main_arg3)) (m ((c : Thread nD τ).loc main_arg4)) (m ((c : Thread nD τ).loc main_arg5)) (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0)))) (Terms.weight2 (m ((c : Thread nD τ).loc main_arg2))))) (Terms.selfn (Terms.dst (m ((c : Thread nD τ).loc main_arg1)))) (Terms.row2 (m ((c : Thread nD τ).loc main_arg3))))) :=
  (W16_arr m ρ c 6).trans ((Cert.Combine7.arr7_6 (V15 m ρ) c).trans (congrArg Spec.totsq (a2_in m ρ c)))
set_option maxHeartbeats 4000000 in
theorem mean2_raw : W17 m ρ c (Proc.devRef .tc main_v118) = Terms.meanOf (W16 m ρ c (Proc.devRef .tc main_v116_1)) := by
  show StableHlo.after hostOps8 (W16 m ρ c) (Proc.devRef .tc main_v118) = _
  after_results_simp
  rfl
set_option maxHeartbeats 4000000 in
theorem var2_raw : W17 m ρ c (Proc.devRef .tc main_v122) = Terms.varOf (W16 m ρ c (Proc.devRef .tc main_v116_1)) (W16 m ρ c (Proc.devRef .tc main_v116_2)) := by
  show StableHlo.after hostOps8 (W16 m ρ c) (Proc.devRef .tc main_v122) = _
  after_results_simp
  rfl
set_option maxHeartbeats 4000000 in
theorem lw2_raw : W17 m ρ c (Proc.devRef .tc main_v125) = Terms.row2 (W16 m ρ c (Proc.devRef .tc main_arg4)) := by
  show StableHlo.after hostOps8 (W16 m ρ c) (Proc.devRef .tc main_v125) = _
  after_results_simp
  rfl
set_option maxHeartbeats 4000000 in
theorem lb2_raw : W17 m ρ c (Proc.devRef .tc main_v128) = Terms.row2 (W16 m ρ c (Proc.devRef .tc main_arg5)) := by
  show StableHlo.after hostOps8 (W16 m ρ c) (Proc.devRef .tc main_v128) = _
  after_results_simp
  rfl
theorem a2_at5 : W17 m ρ c (Proc.devRef .tc main_v116_0) = (Spec.comb (Spec.mm (Terms.layer1 (m ((c : Thread nD τ).loc main_arg1)) (m ((c : Thread nD τ).loc main_arg2)) (m ((c : Thread nD τ).loc main_arg3)) (m ((c : Thread nD τ).loc main_arg4)) (m ((c : Thread nD τ).loc main_arg5)) (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0)))) (Terms.weight2 (m ((c : Thread nD τ).loc main_arg2)))) (Terms.aggAt (Terms.dst (m ((c : Thread nD τ).loc main_arg1))) (Terms.src (m ((c : Thread nD τ).loc main_arg1))) (Terms.enorm (Terms.src (m ((c : Thread nD τ).loc main_arg1))) (Terms.dst (m ((c : Thread nD τ).loc main_arg1)))) (Spec.mm (Terms.layer1 (m ((c : Thread nD τ).loc main_arg1)) (m ((c : Thread nD τ).loc main_arg2)) (m ((c : Thread nD τ).loc main_arg3)) (m ((c : Thread nD τ).loc main_arg4)) (m ((c : Thread nD τ).loc main_arg5)) (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0)))) (Terms.weight2 (m ((c : Thread nD τ).loc main_arg2))))) (Terms.selfn (Terms.dst (m ((c : Thread nD τ).loc main_arg1)))) (Terms.row2 (m ((c : Thread nD τ).loc main_arg3)))) :=
  (by host_keep hostOps8 : W17 m ρ c (Proc.devRef .tc main_v116_0) = W16 m ρ c (Proc.devRef .tc main_v116_0)).trans (a2_at m ρ c)
theorem h2_out : W18 m ρ c (Proc.devRef .tc main_v129) = Terms.layer2 (m ((c : Thread nD τ).loc main_arg1)) (m ((c : Thread nD τ).loc main_arg2)) (m ((c : Thread nD τ).loc main_arg3)) (m ((c : Thread nD τ).loc main_arg4)) (m ((c : Thread nD τ).loc main_arg5)) (Terms.layer1 (m ((c : Thread nD τ).loc main_arg1)) (m ((c : Thread nD τ).loc main_arg2)) (m ((c : Thread nD τ).loc main_arg3)) (m ((c : Thread nD τ).loc main_arg4)) (m ((c : Thread nD τ).loc main_arg5)) (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0)))) :=
  (W18_arr m ρ c 5).trans ((Cert.Bridge.Norm8.arr8_5 (V17 m ρ) c).trans
    (show Spec.norm (W17 m ρ c (Proc.devRef .tc main_v116_0)) (W17 m ρ c (Proc.devRef .tc main_v118)) (W17 m ρ c (Proc.devRef .tc main_v122)) (W17 m ρ c (Proc.devRef .tc main_v125)) (W17 m ρ c (Proc.devRef .tc main_v128)) = _ by
      rw [a2_at5, mean2_raw, var2_raw, lw2_raw, lb2_raw, t2_at, q2_at, at16_arg4, at16_arg5]; rfl))

/-! ## layer 3 -/
theorem h3_in : W19 m ρ c (Proc.devRef .tc main_v129) = (Terms.layer2 (m ((c : Thread nD τ).loc main_arg1)) (m ((c : Thread nD τ).loc main_arg2)) (m ((c : Thread nD τ).loc main_arg3)) (m ((c : Thread nD τ).loc main_arg4)) (m ((c : Thread nD τ).loc main_arg5)) (Terms.layer1 (m ((c : Thread nD τ).loc main_arg1)) (m ((c : Thread nD τ).loc main_arg2)) (m ((c : Thread nD τ).loc main_arg3)) (m ((c : Thread nD τ).loc main_arg4)) (m ((c : Thread nD τ).loc main_arg5)) (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))))) :=
  (by host_keep hostOps9 : W19 m ρ c (Proc.devRef .tc main_v129) = W18 m ρ c (Proc.devRef .tc main_v129)).trans (h2_out m ρ c)
theorem w3_raw : W19 m ρ c (Proc.devRef .tc main_v131) = Terms.weight3 (W18 m ρ c (Proc.devRef .tc main_arg2)) := by
  show StableHlo.after hostOps9 (W18 m ρ c) (Proc.devRef .tc main_v131) = _
  after_results_simp
  rfl
theorem w3_at : W19 m ρ c (Proc.devRef .tc main_v131) = (Terms.weight3 (m ((c : Thread nD τ).loc main_arg2))) :=
  (w3_raw m ρ c).trans (congrArg Terms.weight3 (at18_arg2 m ρ c))
theorem hw3_at : W20 m ρ c (Proc.devRef .tc main_v132) = (Spec.mm (Terms.layer2 (m ((c : Thread nD τ).loc main_arg1)) (m ((c : Thread nD τ).loc main_arg2)) (m ((c : Thread nD τ).loc main_arg3)) (m ((c : Thread nD τ).loc main_arg4)) (m ((c : Thread nD τ).loc main_arg5)) (Terms.layer1 (m ((c : Thread nD τ).loc main_arg1)) (m ((c : Thread nD τ).loc main_arg2)) (m ((c : Thread nD τ).loc main_arg3)) (m ((c : Thread nD τ).loc main_arg4)) (m ((c : Thread nD τ).loc main_arg5)) (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))))) (Terms.weight3 (m ((c : Thread nD τ).loc main_arg2)))) :=
  (W20_arr m ρ c 2).trans ((Cert.Bridge.Matmul9.arr9_2 (V19 m ρ) c).trans (congrArg₂ Spec.mm (h3_in m ρ c) (w3_at m ρ c)))
set_option maxHeartbeats 4000000 in
theorem aggs3_raw : W21 m ρ c (Proc.devRef .tc main_v144) = Terms.aggAt (W20 m ρ c (Proc.devRef .tc main_v3)) (W20 m ρ c (Proc.devRef .tc main_v1)) (W20 m ρ c (Proc.devRef .tc main_v31)) (W20 m ρ c (Proc.devRef .tc main_v132)) := by
  show StableHlo.after hostOps10 (W20 m ρ c) (Proc.devRef .tc main_v144) = _
  after_results_simp
  rfl
theorem aggs3_at : W21 m ρ c (Proc.devRef .tc main_v144) = (Terms.aggAt (Terms.dst (m ((c : Thread nD τ).loc main_arg1))) (Terms.src (m ((c : Thread nD τ).loc main_arg1))) (Terms.enorm (Terms.src (m ((c : Thread nD τ).loc main_arg1))) (Terms.dst (m ((c : Thread nD τ).loc main_arg1)))) (Spec.mm (Terms.layer2 (m ((c : Thread nD τ).loc main_arg1)) (m ((c : Thread nD τ).loc main_arg2)) (m ((c : Thread nD τ).loc main_arg3)) (m ((c : Thread nD τ).loc main_arg4)) (m ((c : Thread nD τ).loc main_arg5)) (Terms.layer1 (m ((c : Thread nD τ).loc main_arg1)) (m ((c : Thread nD τ).loc main_arg2)) (m ((c : Thread nD τ).loc main_arg3)) (m ((c : Thread nD τ).loc main_arg4)) (m ((c : Thread nD τ).loc main_arg5)) (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))))) (Terms.weight3 (m ((c : Thread nD τ).loc main_arg2))))) := by
  rw [aggs3_raw, at20_v3, at20_v1, at20_v31, hw3_at]
set_option maxHeartbeats 4000000 in
theorem bias3_raw : W21 m ρ c (Proc.devRef .tc main_v147) = Terms.row3 (W20 m ρ c (Proc.devRef .tc main_arg3)) := by
  show StableHlo.after hostOps10 (W20 m ρ c) (Proc.devRef .tc main_v147) = _
  after_results_simp
  rfl
theorem bias3_at : W21 m ρ c (Proc.devRef .tc main_v147) = (Terms.row3 (m ((c : Thread nD τ).loc main_arg3))) :=
  (bias3_raw m ρ c).trans (congrArg Terms.row3 (at20_arg3 m ρ c))
theorem hw3_at3 : W21 m ρ c (Proc.devRef .tc main_v132) = (Spec.mm (Terms.layer2 (m ((c : Thread nD τ).loc main_arg1)) (m ((c : Thread nD τ).loc main_arg2)) (m ((c : Thread nD τ).loc main_arg3)) (m ((c : Thread nD τ).loc main_arg4)) (m ((c : Thread nD τ).loc main_arg5)) (Terms.layer1 (m ((c : Thread nD τ).loc main_arg1)) (m ((c : Thread nD τ).loc main_arg2)) (m ((c : Thread nD τ).loc main_arg3)) (m ((c : Thread nD τ).loc main_arg4)) (m ((c : Thread nD τ).loc main_arg5)) (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))))) (Terms.weight3 (m ((c : Thread nD τ).loc main_arg2)))) :=
  (by host_keep hostOps10 : W21 m ρ c (Proc.devRef .tc main_v132) = W20 m ρ c (Proc.devRef .tc main_v132)).trans (hw3_at m ρ c)
theorem a3_in : Spec.comb (V21 m ρ c (Pipeline.arrRef spec10 0)) (V21 m ρ c (Pipeline.arrRef spec10 1)) (V21 m ρ c (Pipeline.arrRef spec10 2)) (V21 m ρ c (Pipeline.arrRef spec10 3)) = (Spec.comb (Spec.mm (Terms.layer2 (m ((c : Thread nD τ).loc main_arg1)) (m ((c : Thread nD τ).loc main_arg2)) (m ((c : Thread nD τ).loc main_arg3)) (m ((c : Thread nD τ).loc main_arg4)) (m ((c : Thread nD τ).loc main_arg5)) (Terms.layer1 (m ((c : Thread nD τ).loc main_arg1)) (m ((c : Thread nD τ).loc main_arg2)) (m ((c : Thread nD τ).loc main_arg3)) (m ((c : Thread nD τ).loc main_arg4)) (m ((c : Thread nD τ).loc main_arg5)) (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))))) (Terms.weight3 (m ((c : Thread nD τ).loc main_arg2)))) (Terms.aggAt (Terms.dst (m ((c : Thread nD τ).loc main_arg1))) (Terms.src (m ((c : Thread nD τ).loc main_arg1))) (Terms.enorm (Terms.src (m ((c : Thread nD τ).loc main_arg1))) (Terms.dst (m ((c : Thread nD τ).loc main_arg1)))) (Spec.mm (Terms.layer2 (m ((c : Thread nD τ).loc main_arg1)) (m ((c : Thread nD τ).loc main_arg2)) (m ((c : Thread nD τ).loc main_arg3)) (m ((c : Thread nD τ).loc main_arg4)) (m ((c : Thread nD τ).loc main_arg5)) (Terms.layer1 (m ((c : Thread nD τ).loc main_arg1)) (m ((c : Thread nD τ).loc main_arg2)) (m ((c : Thread nD τ).loc main_arg3)) (m ((c : Thread nD τ).loc main_arg4)) (m ((c : Thread nD τ).loc main_arg5)) (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))))) (Terms.weight3 (m ((c : Thread nD τ).loc main_arg2))))) (Terms.selfn (Terms.dst (m ((c : Thread nD τ).loc main_arg1)))) (Terms.row3 (m ((c : Thread nD τ).loc main_arg3)))) :=
  (show Spec.comb (W21 m ρ c (Proc.devRef .tc main_v132)) (W21 m ρ c (Proc.devRef .tc main_v144)) (W21 m ρ c (Proc.devRef .tc main_v33)) (W21 m ρ c (Proc.devRef .tc main_v147)) = _ by rw [hw3_at3, aggs3_at, at21_v33, bias3_at])
theorem a3_at : W22 m ρ c (Proc.devRef .tc main_v148_0) = (Spec.comb (Spec.mm (Terms.layer2 (m ((c : Thread nD τ).loc main_arg1)) (m ((c : Thread nD τ).loc main_arg2)) (m ((c : Thread nD τ).loc main_arg3)) (m ((c : Thread nD τ).loc main_arg4)) (m ((c : Thread nD τ).loc main_arg5)) (Terms.layer1 (m ((c : Thread nD τ).loc main_arg1)) (m ((c : Thread nD τ).loc main_arg2)) (m ((c : Thread nD τ).loc main_arg3)) (m ((c : Thread nD τ).loc main_arg4)) (m ((c : Thread nD τ).loc main_arg5)) (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))))) (Terms.weight3 (m ((c : Thread nD τ).loc main_arg2)))) (Terms.aggAt (Terms.dst (m ((c : Thread nD τ).loc main_arg1))) (Terms.src (m ((c : Thread nD τ).loc main_arg1))) (Terms.enorm (Terms.src (m ((c : Thread nD τ).loc main_arg1))) (Terms.dst (m ((c : Thread nD τ).loc main_arg1)))) (Spec.mm (Terms.layer2 (m ((c : Thread nD τ).loc main_arg1)) (m ((c : Thread nD τ).loc main_arg2)) (m ((c : Thread nD τ).loc main_arg3)) (m ((c : Thread nD τ).loc main_arg4)) (m ((c : Thread nD τ).loc main_arg5)) (Terms.layer1 (m ((c : Thread nD τ).loc main_arg1)) (m ((c : Thread nD τ).loc main_arg2)) (m ((c : Thread nD τ).loc main_arg3)) (m ((c : Thread nD τ).loc main_arg4)) (m ((c : Thread nD τ).loc main_arg5)) (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))))) (Terms.weight3 (m ((c : Thread nD τ).loc main_arg2))))) (Terms.selfn (Terms.dst (m ((c : Thread nD τ).loc main_arg1)))) (Terms.row3 (m ((c : Thread nD τ).loc main_arg3)))) :=
  (W22_arr m ρ c 4).trans ((Cert.Combine10.arr10_4 (V21 m ρ) c).trans (a3_in m ρ c))
theorem t3_at : W22 m ρ c (Proc.devRef .tc main_v148_1) = (Spec.tot (Spec.comb (Spec.mm (Terms.layer2 (m ((c : Thread nD τ).loc main_arg1)) (m ((c : Thread nD τ).loc main_arg2)) (m ((c : Thread nD τ).loc main_arg3)) (m ((c : Thread nD τ).loc main_arg4)) (m ((c : Thread nD τ).loc main_arg5)) (Terms.layer1 (m ((c : Thread nD τ).loc main_arg1)) (m ((c : Thread nD τ).loc main_arg2)) (m ((c : Thread nD τ).loc main_arg3)) (m ((c : Thread nD τ).loc main_arg4)) (m ((c : Thread nD τ).loc main_arg5)) (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))))) (Terms.weight3 (m ((c : Thread nD τ).loc main_arg2)))) (Terms.aggAt (Terms.dst (m ((c : Thread nD τ).loc main_arg1))) (Terms.src (m ((c : Thread nD τ).loc main_arg1))) (Terms.enorm (Terms.src (m ((c : Thread nD τ).loc main_arg1))) (Terms.dst (m ((c : Thread nD τ).loc main_arg1)))) (Spec.mm (Terms.layer2 (m ((c : Thread nD τ).loc main_arg1)) (m ((c : Thread nD τ).loc main_arg2)) (m ((c : Thread nD τ).loc main_arg3)) (m ((c : Thread nD τ).loc main_arg4)) (m ((c : Thread nD τ).loc main_arg5)) (Terms.layer1 (m ((c : Thread nD τ).loc main_arg1)) (m ((c : Thread nD τ).loc main_arg2)) (m ((c : Thread nD τ).loc main_arg3)) (m ((c : Thread nD τ).loc main_arg4)) (m ((c : Thread nD τ).loc main_arg5)) (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))))) (Terms.weight3 (m ((c : Thread nD τ).loc main_arg2))))) (Terms.selfn (Terms.dst (m ((c : Thread nD τ).loc main_arg1)))) (Terms.row3 (m ((c : Thread nD τ).loc main_arg3))))) :=
  (W22_arr m ρ c 5).trans ((Cert.Combine10.arr10_5 (V21 m ρ) c).trans (congrArg Spec.tot (a3_in m ρ c)))
theorem q3_at : W22 m ρ c (Proc.devRef .tc main_v148_2) = (Spec.totsq (Spec.comb (Spec.mm (Terms.layer2 (m ((c : Thread nD τ).loc main_arg1)) (m ((c : Thread nD τ).loc main_arg2)) (m ((c : Thread nD τ).loc main_arg3)) (m ((c : Thread nD τ).loc main_arg4)) (m ((c : Thread nD τ).loc main_arg5)) (Terms.layer1 (m ((c : Thread nD τ).loc main_arg1)) (m ((c : Thread nD τ).loc main_arg2)) (m ((c : Thread nD τ).loc main_arg3)) (m ((c : Thread nD τ).loc main_arg4)) (m ((c : Thread nD τ).loc main_arg5)) (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))))) (Terms.weight3 (m ((c : Thread nD τ).loc main_arg2)))) (Terms.aggAt (Terms.dst (m ((c : Thread nD τ).loc main_arg1))) (Terms.src (m ((c : Thread nD τ).loc main_arg1))) (Terms.enorm (Terms.src (m ((c : Thread nD τ).loc main_arg1))) (Terms.dst (m ((c : Thread nD τ).loc main_arg1)))) (Spec.mm (Terms.layer2 (m ((c : Thread nD τ).loc main_arg1)) (m ((c : Thread nD τ).loc main_arg2)) (m ((c : Thread nD τ).loc main_arg3)) (m ((c : Thread nD τ).loc main_arg4)) (m ((c : Thread nD τ).loc main_arg5)) (Terms.layer1 (m ((c : Thread nD τ).loc main_arg1)) (m ((c : Thread nD τ).loc main_arg2)) (m ((c : Thread nD τ).loc main_arg3)) (m ((c : Thread nD τ).loc main_arg4)) (m ((c : Thread nD τ).loc main_arg5)) (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))))) (Terms.weight3 (m ((c : Thread nD τ).loc main_arg2))))) (Terms.selfn (Terms.dst (m ((c : Thread nD τ).loc main_arg1)))) (Terms.row3 (m ((c : Thread nD τ).loc main_arg3))))) :=
  (W22_arr m ρ c 6).trans ((Cert.Combine10.arr10_6 (V21 m ρ) c).trans (congrArg Spec.totsq (a3_in m ρ c)))
set_option maxHeartbeats 4000000 in
theorem mean3_raw : W23 m ρ c (Proc.devRef .tc main_v150) = Terms.meanOf (W22 m ρ c (Proc.devRef .tc main_v148_1)) := by
  show StableHlo.after hostOps11 (W22 m ρ c) (Proc.devRef .tc main_v150) = _
  after_results_simp
  rfl
set_option maxHeartbeats 4000000 in
theorem var3_raw : W23 m ρ c (Proc.devRef .tc main_v154) = Terms.varOf (W22 m ρ c (Proc.devRef .tc main_v148_1)) (W22 m ρ c (Proc.devRef .tc main_v148_2)) := by
  show StableHlo.after hostOps11 (W22 m ρ c) (Proc.devRef .tc main_v154) = _
  after_results_simp
  rfl
set_option maxHeartbeats 4000000 in
theorem lw3_raw : W23 m ρ c (Proc.devRef .tc main_v157) = Terms.row3 (W22 m ρ c (Proc.devRef .tc main_arg4)) := by
  show StableHlo.after hostOps11 (W22 m ρ c) (Proc.devRef .tc main_v157) = _
  after_results_simp
  rfl
set_option maxHeartbeats 4000000 in
theorem lb3_raw : W23 m ρ c (Proc.devRef .tc main_v160) = Terms.row3 (W22 m ρ c (Proc.devRef .tc main_arg5)) := by
  show StableHlo.after hostOps11 (W22 m ρ c) (Proc.devRef .tc main_v160) = _
  after_results_simp
  rfl
theorem a3_at5 : W23 m ρ c (Proc.devRef .tc main_v148_0) = (Spec.comb (Spec.mm (Terms.layer2 (m ((c : Thread nD τ).loc main_arg1)) (m ((c : Thread nD τ).loc main_arg2)) (m ((c : Thread nD τ).loc main_arg3)) (m ((c : Thread nD τ).loc main_arg4)) (m ((c : Thread nD τ).loc main_arg5)) (Terms.layer1 (m ((c : Thread nD τ).loc main_arg1)) (m ((c : Thread nD τ).loc main_arg2)) (m ((c : Thread nD τ).loc main_arg3)) (m ((c : Thread nD τ).loc main_arg4)) (m ((c : Thread nD τ).loc main_arg5)) (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))))) (Terms.weight3 (m ((c : Thread nD τ).loc main_arg2)))) (Terms.aggAt (Terms.dst (m ((c : Thread nD τ).loc main_arg1))) (Terms.src (m ((c : Thread nD τ).loc main_arg1))) (Terms.enorm (Terms.src (m ((c : Thread nD τ).loc main_arg1))) (Terms.dst (m ((c : Thread nD τ).loc main_arg1)))) (Spec.mm (Terms.layer2 (m ((c : Thread nD τ).loc main_arg1)) (m ((c : Thread nD τ).loc main_arg2)) (m ((c : Thread nD τ).loc main_arg3)) (m ((c : Thread nD τ).loc main_arg4)) (m ((c : Thread nD τ).loc main_arg5)) (Terms.layer1 (m ((c : Thread nD τ).loc main_arg1)) (m ((c : Thread nD τ).loc main_arg2)) (m ((c : Thread nD τ).loc main_arg3)) (m ((c : Thread nD τ).loc main_arg4)) (m ((c : Thread nD τ).loc main_arg5)) (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))))) (Terms.weight3 (m ((c : Thread nD τ).loc main_arg2))))) (Terms.selfn (Terms.dst (m ((c : Thread nD τ).loc main_arg1)))) (Terms.row3 (m ((c : Thread nD τ).loc main_arg3)))) :=
  (by host_keep hostOps11 : W23 m ρ c (Proc.devRef .tc main_v148_0) = W22 m ρ c (Proc.devRef .tc main_v148_0)).trans (a3_at m ρ c)
theorem h3_out : W24 m ρ c (Proc.devRef .tc main_v161) = Terms.layer3 (m ((c : Thread nD τ).loc main_arg1)) (m ((c : Thread nD τ).loc main_arg2)) (m ((c : Thread nD τ).loc main_arg3)) (m ((c : Thread nD τ).loc main_arg4)) (m ((c : Thread nD τ).loc main_arg5)) (Terms.layer2 (m ((c : Thread nD τ).loc main_arg1)) (m ((c : Thread nD τ).loc main_arg2)) (m ((c : Thread nD τ).loc main_arg3)) (m ((c : Thread nD τ).loc main_arg4)) (m ((c : Thread nD τ).loc main_arg5)) (Terms.layer1 (m ((c : Thread nD τ).loc main_arg1)) (m ((c : Thread nD τ).loc main_arg2)) (m ((c : Thread nD τ).loc main_arg3)) (m ((c : Thread nD τ).loc main_arg4)) (m ((c : Thread nD τ).loc main_arg5)) (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0))))) :=
  (W24_arr m ρ c 5).trans ((Cert.Bridge.Norm11.arr11_5 (V23 m ρ) c).trans
    (show Spec.norm (W23 m ρ c (Proc.devRef .tc main_v148_0)) (W23 m ρ c (Proc.devRef .tc main_v150)) (W23 m ρ c (Proc.devRef .tc main_v154)) (W23 m ρ c (Proc.devRef .tc main_v157)) (W23 m ρ c (Proc.devRef .tc main_v160)) = _ by
      rw [a3_at5, mean3_raw, var3_raw, lw3_raw, lb3_raw, t3_at, q3_at, at22_arg4, at22_arg5]; rfl))

/-- The program's result buffer at the last boundary: the four layers composed, applied to the input features. -/
theorem result_eq : W24 m ρ c (Proc.devRef .tc main_v161) = (Terms.layer3 (m ((c : Thread nD τ).loc main_arg1)) (m ((c : Thread nD τ).loc main_arg2)) (m ((c : Thread nD τ).loc main_arg3)) (m ((c : Thread nD τ).loc main_arg4)) (m ((c : Thread nD τ).loc main_arg5)) (Terms.layer2 (m ((c : Thread nD τ).loc main_arg1)) (m ((c : Thread nD τ).loc main_arg2)) (m ((c : Thread nD τ).loc main_arg3)) (m ((c : Thread nD τ).loc main_arg4)) (m ((c : Thread nD τ).loc main_arg5)) (Terms.layer1 (m ((c : Thread nD τ).loc main_arg1)) (m ((c : Thread nD τ).loc main_arg2)) (m ((c : Thread nD τ).loc main_arg3)) (m ((c : Thread nD τ).loc main_arg4)) (m ((c : Thread nD τ).loc main_arg5)) (Terms.layer0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg0)))))) := h3_out m ρ c

end Cert.KernelIdeal.Fold
end
-- ==== Proof.RefTerms.lean ====
/-
  The pieces of the reference program, as functions of its arguments.

  The reference computes, from the edge list, each node's degree factor (1 + the number of edges whose wrapped target is
  that node)^(-1/2), each edge's factor (the product of the factors of its wrapped source and wrapped target) and each
  node's own factor (the square of its degree factor); a negative index wraps once by the number of nodes. A layer then
  takes the node features h to
      max (lnw · (a − μ) · (σ² + ε)^(-1/2) + lnb) 0,
  where a = agg + selfn · (h · W) + bias, agg sums into row (wrapped target) the edge's factor times row (wrapped
  source) of h · W, μ is the mean of all entries of a and σ² the mean of the squares of (a − μ). Layer L reads block L
  of the weights and row L of the bias, the scale and the shift.
-/
import proofs.«123589_j55817394979590_1_alg».proof.Proof.Gen.ReferenceIdeal
import Idealize.ShloMosaic.PureOps.Ideal

noncomputable section

namespace Cert.ReferenceIdeal.RTerms

open Cert.ReferenceIdeal Idealize.ShloMosaic
open Cert.ReferenceIdeal.Facts₀ Cert.ReferenceIdeal.Facts

/-- one integer per edge -/
abbrev EdgeI := IVec S1600000 32
/-- the edge list -/
abbrev EdgeList := IVec S2x1600000 32

/-- the sources: row 0 of the edge list -/
def src (e : EdgeList) : EdgeI :=
  fun i => shapeCast S1600000 (extractStridedSlice S1x1600000 ![0, 0] e slices_S2x1600000_S1x1600000_0_0) shapeCasts_S1x1600000_S1600000 i
/-- the targets: row 1 of the edge list -/
def dst (e : EdgeList) : EdgeI :=
  fun i => shapeCast S1600000 (extractStridedSlice S1x1600000 ![1, 0] e slices_S2x1600000_S1x1600000_1_0) shapeCasts_S1x1600000_S1600000 i

/-- a negative index wraps once by the number of nodes -/
def wrap (v : EdgeI) : EdgeI :=
  select (cmpi .slt v (broadcastInDim S1600000 ![] bcast_S_S1600000 (constantI S_ 32 0#32)))
    (addi v (broadcastInDim S1600000 ![] bcast_S_S1600000 (constantI S_ 32 100000#32))) v

/-- an index per edge as a column of index vectors -/
def col (v : EdgeI) : IVec S1600000x1 32 :=
  broadcastInDim S1600000x1 ![0] bcast_S1600000_S1600000x1_0 v

/-- the degree factor of every node: (1 + in-degree)^(-1/2) -/
def dinv (d : EdgeI) : FVec Ideal S100000 .f32 :=
  Host.rsqrt (F := Ideal) (addf (F := Ideal)
    (Host.scatterAdd (F := Ideal) scatter_S100000_S1600000x1_S1600000_n_0_0_1
      (broadcastInDim S100000 ![] bcast_S_S100000 (constant (F := Ideal) S_ .f32 0x00000000#32))
      (col (wrap d))
      (broadcastInDim S1600000 ![] bcast_S_S1600000 (constant (F := Ideal) S_ .f32 0x3F800000#32)))
    (broadcastInDim S100000 ![] bcast_S_S100000 (constant (F := Ideal) S_ .f32 0x3F800000#32)))

/-- every node's own factor, as a column -/
def selfn (d : EdgeI) : FVec Ideal S100000x1 .f32 :=
  broadcastInDim S100000x1 ![0] bcast_S100000_S100000x1_0 (mulf (F := Ideal) (dinv d) (dinv d))

/-- every edge's factor, as a column -/
def enorm (s d : EdgeI) : FVec Ideal S1600000x1 .f32 :=
  broadcastInDim S1600000x1 ![0] bcast_S1600000_S1600000x1_0
    (mulf (F := Ideal) (Host.gather gather_S100000_S1600000x1_S1600000_n_0_n_n_0_1_1 (dinv d) (col (wrap s)))
          (Host.gather gather_S100000_S1600000x1_S1600000_n_0_n_n_0_1_1 (dinv d) (col (wrap d))))

/-- block L of the weights, as a 64 × 64 matrix -/
def weightL (L : Nat) (hs : S4x64x64.Slices ![L, 0, 0] S1x64x64) (W : FVec Ideal S4x64x64 .f32) : FVec Ideal S64x64 .f32 :=
  fun i => shapeCast S64x64 (extractStridedSlice S1x64x64 ![L, 0, 0] W hs) shapeCasts_S1x64x64_S64x64 i

/-- row L of a 4 × 64 array, as a row of 64 channels -/
def rowL (L : Nat) (hs : S4x64.Slices ![L, 0] S1x64) (x : FVec Ideal S4x64 .f32) : FVec Ideal S64 .f32 :=
  fun i => shapeCast S64 (extractStridedSlice S1x64 ![L, 0] x hs) shapeCasts_S1x64_S64 i

/-- a row of 64 channels spread over the node-feature array -/
def spread (r : FVec Ideal S64 .f32) : FVec Ideal S100000x64 .f32 :=
  broadcastInDim S100000x64 ![0, 1] bcast_S1x64_S100000x64_0_1 (broadcastInDim S1x64 ![1] bcast_S64_S1x64_1 r)

/-- the aggregation map: row v of the result is the sum, over the edges whose wrapped target is v, of the edge's factor
    times row (wrapped source) of hw -/
def agg (s d : EdgeI) (en : FVec Ideal S1600000x1 .f32) (hw : FVec Ideal S100000x64 .f32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (col (wrap d))
    (mulf (F := Ideal) (broadcastInDim S1600000x64 ![0, 1] bcast_S1600000x1_S1600000x64_0_1 en)
      (Host.gather gather_S100000x64_S1600000x1_S1600000x64_1_0_n_n_0_1_164 hw (col (wrap s))))

/-- the aggregate with self loop and bias: (agg + selfn · hw) + bias -/
def pre (s d : EdgeI) (en : FVec Ideal S1600000x1 .f32) (sn : FVec Ideal S100000x1 .f32)
    (bias hw : FVec Ideal S100000x64 .f32) : FVec Ideal S100000x64 .f32 :=
  addf (F := Ideal)
    (addf (F := Ideal) (agg s d en hw)
      (mulf (F := Ideal) (broadcastInDim S100000x64 ![0, 1] bcast_S100000x1_S100000x64_0_1 sn) hw))
    bias

/-- the mean of all entries: their sum, started from the zero word, divided by the word of the number of entries -/
def meanAll (a : FVec Ideal S100000x64 .f32) : FVec Ideal S_ .f32 :=
  Host.divf (F := Ideal)
    (Host.reduceAdd (F := Ideal) a (constant (F := Ideal) S_ .f32 0x00000000#32) reducesTo_S100000x64_S_d0_1 h_S_)
    (constant (F := Ideal) S_ .f32 0x4AC35000#32)

/-- an array minus its mean, entry by entry -/
def centred (a : FVec Ideal S100000x64 .f32) : FVec Ideal S100000x64 .f32 :=
  subf (F := Ideal) a (broadcastInDim S100000x64 ![] bcast_S_S100000x64 (meanAll a))

/-- normalisation and rectifier: max ((lnw · (a − μ)) · (σ² + ε)^(-1/2) + lnb) 0, σ² the mean of (a − μ)² -/
def normRelu (a lnw lnb : FVec Ideal S100000x64 .f32) : FVec Ideal S100000x64 .f32 :=
  maximumf (F := Ideal)
    (addf (F := Ideal)
      (mulf (F := Ideal) (mulf (F := Ideal) lnw (centred a))
        (broadcastInDim S100000x64 ![] bcast_S_S100000x64
          (Host.rsqrt (F := Ideal) (addf (F := Ideal) (meanAll (mulf (F := Ideal) (centred a) (centred a)))
            (constant (F := Ideal) S_ .f32 0x3727C5AC#32)))))
      lnb)
    (broadcastInDim S100000x64 ![] bcast_S_S100000x64 (constant (F := Ideal) S_ .f32 0x00000000#32))

/-- one layer of the reference, from the sources, the targets, the edge factors and the nodes' own factors, with the
    layer's weight matrix and its bias, scale and shift rows -/
def rlayerAt (s d : EdgeI) (en : FVec Ideal S1600000x1 .f32) (sn : FVec Ideal S100000x1 .f32)
    (w : FVec Ideal S64x64 .f32) (b lw lb : FVec Ideal S64 .f32) (h : FVec Ideal S100000x64 .f32) :
    FVec Ideal S100000x64 .f32 :=
  normRelu
    (pre s d en sn (spread b)
      (Host.dotGeneral (F := Ideal) dot_S100000x64_S64x64_S100000x64_1_0_0_1_n_n none h w))
    (spread lw) (spread lb)

/-- one layer of the reference as a function of the edge list -/
def rlayer (e : EdgeList) (w : FVec Ideal S64x64 .f32) (b lw lb : FVec Ideal S64 .f32)
    (h : FVec Ideal S100000x64 .f32) : FVec Ideal S100000x64 .f32 :=
  rlayerAt (src e) (dst e) (enorm (src e) (dst e)) (selfn (dst e)) w b lw lb h

/-- layer L of the reference as a function of the program's arguments: block L of the weights, row L of the others -/
def rlayerL (L : Nat) (hs3 : S4x64x64.Slices ![L, 0, 0] S1x64x64) (hs2 : S4x64.Slices ![L, 0] S1x64)
    (e : EdgeList) (W : FVec Ideal S4x64x64 .f32) (B LW LB : FVec Ideal S4x64 .f32) (h : FVec Ideal S100000x64 .f32) :
    FVec Ideal S100000x64 .f32 :=
  rlayer e (weightL L hs3 W) (rowL L hs2 B) (rowL L hs2 LW) (rowL L hs2 LB) h

/-- the four layers -/
def rlayer0 := rlayerL 0 slices_S4x64x64_S1x64x64_0_0_0 slices_S4x64_S1x64_0_0
def rlayer1 := rlayerL 1 slices_S4x64x64_S1x64x64_1_0_0 slices_S4x64_S1x64_1_0
def rlayer2 := rlayerL 2 slices_S4x64x64_S1x64x64_2_0_0 slices_S4x64_S1x64_2_0
def rlayer3 := rlayerL 3 slices_S4x64x64_S1x64x64_3_0_0 slices_S4x64_S1x64_3_0

end Cert.ReferenceIdeal.RTerms

end
-- ==== Proof.RefFold.lean ====
/-
  The reference program's result, read back through its five stretches of operations.

  The 299 operations are the stretch before the first layer followed by one stretch per layer. A stretch's effect on
  the buffers is read one stretch at a time: the buffer a stretch computes holds the stretch's term of what the stretch
  found in the buffers it reads, and a buffer that no operation of the stretch writes is left as it was. The first
  stretch leaves the sources, the targets, the edge factors and the nodes' own factors of the launched edge list; each
  layer's stretch leaves the layer's value of its input; nothing writes the six arguments. Composing the five readings
  gives the result as the four layers, one after the other, of the launched node features.
-/
import proofs.«123589_j55817394979590_1_alg».proof.Proof.RefRun
import proofs.«123589_j55817394979590_1_alg».proof.Proof.RefTerms

noncomputable section

namespace Cert.ReferenceIdeal.RFold

open Cert.ReferenceIdeal Cert.ReferenceIdeal.RunP Idealize.ShloMosaic Idealize.ShloMosaic.TcCoe Idealize.SL.Sem
open Idealize.ShloMosaic.StableHlo
open Cert.ReferenceIdeal.Facts₀ Cert.ReferenceIdeal.Facts

/-- closes "the stretch leaves this buffer as it found it" when no operation of the stretch writes the buffer -/
macro "ref_keep " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

variable (V : Valuation τ sig (Elt Ideal))

/-! ### The stretch before the first layer -/

set_option maxHeartbeats 400000000 in
set_option maxRecDepth 8192 in
/-- after the first stretch the buffer of the sources holds row 0 of the edge list -/
theorem pre_v1 : StableHlo.after (opsPre (F := Ideal)) V (Proc.devRef .tc main_v1) = RTerms.src (V (Proc.devRef .tc main_arg1)) := by
  after_results_simp
  rfl

set_option maxHeartbeats 400000000 in
set_option maxRecDepth 8192 in
/-- after the first stretch the buffer of the targets holds row 1 of the edge list -/
theorem pre_v3 : StableHlo.after (opsPre (F := Ideal)) V (Proc.devRef .tc main_v3) = RTerms.dst (V (Proc.devRef .tc main_arg1)) := by
  after_results_simp
  rfl

set_option maxHeartbeats 400000000 in
set_option maxRecDepth 8192 in
/-- after the first stretch the buffer of the edge factors holds them -/
theorem pre_v31 : StableHlo.after (opsPre (F := Ideal)) V (Proc.devRef .tc main_v31)
    = RTerms.enorm (RTerms.src (V (Proc.devRef .tc main_arg1))) (RTerms.dst (V (Proc.devRef .tc main_arg1))) := by
  after_results_simp
  rfl

set_option maxHeartbeats 400000000 in
set_option maxRecDepth 8192 in
/-- after the first stretch the buffer of the nodes' own factors holds them -/
theorem pre_v33 : StableHlo.after (opsPre (F := Ideal)) V (Proc.devRef .tc main_v33)
    = RTerms.selfn (RTerms.dst (V (Proc.devRef .tc main_arg1))) := by
  after_results_simp
  rfl

set_option maxHeartbeats 400000000 in
set_option maxRecDepth 8192 in
/-- the first stretch leaves argument 0 as it found it -/
theorem pre_keep_arg0 : StableHlo.after (opsPre (F := Ideal)) V (Proc.devRef .tc main_arg0) = V (Proc.devRef .tc main_arg0) := by
  ref_keep opsPre

set_option maxHeartbeats 400000000 in
set_option maxRecDepth 8192 in
/-- the first stretch leaves argument 1 as it found it -/
theorem pre_keep_arg1 : StableHlo.after (opsPre (F := Ideal)) V (Proc.devRef .tc main_arg1) = V (Proc.devRef .tc main_arg1) := by
  ref_keep opsPre

set_option maxHeartbeats 400000000 in
set_option maxRecDepth 8192 in
/-- the first stretch leaves argument 2 as it found it -/
theorem pre_keep_arg2 : StableHlo.after (opsPre (F := Ideal)) V (Proc.devRef .tc main_arg2) = V (Proc.devRef .tc main_arg2) := by
  ref_keep opsPre

set_option maxHeartbeats 400000000 in
set_option maxRecDepth 8192 in
/-- the first stretch leaves argument 3 as it found it -/
theorem pre_keep_arg3 : StableHlo.after (opsPre (F := Ideal)) V (Proc.devRef .tc main_arg3) = V (Proc.devRef .tc main_arg3) := by
  ref_keep opsPre

set_option maxHeartbeats 400000000 in
set_option maxRecDepth 8192 in
/-- the first stretch leaves argument 4 as it found it -/
theorem pre_keep_arg4 : StableHlo.after (opsPre (F := Ideal)) V (Proc.devRef .tc main_arg4) = V (Proc.devRef .tc main_arg4) := by
  ref_keep opsPre

set_option maxHeartbeats 400000000 in
set_option maxRecDepth 8192 in
/-- the first stretch leaves argument 5 as it found it -/
theorem pre_keep_arg5 : StableHlo.after (opsPre (F := Ideal)) V (Proc.devRef .tc main_arg5) = V (Proc.devRef .tc main_arg5) := by
  ref_keep opsPre

/-! ### Layer 0's stretch -/

set_option maxHeartbeats 400000000 in
set_option maxRecDepth 8192 in
/-- layer 0's stretch leaves in its result buffer the layer's value of what it found in the buffers it reads -/
theorem l0_out : StableHlo.after (opsL0 (F := Ideal)) V (Proc.devRef .tc main_v85)
    = RTerms.rlayerAt (V (Proc.devRef .tc main_v1)) (V (Proc.devRef .tc main_v3)) (V (Proc.devRef .tc main_v31)) (V (Proc.devRef .tc main_v33))
        (RTerms.weightL 0 slices_S4x64x64_S1x64x64_0_0_0 (V (Proc.devRef .tc main_arg2))) (RTerms.rowL 0 slices_S4x64_S1x64_0_0 (V (Proc.devRef .tc main_arg3)))
        (RTerms.rowL 0 slices_S4x64_S1x64_0_0 (V (Proc.devRef .tc main_arg4))) (RTerms.rowL 0 slices_S4x64_S1x64_0_0 (V (Proc.devRef .tc main_arg5))) (V (Proc.devRef .tc main_arg0)) := by
  after_results_simp
  rfl

set_option maxHeartbeats 400000000 in
set_option maxRecDepth 8192 in
theorem l0_keep_arg0 : StableHlo.after (opsL0 (F := Ideal)) V (Proc.devRef .tc main_arg0) = V (Proc.devRef .tc main_arg0) := by
  ref_keep opsL0

set_option maxHeartbeats 400000000 in
set_option maxRecDepth 8192 in
theorem l0_keep_arg1 : StableHlo.after (opsL0 (F := Ideal)) V (Proc.devRef .tc main_arg1) = V (Proc.devRef .tc main_arg1) := by
  ref_keep opsL0

set_option maxHeartbeats 400000000 in
set_option maxRecDepth 8192 in
theorem l0_keep_arg2 : StableHlo.after (opsL0 (F := Ideal)) V (Proc.devRef .tc main_arg2) = V (Proc.devRef .tc main_arg2) := by
  ref_keep opsL0

set_option maxHeartbeats 400000000 in
set_option maxRecDepth 8192 in
theorem l0_keep_arg3 : StableHlo.after (opsL0 (F := Ideal)) V (Proc.devRef .tc main_arg3) = V (Proc.devRef .tc main_arg3) := by
  ref_keep opsL0

set_option maxHeartbeats 400000000 in
set_option maxRecDepth 8192 in
theorem l0_keep_arg4 : StableHlo.after (opsL0 (F := Ideal)) V (Proc.devRef .tc main_arg4) = V (Proc.devRef .tc main_arg4) := by
  ref_keep opsL0

set_option maxHeartbeats 400000000 in
set_option maxRecDepth 8192 in
theorem l0_keep_arg5 : StableHlo.after (opsL0 (F := Ideal)) V (Proc.devRef .tc main_arg5) = V (Proc.devRef .tc main_arg5) := by
  ref_keep opsL0

set_option maxHeartbeats 400000000 in
set_option maxRecDepth 8192 in
theorem l0_keep_v1 : StableHlo.after (opsL0 (F := Ideal)) V (Proc.devRef .tc main_v1) = V (Proc.devRef .tc main_v1) := by
  ref_keep opsL0

set_option maxHeartbeats 400000000 in
set_option maxRecDepth 8192 in
theorem l0_keep_v3 : StableHlo.after (opsL0 (F := Ideal)) V (Proc.devRef .tc main_v3) = V (Proc.devRef .tc main_v3) := by
  ref_keep opsL0

set_option maxHeartbeats 400000000 in
set_option maxRecDepth 8192 in
theorem l0_keep_v31 : StableHlo.after (opsL0 (F := Ideal)) V (Proc.devRef .tc main_v31) = V (Proc.devRef .tc main_v31) := by
  ref_keep opsL0

set_option maxHeartbeats 400000000 in
set_option maxRecDepth 8192 in
theorem l0_keep_v33 : StableHlo.after (opsL0 (F := Ideal)) V (Proc.devRef .tc main_v33) = V (Proc.devRef .tc main_v33) := by
  ref_keep opsL0

/-! ### Layer 1's stretch -/

set_option maxHeartbeats 400000000 in
set_option maxRecDepth 8192 in
/-- layer 1's stretch leaves in its result buffer the layer's value of what it found in the buffers it reads -/
theorem l1_out : StableHlo.after (opsL1 (F := Ideal)) V (Proc.devRef .tc main_v137)
    = RTerms.rlayerAt (V (Proc.devRef .tc main_v1)) (V (Proc.devRef .tc main_v3)) (V (Proc.devRef .tc main_v31)) (V (Proc.devRef .tc main_v33))
        (RTerms.weightL 1 slices_S4x64x64_S1x64x64_1_0_0 (V (Proc.devRef .tc main_arg2))) (RTerms.rowL 1 slices_S4x64_S1x64_1_0 (V (Proc.devRef .tc main_arg3)))
        (RTerms.rowL 1 slices_S4x64_S1x64_1_0 (V (Proc.devRef .tc main_arg4))) (RTerms.rowL 1 slices_S4x64_S1x64_1_0 (V (Proc.devRef .tc main_arg5))) (V (Proc.devRef .tc main_v85)) := by
  after_results_simp
  rfl

set_option maxHeartbeats 400000000 in
set_option maxRecDepth 8192 in
theorem l1_keep_arg0 : StableHlo.after (opsL1 (F := Ideal)) V (Proc.devRef .tc main_arg0) = V (Proc.devRef .tc main_arg0) := by
  ref_keep opsL1

set_option maxHeartbeats 400000000 in
set_option maxRecDepth 8192 in
theorem l1_keep_arg1 : StableHlo.after (opsL1 (F := Ideal)) V (Proc.devRef .tc main_arg1) = V (Proc.devRef .tc main_arg1) := by
  ref_keep opsL1

set_option maxHeartbeats 400000000 in
set_option maxRecDepth 8192 in
theorem l1_keep_arg2 : StableHlo.after (opsL1 (F := Ideal)) V (Proc.devRef .tc main_arg2) = V (Proc.devRef .tc main_arg2) := by
  ref_keep opsL1

set_option maxHeartbeats 400000000 in
set_option maxRecDepth 8192 in
theorem l1_keep_arg3 : StableHlo.after (opsL1 (F := Ideal)) V (Proc.devRef .tc main_arg3) = V (Proc.devRef .tc main_arg3) := by
  ref_keep opsL1

set_option maxHeartbeats 400000000 in
set_option maxRecDepth 8192 in
theorem l1_keep_arg4 : StableHlo.after (opsL1 (F := Ideal)) V (Proc.devRef .tc main_arg4) = V (Proc.devRef .tc main_arg4) := by
  ref_keep opsL1

set_option maxHeartbeats 400000000 in
set_option maxRecDepth 8192 in
theorem l1_keep_arg5 : StableHlo.after (opsL1 (F := Ideal)) V (Proc.devRef .tc main_arg5) = V (Proc.devRef .tc main_arg5) := by
  ref_keep opsL1

set_option maxHeartbeats 400000000 in
set_option maxRecDepth 8192 in
theorem l1_keep_v1 : StableHlo.after (opsL1 (F := Ideal)) V (Proc.devRef .tc main_v1) = V (Proc.devRef .tc main_v1) := by
  ref_keep opsL1

set_option maxHeartbeats 400000000 in
set_option maxRecDepth 8192 in
theorem l1_keep_v3 : StableHlo.after (opsL1 (F := Ideal)) V (Proc.devRef .tc main_v3) = V (Proc.devRef .tc main_v3) := by
  ref_keep opsL1

set_option maxHeartbeats 400000000 in
set_option maxRecDepth 8192 in
theorem l1_keep_v31 : StableHlo.after (opsL1 (F := Ideal)) V (Proc.devRef .tc main_v31) = V (Proc.devRef .tc main_v31) := by
  ref_keep opsL1

set_option maxHeartbeats 400000000 in
set_option maxRecDepth 8192 in
theorem l1_keep_v33 : StableHlo.after (opsL1 (F := Ideal)) V (Proc.devRef .tc main_v33) = V (Proc.devRef .tc main_v33) := by
  ref_keep opsL1

/-! ### Layer 2's stretch -/

set_option maxHeartbeats 400000000 in
set_option maxRecDepth 8192 in
/-- layer 2's stretch leaves in its result buffer the layer's value of what it found in the buffers it reads -/
theorem l2_out : StableHlo.after (opsL2 (F := Ideal)) V (Proc.devRef .tc main_v189)
    = RTerms.rlayerAt (V (Proc.devRef .tc main_v1)) (V (Proc.devRef .tc main_v3)) (V (Proc.devRef .tc main_v31)) (V (Proc.devRef .tc main_v33))
        (RTerms.weightL 2 slices_S4x64x64_S1x64x64_2_0_0 (V (Proc.devRef .tc main_arg2))) (RTerms.rowL 2 slices_S4x64_S1x64_2_0 (V (Proc.devRef .tc main_arg3)))
        (RTerms.rowL 2 slices_S4x64_S1x64_2_0 (V (Proc.devRef .tc main_arg4))) (RTerms.rowL 2 slices_S4x64_S1x64_2_0 (V (Proc.devRef .tc main_arg5))) (V (Proc.devRef .tc main_v137)) := by
  after_results_simp
  rfl

set_option maxHeartbeats 400000000 in
set_option maxRecDepth 8192 in
theorem l2_keep_arg0 : StableHlo.after (opsL2 (F := Ideal)) V (Proc.devRef .tc main_arg0) = V (Proc.devRef .tc main_arg0) := by
  ref_keep opsL2

set_option maxHeartbeats 400000000 in
set_option maxRecDepth 8192 in
theorem l2_keep_arg1 : StableHlo.after (opsL2 (F := Ideal)) V (Proc.devRef .tc main_arg1) = V (Proc.devRef .tc main_arg1) := by
  ref_keep opsL2

set_option maxHeartbeats 400000000 in
set_option maxRecDepth 8192 in
theorem l2_keep_arg2 : StableHlo.after (opsL2 (F := Ideal)) V (Proc.devRef .tc main_arg2) = V (Proc.devRef .tc main_arg2) := by
  ref_keep opsL2

set_option maxHeartbeats 400000000 in
set_option maxRecDepth 8192 in
theorem l2_keep_arg3 : StableHlo.after (opsL2 (F := Ideal)) V (Proc.devRef .tc main_arg3) = V (Proc.devRef .tc main_arg3) := by
  ref_keep opsL2

set_option maxHeartbeats 400000000 in
set_option maxRecDepth 8192 in
theorem l2_keep_arg4 : StableHlo.after (opsL2 (F := Ideal)) V (Proc.devRef .tc main_arg4) = V (Proc.devRef .tc main_arg4) := by
  ref_keep opsL2

set_option maxHeartbeats 400000000 in
set_option maxRecDepth 8192 in
theorem l2_keep_arg5 : StableHlo.after (opsL2 (F := Ideal)) V (Proc.devRef .tc main_arg5) = V (Proc.devRef .tc main_arg5) := by
  ref_keep opsL2

set_option maxHeartbeats 400000000 in
set_option maxRecDepth 8192 in
theorem l2_keep_v1 : StableHlo.after (opsL2 (F := Ideal)) V (Proc.devRef .tc main_v1) = V (Proc.devRef .tc main_v1) := by
  ref_keep opsL2

set_option maxHeartbeats 400000000 in
set_option maxRecDepth 8192 in
theorem l2_keep_v3 : StableHlo.after (opsL2 (F := Ideal)) V (Proc.devRef .tc main_v3) = V (Proc.devRef .tc main_v3) := by
  ref_keep opsL2

set_option maxHeartbeats 400000000 in
set_option maxRecDepth 8192 in
theorem l2_keep_v31 : StableHlo.after (opsL2 (F := Ideal)) V (Proc.devRef .tc main_v31) = V (Proc.devRef .tc main_v31) := by
  ref_keep opsL2

set_option maxHeartbeats 400000000 in
set_option maxRecDepth 8192 in
theorem l2_keep_v33 : StableHlo.after (opsL2 (F := Ideal)) V (Proc.devRef .tc main_v33) = V (Proc.devRef .tc main_v33) := by
  ref_keep opsL2

/-! ### Layer 3's stretch -/

set_option maxHeartbeats 400000000 in
set_option maxRecDepth 8192 in
/-- layer 3's stretch leaves in its result buffer the layer's value of what it found in the buffers it reads -/
theorem l3_out : StableHlo.after (opsL3 (F := Ideal)) V (Proc.devRef .tc main_v241)
    = RTerms.rlayerAt (V (Proc.devRef .tc main_v1)) (V (Proc.devRef .tc main_v3)) (V (Proc.devRef .tc main_v31)) (V (Proc.devRef .tc main_v33))
        (RTerms.weightL 3 slices_S4x64x64_S1x64x64_3_0_0 (V (Proc.devRef .tc main_arg2))) (RTerms.rowL 3 slices_S4x64_S1x64_3_0 (V (Proc.devRef .tc main_arg3)))
        (RTerms.rowL 3 slices_S4x64_S1x64_3_0 (V (Proc.devRef .tc main_arg4))) (RTerms.rowL 3 slices_S4x64_S1x64_3_0 (V (Proc.devRef .tc main_arg5))) (V (Proc.devRef .tc main_v189)) := by
  after_results_simp
  rfl

set_option maxHeartbeats 400000000 in
set_option maxRecDepth 8192 in
theorem l3_keep_arg0 : StableHlo.after (opsL3 (F := Ideal)) V (Proc.devRef .tc main_arg0) = V (Proc.devRef .tc main_arg0) := by
  ref_keep opsL3

set_option maxHeartbeats 400000000 in
set_option maxRecDepth 8192 in
theorem l3_keep_arg1 : StableHlo.after (opsL3 (F := Ideal)) V (Proc.devRef .tc main_arg1) = V (Proc.devRef .tc main_arg1) := by
  ref_keep opsL3

set_option maxHeartbeats 400000000 in
set_option maxRecDepth 8192 in
theorem l3_keep_arg2 : StableHlo.after (opsL3 (F := Ideal)) V (Proc.devRef .tc main_arg2) = V (Proc.devRef .tc main_arg2) := by
  ref_keep opsL3

set_option maxHeartbeats 400000000 in
set_option maxRecDepth 8192 in
theorem l3_keep_arg3 : StableHlo.after (opsL3 (F := Ideal)) V (Proc.devRef .tc main_arg3) = V (Proc.devRef .tc main_arg3) := by
  ref_keep opsL3

set_option maxHeartbeats 400000000 in
set_option maxRecDepth 8192 in
theorem l3_keep_arg4 : StableHlo.after (opsL3 (F := Ideal)) V (Proc.devRef .tc main_arg4) = V (Proc.devRef .tc main_arg4) := by
  ref_keep opsL3

set_option maxHeartbeats 400000000 in
set_option maxRecDepth 8192 in
theorem l3_keep_arg5 : StableHlo.after (opsL3 (F := Ideal)) V (Proc.devRef .tc main_arg5) = V (Proc.devRef .tc main_arg5) := by
  ref_keep opsL3

/-! ### What the layers' stretches find in the buffers they share -/

/-- the contents a layer's stretch reads besides its input: the six arguments as launched, and the sources, targets,
    edge factors and nodes' own factors computed from the edge list -/
structure Carried (V : Valuation τ sig (Elt Ideal)) (X : FVec Ideal S100000x64 .f32) (E : RTerms.EdgeList)
    (W : FVec Ideal S4x64x64 .f32) (B LW LB : FVec Ideal S4x64 .f32) : Prop where
  arg0 : V (Proc.devRef .tc main_arg0) = X
  arg1 : V (Proc.devRef .tc main_arg1) = E
  arg2 : V (Proc.devRef .tc main_arg2) = W
  arg3 : V (Proc.devRef .tc main_arg3) = B
  arg4 : V (Proc.devRef .tc main_arg4) = LW
  arg5 : V (Proc.devRef .tc main_arg5) = LB
  v1 : V (Proc.devRef .tc main_v1) = RTerms.src E
  v3 : V (Proc.devRef .tc main_v3) = RTerms.dst E
  v31 : V (Proc.devRef .tc main_v31) = RTerms.enorm (RTerms.src E) (RTerms.dst E)
  v33 : V (Proc.devRef .tc main_v33) = RTerms.selfn (RTerms.dst E)

/-- the stretch before the first layer establishes them -/
theorem carried_pre : Carried (StableHlo.after (opsPre (F := Ideal)) V) (V (Proc.devRef .tc main_arg0)) (V (Proc.devRef .tc main_arg1))
    (V (Proc.devRef .tc main_arg2)) (V (Proc.devRef .tc main_arg3)) (V (Proc.devRef .tc main_arg4)) (V (Proc.devRef .tc main_arg5)) :=
  ⟨pre_keep_arg0 V, pre_keep_arg1 V, pre_keep_arg2 V, pre_keep_arg3 V, pre_keep_arg4 V, pre_keep_arg5 V,
    pre_v1 V, pre_v3 V, pre_v31 V, pre_v33 V⟩

variable {V} {X Y : FVec Ideal S100000x64 .f32} {E : RTerms.EdgeList} {W : FVec Ideal S4x64x64 .f32}
  {B LW LB : FVec Ideal S4x64 .f32}

/-- layer 0's stretch keeps them -/
theorem carried_l0 (h : Carried V X E W B LW LB) : Carried (StableHlo.after (opsL0 (F := Ideal)) V) X E W B LW LB :=
  ⟨(l0_keep_arg0 V).trans h.arg0, (l0_keep_arg1 V).trans h.arg1, (l0_keep_arg2 V).trans h.arg2, (l0_keep_arg3 V).trans h.arg3,
    (l0_keep_arg4 V).trans h.arg4, (l0_keep_arg5 V).trans h.arg5, (l0_keep_v1 V).trans h.v1, (l0_keep_v3 V).trans h.v3,
    (l0_keep_v31 V).trans h.v31, (l0_keep_v33 V).trans h.v33⟩

/-- layer 1's stretch keeps them -/
theorem carried_l1 (h : Carried V X E W B LW LB) : Carried (StableHlo.after (opsL1 (F := Ideal)) V) X E W B LW LB :=
  ⟨(l1_keep_arg0 V).trans h.arg0, (l1_keep_arg1 V).trans h.arg1, (l1_keep_arg2 V).trans h.arg2, (l1_keep_arg3 V).trans h.arg3,
    (l1_keep_arg4 V).trans h.arg4, (l1_keep_arg5 V).trans h.arg5, (l1_keep_v1 V).trans h.v1, (l1_keep_v3 V).trans h.v3,
    (l1_keep_v31 V).trans h.v31, (l1_keep_v33 V).trans h.v33⟩

/-- layer 2's stretch keeps them -/
theorem carried_l2 (h : Carried V X E W B LW LB) : Carried (StableHlo.after (opsL2 (F := Ideal)) V) X E W B LW LB :=
  ⟨(l2_keep_arg0 V).trans h.arg0, (l2_keep_arg1 V).trans h.arg1, (l2_keep_arg2 V).trans h.arg2, (l2_keep_arg3 V).trans h.arg3,
    (l2_keep_arg4 V).trans h.arg4, (l2_keep_arg5 V).trans h.arg5, (l2_keep_v1 V).trans h.v1, (l2_keep_v3 V).trans h.v3,
    (l2_keep_v31 V).trans h.v31, (l2_keep_v33 V).trans h.v33⟩

/-- layer 0's stretch computes layer 0 of the launched node features -/
theorem out_l0 (h : Carried V X E W B LW LB) :
    StableHlo.after (opsL0 (F := Ideal)) V (Proc.devRef .tc main_v85) = RTerms.rlayer0 E W B LW LB X := by
  rw [l0_out, h.v1, h.v3, h.v31, h.v33, h.arg2, h.arg3, h.arg4, h.arg5, h.arg0]; rfl

/-- layer 1's stretch computes layer 1 of what it finds in its input buffer -/
theorem out_l1 (h : Carried V X E W B LW LB) (hin : V (Proc.devRef .tc main_v85) = Y) :
    StableHlo.after (opsL1 (F := Ideal)) V (Proc.devRef .tc main_v137) = RTerms.rlayer1 E W B LW LB Y := by
  rw [l1_out, h.v1, h.v3, h.v31, h.v33, h.arg2, h.arg3, h.arg4, h.arg5, hin]; rfl

/-- layer 2's stretch computes layer 2 of what it finds in its input buffer -/
theorem out_l2 (h : Carried V X E W B LW LB) (hin : V (Proc.devRef .tc main_v137) = Y) :
    StableHlo.after (opsL2 (F := Ideal)) V (Proc.devRef .tc main_v189) = RTerms.rlayer2 E W B LW LB Y := by
  rw [l2_out, h.v1, h.v3, h.v31, h.v33, h.arg2, h.arg3, h.arg4, h.arg5, hin]; rfl

/-- layer 3's stretch computes layer 3 of what it finds in its input buffer -/
theorem out_l3 (h : Carried V X E W B LW LB) (hin : V (Proc.devRef .tc main_v189) = Y) :
    StableHlo.after (opsL3 (F := Ideal)) V (Proc.devRef .tc main_v241) = RTerms.rlayer3 E W B LW LB Y := by
  rw [l3_out, h.v1, h.v3, h.v31, h.v33, h.arg2, h.arg3, h.arg4, h.arg5, hin]; rfl

/-! ### The whole program -/

variable (m : (ℓ : Loc nD τ sig) → Buf (Elt Ideal) ℓ) (c : Dev nD)

/-- the fold over the whole list is the five stretches' folds, one after the other -/
theorem after_ops (V₀ : Valuation τ sig (Elt Ideal)) : StableHlo.after (ops (F := Ideal)) V₀
    = StableHlo.after opsL3 (StableHlo.after opsL2 (StableHlo.after opsL1 (StableHlo.after opsL0 (StableHlo.after opsPre V₀)))) := by
  show StableHlo.after ((((opsPre ++ opsL0) ++ opsL1) ++ opsL2) ++ opsL3) V₀ = _
  rw [after_append, after_append, after_append, after_append]

/-- The reference's result: the four layers, one after the other, of the launched node features, with the launched
    edge list, weights, biases, scales and shifts. -/
theorem ref_result : StableHlo.after (ops (F := Ideal)) (launchContents m c) (Proc.devRef .tc main_v241)
    = RTerms.rlayer3 (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        (RTerms.rlayer2 (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
          (RTerms.rlayer1 (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
            (RTerms.rlayer0 (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
              (m ((c.tc : Thread nD τ).loc main_arg0))))) := by
  have h1 := carried_pre (launchContents m c)
  have h2 := carried_l0 h1
  have h3 := carried_l1 h2
  have h4 := carried_l2 h3
  have o0 := out_l0 h1
  have o1 := out_l1 h2 o0
  have o2 := out_l2 h3 o1
  have o3 := out_l3 h4 o2
  rw [after_ops]
  exact o3

/-- the program leaves argument 0 as launched -/
theorem arg0_kept : StableHlo.after (ops (F := Ideal)) (launchContents m c) (Proc.devRef .tc main_arg0) = m ((c.tc : Thread nD τ).loc main_arg0) := by
  rw [after_ops, l3_keep_arg0, l2_keep_arg0, l1_keep_arg0, l0_keep_arg0, pre_keep_arg0]

/-- the program leaves argument 1 as launched -/
theorem arg1_kept : StableHlo.after (ops (F := Ideal)) (launchContents m c) (Proc.devRef .tc main_arg1) = m ((c.tc : Thread nD τ).loc main_arg1) := by
  rw [after_ops, l3_keep_arg1, l2_keep_arg1, l1_keep_arg1, l0_keep_arg1, pre_keep_arg1]

/-- the program leaves argument 2 as launched -/
theorem arg2_kept : StableHlo.after (ops (F := Ideal)) (launchContents m c) (Proc.devRef .tc main_arg2) = m ((c.tc : Thread nD τ).loc main_arg2) := by
  rw [after_ops, l3_keep_arg2, l2_keep_arg2, l1_keep_arg2, l0_keep_arg2, pre_keep_arg2]

/-- the program leaves argument 3 as launched -/
theorem arg3_kept : StableHlo.after (ops (F := Ideal)) (launchContents m c) (Proc.devRef .tc main_arg3) = m ((c.tc : Thread nD τ).loc main_arg3) := by
  rw [after_ops, l3_keep_arg3, l2_keep_arg3, l1_keep_arg3, l0_keep_arg3, pre_keep_arg3]

/-- the program leaves argument 4 as launched -/
theorem arg4_kept : StableHlo.after (ops (F := Ideal)) (launchContents m c) (Proc.devRef .tc main_arg4) = m ((c.tc : Thread nD τ).loc main_arg4) := by
  rw [after_ops, l3_keep_arg4, l2_keep_arg4, l1_keep_arg4, l0_keep_arg4, pre_keep_arg4]

/-- the program leaves argument 5 as launched -/
theorem arg5_kept : StableHlo.after (ops (F := Ideal)) (launchContents m c) (Proc.devRef .tc main_arg5) = m ((c.tc : Thread nD τ).loc main_arg5) := by
  rw [after_ops, l3_keep_arg5, l2_keep_arg5, l1_keep_arg5, l0_keep_arg5, pre_keep_arg5]

end Cert.ReferenceIdeal.RFold

end
-- ==== Proof.LayerAlgebra.lean ====
/-
  The real-number algebra of one layer.

  Over the extended reals every operation of a layer keeps real numbers real, and on real numbers the two ways of
  computing a variance agree:  (Σ a²)/n − ((Σ a)/n)²  =  (Σ (a − μ)²)/n  with  μ = (Σ a)/n,  n the number of entries.
-/
import proofs.«123589_j55817394979590_1_alg».proof.Proof.Spec

noncomputable section

namespace Cert.LayerAlgebra

open Idealize.ShloMosaic Idealize.ShloMosaic.ValueIdx

/-! ### Real numbers among the extended reals -/

/-- the extended real is a real number (neither infinity) -/
def IsReal (x : EReal) : Prop := ∃ r : ℝ, x = (r : EReal)

/-- every entry of the family is a real number -/
def AllReal {ι : Type*} (v : ι → EReal) : Prop := ∀ i, ∃ r : ℝ, v i = (r : EReal)

/-- a family is real exactly when each entry is -/
theorem allReal_iff {ι : Type*} (v : ι → EReal) : AllReal v ↔ ∀ i, IsReal (v i) := Iff.rfl

/-- a real number is real -/
theorem IsReal.coe (r : ℝ) : IsReal (r : EReal) := ⟨r, rfl⟩

/-- zero is real -/
theorem IsReal.zero : IsReal 0 := ⟨0, rfl⟩

/-- the sum of two reals is real -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- the difference of two reals is real -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- the product of two reals is real -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- the negative of a real is real -/
theorem IsReal.neg {x : EReal} (hx : IsReal x) : IsReal (-x) := by
  obtain ⟨a, rfl⟩ := hx; exact ⟨-a, (EReal.coe_neg a).symm⟩

/-- the larger of two reals is real -/
theorem isReal_max {x y : EReal} (hx : IsReal x) (hy : IsReal y) : IsReal (max x y) := by
  rcases le_total x y with h | h
  · rw [max_eq_right h]; exact hy
  · rw [max_eq_left h]; exact hx

/-- the positive part of a real is real -/
theorem isReal_max_zero {x : EReal} (hx : IsReal x) : IsReal (max x 0) := isReal_max hx IsReal.zero

/-- the coercion of a finite sum of reals is the sum of the coercions -/
theorem coe_sum {ι : Type*} (s : Finset ι) (r : ι → ℝ) :
    ((∑ i ∈ s, r i : ℝ) : EReal) = ∑ i ∈ s, (r i : EReal) := by
  classical
  refine Finset.induction_on s ?_ ?_
  · simp
  · intro a s ha ih
    rw [Finset.sum_insert ha, Finset.sum_insert ha, EReal.coe_add, ih]

/-- a finite sum of reals is real -/
theorem IsReal.sum {ι : Type*} (s : Finset ι) (v : ι → EReal) (h : ∀ i ∈ s, IsReal (v i)) :
    IsReal (∑ i ∈ s, v i) := by
  classical
  refine Finset.induction_on s ?_ ?_ h
  · intro _; simpa using IsReal.zero
  · intro a s ha ih h
    rw [Finset.sum_insert ha]
    exact (h a (Finset.mem_insert_self a s)).add (ih fun i hi => h i (Finset.mem_insert_of_mem hi))

/-- the quotient of a real by a nonzero real is real -/
theorem IsReal.div {x : EReal} (hx : IsReal x) {y : ℝ} (hy : y ≠ 0) : IsReal (Ideal.div x (y : EReal)) := by
  rw [Ideal.div_coe hy]; exact hx.mul (IsReal.coe _)

/-- the quotient of a real x by a nonzero real y is the real x / y -/
theorem div_coe_coe (x : ℝ) {y : ℝ} (hy : y ≠ 0) : Ideal.div (x : EReal) (y : EReal) = ((x / y : ℝ) : EReal) := by
  rw [Ideal.div_coe hy, ← EReal.coe_mul, mul_one_div]

/-- the reciprocal square root of a positive real r is the real 1 / √r -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- the reciprocal square root of a positive real is real -/
theorem IsReal.rsqrt {r : ℝ} (hr : 0 < r) : IsReal (Ideal.rsqrt (r : EReal)) :=
  ⟨_, rsqrt_coe_pos hr⟩

/-! ### Families of reals -/

section Families
variable {ι κ : Type*}

/-- the entrywise sum of two real families is real -/
theorem AllReal.add {u v : ι → EReal} (hu : AllReal u) (hv : AllReal v) : AllReal (fun i => u i + v i) :=
  fun i => IsReal.add (hu i) (hv i)

/-- the entrywise difference of two real families is real -/
theorem AllReal.sub {u v : ι → EReal} (hu : AllReal u) (hv : AllReal v) : AllReal (fun i => u i - v i) :=
  fun i => IsReal.sub (hu i) (hv i)

/-- the entrywise product of two real families is real -/
theorem AllReal.mul {u v : ι → EReal} (hu : AllReal u) (hv : AllReal v) : AllReal (fun i => u i * v i) :=
  fun i => IsReal.mul (hu i) (hv i)

/-- the entrywise positive part of a real family is real -/
theorem AllReal.max_zero {v : ι → EReal} (hv : AllReal v) : AllReal (fun i => max (v i) 0) :=
  fun i => isReal_max_zero (hv i)

/-- a constant family with a real value is real -/
theorem AllReal.const (r : ℝ) : AllReal (fun _ : ι => (r : EReal)) := fun _ => ⟨r, rfl⟩

/-- a constant family whose value is real is real -/
theorem AllReal.const_of_isReal {x : EReal} (hx : IsReal x) : AllReal (fun _ : ι => x) := fun _ => hx

/-- a real family read through any map of indices is real -/
theorem AllReal.comp {v : ι → EReal} (hv : AllReal v) (f : κ → ι) : AllReal (fun k => v (f k)) :=
  fun k => hv (f k)

/-- the sum of all entries of a real family is real -/
theorem AllReal.sum [Fintype ι] {v : ι → EReal} (hv : AllReal v) : IsReal (∑ i, v i) :=
  IsReal.sum _ _ fun i _ => hv i

/-- a sum over one index of a real family of two indices is a real family -/
theorem AllReal.sum_family [Fintype κ] {v : ι → κ → EReal} (hv : ∀ i, AllReal (v i)) :
    AllReal (fun i => ∑ k, v i k) := fun i => (hv i).sum

/-- a real family divided entrywise by a nonzero real is real -/
theorem AllReal.div {v : ι → EReal} (hv : AllReal v) {y : ℝ} (hy : y ≠ 0) :
    AllReal (fun i => Ideal.div (v i) (y : EReal)) := fun i => IsReal.div (hv i) hy

/-- a real family is the coercion of a family of reals -/
theorem AllReal.exists_eq {v : ι → EReal} (hv : AllReal v) : ∃ r : ι → ℝ, v = fun i => (r i : EReal) := by
  choose r hr using hv
  exact ⟨r, funext hr⟩

end Families

/-! ### The two float words -/

/-- the real number the word of ε denotes: 10995116 · 2⁻⁴⁰, about 10⁻⁵ -/
def epsReal : ℝ := 10995116 / 1099511627776

/-- ε is positive -/
theorem epsReal_pos : 0 < epsReal := by unfold epsReal; norm_num

/-- the float word 0x4AC35000 denotes the real number 6400000 -/
theorem ofBits_n : Ideal.ofBits .f32 0x4AC35000#32 = ((6400000 : ℝ) : EReal) := by
  simp [Ideal.ofBits, Ideal.ieee, -EReal.coe_mul]; norm_num

/-- the float word 0x3727C5AC denotes the real number 10995116 · 2⁻⁴⁰ -/
theorem ofBits_eps : Ideal.ofBits .f32 0x3727C5AC#32 = ((epsReal : ℝ) : EReal) := by
  unfold epsReal
  simp [Ideal.ofBits, Ideal.ieee, -EReal.coe_mul]; norm_num

/-- the float word 0x3F800000 denotes the real number 1 -/
theorem ofBits_one : Ideal.ofBits .f32 0x3F800000#32 = ((1 : ℝ) : EReal) := by
  simp [Ideal.ofBits, Ideal.ieee, -EReal.coe_mul]; norm_num

/-- the float word 0x7F800000 denotes +∞ -/
theorem ofBits_inf : Ideal.ofBits .f32 0x7F800000#32 = ⊤ := by simp [Ideal.ofBits, Ideal.ieee]

/-- the ε of the layer is the real number 10995116 · 2⁻⁴⁰ -/
theorem eps_eq : Cert.Spec.eps = ((epsReal : ℝ) : EReal) := ofBits_eps

/-- the ε of the layer is real -/
theorem eps_isReal : IsReal Cert.Spec.eps := ⟨epsReal, eps_eq⟩

/-! ### The two formulas for the variance -/

section Variance
variable {ι : Type*} [Fintype ι]

/-- over the reals, with n the number of entries: (Σ r²)/n − ((Σ r)/n)² = (Σ (r − (Σ r)/n)²)/n -/
theorem var_eq_real (r : ι → ℝ) (n : ℝ) (hn : n ≠ 0) (hcard : (Fintype.card ι : ℝ) = n) :
    (∑ i, r i * r i) / n - (∑ i, r i) / n * ((∑ i, r i) / n)
      = (∑ i, (r i - (∑ i, r i) / n) * (r i - (∑ i, r i) / n)) / n := by
  set S := ∑ i, r i with hS
  set Q := ∑ i, r i * r i with hQ
  have hexp : ∀ i, (r i - S / n) * (r i - S / n) = r i * r i - 2 * (S / n) * r i + S / n * (S / n) :=
    fun i => by ring
  have hsum : ∑ i, (r i - S / n) * (r i - S / n) = Q - 2 * (S / n) * S + n * (S / n * (S / n)) := by
    simp only [hexp, Finset.sum_add_distrib, Finset.sum_sub_distrib, ← Finset.mul_sum, Finset.sum_const,
      Finset.card_univ, nsmul_eq_mul, hcard, ← hS, ← hQ]
    ring
  rw [hsum]
  field_simp
  ring

end Variance

section VarianceE
variable {ι : Type*} [Fintype ι]

/-- the sum of the coercions of a family of reals -/
theorem sum_coe (r : ι → ℝ) : ∑ i, (r i : EReal) = ((∑ i, r i : ℝ) : EReal) := (coe_sum _ r).symm

/-- The two formulas for the variance agree on a family of n = 6400000 real numbers:
    (Σ a²)/n − ((Σ a)/n)² = (Σ (a − μ)²)/n with μ = (Σ a)/n. -/
theorem var_eq (a : ι → EReal) (ha : AllReal a) (hcard : (Fintype.card ι : ℝ) = 6400000) :
    Ideal.div (∑ i, a i * a i) (Ideal.ofBits .f32 0x4AC35000#32)
        - Ideal.div (∑ i, a i) (Ideal.ofBits .f32 0x4AC35000#32)
          * Ideal.div (∑ i, a i) (Ideal.ofBits .f32 0x4AC35000#32)
      = Ideal.div (∑ i, (a i - Ideal.div (∑ i, a i) (Ideal.ofBits .f32 0x4AC35000#32))
                        * (a i - Ideal.div (∑ i, a i) (Ideal.ofBits .f32 0x4AC35000#32)))
          (Ideal.ofBits .f32 0x4AC35000#32) := by
  obtain ⟨r, rfl⟩ := ha.exists_eq
  have hn : (6400000 : ℝ) ≠ 0 := by norm_num
  rw [ofBits_n]
  simp only [← EReal.coe_mul, sum_coe, div_coe_coe _ hn, ← EReal.coe_sub]
  rw [var_eq_real r 6400000 hn hcard]

/-- The centred formula for the variance of n = 6400000 real numbers gives a nonnegative real number. -/
theorem var_real_nonneg (a : ι → EReal) (ha : AllReal a) (hcard : (Fintype.card ι : ℝ) = 6400000) :
    ∃ v : ℝ, 0 ≤ v ∧
      Ideal.div (∑ i, (a i - Ideal.div (∑ i, a i) (Ideal.ofBits .f32 0x4AC35000#32))
                        * (a i - Ideal.div (∑ i, a i) (Ideal.ofBits .f32 0x4AC35000#32)))
          (Ideal.ofBits .f32 0x4AC35000#32) = ((v : ℝ) : EReal) := by
  obtain ⟨r, rfl⟩ := ha.exists_eq
  have hn : (6400000 : ℝ) ≠ 0 := by norm_num
  refine ⟨(∑ i, (r i - (∑ i, r i) / 6400000) * (r i - (∑ i, r i) / 6400000)) / 6400000, ?_, ?_⟩
  · exact div_nonneg (Finset.sum_nonneg fun i _ => mul_self_nonneg _) (by norm_num)
  · rw [ofBits_n]
    simp only [← EReal.coe_mul, sum_coe, div_coe_coe _ hn, ← EReal.coe_sub]

/-- The uncentred formula for the variance of n = 6400000 real numbers gives the same nonnegative real number. -/
theorem var_real_nonneg' (a : ι → EReal) (ha : AllReal a) (hcard : (Fintype.card ι : ℝ) = 6400000) :
    ∃ v : ℝ, 0 ≤ v ∧
      Ideal.div (∑ i, a i * a i) (Ideal.ofBits .f32 0x4AC35000#32)
        - Ideal.div (∑ i, a i) (Ideal.ofBits .f32 0x4AC35000#32)
          * Ideal.div (∑ i, a i) (Ideal.ofBits .f32 0x4AC35000#32) = ((v : ℝ) : EReal) := by
  rw [var_eq a ha hcard]; exact var_real_nonneg a ha hcard

/-- The reciprocal square root of (variance + ε), the variance by the centred formula, is a real number. -/
theorem rsqrt_real (a : ι → EReal) (ha : AllReal a) (hcard : (Fintype.card ι : ℝ) = 6400000) :
    IsReal (Ideal.rsqrt
      (Ideal.div (∑ i, (a i - Ideal.div (∑ i, a i) (Ideal.ofBits .f32 0x4AC35000#32))
                        * (a i - Ideal.div (∑ i, a i) (Ideal.ofBits .f32 0x4AC35000#32)))
          (Ideal.ofBits .f32 0x4AC35000#32) + Cert.Spec.eps)) := by
  obtain ⟨v, hv, h⟩ := var_real_nonneg a ha hcard
  rw [h, eps_eq, ← EReal.coe_add]
  exact IsReal.rsqrt (add_pos_of_nonneg_of_pos hv epsReal_pos)

/-- The same with the variance by the uncentred formula. -/
theorem rsqrt_real' (a : ι → EReal) (ha : AllReal a) (hcard : (Fintype.card ι : ℝ) = 6400000) :
    IsReal (Ideal.rsqrt
      (Ideal.div (∑ i, a i * a i) (Ideal.ofBits .f32 0x4AC35000#32)
        - Ideal.div (∑ i, a i) (Ideal.ofBits .f32 0x4AC35000#32)
          * Ideal.div (∑ i, a i) (Ideal.ofBits .f32 0x4AC35000#32) + Cert.Spec.eps)) := by
  rw [var_eq a ha hcard]; exact rsqrt_real a ha hcard

/-- The mean of n = 6400000 real numbers is a real number. -/
theorem mean_real (a : ι → EReal) (ha : AllReal a) :
    IsReal (Ideal.div (∑ i, a i) (Ideal.ofBits .f32 0x4AC35000#32)) := by
  rw [ofBits_n]; exact IsReal.div ha.sum (by norm_num)

end VarianceE

/-! ### The pieces of a layer keep real numbers real -/

section SpecFns
open Cert.Spec

/-- the node-feature array has 100000 · 64 = 6400000 entries -/
theorem card_SN : (Fintype.card SN.Idx : ℝ) = 6400000 := by
  rw [Shape.card_idx]
  simp [Shape.numel, Fin.prod_univ_two]

/-- the product of a real array with a real matrix is real -/
theorem mm_allReal {h : SN.Idx → EReal} {w : SW.Idx → EReal} (hh : AllReal h) (hw : AllReal w) :
    AllReal (mm h w) := by
  intro i
  unfold mm
  exact IsReal.sum _ _ fun k _ => IsReal.mul (hh _) (hw _)

/-- the aggregate with self loop and bias of real arrays is real -/
theorem comb_allReal {hw aggs : SN.Idx → EReal} {selfn : SC.Idx → EReal} {bias : SR.Idx → EReal}
    (h1 : AllReal hw) (h2 : AllReal aggs) (h3 : AllReal selfn) (h4 : AllReal bias) :
    AllReal (comb hw aggs selfn bias) := by
  intro i
  unfold comb
  exact IsReal.add (IsReal.add (h2 i) (IsReal.mul (h3 _) (h1 i))) (h4 _)

/-- the total of a real array is real -/
theorem tot_allReal {a : SN.Idx → EReal} (ha : AllReal a) : AllReal (tot a) := fun _ => ha.sum

/-- the total of the squares of a real array is real -/
theorem totsq_allReal {a : SN.Idx → EReal} (ha : AllReal a) : AllReal (totsq a) :=
  fun _ => (ha.mul ha).sum

/-- the normalised and rectified array is real when the array, the scale, the shift and the mean are real and
    the reciprocal square root of (variance + ε) is real -/
theorem norm_allReal {a : SN.Idx → EReal} {mean var : S1.Idx → EReal} {lnw lnb : SR.Idx → EReal}
    (ha : AllReal a) (hw : AllReal lnw) (hb : AllReal lnb) (hm : IsReal (mean one11))
    (hr : IsReal (Ideal.rsqrt (var one11 + eps))) : AllReal (Spec.norm a mean var lnw lnb) := by
  intro i
  unfold Spec.norm
  exact isReal_max_zero (IsReal.add (IsReal.mul (IsReal.mul (hw _) (IsReal.sub (ha i) hm)) hr) (hb _))

end SpecFns

/-! ### One layer, computed in the two ways -/

section Layer
open Cert.Spec

/-- one layer with the variance as (Σ a²)/n − ((Σ a)/n)² -/
def layerK (agg : (SN.Idx → EReal) → (SN.Idx → EReal)) (selfn : SC.Idx → EReal) (W : SW.Idx → EReal)
    (b lw lb : SR.Idx → EReal) (h : SN.Idx → EReal) : SN.Idx → EReal :=
  let hw := mm h W
  let a := comb hw (agg hw) selfn b
  let mean : S1.Idx → EReal := fun j => Ideal.div (tot a j) (Ideal.ofBits .f32 0x4AC35000#32)
  let msq : S1.Idx → EReal := fun j => Ideal.div (totsq a j) (Ideal.ofBits .f32 0x4AC35000#32)
  Spec.norm a mean (fun j => msq j - mean j * mean j) lw lb

/-- one layer with the variance as (Σ (a − μ)²)/n, each total started from the zero word -/
def layerR (agg : (SN.Idx → EReal) → (SN.Idx → EReal)) (selfn : SC.Idx → EReal) (W : SW.Idx → EReal)
    (b lw lb : SR.Idx → EReal) (h : SN.Idx → EReal) : SN.Idx → EReal :=
  let hw := mm h W
  let a := comb hw (agg hw) selfn b
  let mu : EReal := Ideal.div (Ideal.ofBits .f32 0x00000000#32 + ∑ i, a i) (Ideal.ofBits .f32 0x4AC35000#32)
  let var : EReal :=
    Ideal.div (Ideal.ofBits .f32 0x00000000#32 + ∑ i, (a i - mu) * (a i - mu)) (Ideal.ofBits .f32 0x4AC35000#32)
  Spec.norm a (fun _ => mu) (fun _ => var) lw lb

variable {agg : (SN.Idx → EReal) → (SN.Idx → EReal)} {selfn : SC.Idx → EReal} {W : SW.Idx → EReal}
  {b lw lb : SR.Idx → EReal} {h : SN.Idx → EReal}

/-- the aggregate of a layer on real inputs is real -/
theorem layer_a_allReal (hh : AllReal h) (hW : AllReal W) (hb : AllReal b) (hs : AllReal selfn)
    (hagg : ∀ v, AllReal v → AllReal (agg v)) :
    AllReal (comb (mm h W) (agg (mm h W)) selfn b) :=
  comb_allReal (mm_allReal hh hW) (hagg _ (mm_allReal hh hW)) hs hb

/-- On real inputs the two ways of computing a layer give the same array. -/
theorem layer_eq (hh : AllReal h) (hW : AllReal W) (hb : AllReal b) (hlw : AllReal lw) (hlb : AllReal lb)
    (hs : AllReal selfn) (hagg : ∀ v, AllReal v → AllReal (agg v)) :
    layerK agg selfn W b lw lb h = layerR agg selfn W b lw lb h := by
  have ha := layer_a_allReal hh hW hb hs hagg
  have hv := var_eq _ ha card_SN
  unfold layerK layerR
  simp only [tot, totsq, Ideal.ofBits_zero_f32, zero_add]
  rw [hv]

/-- On real inputs a layer gives a real array. -/
theorem layer_real (hh : AllReal h) (hW : AllReal W) (hb : AllReal b) (hlw : AllReal lw) (hlb : AllReal lb)
    (hs : AllReal selfn) (hagg : ∀ v, AllReal v → AllReal (agg v)) :
    AllReal (layerK agg selfn W b lw lb h) := by
  have ha := layer_a_allReal hh hW hb hs hagg
  unfold layerK
  exact norm_allReal ha hlw hlb (mean_real _ ha) (rsqrt_real' _ ha card_SN)

end Layer

end Cert.LayerAlgebra

end
-- ==== Proof.TermsReal.lean ====
/-
  The host-side pieces of the idealized kernel program hold real numbers only.

  Every piece is built from the edge list by operations that either read entries of an array (slices, reshapes,
  broadcasts, gathers), multiply entrywise, or add to each entry the updates that land on it. Reading and multiplying
  keep real numbers real, and a finite sum of real numbers is real. The degree factor is (1 + a count)^(-1/2), the
  reciprocal square root of a real number that is at least 1.
-/
import proofs.«123589_j55817394979590_1_alg».proof.Proof.KernelTerms
import proofs.«123589_j55817394979590_1_alg».proof.Proof.LayerAlgebra

noncomputable section

namespace Cert.KernelIdeal.TermsReal

open Cert.KernelIdeal Idealize.ShloMosaic Cert.LayerAlgebra
open Cert.KernelIdeal.Facts₀ Cert.KernelIdeal.Facts

/-! ### The host operations keep real numbers real -/

section Ops
variable {s t si u : Shape} {φ : FTy} {w : Nat}

/-- an array that repeats the entries of a real array is real -/
theorem allReal_broadcastInDim {x : s.Idx → EReal} (hx : AllReal x) (dims : Fin s.rank → Fin t.rank)
    (h : s.BroadcastsInDim t dims) : AllReal (broadcastInDim t dims h x) := by
  intro j; unfold broadcastInDim; exact hx _

/-- an array gathered from a real array is real -/
theorem allReal_gather {x : s.Idx → EReal} (hx : AllReal x) (d : GatherDims s si t) (idx : IVec si w) :
    AllReal (Host.gather d x idx) := by
  intro j; unfold Host.gather; exact hx _

/-- the entrywise product of two real arrays is real -/
theorem allReal_mulf {x y : FVec Ideal s φ} (hx : AllReal x) (hy : AllReal y) : AllReal (mulf (F := Ideal) x y) := by
  intro i
  show IsReal (x i * y i)
  exact IsReal.mul (hx i) (hy i)

/-- the array whose every entry is the real number a float word denotes is real -/
theorem allReal_constant (sh : Shape) (b : BitVec 32) (hb : IsReal (Ideal.ofBits .f32 b)) :
    AllReal (constant (F := Ideal) sh .f32 b) := fun _ => hb

/-- adding to each entry of a real array the updates that land on it, all real, gives a real array -/
theorem allReal_scatterAdd {x : FVec Ideal s φ} {upd : FVec Ideal u φ} (hx : AllReal x) (hu : AllReal upd)
    (d : ScatterDims s si u) (idx : IVec si w) : AllReal (Host.scatterAdd (F := Ideal) d x idx upd) := by
  intro j
  show IsReal (x j + ∑ k ∈ _, upd k)
  exact IsReal.add (hx j) (IsReal.sum _ _ fun k _ => hu k)

/-- counting: from zero, adding a one for every update that lands on an entry gives a nonnegative real number -/
theorem scatterAdd_ones_nonneg {x : FVec Ideal s φ} {upd : FVec Ideal u φ} (hx : ∀ j, x j = 0)
    (hu : ∀ k, upd k = ((1 : ℝ) : EReal)) (d : ScatterDims s si u) (idx : IVec si w) (j : s.Idx) :
    ∃ r : ℝ, 0 ≤ r ∧ Host.scatterAdd (F := Ideal) d x idx upd j = (r : EReal) := by
  have key : ∀ S : Finset u.Idx, x j + ∑ k ∈ S, upd k = ((∑ _k ∈ S, (1 : ℝ) : ℝ) : EReal) := by
    intro S
    rw [hx, zero_add, coe_sum]
    exact Finset.sum_congr rfl fun k _ => hu k
  refine ⟨_, ?_, key _⟩
  exact Finset.sum_nonneg fun _ _ => zero_le_one

/-- (1 + the number of updates landing on an entry)^(-1/2) is a real number at every entry -/
theorem allReal_rsqrt_count {x one : FVec Ideal s φ} {upd : FVec Ideal u φ} (hx : ∀ j, x j = 0)
    (hu : ∀ k, upd k = ((1 : ℝ) : EReal)) (h1 : ∀ j, one j = ((1 : ℝ) : EReal)) (d : ScatterDims s si u)
    (idx : IVec si w) :
    AllReal (Host.rsqrt (F := Ideal) (addf (F := Ideal) (Host.scatterAdd (F := Ideal) d x idx upd) one)) := by
  intro j
  obtain ⟨r, hr, e⟩ := scatterAdd_ones_nonneg hx hu d idx j
  show IsReal (Ideal.rsqrt (Host.scatterAdd (F := Ideal) d x idx upd j + one j))
  rw [e, h1, ← EReal.coe_add]
  exact IsReal.rsqrt (by linarith)

end Ops

/-! ### Indices that need no wrapping -/

/-- a nonnegative index is its own wrapped index -/
theorem wrap_of_nonneg (v : Terms.EdgeI) (h : ∀ i, (0 : Int) ≤ (v i).toInt) : Terms.wrap v = v := by
  funext i
  unfold Terms.wrap select Scalar.select
  refine if_neg fun hc => ?_
  have hc' : IntOp.cmpi .slt (v i) (0#32) = 1#1 := hc
  rw [IntOp.cmpi_slt] at hc'
  have e0 : (0#32 : BitVec 32).toInt = 0 := by decide
  rw [e0] at hc'
  exact absurd (h i) (not_le.mpr hc')

/-- every source is an entry of the edge list -/
theorem src_eq (e : Terms.EdgeList) (i : S1600000.Idx) : ∃ j, Terms.src e i = e j := by
  unfold Terms.src shapeCast extractStridedSlice
  exact ⟨_, rfl⟩

/-- every target is an entry of the edge list -/
theorem dst_eq (e : Terms.EdgeList) (i : S1600000.Idx) : ∃ j, Terms.dst e i = e j := by
  unfold Terms.dst shapeCast extractStridedSlice
  exact ⟨_, rfl⟩

/-- the sources of an edge list of node numbers are nonnegative -/
theorem src_nonneg (e : Terms.EdgeList) (h : ∀ i, (0 : Int) ≤ (e i).toInt ∧ (e i).toInt < 100000) :
    ∀ i, (0 : Int) ≤ (Terms.src e i).toInt := by
  intro i; obtain ⟨j, hj⟩ := src_eq e i; rw [hj]; exact (h j).1

/-- the sources of an edge list of node numbers are below the number of nodes -/
theorem src_lt (e : Terms.EdgeList) (h : ∀ i, (0 : Int) ≤ (e i).toInt ∧ (e i).toInt < 100000) :
    ∀ i, (Terms.src e i).toInt < 100000 := by
  intro i; obtain ⟨j, hj⟩ := src_eq e i; rw [hj]; exact (h j).2

/-- the targets of an edge list of node numbers are nonnegative -/
theorem dst_nonneg (e : Terms.EdgeList) (h : ∀ i, (0 : Int) ≤ (e i).toInt ∧ (e i).toInt < 100000) :
    ∀ i, (0 : Int) ≤ (Terms.dst e i).toInt := by
  intro i; obtain ⟨j, hj⟩ := dst_eq e i; rw [hj]; exact (h j).1

/-- the targets of an edge list of node numbers are below the number of nodes -/
theorem dst_lt (e : Terms.EdgeList) (h : ∀ i, (0 : Int) ≤ (e i).toInt ∧ (e i).toInt < 100000) :
    ∀ i, (Terms.dst e i).toInt < 100000 := by
  intro i; obtain ⟨j, hj⟩ := dst_eq e i; rw [hj]; exact (h j).2

/-! ### The factors are real numbers -/

/-- the zero word denotes a real number -/
theorem zero_isReal : IsReal (Ideal.ofBits .f32 0x00000000#32) := by
  rw [Ideal.ofBits_zero_f32]; exact IsReal.zero

/-- every node's degree factor (1 + in-degree)^(-1/2) is a real number -/
theorem dinv_allReal (d : Terms.EdgeI) : AllReal (Terms.dinv d) := by
  unfold Terms.dinv
  refine allReal_rsqrt_count ?_ ?_ ?_ _ _
  · intro j; exact Ideal.ofBits_zero_f32
  · intro k; exact ofBits_one
  · intro j; exact ofBits_one

/-- every node's own factor is a real number -/
theorem selfn_allReal (d : Terms.EdgeI) : AllReal (Terms.selfn d) := by
  unfold Terms.selfn
  exact allReal_broadcastInDim (allReal_mulf (dinv_allReal d) (dinv_allReal d)) _ _

/-- every edge's factor is a real number -/
theorem enorm_allReal (s d : Terms.EdgeI) : AllReal (Terms.enorm s d) := by
  unfold Terms.enorm
  exact allReal_broadcastInDim
    (allReal_mulf (allReal_gather (dinv_allReal d) _ _) (allReal_gather (dinv_allReal d) _ _)) _ _

/-- the aggregation map sends real arrays, with real edge factors, to real arrays -/
theorem aggAt_allReal (t s : Terms.EdgeI) (en : FVec Ideal S1600000x1 .f32) (hen : AllReal en)
    (hw : FVec Ideal S100000x64 .f32) (hhw : AllReal hw) : AllReal (Terms.aggAt t s en hw) := by
  unfold Terms.aggAt
  refine allReal_scatterAdd ?_ (allReal_mulf (allReal_broadcastInDim hen _ _) (allReal_gather hhw _ _)) _ _
  exact allReal_broadcastInDim (allReal_constant _ _ zero_isReal) _ _

end Cert.KernelIdeal.TermsReal

end
-- ==== Proof.KernelBridge.lean ====
/-
  One layer of the idealized kernel program, as the layer of the real-number algebra.

  The kernel program's layer divides its two totals by the count 6400000, carried as a 1 × 1 array, and takes the
  variance as the mean of the squares minus the square of the mean. Read at the one index of a 1 × 1 array these are
  the quotients and the difference of the algebra's layer, so the two layers are the same function. The weight matrix
  and the rows of a layer are entries of the stacked arguments, read through a slice and a reshape, so they are real
  when the arguments are; and then the layer's result is real.
-/
import proofs.«123589_j55817394979590_1_alg».proof.Proof.KernelTerms
import proofs.«123589_j55817394979590_1_alg».proof.Proof.LayerAlgebra
import proofs.«123589_j55817394979590_1_alg».proof.Proof.TermsReal

noncomputable section

namespace Cert.KernelIdeal.Bridge

open Cert.KernelIdeal Idealize.ShloMosaic Cert.LayerAlgebra
open Cert.KernelIdeal.Facts₀ Cert.KernelIdeal.Facts

/-! ### The kernel program's layer is the algebra's layer -/

/-- The mean out of a total: at the one index, the total divided by the count 6400000. -/
theorem meanOf_apply (t : FVec Ideal S1x1 .f32) (j : S1x1.Idx) :
    Terms.meanOf t j = Ideal.div (t j) (Ideal.ofBits .f32 0x4AC35000#32) := rfl

/-- The variance out of the two totals: at the one index, the mean of the squares minus the square of the mean. -/
theorem varOf_apply (t q : FVec Ideal S1x1 .f32) (j : S1x1.Idx) :
    Terms.varOf t q j = Ideal.div (q j) (Ideal.ofBits .f32 0x4AC35000#32)
      - Ideal.div (t j) (Ideal.ofBits .f32 0x4AC35000#32) * Ideal.div (t j) (Ideal.ofBits .f32 0x4AC35000#32) := rfl

/-- One layer of the kernel program is the algebra's layer with the variance as (Σ a²)/n − ((Σ a)/n)², at the program's
    aggregation map and its nodes' own factors. -/
theorem layer_is_layerK (e : Terms.EdgeList) (w : FVec Ideal S64x64 .f32) (b lw lb : FVec Ideal S1x64 .f32)
    (h : FVec Ideal S100000x64 .f32) :
    Terms.layer e w b lw lb h
      = LayerAlgebra.layerK (Terms.aggAt (Terms.dst e) (Terms.src e) (Terms.enorm (Terms.src e) (Terms.dst e)))
          (Terms.selfn (Terms.dst e)) w b lw lb h := by
  unfold Terms.layer Terms.aggregate LayerAlgebra.layerK
  have hm : ∀ t : FVec Ideal S1x1 .f32, Terms.meanOf t = fun j => Ideal.div (t j) (Ideal.ofBits .f32 0x4AC35000#32) :=
    fun t => funext fun j => meanOf_apply t j
  have hv : ∀ t q : FVec Ideal S1x1 .f32, Terms.varOf t q = fun j => Ideal.div (q j) (Ideal.ofBits .f32 0x4AC35000#32)
      - Ideal.div (t j) (Ideal.ofBits .f32 0x4AC35000#32) * Ideal.div (t j) (Ideal.ofBits .f32 0x4AC35000#32) :=
    fun t q => funext fun j => varOf_apply t q j
  rw [hm, hv]

/-! ### The layers' weights and rows are entries of the arguments -/

/-- layer 0's weight matrix is real when the stack of four is -/
theorem weight0_allReal (w : FVec Ideal S4x64x64 .f32) (hw : AllReal w) : AllReal (Terms.weight0 w) := by
  intro i; unfold Terms.weight0 shapeCast extractStridedSlice; exact hw _
/-- layer 1's weight matrix is real when the stack of four is -/
theorem weight1_allReal (w : FVec Ideal S4x64x64 .f32) (hw : AllReal w) : AllReal (Terms.weight1 w) := by
  intro i; unfold Terms.weight1 shapeCast extractStridedSlice; exact hw _
/-- layer 2's weight matrix is real when the stack of four is -/
theorem weight2_allReal (w : FVec Ideal S4x64x64 .f32) (hw : AllReal w) : AllReal (Terms.weight2 w) := by
  intro i; unfold Terms.weight2 shapeCast extractStridedSlice; exact hw _
/-- layer 3's weight matrix is real when the stack of four is -/
theorem weight3_allReal (w : FVec Ideal S4x64x64 .f32) (hw : AllReal w) : AllReal (Terms.weight3 w) := by
  intro i; unfold Terms.weight3 shapeCast extractStridedSlice; exact hw _

/-- row 0 of a real 4 × 64 array is real -/
theorem row0_allReal (b : FVec Ideal S4x64 .f32) (hb : AllReal b) : AllReal (Terms.row0 b) := by
  intro i; unfold Terms.row0 shapeCast extractStridedSlice; exact hb _
/-- row 1 of a real 4 × 64 array is real -/
theorem row1_allReal (b : FVec Ideal S4x64 .f32) (hb : AllReal b) : AllReal (Terms.row1 b) := by
  intro i; unfold Terms.row1 shapeCast extractStridedSlice; exact hb _
/-- row 2 of a real 4 × 64 array is real -/
theorem row2_allReal (b : FVec Ideal S4x64 .f32) (hb : AllReal b) : AllReal (Terms.row2 b) := by
  intro i; unfold Terms.row2 shapeCast extractStridedSlice; exact hb _
/-- row 3 of a real 4 × 64 array is real -/
theorem row3_allReal (b : FVec Ideal S4x64 .f32) (hb : AllReal b) : AllReal (Terms.row3 b) := by
  intro i; unfold Terms.row3 shapeCast extractStridedSlice; exact hb _

/-! ### A layer keeps real numbers real -/

/-- One layer of the kernel program on real inputs gives a real array: the edge factors and the nodes' own factors are
    real, the aggregation map keeps real arrays real, and the algebra's layer does. -/
theorem layer_allReal (e : Terms.EdgeList) (w : FVec Ideal S64x64 .f32) (b lw lb : FVec Ideal S1x64 .f32)
    (h : FVec Ideal S100000x64 .f32) (hw : AllReal w) (hb : AllReal b) (hlw : AllReal lw) (hlb : AllReal lb)
    (hh : AllReal h) : AllReal (Terms.layer e w b lw lb h) := by
  rw [layer_is_layerK]
  exact layer_real hh hw hb hlw hlb (TermsReal.selfn_allReal _)
    (fun v hv => TermsReal.aggAt_allReal _ _ _ (TermsReal.enorm_allReal _ _) v hv)

end Cert.KernelIdeal.Bridge

end
-- ==== Proof.CrossTerms.lean ====
/-
  The two programs' host-side terms are the same functions.

  Both programs compute, from the edge list, its two rows, the wrapped indices, the degree factors, the edge factors and
  the gather-scale-scatter aggregation, and cut the layers' weights and rows out of the stacked parameter arrays, by the
  same operations over the same literal shapes; the two texts differ only in which program's table of dimension records
  they name. Here each reference-side term is identified with the kernel-side one. Two real differences are kept
  visible: the reference scatters at the wrapped target index, the kernel program at the target index as it is; and the
  reference carries a layer's row as a vector of 64 that it spreads to 1 × 64, the kernel program as the 1 × 64 reshape.
-/
import proofs.«123589_j55817394979590_1_alg».proof.Proof.KernelTerms
import proofs.«123589_j55817394979590_1_alg».proof.Proof.RefTerms
import Idealize.ShloMosaic.Lib.ValueIdx
import Idealize.ShloMosaic.Lib.ValueLayout
import Idealize.ShloMosaic.Lib.Pipeline.Value

noncomputable section

namespace Cert.CrossTerms

open Idealize.ShloMosaic Idealize.ShloMosaic.ValueIdx

/-! ### The edge list's rows, the wrapped indices and the factors -/

/-- the sources -/
theorem src_eq (e : Cert.KernelIdeal.Terms.EdgeList) :
    Cert.ReferenceIdeal.RTerms.src e = Cert.KernelIdeal.Terms.src e := rfl
/-- the targets -/
theorem dst_eq (e : Cert.KernelIdeal.Terms.EdgeList) :
    Cert.ReferenceIdeal.RTerms.dst e = Cert.KernelIdeal.Terms.dst e := rfl
/-- the wrapped indices -/
theorem wrap_eq (v : Cert.KernelIdeal.Terms.EdgeI) :
    Cert.ReferenceIdeal.RTerms.wrap v = Cert.KernelIdeal.Terms.wrap v := rfl
/-- the indices as a column -/
theorem col_eq (v : Cert.KernelIdeal.Terms.EdgeI) :
    Cert.ReferenceIdeal.RTerms.col v = Cert.KernelIdeal.Terms.col v := rfl
/-- the degree factors -/
theorem dinv_eq (d : Cert.KernelIdeal.Terms.EdgeI) :
    Cert.ReferenceIdeal.RTerms.dinv d = Cert.KernelIdeal.Terms.dinv d := rfl
/-- the nodes' own factors -/
theorem selfn_eq (d : Cert.KernelIdeal.Terms.EdgeI) :
    Cert.ReferenceIdeal.RTerms.selfn d = Cert.KernelIdeal.Terms.selfn d := rfl
/-- the edges' factors -/
theorem enorm_eq (s d : Cert.KernelIdeal.Terms.EdgeI) :
    Cert.ReferenceIdeal.RTerms.enorm s d = Cert.KernelIdeal.Terms.enorm s d := rfl

/-- the reference's aggregation map is the kernel program's at the WRAPPED target index -/
theorem agg_eq (s d : Cert.KernelIdeal.Terms.EdgeI) (en : FVec Ideal Cert.KernelIdeal.S1600000x1 .f32)
    (hw : FVec Ideal Cert.KernelIdeal.S100000x64 .f32) :
    Cert.ReferenceIdeal.RTerms.agg s d en hw
      = Cert.KernelIdeal.Terms.aggAt (Cert.KernelIdeal.Terms.wrap d) s en hw := rfl

/-! ### The layers' weight matrices -/

/-- block 0 of the weights, whatever proof of the slice's side condition the reference's term carries -/
theorem weight0_eq (hs : Cert.ReferenceIdeal.S4x64x64.Slices ![0, 0, 0] Cert.ReferenceIdeal.S1x64x64)
    (W : FVec Ideal Cert.KernelIdeal.S4x64x64 .f32) :
    Cert.ReferenceIdeal.RTerms.weightL 0 hs W = Cert.KernelIdeal.Terms.weight0 W := rfl
/-- block 1 of the weights -/
theorem weight1_eq (hs : Cert.ReferenceIdeal.S4x64x64.Slices ![1, 0, 0] Cert.ReferenceIdeal.S1x64x64)
    (W : FVec Ideal Cert.KernelIdeal.S4x64x64 .f32) :
    Cert.ReferenceIdeal.RTerms.weightL 1 hs W = Cert.KernelIdeal.Terms.weight1 W := rfl
/-- block 2 of the weights -/
theorem weight2_eq (hs : Cert.ReferenceIdeal.S4x64x64.Slices ![2, 0, 0] Cert.ReferenceIdeal.S1x64x64)
    (W : FVec Ideal Cert.KernelIdeal.S4x64x64 .f32) :
    Cert.ReferenceIdeal.RTerms.weightL 2 hs W = Cert.KernelIdeal.Terms.weight2 W := rfl
/-- block 3 of the weights -/
theorem weight3_eq (hs : Cert.ReferenceIdeal.S4x64x64.Slices ![3, 0, 0] Cert.ReferenceIdeal.S1x64x64)
    (W : FVec Ideal Cert.KernelIdeal.S4x64x64 .f32) :
    Cert.ReferenceIdeal.RTerms.weightL 3 hs W = Cert.KernelIdeal.Terms.weight3 W := rfl

/-! ### The layers' rows

The reference reshapes the 1 × 64 slice to a vector of 64 and spreads the vector along axis 1 of a 1 × 64 array; the kernel
program reshapes the same vector to 1 × 64. Entry (0, c) of either is entry c of the vector. -/

/-- a vector of 64 spread along axis 1 of a 1 × 64 array is the vector reshaped to 1 × 64 -/
theorem spread_eq_cast (r : (⟨1, ![64]⟩ : Shape).Idx → EReal)
    (hb : (⟨1, ![64]⟩ : Shape).BroadcastsInDim ⟨2, ![1, 64]⟩ (![1] : Fin 1 → Fin 2))
    (hc : (⟨1, ![64]⟩ : Shape).ShapeCasts ⟨2, ![1, 64]⟩) :
    broadcastInDim ⟨2, ![1, 64]⟩ ![1] hb r = shapeCast ⟨2, ![1, 64]⟩ r hc := by
  funext i
  obtain ⟨u, c, rfl⟩ : ∃ (u : Fin 1) (c : Fin 64), i = ix2 u c := ⟨i 0, i 1, eq_ix2 i⟩
  refine (broadcastInDim_apply ![1] hb r (ix2 u c) (ix1 c) (fun a => ?_)).trans (shapeCast_a_1a_apply r hc u c).symm
  match a with
  | ⟨0, _⟩ => show c.val = if (64 : ℕ) = 1 then 0 else c.val; exact (if_neg (by decide)).symm

/-- row 0 -/
theorem row0_eq (hs : Cert.ReferenceIdeal.S4x64.Slices ![0, 0] Cert.ReferenceIdeal.S1x64)
    (hb : Cert.ReferenceIdeal.S64.BroadcastsInDim Cert.ReferenceIdeal.S1x64 (![1] : Fin 1 → Fin 2))
    (x : FVec Ideal Cert.KernelIdeal.S4x64 .f32) :
    (broadcastInDim Cert.ReferenceIdeal.S1x64 ![1] hb (Cert.ReferenceIdeal.RTerms.rowL 0 hs x) : Cert.Spec.SR.Idx → EReal)
      = Cert.KernelIdeal.Terms.row0 x :=
  spread_eq_cast _ hb _
/-- row 1 -/
theorem row1_eq (hs : Cert.ReferenceIdeal.S4x64.Slices ![1, 0] Cert.ReferenceIdeal.S1x64)
    (hb : Cert.ReferenceIdeal.S64.BroadcastsInDim Cert.ReferenceIdeal.S1x64 (![1] : Fin 1 → Fin 2))
    (x : FVec Ideal Cert.KernelIdeal.S4x64 .f32) :
    (broadcastInDim Cert.ReferenceIdeal.S1x64 ![1] hb (Cert.ReferenceIdeal.RTerms.rowL 1 hs x) : Cert.Spec.SR.Idx → EReal)
      = Cert.KernelIdeal.Terms.row1 x :=
  spread_eq_cast _ hb _
/-- row 2 -/
theorem row2_eq (hs : Cert.ReferenceIdeal.S4x64.Slices ![2, 0] Cert.ReferenceIdeal.S1x64)
    (hb : Cert.ReferenceIdeal.S64.BroadcastsInDim Cert.ReferenceIdeal.S1x64 (![1] : Fin 1 → Fin 2))
    (x : FVec Ideal Cert.KernelIdeal.S4x64 .f32) :
    (broadcastInDim Cert.ReferenceIdeal.S1x64 ![1] hb (Cert.ReferenceIdeal.RTerms.rowL 2 hs x) : Cert.Spec.SR.Idx → EReal)
      = Cert.KernelIdeal.Terms.row2 x :=
  spread_eq_cast _ hb _
/-- row 3 -/
theorem row3_eq (hs : Cert.ReferenceIdeal.S4x64.Slices ![3, 0] Cert.ReferenceIdeal.S1x64)
    (hb : Cert.ReferenceIdeal.S64.BroadcastsInDim Cert.ReferenceIdeal.S1x64 (![1] : Fin 1 → Fin 2))
    (x : FVec Ideal Cert.KernelIdeal.S4x64 .f32) :
    (broadcastInDim Cert.ReferenceIdeal.S1x64 ![1] hb (Cert.ReferenceIdeal.RTerms.rowL 3 hs x) : Cert.Spec.SR.Idx → EReal)
      = Cert.KernelIdeal.Terms.row3 x :=
  spread_eq_cast _ hb _

end Cert.CrossTerms

end
-- ==== Proof.RefLayer.lean ====
/-
  One layer of the reference, read entry by entry, is the layer of the specification.

  The reference forms h · W, the aggregate a = agg + selfn · (h · W) + bias, the mean μ of all 6 400 000 entries of a
  (their sum, started from the zero word, over the word of 6 400 000), the mean σ² of the squares (a − μ)², and
      max (lnw · (a − μ) · (σ² + ε)^(-1/2) + lnb) 0.
  Every operation is pointwise, a spreading of a row, a column or a single value over the array, a full sum, or the
  product with a 64 × 64 matrix; reading each at an index gives the specification's formula with the variance computed
  from the centred entries.
-/
import proofs.«123589_j55817394979590_1_alg».proof.Proof.RefTerms
import proofs.«123589_j55817394979590_1_alg».proof.Proof.LayerAlgebra
import Idealize.ShloMosaic.PureOps.Ideal
import Idealize.ShloMosaic.PureOps.Ideal.Laws
import Idealize.ShloMosaic.Lib.ValueIdx
import Idealize.ShloMosaic.Lib.Pipeline.Value

noncomputable section

namespace Cert.ReferenceIdeal.RLayer

open Cert.ReferenceIdeal Idealize.ShloMosaic Idealize.ShloMosaic.ValueIdx
open Cert.ReferenceIdeal.Facts₀ Cert.ReferenceIdeal.Facts
open Cert.Spec (rowOf chanOf)

/-- a vector of 64 channels as a 1 × 64 row -/
def row1 (r : FVec Ideal S64 .f32) : Cert.Spec.SR.Idx → EReal := broadcastInDim S1x64 ![1] bcast_S64_S1x64_1 r

/-! ### The product with the weight matrix -/

/-- the left operand of the product at (i, k) is h at row i₀, column k; -/
theorem lhs_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem lhs_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
/-- the right operand is w at row k, column i₁. -/
theorem rhs_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
theorem rhs_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- The reference's product h · w is the matrix product: entry (p, q) is Σₖ h (p, k) · w (k, q). -/
theorem dot_eq (h : FVec Ideal S100000x64 .f32) (w : FVec Ideal S64x64 .f32) :
    Host.dotGeneral (F := Ideal) dot_S100000x64_S64x64_S100000x64_1_0_0_1_n_n none h w = Cert.Spec.mm h w := by
  funext i
  simp only [Host.dotGeneral]
  rw [Ideal.dotGeneral_apply, ← Equiv.sum_comp (contrEquiv1 dot_S100000x64_S64x64_S100000x64_1_0_0_1_n_n 64 rfl rfl).symm]
  unfold Cert.Spec.mm
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx i ((contrEquiv1 dot_S100000x64_S64x64_S100000x64_1_0_0_1_n_n 64 rfl rfl).symm k) = ix2 (rowOf i) k := funext fun a => Fin.ext (by
    match a with
    | ⟨0, _⟩ => exact lhs_0 _ _
    | ⟨1, _⟩ => exact (lhs_1 _ _).trans hk)
  have er : dot_S100000x64_S64x64_S100000x64_1_0_0_1_n_n.rhsIdx i ((contrEquiv1 dot_S100000x64_S64x64_S100000x64_1_0_0_1_n_n 64 rfl rfl).symm k) = ix2 k (chanOf i) := funext fun a => Fin.ext (by
    match a with
    | ⟨0, _⟩ => exact (rhs_0 _ _).trans hk
    | ⟨1, _⟩ => exact rhs_1 _ _)
  rw [el, er]

/-! ### The broadcasts, read at an index -/

/-- the per-node factor spread over the channels reads, at i, the factor of i's row; -/
theorem bsn_apply (sn : FVec Ideal S100000x1 .f32) (i : S100000x64.Idx) :
    broadcastInDim S100000x64 ![0, 1] bcast_S100000x1_S100000x64_0_1 sn i = sn (ix2 (rowOf i) (0 : Fin 1)) :=
  broadcastInDim_apply _ bcast_S100000x1_S100000x64_0_1 sn i (ix2 (rowOf i) (0 : Fin 1)) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

/-- a row of 64 channels spread over the rows reads, at i, the value of i's channel; -/
theorem spread_apply (r : FVec Ideal S64 .f32) (i : S100000x64.Idx) :
    RTerms.spread r i = row1 r (ix2 (0 : Fin 1) (chanOf i)) := by
  unfold RTerms.spread row1
  exact broadcastInDim_apply _ bcast_S1x64_S100000x64_0_1 _ i (ix2 (0 : Fin 1) (chanOf i)) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

/-- a single value spread over the whole array reads that value everywhere. -/
theorem bscalar_apply (x : FVec Ideal S_ .f32) (i : S100000x64.Idx) :
    broadcastInDim S100000x64 ![] bcast_S_S100000x64 x i = x ix0 :=
  broadcastInDim_apply _ bcast_S_S100000x64 x i ix0 (fun a => a.elim0)

/-! ### The aggregate with self loop and bias -/

/-- the aggregate with self loop and bias at an entry, for any aggregated array g and any spread bias B -/
theorem pre_apply (g : FVec Ideal S100000x64 .f32) (sn : FVec Ideal S100000x1 .f32) (B hw : FVec Ideal S100000x64 .f32)
    (i : S100000x64.Idx) :
    addf (F := Ideal) (addf (F := Ideal) g (mulf (F := Ideal)
        (broadcastInDim S100000x64 ![0, 1] bcast_S100000x1_S100000x64_0_1 sn) hw)) B i
      = (g i + sn (ix2 (rowOf i) (0 : Fin 1)) * hw i) + B i := by
  show (g i + broadcastInDim S100000x64 ![0, 1] bcast_S100000x1_S100000x64_0_1 sn i * hw i) + B i = _
  rw [bsn_apply]

/-- The reference's aggregate with self loop and bias is the specification's. -/
theorem pre_eq (s d : RTerms.EdgeI) (en : FVec Ideal S1600000x1 .f32) (sn : FVec Ideal S100000x1 .f32)
    (b : FVec Ideal S64 .f32) (hw : FVec Ideal S100000x64 .f32) :
    RTerms.pre s d en sn (RTerms.spread b) hw = Cert.Spec.comb hw (RTerms.agg s d en hw) sn (row1 b) := by
  funext i
  exact (pre_apply (RTerms.agg s d en hw) sn (RTerms.spread b) hw i).trans
    (congrArg (fun z => (RTerms.agg s d en hw i + sn (ix2 (rowOf i) (0 : Fin 1)) * hw i) + z) (spread_apply b i))

/-! ### The mean, the variance, the normalisation -/

/-- the mean of all entries: (0-word + Σ a) / n-word -/
def MU (a : Cert.Spec.SN.Idx → EReal) : EReal :=
  Ideal.div (Ideal.ofBits .f32 0x00000000#32 + ∑ i, a i) (Ideal.ofBits .f32 0x4AC35000#32)

/-- the reference's mean is that, at its one index -/
theorem meanAll_apply (a : FVec Ideal S100000x64 .f32) (j : S_.Idx) : RTerms.meanAll a j = MU a := by
  unfold RTerms.meanAll MU
  generalize hR : Host.reduceAdd (F := Ideal) a (constant (F := Ideal) S_ .f32 0x00000000#32)
      reducesTo_S100000x64_S_d0_1 h_S_ = R
  have key : R j = Ideal.ofBits .f32 0x00000000#32 + ∑ i : S100000x64.Idx, a i := by
    rw [← hR]
    simp only [Host.reduceAdd, Ideal.hostReduceAdd_def]
    exact Ideal.hostReduceAdd_total reducesTo_S100000x64_S_d0_1 (fun b => b.elim0) a _ j
  show Ideal.div (R j) (Ideal.ofBits .f32 0x4AC35000#32) = _
  rw [key]

/-- the centred array at an entry: the entry minus the mean -/
theorem centred_apply (a : FVec Ideal S100000x64 .f32) (i : S100000x64.Idx) :
    RTerms.centred a i = a i - RTerms.meanAll a ix0 := by
  unfold RTerms.centred
  generalize RTerms.meanAll a = m
  show a i - broadcastInDim S100000x64 ![] bcast_S_S100000x64 m i = _
  rw [bscalar_apply]

/-- the centred array, entry by entry -/
theorem centred_eq (a : FVec Ideal S100000x64 .f32) : RTerms.centred a = fun i => a i - MU a := by
  funext i
  rw [centred_apply, meanAll_apply]

/-- the normalisation and rectifier at an entry, in terms of the centred array and the mean of its squares -/
theorem normRelu_apply (a lnw lnb : FVec Ideal S100000x64 .f32) (i : S100000x64.Idx) :
    RTerms.normRelu a lnw lnb i
      = max ((lnw i * RTerms.centred a i)
            * Ideal.rsqrt (RTerms.meanAll (mulf (F := Ideal) (RTerms.centred a) (RTerms.centred a)) ix0
                + Ideal.ofBits .f32 0x3727C5AC#32)
          + lnb i) (Ideal.ofBits .f32 0x00000000#32) := by
  unfold RTerms.normRelu
  generalize RTerms.centred a = ca
  generalize RTerms.meanAll (mulf (F := Ideal) ca ca) = v
  show max ((lnw i * ca i)
        * broadcastInDim S100000x64 ![] bcast_S_S100000x64
            (Host.rsqrt (F := Ideal) (addf (F := Ideal) v (constant (F := Ideal) S_ .f32 0x3727C5AC#32))) i
        + lnb i)
      (broadcastInDim S100000x64 ![] bcast_S_S100000x64 (constant (F := Ideal) S_ .f32 0x00000000#32) i) = _
  rw [bscalar_apply, bscalar_apply]
  rfl

/-- The reference's normalisation and rectifier is the specification's, with the mean (0-word + Σ a)/n and the
    variance (0-word + Σ (a − μ)²)/n. -/
theorem normRelu_eq (a : FVec Ideal S100000x64 .f32) (lw lb : FVec Ideal S64 .f32) :
    RTerms.normRelu a (RTerms.spread lw) (RTerms.spread lb)
      = Cert.Spec.norm a (fun _ => MU a) (fun _ => MU (fun i => (a i - MU a) * (a i - MU a))) (row1 lw) (row1 lb) := by
  funext i
  have hsq : mulf (F := Ideal) (fun i => a i - MU a) (fun i => a i - MU a) = fun i => (a i - MU a) * (a i - MU a) := rfl
  rw [normRelu_apply, centred_eq, spread_apply, spread_apply, meanAll_apply, hsq, Ideal.ofBits_zero_f32]
  rfl

/-! ### One layer -/

/-- One layer of the reference is the layer of the specification with the variance computed from the centred entries. -/
theorem rlayerAt_is_layerR (s d : RTerms.EdgeI) (en : FVec Ideal S1600000x1 .f32) (sn : FVec Ideal S100000x1 .f32)
    (w : FVec Ideal S64x64 .f32) (b lw lb : FVec Ideal S64 .f32) (h : FVec Ideal S100000x64 .f32) :
    RTerms.rlayerAt s d en sn w b lw lb h
      = LayerAlgebra.layerR (fun hw => RTerms.agg s d en hw) sn w (row1 b) (row1 lw) (row1 lb) h := by
  unfold RTerms.rlayerAt
  rw [dot_eq, pre_eq, normRelu_eq]
  unfold LayerAlgebra.layerR MU
  rfl

end Cert.ReferenceIdeal.RLayer

end
-- ==== Proof.LayersBridge.lean ====
/-
  The four layers of the reference and of the idealized kernel program give the same array.

  Both programs apply four layers to the node features. A layer of the reference normalises by the mean μ of its
  aggregate and by the centred variance (Σ (a − μ)²)/n; a layer of the kernel program by the same mean and by
  (Σ a²)/n − ((Σ a)/n)². The host-side pieces of the two programs are the same functions of the edge list, except that
  the reference wraps the target index before it scatters, which changes nothing for an edge list of node numbers. On
  real numbers the two formulas for the variance agree, every piece of a layer keeps real numbers real, and so each
  layer's output, being real, is a fit input for the next layer's agreement.
-/
import proofs.«123589_j55817394979590_1_alg».proof.Proof.KernelBridge
import proofs.«123589_j55817394979590_1_alg».proof.Proof.CrossTerms
import proofs.«123589_j55817394979590_1_alg».proof.Proof.TermsReal
import proofs.«123589_j55817394979590_1_alg».proof.Proof.LayerAlgebra
import proofs.«123589_j55817394979590_1_alg».proof.Proof.RefLayer

noncomputable section

namespace Cert.LayersBridge

open Idealize.ShloMosaic Cert.LayerAlgebra

/-! ### One layer -/

/-- a row of the reference, spread to 1 × 64, is the kernel program's row: row 0 -/
theorem spread_row0 (x : FVec Ideal Cert.KernelIdeal.S4x64 .f32) :
    Cert.ReferenceIdeal.RLayer.row1 (Cert.ReferenceIdeal.RTerms.rowL 0 Cert.ReferenceIdeal.Facts₀.slices_S4x64_S1x64_0_0 x) = Cert.KernelIdeal.Terms.row0 x :=
  Cert.CrossTerms.row0_eq _ _ x
/-- row 1 -/
theorem spread_row1 (x : FVec Ideal Cert.KernelIdeal.S4x64 .f32) :
    Cert.ReferenceIdeal.RLayer.row1 (Cert.ReferenceIdeal.RTerms.rowL 1 Cert.ReferenceIdeal.Facts₀.slices_S4x64_S1x64_1_0 x) = Cert.KernelIdeal.Terms.row1 x :=
  Cert.CrossTerms.row1_eq _ _ x
/-- row 2 -/
theorem spread_row2 (x : FVec Ideal Cert.KernelIdeal.S4x64 .f32) :
    Cert.ReferenceIdeal.RLayer.row1 (Cert.ReferenceIdeal.RTerms.rowL 2 Cert.ReferenceIdeal.Facts₀.slices_S4x64_S1x64_2_0 x) = Cert.KernelIdeal.Terms.row2 x :=
  Cert.CrossTerms.row2_eq _ _ x
/-- row 3 -/
theorem spread_row3 (x : FVec Ideal Cert.KernelIdeal.S4x64 .f32) :
    Cert.ReferenceIdeal.RLayer.row1 (Cert.ReferenceIdeal.RTerms.rowL 3 Cert.ReferenceIdeal.Facts₀.slices_S4x64_S1x64_3_0 x) = Cert.KernelIdeal.Terms.row3 x :=
  Cert.CrossTerms.row3_eq _ _ x

/-- The reference's aggregation map, on an edge list of node numbers, is the kernel program's: the two are the same
    gather, scale and scatter except that the reference wraps the target index, and a node number needs no wrapping. -/
theorem agg_agree (e : Cert.KernelIdeal.Terms.EdgeList) (he : ∀ i, (0 : Int) ≤ (e i).toInt ∧ (e i).toInt < 100000) :
    (fun hw => Cert.ReferenceIdeal.RTerms.agg (Cert.ReferenceIdeal.RTerms.src e) (Cert.ReferenceIdeal.RTerms.dst e)
        (Cert.ReferenceIdeal.RTerms.enorm (Cert.ReferenceIdeal.RTerms.src e) (Cert.ReferenceIdeal.RTerms.dst e)) hw)
      = Cert.KernelIdeal.Terms.aggAt (Cert.KernelIdeal.Terms.dst e) (Cert.KernelIdeal.Terms.src e) (Cert.KernelIdeal.Terms.enorm (Cert.KernelIdeal.Terms.src e) (Cert.KernelIdeal.Terms.dst e)) := by
  funext hw
  show Cert.KernelIdeal.Terms.aggAt (Cert.KernelIdeal.Terms.wrap (Cert.KernelIdeal.Terms.dst e)) (Cert.KernelIdeal.Terms.src e)
      (Cert.KernelIdeal.Terms.enorm (Cert.KernelIdeal.Terms.src e) (Cert.KernelIdeal.Terms.dst e)) hw = _
  rw [Cert.KernelIdeal.TermsReal.wrap_of_nonneg _ (Cert.KernelIdeal.TermsReal.dst_nonneg e he)]

/-- One layer of the reference is one layer of the kernel program, on real inputs and an edge list of node numbers, when
    the reference's three rows, spread to 1 × 64, are the kernel program's rows: the reference's layer is the algebra's
    layer with the centred variance, the kernel program's is the algebra's with the variance as the mean of the squares
    minus the square of the mean, and on real numbers the two agree. -/
theorem layer_agree (e : Cert.KernelIdeal.Terms.EdgeList) (he : ∀ i, (0 : Int) ≤ (e i).toInt ∧ (e i).toInt < 100000)
    (w : FVec Ideal Cert.KernelIdeal.S64x64 .f32) (rb rlw rlb : FVec Ideal Cert.ReferenceIdeal.S64 .f32) (b lw lb : FVec Ideal Cert.KernelIdeal.S1x64 .f32)
    (eb : Cert.ReferenceIdeal.RLayer.row1 rb = b) (elw : Cert.ReferenceIdeal.RLayer.row1 rlw = lw) (elb : Cert.ReferenceIdeal.RLayer.row1 rlb = lb)
    (hw : AllReal w) (hb : AllReal b) (hlw : AllReal lw) (hlb : AllReal lb)
    (h : FVec Ideal Cert.KernelIdeal.S100000x64 .f32) (hh : AllReal h) :
    Cert.ReferenceIdeal.RTerms.rlayer e w rb rlw rlb h = Cert.KernelIdeal.Terms.layer e w b lw lb h := by
  unfold Cert.ReferenceIdeal.RTerms.rlayer
  rw [Cert.ReferenceIdeal.RLayer.rlayerAt_is_layerR, eb, elw, elb, Cert.KernelIdeal.Bridge.layer_is_layerK]
  refine Eq.trans ?_ (layer_eq hh hw hb hlw hlb (Cert.KernelIdeal.TermsReal.selfn_allReal _)
    (fun v hv => Cert.KernelIdeal.TermsReal.aggAt_allReal _ _ _ (Cert.KernelIdeal.TermsReal.enorm_allReal _ _) v hv)).symm
  exact congrArg (fun a => layerR a (Cert.KernelIdeal.Terms.selfn (Cert.KernelIdeal.Terms.dst e)) w b lw lb h) (agg_agree e he)

/-! ### The four layers -/

/-- layer 0 of the two programs agrees on real inputs -/
theorem layer0_agree (e : Cert.KernelIdeal.Terms.EdgeList) (he : ∀ i, (0 : Int) ≤ (e i).toInt ∧ (e i).toInt < 100000)
    (W : FVec Ideal Cert.KernelIdeal.S4x64x64 .f32) (B LW LB : FVec Ideal Cert.KernelIdeal.S4x64 .f32)
    (hW : AllReal W) (hB : AllReal B) (hLW : AllReal LW) (hLB : AllReal LB)
    (h : FVec Ideal Cert.KernelIdeal.S100000x64 .f32) (hh : AllReal h) :
    Cert.ReferenceIdeal.RTerms.rlayer0 e W B LW LB h = Cert.KernelIdeal.Terms.layer0 e W B LW LB h :=
  layer_agree e he (Cert.KernelIdeal.Terms.weight0 W) _ _ _ (Cert.KernelIdeal.Terms.row0 B) (Cert.KernelIdeal.Terms.row0 LW) (Cert.KernelIdeal.Terms.row0 LB)
    (spread_row0 B) (spread_row0 LW) (spread_row0 LB)
    (Cert.KernelIdeal.Bridge.weight0_allReal W hW) (Cert.KernelIdeal.Bridge.row0_allReal B hB) (Cert.KernelIdeal.Bridge.row0_allReal LW hLW)
    (Cert.KernelIdeal.Bridge.row0_allReal LB hLB) h hh

/-- layer 0 of the kernel program gives a real array on real inputs -/
theorem layer0_allReal (e : Cert.KernelIdeal.Terms.EdgeList) (W : FVec Ideal Cert.KernelIdeal.S4x64x64 .f32) (B LW LB : FVec Ideal Cert.KernelIdeal.S4x64 .f32)
    (hW : AllReal W) (hB : AllReal B) (hLW : AllReal LW) (hLB : AllReal LB)
    (h : FVec Ideal Cert.KernelIdeal.S100000x64 .f32) (hh : AllReal h) : AllReal (Cert.KernelIdeal.Terms.layer0 e W B LW LB h) :=
  Cert.KernelIdeal.Bridge.layer_allReal e _ _ _ _ h (Cert.KernelIdeal.Bridge.weight0_allReal W hW) (Cert.KernelIdeal.Bridge.row0_allReal B hB)
    (Cert.KernelIdeal.Bridge.row0_allReal LW hLW) (Cert.KernelIdeal.Bridge.row0_allReal LB hLB) hh

/-- layer 1 of the two programs agrees on real inputs -/
theorem layer1_agree (e : Cert.KernelIdeal.Terms.EdgeList) (he : ∀ i, (0 : Int) ≤ (e i).toInt ∧ (e i).toInt < 100000)
    (W : FVec Ideal Cert.KernelIdeal.S4x64x64 .f32) (B LW LB : FVec Ideal Cert.KernelIdeal.S4x64 .f32)
    (hW : AllReal W) (hB : AllReal B) (hLW : AllReal LW) (hLB : AllReal LB)
    (h : FVec Ideal Cert.KernelIdeal.S100000x64 .f32) (hh : AllReal h) :
    Cert.ReferenceIdeal.RTerms.rlayer1 e W B LW LB h = Cert.KernelIdeal.Terms.layer1 e W B LW LB h :=
  layer_agree e he (Cert.KernelIdeal.Terms.weight1 W) _ _ _ (Cert.KernelIdeal.Terms.row1 B) (Cert.KernelIdeal.Terms.row1 LW) (Cert.KernelIdeal.Terms.row1 LB)
    (spread_row1 B) (spread_row1 LW) (spread_row1 LB)
    (Cert.KernelIdeal.Bridge.weight1_allReal W hW) (Cert.KernelIdeal.Bridge.row1_allReal B hB) (Cert.KernelIdeal.Bridge.row1_allReal LW hLW)
    (Cert.KernelIdeal.Bridge.row1_allReal LB hLB) h hh

/-- layer 1 of the kernel program gives a real array on real inputs -/
theorem layer1_allReal (e : Cert.KernelIdeal.Terms.EdgeList) (W : FVec Ideal Cert.KernelIdeal.S4x64x64 .f32) (B LW LB : FVec Ideal Cert.KernelIdeal.S4x64 .f32)
    (hW : AllReal W) (hB : AllReal B) (hLW : AllReal LW) (hLB : AllReal LB)
    (h : FVec Ideal Cert.KernelIdeal.S100000x64 .f32) (hh : AllReal h) : AllReal (Cert.KernelIdeal.Terms.layer1 e W B LW LB h) :=
  Cert.KernelIdeal.Bridge.layer_allReal e _ _ _ _ h (Cert.KernelIdeal.Bridge.weight1_allReal W hW) (Cert.KernelIdeal.Bridge.row1_allReal B hB)
    (Cert.KernelIdeal.Bridge.row1_allReal LW hLW) (Cert.KernelIdeal.Bridge.row1_allReal LB hLB) hh

/-- layer 2 of the two programs agrees on real inputs -/
theorem layer2_agree (e : Cert.KernelIdeal.Terms.EdgeList) (he : ∀ i, (0 : Int) ≤ (e i).toInt ∧ (e i).toInt < 100000)
    (W : FVec Ideal Cert.KernelIdeal.S4x64x64 .f32) (B LW LB : FVec Ideal Cert.KernelIdeal.S4x64 .f32)
    (hW : AllReal W) (hB : AllReal B) (hLW : AllReal LW) (hLB : AllReal LB)
    (h : FVec Ideal Cert.KernelIdeal.S100000x64 .f32) (hh : AllReal h) :
    Cert.ReferenceIdeal.RTerms.rlayer2 e W B LW LB h = Cert.KernelIdeal.Terms.layer2 e W B LW LB h :=
  layer_agree e he (Cert.KernelIdeal.Terms.weight2 W) _ _ _ (Cert.KernelIdeal.Terms.row2 B) (Cert.KernelIdeal.Terms.row2 LW) (Cert.KernelIdeal.Terms.row2 LB)
    (spread_row2 B) (spread_row2 LW) (spread_row2 LB)
    (Cert.KernelIdeal.Bridge.weight2_allReal W hW) (Cert.KernelIdeal.Bridge.row2_allReal B hB) (Cert.KernelIdeal.Bridge.row2_allReal LW hLW)
    (Cert.KernelIdeal.Bridge.row2_allReal LB hLB) h hh

/-- layer 2 of the kernel program gives a real array on real inputs -/
theorem layer2_allReal (e : Cert.KernelIdeal.Terms.EdgeList) (W : FVec Ideal Cert.KernelIdeal.S4x64x64 .f32) (B LW LB : FVec Ideal Cert.KernelIdeal.S4x64 .f32)
    (hW : AllReal W) (hB : AllReal B) (hLW : AllReal LW) (hLB : AllReal LB)
    (h : FVec Ideal Cert.KernelIdeal.S100000x64 .f32) (hh : AllReal h) : AllReal (Cert.KernelIdeal.Terms.layer2 e W B LW LB h) :=
  Cert.KernelIdeal.Bridge.layer_allReal e _ _ _ _ h (Cert.KernelIdeal.Bridge.weight2_allReal W hW) (Cert.KernelIdeal.Bridge.row2_allReal B hB)
    (Cert.KernelIdeal.Bridge.row2_allReal LW hLW) (Cert.KernelIdeal.Bridge.row2_allReal LB hLB) hh

/-- layer 3 of the two programs agrees on real inputs -/
theorem layer3_agree (e : Cert.KernelIdeal.Terms.EdgeList) (he : ∀ i, (0 : Int) ≤ (e i).toInt ∧ (e i).toInt < 100000)
    (W : FVec Ideal Cert.KernelIdeal.S4x64x64 .f32) (B LW LB : FVec Ideal Cert.KernelIdeal.S4x64 .f32)
    (hW : AllReal W) (hB : AllReal B) (hLW : AllReal LW) (hLB : AllReal LB)
    (h : FVec Ideal Cert.KernelIdeal.S100000x64 .f32) (hh : AllReal h) :
    Cert.ReferenceIdeal.RTerms.rlayer3 e W B LW LB h = Cert.KernelIdeal.Terms.layer3 e W B LW LB h :=
  layer_agree e he (Cert.KernelIdeal.Terms.weight3 W) _ _ _ (Cert.KernelIdeal.Terms.row3 B) (Cert.KernelIdeal.Terms.row3 LW) (Cert.KernelIdeal.Terms.row3 LB)
    (spread_row3 B) (spread_row3 LW) (spread_row3 LB)
    (Cert.KernelIdeal.Bridge.weight3_allReal W hW) (Cert.KernelIdeal.Bridge.row3_allReal B hB) (Cert.KernelIdeal.Bridge.row3_allReal LW hLW)
    (Cert.KernelIdeal.Bridge.row3_allReal LB hLB) h hh

/-- layer 3 of the kernel program gives a real array on real inputs -/
theorem layer3_allReal (e : Cert.KernelIdeal.Terms.EdgeList) (W : FVec Ideal Cert.KernelIdeal.S4x64x64 .f32) (B LW LB : FVec Ideal Cert.KernelIdeal.S4x64 .f32)
    (hW : AllReal W) (hB : AllReal B) (hLW : AllReal LW) (hLB : AllReal LB)
    (h : FVec Ideal Cert.KernelIdeal.S100000x64 .f32) (hh : AllReal h) : AllReal (Cert.KernelIdeal.Terms.layer3 e W B LW LB h) :=
  Cert.KernelIdeal.Bridge.layer_allReal e _ _ _ _ h (Cert.KernelIdeal.Bridge.weight3_allReal W hW) (Cert.KernelIdeal.Bridge.row3_allReal B hB)
    (Cert.KernelIdeal.Bridge.row3_allReal LW hLW) (Cert.KernelIdeal.Bridge.row3_allReal LB hLB) hh

/-- The four layers of the reference, one after the other, give the array the four layers of the kernel program give, on
    real features and parameters and an edge list of node numbers: each layer agrees on real inputs, and each layer's
    output is real, which is what the next layer asks. -/
theorem layers_agree (x : FVec Ideal Cert.KernelIdeal.S100000x64 .f32) (e : Cert.KernelIdeal.Terms.EdgeList)
    (W : FVec Ideal Cert.KernelIdeal.S4x64x64 .f32) (B LW LB : FVec Ideal Cert.KernelIdeal.S4x64 .f32)
    (hx : AllReal x) (hW : AllReal W) (hB : AllReal B) (hLW : AllReal LW) (hLB : AllReal LB)
    (he : ∀ i, (0 : Int) ≤ (e i).toInt ∧ (e i).toInt < 100000) :
    Cert.ReferenceIdeal.RTerms.rlayer3 e W B LW LB (Cert.ReferenceIdeal.RTerms.rlayer2 e W B LW LB (Cert.ReferenceIdeal.RTerms.rlayer1 e W B LW LB
        (Cert.ReferenceIdeal.RTerms.rlayer0 e W B LW LB x)))
      = Cert.KernelIdeal.Terms.layer3 e W B LW LB (Cert.KernelIdeal.Terms.layer2 e W B LW LB (Cert.KernelIdeal.Terms.layer1 e W B LW LB
        (Cert.KernelIdeal.Terms.layer0 e W B LW LB x))) := by
  have r0 := layer0_allReal e W B LW LB hW hB hLW hLB x hx
  have r1 := layer1_allReal e W B LW LB hW hB hLW hLB _ r0
  have r2 := layer2_allReal e W B LW LB hW hB hLW hLB _ r1
  rw [layer0_agree e he W B LW LB hW hB hLW hLB x hx, layer1_agree e he W B LW LB hW hB hLW hLB _ r0,
    layer2_agree e he W B LW LB hW hB hLW hLB _ r1, layer3_agree e he W B LW LB hW hB hLW hLB _ r2]

end Cert.LayersBridge

end
-- ==== Proof.PreDecode.lean ====
/-
  The precondition, decoded: every entry of the five float inputs is a real number, and every entry of the
  edge table is a node number, 0 ≤ e < 100000.

  The precondition is the conjunction of six "for all entries" tests: |v| < +∞ on each float array, and
  0 ≤ e ∧ e < 100000 (signed) on the edge table. A conjunction of one-bit words is 1 exactly when each word is,
  a reduction by "and" that is 1 had a 1 at every entry, and an extended real whose absolute value lies
  strictly below +∞ is neither infinity.
-/
import proofs.«123589_j55817394979590_1_alg».proof.Pre_finite_inputs
import proofs.«123589_j55817394979590_1_alg».proof.Proof.LayerAlgebra
import Idealize.ShloMosaic.Lib.ReduceAll
import Idealize.ShloMosaic.Lib.ValueIdx

noncomputable section

namespace Cert.PreDecode

open Idealize.ShloMosaic Cert.LayerAlgebra Cert.Pre_finite_inputs

/-- the shape with no axes has exactly one index -/
instance : Subsingleton S_.Idx := ⟨fun _ _ => funext fun d => d.elim0⟩

/-- an extended real whose absolute value is strictly below +∞ is a real number -/
theorem isReal_of_abs_lt (x : EReal)
    (h : Ideal.cmp .olt (max x (-x)) (Ideal.ofBits .f32 0x7F800000#32) = 1#1) : IsReal x := by
  rw [ofBits_inf] at h
  induction x using EReal.rec with
  | bot => simp [Ideal.cmp] at h
  | coe r => exact ⟨r, rfl⟩
  | top => simp [Ideal.cmp] at h

variable [hP : Cert.Pre_finite_inputs.Facts]

/-- The precondition gives: the five float arrays hold real numbers only, and every entry of the edge table
    lies in [0, 100000) as a signed integer. -/
theorem pre_decode (x : FVec Ideal S100000x64 .f32) (e : IVec S2x1600000 32) (W : FVec Ideal S4x64x64 .f32)
    (b lw lb : FVec Ideal S4x64 .f32)
    (h : Cert.Pre_finite_inputs.fn (F := Ideal) x e W b lw lb = fun _ => 1#1) :
    AllReal x ∧ AllReal W ∧ AllReal b ∧ AllReal lw ∧ AllReal lb
      ∧ (∀ i, (0 : Int) ≤ (e i).toInt ∧ (e i).toInt < 100000) := by
  have h0 := congrFun h ValueIdx.ix0
  dsimp only [fn, fn_part1] at h0
  simp only [andi, IntOp.andi_eq_one] at h0
  obtain ⟨⟨⟨⟨⟨hx, hW⟩, hb⟩, hlw⟩, hlb⟩, he⟩ := h0
  refine ⟨fun i => ?_, fun i => ?_, fun i => ?_, fun i => ?_, fun i => ?_, fun i => ?_⟩
  · exact isReal_of_abs_lt (x i) (Host.reduce_andi_all _ _ _ _ _ hx i)
  · exact isReal_of_abs_lt (W i) (Host.reduce_andi_all _ _ _ _ _ hW i)
  · exact isReal_of_abs_lt (b i) (Host.reduce_andi_all _ _ _ _ _ hb i)
  · exact isReal_of_abs_lt (lw i) (Host.reduce_andi_all _ _ _ _ _ hlw i)
  · exact isReal_of_abs_lt (lb i) (Host.reduce_andi_all _ _ _ _ _ hlb i)
  · have hi := Host.reduce_andi_all _ _ _ _ _ he i
    simp only [andi, cmpi, broadcastInDim, constantI, IntOp.andi_eq_one, IntOp.cmpi_sge, IntOp.cmpi_slt] at hi
    have e0 : (0#32 : BitVec 32).toInt = 0 := by decide
    have e1 : (100000#32 : BitVec 32).toInt = 100000 := by decide
    rw [e0, e1] at hi
    exact hi

end Cert.PreDecode

end
-- ==== Proof.lean ====
/-
  A four-layer graph network: per layer, the node features are multiplied by the layer's weight matrix, aggregated
  along the edges with the symmetric degree normalisation (a gather, a scaling by the edge's factor, a scatter-add),
  completed with the self loop and the bias, normalised by the mean and the variance of all 6 400 000 entries,
  scaled, shifted and rectified.

  The kernel program does the matrix product, the self loop and bias with the two totals, and the normalisation in
  three blocked regions per layer (twenty blocks of 5000 rows), and takes the variance as the mean of the squares minus
  the square of the mean; the reference does everything on whole arrays and takes the variance as the mean of the
  squared deviations. Over the extended reals the two agree when every entry is a real number, which finite inputs
  guarantee layer after layer: degrees are at least one, the variance is non-negative and ε is positive. The kernel
  scatters at the target index as it is and the reference at the target index wrapped once when negative; these agree
  because the edge list holds node indices, none negative.

  The kernel program's run names its result as the contents of the last segment boundary; the fold through the
  twenty-four boundaries reads that as the four layers composed. The reference's run is its list of host operations
  read back layer by layer. The frames are the generated ones; the reference's frame is its run with the result
  dropped. The idealization rewrote nothing, so there is nothing to preserve.
-/
import proofs.«123589_j55817394979590_1_alg».proof.Defs
import proofs.«123589_j55817394979590_1_alg».proof.Proof.Gen.Kernel
import proofs.«123589_j55817394979590_1_alg».proof.Proof.Gen.Kernel.Frame
import proofs.«123589_j55817394979590_1_alg».proof.Proof.Gen.KernelIdeal
import proofs.«123589_j55817394979590_1_alg».proof.Proof.Gen.KernelIdeal.Frame
import proofs.«123589_j55817394979590_1_alg».proof.Proof.Gen.ReferenceIdeal
import proofs.«123589_j55817394979590_1_alg».proof.Proof.Gen.Pre_finite_inputs
import proofs.«123589_j55817394979590_1_alg».proof.Proof.KernelRun
import proofs.«123589_j55817394979590_1_alg».proof.Proof.FoldLayers
import proofs.«123589_j55817394979590_1_alg».proof.Proof.RefRun
import proofs.«123589_j55817394979590_1_alg».proof.Proof.RefFold
import proofs.«123589_j55817394979590_1_alg».proof.Proof.LayersBridge
import proofs.«123589_j55817394979590_1_alg».proof.Proof.PreDecode
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's run leaves its six argument arrays as launched. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono
    (fun _ h c => ⟨(h c _).trans (Cert.ReferenceIdeal.RFold.arg0_kept m c), (h c _).trans (Cert.ReferenceIdeal.RFold.arg1_kept m c),
      (h c _).trans (Cert.ReferenceIdeal.RFold.arg2_kept m c), (h c _).trans (Cert.ReferenceIdeal.RFold.arg3_kept m c),
      (h c _).trans (Cert.ReferenceIdeal.RFold.arg4_kept m c), (h c _).trans (Cert.ReferenceIdeal.RFold.arg5_kept m c)⟩)
    (Cert.ReferenceIdeal.RunP.run_after (F := Ideal) m ρ)

/-- Both programs end with the four layers composed, applied to the launch contents of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, (θ_run Cert.KernelIdeal.defs _ _).mono (fun _ h c => ⟨(h c).1.trans (Cert.KernelIdeal.Fold.result_eq m ρ c), (h c).2⟩)
      (Cert.KernelIdeal.RunValue.run_named (F := Ideal) m ρ), ?_⟩
  refine (θ_run Cert.ReferenceIdeal.defs _ _).mono (fun _ h c => ⟨?_,
      (h c _).trans (Cert.ReferenceIdeal.RFold.arg0_kept m' c), (h c _).trans (Cert.ReferenceIdeal.RFold.arg1_kept m' c),
      (h c _).trans (Cert.ReferenceIdeal.RFold.arg2_kept m' c), (h c _).trans (Cert.ReferenceIdeal.RFold.arg3_kept m' c),
      (h c _).trans (Cert.ReferenceIdeal.RFold.arg4_kept m' c), (h c _).trans (Cert.ReferenceIdeal.RFold.arg5_kept m' c)⟩)
    (Cert.ReferenceIdeal.RunP.run_after (F := Ideal) m' ρ')
  obtain ⟨hx, hW, hB, hLW, hLB, he⟩ := Cert.PreDecode.pre_decode _ _ _ _ _ _ (hpre c)
  refine (h c _).trans ((Cert.ReferenceIdeal.RFold.ref_result m' c).trans ?_)
  rw [(hagree c).1, (hagree c).2.1, (hagree c).2.2.1, (hagree c).2.2.2.1, (hagree c).2.2.2.2.1, (hagree c).2.2.2.2.2]
  exact Cert.LayersBridge.layers_agree _ _ _ _ _ _ hx hW hB hLW hLB he

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
